-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v107)) (v2 : (c : Dev Cert.KernelIdeal.nD) → Buf (Elt Ideal) ((c.tc : Thread Cert.KernelIdeal.nD Cert.KernelIdeal.τ).loc Cert.KernelIdeal.main_v110)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v107) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1x1024 : Shape := ⟨3, ![2, 1, 1024]⟩
abbrev S2048x2048 : Shape := ⟨2, ![2048, 2048]⟩
abbrev S50257x1024 : Shape := ⟨2, ![50257, 1024]⟩
abbrev S2048 : Shape := ⟨1, ![2048]⟩
abbrev S1024x3072 : Shape := ⟨2, ![1024, 3072]⟩
abbrev S1024 : Shape := ⟨1, ![1024]⟩
abbrev S4096x1024 : Shape := ⟨2, ![4096, 1024]⟩
abbrev S4096 : Shape := ⟨1, ![4096]⟩
abbrev S50257x2048 : Shape := ⟨2, ![50257, 2048]⟩
abbrev S50257 : Shape := ⟨1, ![50257]⟩
abbrev S_ : Shape := ⟨0, ![]⟩

class Facts : Prop where
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S2048 : S_.BroadcastsInDim S2048 (![] : Fin 0 → Fin S2048.rank)
  reducesTo_S2048_S_d0 : S2048.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S50257x2048 : S_.BroadcastsInDim S50257x2048 (![] : Fin 0 → Fin S50257x2048.rank)
  reducesTo_S50257x2048_S_d0_1 : S50257x2048.ReducesTo [0, 1] S_
  bcast_S_S50257 : S_.BroadcastsInDim S50257 (![] : Fin 0 → Fin S50257.rank)
  reducesTo_S50257_S_d0 : S50257.ReducesTo [0] S_

variable [Facts]

def fn_part5 {F : FTy → Type} [FloatOps F] (main_v83 : IVec S_ 1) (main_v84 : FVec F S50257 .f32) (main_cst_32 : FVec F S_ .f32) : IVec S_ 1 :=
  let main_v85 : FVec F S50257 .f32 := broadcastInDim S50257 ![] bcast_S_S50257 main_cst_32
  let main_v86 : IVec S50257 1 := cmpf .olt main_v84 main_v85
  let main_c_33 : IVec S_ 1 := constantI S_ 1 1#1
  let main_v87 : IVec S_ 1 := (fun x v => Host.reduce IntOp.andi x v reducesTo_S50257_S_d0 h_S_) main_v86 main_c_33
  let main_v88 : IVec S_ 1 := andi main_v83 main_v87
  main_v88

def fn_part4 {F : FTy → Type} [FloatOps F] (main_arg15 : FVec F S4096 .f32) (main_arg16 : FVec F S4096 .f32) (main_arg17 : FVec F S50257x2048 .f32) (main_arg18 : FVec F S50257 .f32) (main_v63 : IVec S_ 1) (main_v67 : IVec S_ 1) : IVec S_ 1 :=
  let main_v68 : IVec S_ 1 := andi main_v63 main_v67
  let main_v69 : FVec F S4096 .f32 := Host.absf main_arg15
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096 .f32 := Host.absf main_arg16
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  let main_v79 : FVec F S50257x2048 .f32 := Host.absf main_arg17
  let main_cst_30 : FVec F S_ .f32 := constant S_ .f32 0x7F800000#32
  let main_v80 : FVec F S50257x2048 .f32 := broadcastInDim S50257x2048 ![] bcast_S_S50257x2048 main_cst_30
  let main_v81 : IVec S50257x2048 1 := cmpf .olt main_v79 main_v80
  let main_c_31 : IVec S_ 1 := constantI S_ 1 1#1
  let main_v82 : IVec S_ 1 := (fun x v => Host.reduce IntOp.andi x v reducesTo_S50257x2048_S_d0_1 h_S_) main_v81 main_c_31
  let main_v83 : IVec S_ 1 := andi main_v78 main_v82
  let main_v84 : FVec F S50257 .f32 := Host.absf main_arg18
  let main_cst_32 : FVec F S_ .f32 := constant S_ .f32 0x7F800000#32
  fn_part5 (F := F) main_v83 main_v84 main_cst_32

def fn_part3 {F : FTy → Type} [FloatOps F] (main_arg12 : FVec F S4096 .f32) (main_arg13 : FVec F S4096x1024 .f32) (main_arg14 : FVec F S4096x1024 .f32) (main_arg15 : FVec F S4096 .f32) (main_arg16 : FVec F S4096 .f32) (main_arg17 : FVec F S50257x2048 .f32) (main_arg18 : FVec F S50257 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg12
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096x1024 .f32 := Host.absf main_arg13
  let main_cst_22 : FVec F S_ .f32 := constant S_ .f32 0x7F800000#32
  let main_v60 : FVec F S4096x1024 .f32 := broadcastInDim S4096x1024 ![] bcast_S_S4096x1024 main_cst_22
  let main_v61 : IVec S4096x1024 1 := cmpf .olt main_v59 main_v60
  let main_c_23 : IVec S_ 1 := constantI S_ 1 1#1
  let main_v62 : IVec S_ 1 := (fun x v => Host.reduce IntOp.andi x v reducesTo_S4096x1024_S_d0_1 h_S_) main_v61 main_c_23
  let main_v63 : IVec S_ 1 := andi main_v58 main_v62
  let main_v64 : FVec F S4096x1024 .f32 := Host.absf main_arg14
  let main_cst_24 : FVec F S_ .f32 := constant S_ .f32 0x7F800000#32
  let main_v65 : FVec F S4096x1024 .f32 := broadcastInDim S4096x1024 ![] bcast_S_S4096x1024 main_cst_24
  let main_v66 : IVec S4096x1024 1 := cmpf .olt main_v64 main_v65
  let main_c_25 : IVec S_ 1 := constantI S_ 1 1#1
  let main_v67 : IVec S_ 1 := (fun x v => Host.reduce IntOp.andi x v reducesTo_S4096x1024_S_d0_1 h_S_) main_v66 main_c_25
  fn_part4 (F := F) main_arg15 main_arg16 main_arg17 main_arg18 main_v63 main_v67

def fn_part2 {F : FTy → Type} [FloatOps F] (main_arg8 : FVec F S1024 .f32) (main_arg9 : FVec F S4096x1024 .f32) (main_arg10 : FVec F S4096x1024 .f32) (main_arg11 : FVec F S4096 .f32) (main_arg12 : FVec F S4096 .f32) (main_arg13 : FVec F S4096x1024 .f32) (main_arg14 : FVec F S4096x1024 .f32) (main_arg15 : FVec F S4096 .f32) (main_arg16 : FVec F S4096 .f32) (main_arg17 : FVec F S50257x2048 .f32) (main_arg18 : FVec F S50257 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096x1024 .f32 := Host.absf main_arg10
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096 .f32 := Host.absf main_arg11
  let main_cst_18 : FVec F S_ .f32 := constant S_ .f32 0x7F800000#32
  let main_v50 : FVec F S4096 .f32 := broadcastInDim S4096 ![] bcast_S_S4096 main_cst_18
  fn_part3 (F := F) main_arg12 main_arg13 main_arg14 main_arg15 main_arg16 main_arg17 main_arg18 main_v48 main_v49 main_v50

def fn_part1 {F : FTy → Type} [FloatOps F] (main_arg5 : FVec F S2048x2048 .f32) (main_arg6 : FVec F S2048 .f32) (main_arg7 : FVec F S1024x3072 .f32) (main_arg8 : FVec F S1024 .f32) (main_arg9 : FVec F S4096x1024 .f32) (main_arg10 : FVec F S4096x1024 .f32) (main_arg11 : FVec F S4096 .f32) (main_arg12 : FVec F S4096 .f32) (main_arg13 : FVec F S4096x1024 .f32) (main_arg14 : FVec F S4096x1024 .f32) (main_arg15 : FVec F S4096 .f32) (main_arg16 : FVec F S4096 .f32) (main_arg17 : FVec F S50257x2048 .f32) (main_arg18 : FVec F S50257 .f32) (main_v13 : IVec S_ 1) (main_v16 : IVec S50257x1024 1) : IVec S_ 1 :=
  let main_c_5 : IVec S_ 1 := constantI S_ 1 1#1
  let main_v17 : IVec S_ 1 := (fun x v => Host.reduce IntOp.andi x v reducesTo_S50257x1024_S_d0_1 h_S_) main_v16 main_c_5
  let main_v18 : IVec S_ 1 := andi main_v13 main_v17
  let main_v19 : FVec F S2048x2048 .f32 := Host.absf main_arg5
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x3072 .f32 := Host.absf main_arg7
  let main_cst_10 : FVec F S_ .f32 := constant S_ .f32 0x7F800000#32
  let main_v30 : FVec F S1024x3072 .f32 := broadcastInDim S1024x3072 ![] bcast_S_S1024x3072 main_cst_10
  let main_v31 : IVec S1024x3072 1 := cmpf .olt main_v29 main_v30
  let main_c_11 : IVec S_ 1 := constantI S_ 1 1#1
  let main_v32 : IVec S_ 1 := (fun x v => Host.reduce IntOp.andi x v reducesTo_S1024x3072_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : IVec S1 32) (main_arg1 : FVec F S2x1x1024 .f32) (main_arg2 : FVec F S2x1x1024 .f32) (main_arg3 : FVec F S2048x2048 .f32) (main_arg4 : FVec F S50257x1024 .f32) (main_arg5 : FVec F S2048x2048 .f32) (main_arg6 : FVec F S2048 .f32) (main_arg7 : FVec F S1024x3072 .f32) (main_arg8 : FVec F S1024 .f32) (main_arg9 : FVec F S4096x1024 .f32) (main_arg10 : FVec F S4096x1024 .f32) (main_arg11 : FVec F S4096 .f32) (main_arg12 : FVec F S4096 .f32) (main_arg13 : FVec F S4096x1024 .f32) (main_arg14 : FVec F S4096x1024 .f32) (main_arg15 : FVec F S4096 .f32) (main_arg16 : FVec F S4096 .f32) (main_arg17 : FVec F S50257x2048 .f32) (main_arg18 : FVec F S50257 .f32) : IVec S_ 1 :=
  let main_v0 : FVec F S2x1x1024 .f32 := Host.absf main_arg1
  let main_cst : FVec F S_ .f32 := constant S_ .f32 0x7F800000#32
  let main_v1 : FVec F S2x1x1024 .f32 := broadcastInDim S2x1x1024 ![] bcast_S_S2x1x1024 main_cst
  let main_v2 : IVec S2x1x1024 1 := cmpf .olt main_v0 main_v1
  let main_c : IVec S_ 1 := constantI S_ 1 1#1
  let main_v3 : IVec S_ 1 := (fun x v => Host.reduce IntOp.andi x v reducesTo_S2x1x1024_S_d0_1_2 h_S_) main_v2 main_c
  let main_v4 : FVec F S2x1x1024 .f32 := Host.absf main_arg2
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S50257x1024 .f32 := Host.absf main_arg4
  let main_cst_4 : FVec F S_ .f32 := constant S_ .f32 0x7F800000#32
  let main_v15 : FVec F S50257x1024 .f32 := broadcastInDim S50257x1024 ![] bcast_S_S50257x1024 main_cst_4
  let main_v16 : IVec S50257x1024 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S1 : Shape := ⟨1, ![1]⟩
abbrev S2x1x1024 : Shape := ⟨3, ![2, 1, 1024]⟩
abbrev S2048x2048 : Shape := ⟨2, ![2048, 2048]⟩
abbrev S50257x1024 : Shape := ⟨2, ![50257, 1024]⟩
abbrev S2048 : Shape := ⟨1, ![2048]⟩
abbrev S1024x3072 : Shape := ⟨2, ![1024, 3072]⟩
abbrev S1024 : Shape := ⟨1, ![1024]⟩
abbrev S4096x1024 : Shape := ⟨2, ![4096, 1024]⟩
abbrev S4096 : Shape := ⟨1, ![4096]⟩
abbrev S50257x2048 : Shape := ⟨2, ![50257, 2048]⟩
abbrev S50257 : Shape := ⟨1, ![50257]⟩
abbrev S_ : Shape := ⟨0, ![]⟩
abbrev S1x1024 : Shape := ⟨2, ![1, 1024]⟩
abbrev S1x1x1024 : Shape := ⟨3, ![1, 1, 1024]⟩
abbrev S1x2048 : Shape := ⟨2, ![1, 2048]⟩
abbrev S1024x2048 : Shape := ⟨2, ![1024, 2048]⟩
abbrev S2048x1024 : Shape := ⟨2, ![2048, 1024]⟩
abbrev S1x1 : Shape := ⟨2, ![1, 1]⟩
abbrev S1x3072 : Shape := ⟨2, ![1, 3072]⟩
abbrev S3072x1024 : Shape := ⟨2, ![3072, 1024]⟩
abbrev S1x4096 : Shape := ⟨2, ![1, 4096]⟩
abbrev S1024x1024 : Shape := ⟨2, ![1024, 1024]⟩
abbrev S50176x2048 : Shape := ⟨2, ![50176, 2048]⟩
abbrev S81x2048 : Shape := ⟨2, ![81, 2048]⟩
abbrev S50176 : Shape := ⟨1, ![50176]⟩
abbrev S81 : Shape := ⟨1, ![81]⟩
abbrev S1x50176 : Shape := ⟨2, ![1, 50176]⟩
abbrev S1x81 : Shape := ⟨2, ![1, 81]⟩
abbrev S2048x81 : Shape := ⟨2, ![2048, 81]⟩
abbrev S1x50257 : Shape := ⟨2, ![1, 50257]⟩

abbrev nBuf : Space → Nat
  | .hbm => 164
  | .vmem => 47
  | .smem => 0
  | _ => 0

abbrev hbmTy0_0 (i : Nat) : BufTy := match i % 128 with
  | 0 => ⟨S1, .i32⟩
  | 1 => ⟨S2x1x1024, .f32⟩
  | 2 => ⟨S2x1x1024, .f32⟩
  | 3 => ⟨S2048x2048, .f32⟩
  | 4 => ⟨S50257x1024, .f32⟩
  | 5 => ⟨S2048x2048, .f32⟩
  | 6 => ⟨S2048, .f32⟩
  | 7 => ⟨S1024x3072, .f32⟩
  | 8 => ⟨S1024, .f32⟩
  | 9 => ⟨S4096x1024, .f32⟩
  | 10 => ⟨S4096x1024, .f32⟩
  | 11 => ⟨S4096, .f32⟩
  | 12 => ⟨S4096, .f32⟩
  | 13 => ⟨S4096x1024, .f32⟩
  | 14 => ⟨S4096x1024, .f32⟩
  | 15 => ⟨S4096, .f32⟩
  | 16 => ⟨S4096, .f32⟩
  | 17 => ⟨S50257x2048, .f32⟩
  | 18 => ⟨S50257, .f32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S1x1024, .f32⟩
  | 27 => ⟨S1x1x1024, .f32⟩
  | 28 => ⟨S1x1024, .f32⟩
  | 29 => ⟨S1x1x1024, .f32⟩
  | 30 => ⟨S1x1024, .f32⟩
  | 31 => ⟨S1x1x1024, .f32⟩
  | 32 => ⟨S1x1024, .f32⟩
  | 33 => ⟨S1x1x1024, .f32⟩
  | 34 => ⟨S1x1024, .f32⟩
  | 35 => ⟨S1x2048, .f32⟩
  | 36 => ⟨S1x2048, .f32⟩
  | 37 => ⟨S1x2048, .f32⟩
  | 38 => ⟨S_, .f32⟩
  | 39 => ⟨S1, .f32⟩
  | 40 => ⟨S_, .f32⟩
  | 41 => ⟨S1, .f32⟩
  | 42 => ⟨S1, .f32⟩
  | 43 => ⟨S1x1, .f32⟩
  | 44 => ⟨S1x2048, .f32⟩
  | 45 => ⟨S1x2048, .f32⟩
  | 46 => ⟨S1x2048, .f32⟩
  | 47 => ⟨S_, .f32⟩
  | 48 => ⟨S1, .f32⟩
  | 49 => ⟨S1x1, .f32⟩
  | 50 => ⟨S1x2048, .f32⟩
  | 51 => ⟨S1x2048, .f32⟩
  | 52 => ⟨S1x2048, .f32⟩
  | 53 => ⟨S1x3072, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S4096, .f32⟩
  | 60 => ⟨S4096, .f32⟩
  | 61 => ⟨S1x4096, .f32⟩
  | 62 => ⟨S1x4096, .f32⟩
  | 63 => ⟨S1x4096, .f32⟩
  | 64 => ⟨S1x4096, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1, .i32⟩

abbrev hbmTy0_1 (i : Nat) : BufTy := match i % 128 with
  | 0 => ⟨S_, .f32⟩
  | 1 => ⟨S1x1024, .f32⟩
  | 2 => ⟨S1x1024, .f32⟩
  | 3 => ⟨S1x1024, .f32⟩
  | 4 => ⟨S1x1024, .f32⟩
  | 5 => ⟨S1x2048, .f32⟩
  | 6 => ⟨S50176x2048, .f32⟩
  | 7 => ⟨S81x2048, .f32⟩
  | 8 => ⟨S50176, .f32⟩
  | 9 => ⟨S81, .f32⟩
  | 10 => ⟨S1x50176, .f32⟩
  | 11 => ⟨S1x50176, .f32⟩
  | 12 => ⟨S1x81, .f32⟩
  | 13 => ⟨S1x81, .f32⟩
  | 14 => ⟨S1x50257, .f32⟩
  | 15 => ⟨S_, .f32⟩
  | 16 => ⟨S1, .f32⟩
  | 17 => ⟨S_, .f32⟩
  | 18 => ⟨S1, .f32⟩
  | 19 => ⟨S1, .f32⟩
  | 20 => ⟨S1x1, .f32⟩
  | 21 => ⟨S1x50257, .f32⟩
  | 22 => ⟨S1x50257, .f32⟩
  | 23 => ⟨S1x50257, .f32⟩
  | 24 => ⟨S_, .f32⟩
  | 25 => ⟨S1, .f32⟩
  | 26 => ⟨S1x1, .f32⟩
  | 27 => ⟨S1x1, .f32⟩
  | 28 => ⟨S1x50257, .f32⟩
  | 29 => ⟨S1x50257, .f32⟩
  | 30 => ⟨S1x1x1024, .f32⟩
  | 31 => ⟨S1x1x1024, .f32⟩
  | 32 => ⟨S2x1x1024, .f32⟩
  | 33 => ⟨S1x1x1024, .f32⟩
  | 34 => ⟨S1x1x1024, .f32⟩
  | 35 => ⟨S2x1x1024, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | .local _ .vmem, ⟨0, _⟩ => ⟨S1x2048, .f32⟩
  | .local _ .vmem, ⟨1, _⟩ => ⟨S1024x2048, .f32⟩
  | .local _ .vmem, ⟨2, _⟩ => ⟨S1024x2048, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x2048, .f32⟩
  | .local _ .vmem, ⟨8, _⟩ => ⟨S2048x1024, .f32⟩
  | .local _ .vmem, ⟨9, _⟩ => ⟨S2048x1024, .f32⟩
  | .local _ .vmem, ⟨10, _⟩ => ⟨S1x1024, .f32⟩
  | .local _ .vmem, ⟨11, _⟩ => ⟨S1x1024, .f32⟩
  | .local _ .vmem, ⟨12, _⟩ => ⟨S1x3072, .f32⟩
  | .local _ .vmem, ⟨13, _⟩ => ⟨S1024x3072, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x2048, .f32⟩
  | .local _ .vmem, ⟨37, _⟩ => ⟨S1024x2048, .f32⟩
  | .local _ .vmem, ⟨38, _⟩ => ⟨S1024x2048, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x2048, .f32⟩
  | .local _ .vmem, ⟨44, _⟩ => ⟨S81x2048, .f32⟩
  | .local _ .vmem, ⟨45, _⟩ => ⟨S1x81, .f32⟩
  | .local _ .vmem, ⟨46, _⟩ => ⟨S1x81, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call0_cst : Ref sig .tc := ⟨.hbm, 56, rfl⟩
abbrev main_call0_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_8 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_12 : Ref sig .tc := ⟨.hbm, 114, rfl⟩
abbrev main_v79 : Ref sig .tc := ⟨.hbm, 115, rfl⟩
abbrev main_v80 : Ref sig .tc := ⟨.hbm, 116, rfl⟩
abbrev main_cst_13 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_14 : Ref sig .tc := ⟨.hbm, 125, rfl⟩
abbrev main_v88 : Ref sig .tc := ⟨.hbm, 126, rfl⟩
abbrev main_v89 : Ref sig .tc := ⟨.hbm, 127, rfl⟩
abbrev main_cst_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call1_cst : Ref sig .tc := ⟨.hbm, 143, rfl⟩
abbrev main_call1_v0 : Ref sig .tc := ⟨.hbm, 144, rfl⟩
abbrev main_call1_cst_0 : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_v5 : Ref sig .tc := ⟨.hbm, 150, rfl⟩
abbrev main_call1_v6 : Ref sig .tc := ⟨.hbm, 151, rfl⟩
abbrev main_call1_cst_1 : Ref sig .tc := ⟨.hbm, 152, rfl⟩
abbrev main_call1_v7 : Ref sig .tc := ⟨.hbm, 153, rfl⟩
abbrev main_call1_v8 : Ref sig .tc := ⟨.hbm, 154, rfl⟩
abbrev main_call1_v9 : Ref sig .tc := ⟨.hbm, 155, rfl⟩
abbrev main_call1_v10 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25
abbrev cc4_sem0_0 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem3_1 : DmaSem sig := 42
abbrev cc6_sem0_0 : DmaSem sig := 43
abbrev cc6_sem1_0 : DmaSem sig := 44
abbrev cc6_sem2_0 : DmaSem sig := 45
abbrev cc6_sem3_0 : DmaSem sig := 46

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x3072 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x3072 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![49], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1x2048 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S1024x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1x2048 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S81x2048 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x81 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x81 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  shapeCasts_S1_S_ : S1.ShapeCasts S_
  sliceFits_S50257x1024_S1x1024 : S50257x1024.Slices (fun _ => 0) S1x1024
  h_S_ : 0 < S_.numel
  slices_S2x1x1024_S1x1x1024_0_0_0 : S2x1x1024.Slices ![0, 0, 0] S1x1x1024
  shapeCasts_S1x1x1024_S1x1024 : S1x1x1024.ShapeCasts S1x1024
  slices_S2x1x1024_S1x1x1024_1_0_0 : S2x1x1024.Slices ![1, 0, 0] S1x1x1024
  concatenates_S1x1024_S1x1024_S1x2048_d1 : Shape.Concatenates [S1x1024, S1x1024] S1x2048 1
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reducesTo_S1x2048_S1_d1 : S1x2048.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2048_0_1 : S1x1.BroadcastsInDim S1x2048 (![0, 1] : Fin 2 → Fin S1x2048.rank)
  inb_S2048x1024_S2048x1024_0_0 : ∀ a, (![0, 0] : Fin 2 → Nat) a + S2048x1024.size a ≤ S2048x1024.size a
  h_S2048x1024 : 0 < S2048x1024.numel
  concatenates_S1x1024_S1x2048_S1x3072_d1 : Shape.Concatenates [S1x1024, S1x2048] S1x3072 1
  shapeCasts_S1024_S1x1024 : S1024.ShapeCasts S1x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S1024x3072_S1024x3072_0_0 : ∀ a, (![0, 0] : Fin 2 → Nat) a + S1024x3072.size a ≤ S1024x3072.size a
  h_S1024x3072 : 0 < S1024x3072.numel
  transposes_S1024x3072_p1_0_S3072x1024 : S1024x3072.Transposes [1, 0] S3072x1024
  bcast_S_S1x1024 : S_.BroadcastsInDim S1x1024 (![] : Fin 0 → Fin S1x1024.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  slices_S50257x2048_S50176x2048_0_0 : S50257x2048.Slices ![0, 0] S50176x2048
  slices_S50257x2048_S81x2048_50176_0 : S50257x2048.Slices ![50176, 0] S81x2048
  slices_S50257_S50176_0 : S50257.Slices ![0] S50176
  slices_S50257_S81_50176 : S50257.Slices ![50176] S81
  shapeCasts_S50176_S1x50176 : S50176.ShapeCasts S1x50176
  shapeCasts_S1024x2048_S1024x2048 : S1024x2048.ShapeCasts S1024x2048
  shapeCasts_S81_S1x81 : S81.ShapeCasts S1x81
  inb_S81x2048_S81x2048_0_0 : ∀ a, (![0, 0] : Fin 2 → Nat) a + S81x2048.size a ≤ S81x2048.size a
  h_S81x2048 : 0 < S81x2048.numel
  shapeCasts_S81x2048_S81x2048 : S81x2048.ShapeCasts S81x2048
  transposes_S81x2048_p1_0_S2048x81 : S81x2048.Transposes [1, 0] S2048x81
  inb_S1x81_S1x81_0_0 : ∀ a, (![0, 0] : Fin 2 → Nat) a + S1x81.size a ≤ S1x81.size a
  h_S1x81 : 0 < S1x81.numel
  shapeCasts_S1x81_S1x81 : S1x81.ShapeCasts S1x81
  concatenates_S1x50176_S1x81_S1x50257_d1 : Shape.Concatenates [S1x50176, S1x81] S1x50257 1
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  concatenates_S1x1x1024_S1x1x1024_S2x1x1024_d0 : Shape.Concatenates [S1x1x1024, S1x1x1024] S2x1x1024 0
  dot_S1x2048_S2048x1024_S1x1024_1_0_0_1_n_n_wf : DotDims.WF S1x2048 S2048x1024 S1x1024 [1] [0] [0] [1] [] []
  dot_S1x3072_S3072x1024_S1x1024_1_0_0_1_n_n_wf : DotDims.WF S1x3072 S3072x1024 S1x1024 [1] [0] [0] [1] [] []
  dot_S1x1024_S1024x1024_S1x1024_1_0_0_1_n_n_wf : DotDims.WF S1x1024 S1024x1024 S1x1024 [1] [0] [0] [1] [] []
  dot_S1x2048_S2048x81_S1x81_1_0_0_1_n_n_wf : DotDims.WF S1x2048 S2048x81 S1x81 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x2048.size a
  hwx0_1 : ∀ i : grid0.Coords, EltTy.bits .f32 = 32 ∨ (Rect.block (s := S2048x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x2048.size a
  hwx1_1 : ∀ i : grid1.Coords, EltTy.bits .f32 = 32 ∨ (Rect.block (s := S2048x2048) S2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x3072.size a ≤ S1x3072.size a
  hwx2_0 : ∀ i : grid2.Coords, EltTy.bits .f32 = 32 ∨ (Rect.block (s := S1x3072) S1x3072.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x3072.size a ≤ S1024x3072.size a
  hwx2_1 : ∀ i : grid2.Coords, EltTy.bits .f32 = 32 ∨ (Rect.block (s := S1024x3072) S1024x3072.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x1024.size a
  hwx3_0 : ∀ i : grid3.Coords, EltTy.bits .f32 = 32 ∨ (Rect.block (s := S1x1024) S1x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x1024.size a
  hwx3_2 : ∀ i : grid3.Coords, EltTy.bits .f32 = 32 ∨ (Rect.block (s := S4096x1024) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x1024.size a
  hwx3_3 : ∀ i : grid3.Coords, EltTy.bits .f32 = 32 ∨ (Rect.block (s := S4096x1024) S1024x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x4096.size a
  hwx3_4 : ∀ i : grid3.Coords, EltTy.bits .f32 = 32 ∨ (Rect.block (s := S1x4096) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x4096.size a
  hwx3_5 : ∀ i : grid3.Coords, EltTy.bits .f32 = 32 ∨ (Rect.block (s := S1x4096) S1x1024.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x1024.size a ≤ S1x1024.size a
  hwx4_0 : ∀ i : grid4.Coords, EltTy.bits .f32 = 32 ∨ (Rect.block (s := S1x1024) S1x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1024.size a ≤ S1x1024.size a
  hwx4_1 : ∀ i : grid4.Coords, EltTy.bits .f32 = 32 ∨ (Rect.block (s := S1x1024) S1x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x1024.size a
  hwx4_2 : ∀ i : grid4.Coords, EltTy.bits .f32 = 32 ∨ (Rect.block (s := S4096x1024) S1024x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x1024.size a
  hwx4_3 : ∀ i : grid4.Coords, EltTy.bits .f32 = 32 ∨ (Rect.block (s := S4096x1024) S1024x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x4096.size a
  hwx4_4 : ∀ i : grid4.Coords, EltTy.bits .f32 = 32 ∨ (Rect.block (s := S1x4096) S1x1024.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x4096.size a
  hwx4_5 : ∀ i : grid4.Coords, EltTy.bits .f32 = 32 ∨ (Rect.block (s := S1x4096) S1x1024.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x2048.size a ≤ S1x2048.size a
  hwx5_0 : ∀ i : grid5.Coords, EltTy.bits .f32 = 32 ∨ (Rect.block (s := S1x2048) S1x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x2048.size a ≤ S50176x2048.size a
  hwx5_1 : ∀ i : grid5.Coords, EltTy.bits .f32 = 32 ∨ (Rect.block (s := S50176x2048) S1024x2048.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x50176.size a
  hwx5_2 : ∀ i : grid5.Coords, EltTy.bits .f32 = 32 ∨ (Rect.block (s := S1x50176) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1024.size a ≤ S1x50176.size a
  hwx5_3 : ∀ i : grid5.Coords, EltTy.bits .f32 = 32 ∨ (Rect.block (s := S1x50176) S1x1024.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1x2048.size a ≤ S1x2048.size a
  hwx6_0 : ∀ i : grid6.Coords, EltTy.bits .f32 = 32 ∨ (Rect.block (s := S1x2048) S1x2048.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S81x2048.size a ≤ S81x2048.size a
  hwx6_1 : ∀ i : grid6.Coords, EltTy.bits .f32 = 32 ∨ (Rect.block (s := S81x2048) S81x2048.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x81.size a ≤ S1x81.size a
  hwx6_2 : ∀ i : grid6.Coords, EltTy.bits .f32 = 32 ∨ (Rect.block (s := S1x81) S1x81.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x81.size a ≤ S1x81.size a
  hwx6_3 : ∀ i : grid6.Coords, EltTy.bits .f32 = 32 ∨ (Rect.block (s := S1x81) S1x81.size (cc6_transform_3 i) (hinb6_3 i)).WholeWords (EltTy.packing .f32)

variable [Facts₀]

def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x3072_S3072x1024_S1x1024_1_0_0_1_n_n : DotDims S1x3072 S3072x1024 S1x1024 where
  lhsContracting := [1]
  rhsContracting := [0]
  lhsNonContracting := [0]
  rhsNonContracting := [1]
  lhsBatch := []
  rhsBatch := []
  wf := dot_S1x3072_S3072x1024_S1x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x2048_S2048x81_S1x81_1_0_0_1_n_n : DotDims S1x2048 S2048x81 S1x81 where
  lhsContracting := [1]
  rhsContracting := [0]
  lhsNonContracting := [0]
  rhsNonContracting := [1]
  lhsBatch := []
  rhsBatch := []
  wf := dot_S1x2048_S2048x81_S1x81_1_0_0_1_n_n_wf

abbrev win0_0 : Pipeline.Window sig grid0 :=
  Pipeline.Window.ofSpec (Memref.whole main_v13) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v28) S1x3072.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x3072.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x1024.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v31) S1x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S1024x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v35) S1x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v31) S1x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S1024x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S1024x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v36) S1x1024.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v37) S1x1024.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v94) S1x2048.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v95) S1024x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S1x2048.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v96) S81x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S1x81.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S1x81.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S1 : Shape := ⟨1, ![1]⟩
abbrev S2x1x1024 : Shape := ⟨3, ![2, 1, 1024]⟩
abbrev S2048x2048 : Shape := ⟨2, ![2048, 2048]⟩
abbrev S50257x1024 : Shape := ⟨2, ![50257, 1024]⟩
abbrev S2048 : Shape := ⟨1, ![2048]⟩
abbrev S1024x3072 : Shape := ⟨2, ![1024, 3072]⟩
abbrev S1024 : Shape := ⟨1, ![1024]⟩
abbrev S4096x1024 : Shape := ⟨2, ![4096, 1024]⟩
abbrev S4096 : Shape := ⟨1, ![4096]⟩
abbrev S50257x2048 : Shape := ⟨2, ![50257, 2048]⟩
abbrev S50257 : Shape := ⟨1, ![50257]⟩
abbrev S_ : Shape := ⟨0, ![]⟩
abbrev S1x1024 : Shape := ⟨2, ![1, 1024]⟩
abbrev S1x1x1024 : Shape := ⟨3, ![1, 1, 1024]⟩
abbrev S1x2048 : Shape := ⟨2, ![1, 2048]⟩
abbrev S1x1 : Shape := ⟨2, ![1, 1]⟩
abbrev S1x3072 : Shape := ⟨2, ![1, 3072]⟩
abbrev S3072x1024 : Shape := ⟨2, ![3072, 1024]⟩
abbrev S1024x4096 : Shape := ⟨2, ![1024, 4096]⟩
abbrev S1x4096 : Shape := ⟨2, ![1, 4096]⟩
abbrev S2048x50257 : Shape := ⟨2, ![2048, 50257]⟩
abbrev S1x50257 : Shape := ⟨2, ![1, 50257]⟩

abbrev nBuf : Space → Nat
  | .hbm => 186
  | .vmem => 0
  | .smem => 0
  | _ => 0

abbrev hbmTy0_0 (i : Nat) : BufTy := match i % 128 with
  | 0 => ⟨S1, .i32⟩
  | 1 => ⟨S2x1x1024, .f32⟩
  | 2 => ⟨S2x1x1024, .f32⟩
  | 3 => ⟨S2048x2048, .f32⟩
  | 4 => ⟨S50257x1024, .f32⟩
  | 5 => ⟨S2048x2048, .f32⟩
  | 6 => ⟨S2048, .f32⟩
  | 7 => ⟨S1024x3072, .f32⟩
  | 8 => ⟨S1024, .f32⟩
  | 9 => ⟨S4096x1024, .f32⟩
  | 10 => ⟨S4096x1024, .f32⟩
  | 11 => ⟨S4096, .f32⟩
  | 12 => ⟨S4096, .f32⟩
  | 13 => ⟨S4096x1024, .f32⟩
  | 14 => ⟨S4096x1024, .f32⟩
  | 15 => ⟨S4096, .f32⟩
  | 16 => ⟨S4096, .f32⟩
  | 17 => ⟨S50257x2048, .f32⟩
  | 18 => ⟨S50257, .f32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S1x1024, .f32⟩
  | 34 => ⟨S1024, .f32⟩
  | 35 => ⟨S1x1024, .f32⟩
  | 36 => ⟨S1x1x1024, .f32⟩
  | 37 => ⟨S1x1024, .f32⟩
  | 38 => ⟨S1x2048, .f32⟩
  | 39 => ⟨S2048x2048, .f32⟩
  | 40 => ⟨S1x2048, .f32⟩
  | 41 => ⟨S1x2048, .f32⟩
  | 42 => ⟨S1x2048, .f32⟩
  | 43 => ⟨S_, .f32⟩
  | 44 => ⟨S1, .f32⟩
  | 45 => ⟨S_, .f32⟩
  | 46 => ⟨S1, .f32⟩
  | 47 => ⟨S1, .f32⟩
  | 48 => ⟨S1x1, .f32⟩
  | 49 => ⟨S1x2048, .f32⟩
  | 50 => ⟨S1x2048, .f32⟩
  | 51 => ⟨S1x2048, .f32⟩
  | 52 => ⟨S_, .f32⟩
  | 53 => ⟨S1, .f32⟩
  | 54 => ⟨S1x1, .f32⟩
  | 55 => ⟨S1x2048, .f32⟩
  | 56 => ⟨S1x2048, .f32⟩
  | 57 => ⟨S1x2048, .f32⟩
  | 58 => ⟨S1x3072, .f32⟩
  | 59 => ⟨S3072x1024, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1x1024, .f32⟩
  | 67 => ⟨S1x1024, .f32⟩
  | 68 => ⟨S1x1x1024, .f32⟩
  | 69 => ⟨S1x1024, .f32⟩
  | 70 => ⟨S1024x4096, .f32⟩
  | 71 => ⟨S1x4096, .f32⟩
  | 72 => ⟨S1x4096, .f32⟩
  | 73 => ⟨S1x4096, .f32⟩
  | 74 => ⟨S1024x4096, .f32⟩
  | 75 => ⟨S1x4096, .f32⟩
  | 76 => ⟨S1x4096, .f32⟩
  | 77 => ⟨S1x4096, .f32⟩
  | 78 => ⟨S1x4096, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S1x1024, .f32⟩
  | 113 => ⟨S1x1x1024, .f32⟩
  | 114 => ⟨S1x1024, .f32⟩
  | 115 => ⟨S1x1x1024, .f32⟩
  | 116 => ⟨S1x1024, .f32⟩
  | 117 => ⟨S1024x4096, .f32⟩
  | 118 => ⟨S1x4096, .f32⟩
  | 119 => ⟨S1x4096, .f32⟩
  | 120 => ⟨S1x4096, .f32⟩
  | 121 => ⟨S1024x4096, .f32⟩
  | 122 => ⟨S1x4096, .f32⟩
  | 123 => ⟨S1x4096, .f32⟩
  | 124 => ⟨S1x4096, .f32⟩
  | 125 => ⟨S1x4096, .f32⟩
  | 126 => ⟨S1x1024, .f32⟩
  | 127 => ⟨S1x1024, .f32⟩
  | _ => ⟨S1, .i32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S1x1024, .f32⟩
  | 32 => ⟨S1x2048, .f32⟩
  | 33 => ⟨S2048x50257, .f32⟩
  | 34 => ⟨S1x50257, .f32⟩
  | 35 => ⟨S1x50257, .f32⟩
  | 36 => ⟨S1x50257, .f32⟩
  | 37 => ⟨S_, .f32⟩
  | 38 => ⟨S1, .f32⟩
  | 39 => ⟨S_, .f32⟩
  | 40 => ⟨S1, .f32⟩
  | 41 => ⟨S1, .f32⟩
  | 42 => ⟨S1x1, .f32⟩
  | 43 => ⟨S1x50257, .f32⟩
  | 44 => ⟨S1x50257, .f32⟩
  | 45 => ⟨S1x50257, .f32⟩
  | 46 => ⟨S_, .f32⟩
  | 47 => ⟨S1, .f32⟩
  | 48 => ⟨S1x1, .f32⟩
  | 49 => ⟨S1x1, .f32⟩
  | 50 => ⟨S1x50257, .f32⟩
  | 51 => ⟨S1x50257, .f32⟩
  | 52 => ⟨S1x1x1024, .f32⟩
  | 53 => ⟨S1x1x1024, .f32⟩
  | 54 => ⟨S2x1x1024, .f32⟩
  | 55 => ⟨S1x1x1024, .f32⟩
  | 56 => ⟨S1x1x1024, .f32⟩
  | 57 => ⟨S2x1x1024, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_c_1 : Ref sig .tc := ⟨.hbm, 25, rfl⟩
abbrev main_c_2 : Ref sig .tc := ⟨.hbm, 26, rfl⟩
abbrev main_v4 : Ref sig .tc := ⟨.hbm, 27, rfl⟩
abbrev main_c_3 : Ref sig .tc := ⟨.hbm, 28, rfl⟩
abbrev main_c_4 : Ref sig .tc := ⟨.hbm, 29, rfl⟩
abbrev main_v5 : Ref sig .tc := ⟨.hbm, 30, rfl⟩
abbrev main_c_5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_cst_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call0_cst : Ref sig .tc := ⟨.hbm, 63, rfl⟩
abbrev main_call0_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_14 : Ref sig .tc := ⟨.hbm, 132, rfl⟩
abbrev main_v95 : Ref sig .tc := ⟨.hbm, 133, rfl⟩
abbrev main_v96 : Ref sig .tc := ⟨.hbm, 134, rfl⟩
abbrev main_cst_15 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_16 : Ref sig .tc := ⟨.hbm, 141, rfl⟩
abbrev main_v102 : Ref sig .tc := ⟨.hbm, 142, rfl⟩
abbrev main_v103 : Ref sig .tc := ⟨.hbm, 143, rfl⟩
abbrev main_cst_17 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_18 : Ref sig .tc := ⟨.hbm, 152, rfl⟩
abbrev main_v111 : Ref sig .tc := ⟨.hbm, 153, rfl⟩
abbrev main_v112 : Ref sig .tc := ⟨.hbm, 154, rfl⟩
abbrev main_cst_19 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_call1_cst : Ref sig .tc := ⟨.hbm, 165, rfl⟩
abbrev main_call1_v0 : Ref sig .tc := ⟨.hbm, 166, rfl⟩
abbrev main_call1_cst_0 : Ref sig .tc := ⟨.hbm, 167, rfl⟩
abbrev main_call1_v1 : Ref sig .tc := ⟨.hbm, 168, rfl⟩
abbrev main_call1_v2 : Ref sig .tc := ⟨.hbm, 169, rfl⟩
abbrev main_call1_v3 : Ref sig .tc := ⟨.hbm, 170, rfl⟩
abbrev main_call1_v4 : Ref sig .tc := ⟨.hbm, 171, rfl⟩
abbrev main_call1_v5 : Ref sig .tc := ⟨.hbm, 172, rfl⟩
abbrev main_call1_v6 : Ref sig .tc := ⟨.hbm, 173, rfl⟩
abbrev main_call1_cst_1 : Ref sig .tc := ⟨.hbm, 174, rfl⟩
abbrev main_call1_v7 : Ref sig .tc := ⟨.hbm, 175, rfl⟩
abbrev main_call1_v8 : Ref sig .tc := ⟨.hbm, 176, rfl⟩
abbrev main_call1_v9 : Ref sig .tc := ⟨.hbm, 177, rfl⟩
abbrev main_call1_v10 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩

abbrev nD : Nat := 1
abbrev τ : Topo := Topo.v7x

variable {F : FTy → Type} [FloatOps F]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  shapeCasts_S1024_S1x1024 : S1024.ShapeCasts S1x1024
  slices_S2x1x1024_S1x1x1024_0_0_0 : S2x1x1024.Slices ![0, 0, 0] S1x1x1024
  shapeCasts_S1x1x1024_S1x1024 : S1x1x1024.ShapeCasts S1x1024
  concatenates_S1x1024_S1x1024_S1x2048_d1 : Shape.Concatenates [S1x1024, S1x1024] S1x2048 1
  transposes_S2048x2048_S2048x2048_1_0 : S2048x2048.Transposes [1, 0] S2048x2048
  bcast_S2048_S1x2048_1 : S2048.BroadcastsInDim S1x2048 (![1] : Fin 1 → Fin S1x2048.rank)
  reducesTo_S1x2048_S1_d1 : S1x2048.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2048_0_1 : S1x1.BroadcastsInDim S1x2048 (![0, 1] : Fin 2 → Fin S1x2048.rank)
  concatenates_S1x1024_S1x2048_S1x3072_d1 : Shape.Concatenates [S1x1024, S1x2048] S1x3072 1
  transposes_S1024x3072_S3072x1024_1_0 : S1024x3072.Transposes [1, 0] S3072x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S4096x1024_S1024x4096_1_0 : S4096x1024.Transposes [1, 0] S1024x4096
  bcast_S4096_S1x4096_1 : S4096.BroadcastsInDim S1x4096 (![1] : Fin 1 → Fin S1x4096.rank)
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  slices_S2x1x1024_S1x1x1024_1_0_0 : S2x1x1024.Slices ![1, 0, 0] S1x1x1024
  transposes_S50257x2048_S2048x50257_1_0 : S50257x2048.Transposes [1, 0] S2048x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  concatenates_S1x1x1024_S1x1x1024_S2x1x1024_d0 : Shape.Concatenates [S1x1x1024, S1x1x1024] S2x1x1024 0
  dot_S1x2048_S2048x2048_S1x2048_1_0_0_1_n_n_wf : DotDims.WF S1x2048 S2048x2048 S1x2048 [1] [0] [0] [1] [] []
  dot_S1x3072_S3072x1024_S1x1024_1_0_0_1_n_n_wf : DotDims.WF S1x3072 S3072x1024 S1x1024 [1] [0] [0] [1] [] []
  dot_S1x1024_S1024x4096_S1x4096_1_0_0_1_n_n_wf : DotDims.WF S1x1024 S1024x4096 S1x4096 [1] [0] [0] [1] [] []
  dot_S1x2048_S2048x50257_S1x50257_1_0_0_1_n_n_wf : DotDims.WF S1x2048 S2048x50257 S1x50257 [1] [0] [0] [1] [] []

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S1x3072_S3072x1024_S1x1024_1_0_0_1_n_n : DotDims S1x3072 S3072x1024 S1x1024 where
  lhsContracting := [1]
  rhsContracting := [0]
  lhsNonContracting := [0]
  rhsNonContracting := [1]
  lhsBatch := []
  rhsBatch := []
  wf := dot_S1x3072_S3072x1024_S1x1024_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.Spec.lean ====
import Idealize.ShloMosaic.PureOps.Ideal
import Idealize.ShloMosaic.Lib.ValueIdx

/-! # What each kernel region computes, at the exact instance

Every region of the kernel is a product of a row vector with a matrix, read one output column at a time: the
sum over the contracted coordinate of the row's entry times the matrix's entry, plus (where there is one) the bias
row's entry. The extended reals' addition is commutative and associative, so neither the order of the sum nor the
tiling of the columns into blocks is seen here. -/

noncomputable section

open scoped BigOperators

namespace Cert.Spec

open Idealize.ShloMosaic Idealize.ShloMosaic.ValueIdx

/-- `x · wᵀ + b`: column `n` is `Σ_k x[0,k] · w[n,k] + b[0,n]`. -/
def linT (K N : Nat) (x : (⟨2, ![1, K]⟩ : Shape).Idx → EReal) (w : (⟨2, ![N, K]⟩ : Shape).Idx → EReal)
    (b : (⟨2, ![1, N]⟩ : Shape).Idx → EReal) : (⟨2, ![1, N]⟩ : Shape).Idx → EReal :=
  fun i => (∑ k : Fin K, x (ix2 0 k) * w (ix2 (i 1) k)) + b (ix2 0 (i 1))

/-- `x · w`: column `n` is `Σ_k x[0,k] · w[k,n]`. -/
def lin (K N : Nat) (x : (⟨2, ![1, K]⟩ : Shape).Idx → EReal) (w : (⟨2, ![K, N]⟩ : Shape).Idx → EReal) :
    (⟨2, ![1, N]⟩ : Shape).Idx → EReal :=
  fun i => ∑ k : Fin K, x (ix2 0 k) * w (ix2 k (i 1))

/-- `x · wihᵀ + h · whhᵀ + b`: column `n` is `(Σ_k x[0,k] · wih[n,k] + Σ_k h[0,k] · whh[n,k]) + b[0,n]`. -/
def gate (K N : Nat) (x h : (⟨2, ![1, K]⟩ : Shape).Idx → EReal) (wih whh : (⟨2, ![N, K]⟩ : Shape).Idx → EReal)
    (b : (⟨2, ![1, N]⟩ : Shape).Idx → EReal) : (⟨2, ![1, N]⟩ : Shape).Idx → EReal :=
  fun i => ((∑ k : Fin K, x (ix2 0 k) * wih (ix2 (i 1) k)) + ∑ k : Fin K, h (ix2 0 k) * whh (ix2 (i 1) k)) + b (ix2 0 (i 1))

end Cert.Spec

end
-- ==== Proof.Stages.lean ====
import proofs.«156083_j22471268893342_1_alg».proof.KernelIdeal
import proofs.«156083_j22471268893342_1_alg».proof.Proof.Spec
import Idealize.ShloMosaic.PureOps.Ideal
import Idealize.ShloMosaic.Lib.ValueIdx

/-! # The decoder step as functions of the argument arrays, at the exact instance

One token through an attention decoder: the embedding row of the token (its number read signed, a negative one
counted from the end, then clamped into the table), attention scores over the embedding joined with the forward
hidden state, their softmax, the attention-weighted sum of the encoder outputs, a combining layer and relu, one
step of a forward and of a backward LSTM cell (gates `x·wihᵀ + h·whhᵀ + (b_ih + b_hh)`, then the cell), the output
projection and its log-softmax, and the two directions' new hidden and cell states stacked. The matrix products
are `Cert.Spec`'s sums; the pointwise and reducing chains between them (softmax, relu, the cell, log-softmax, the
joins) are written once here, as the host applies them. -/

noncomputable section

open scoped BigOperators

namespace Cert.Stages

open Idealize.ShloMosaic Idealize.ShloMosaic.ValueIdx Cert.KernelIdeal

variable [Facts₀]
open Facts₀

/-- The token's embedding row, as a [1,1024] array. -/
def embed (x0 : (⟨S1, .i32⟩ : BufTy).Contents (Elt Ideal)) (x4 : (⟨S50257x1024, .f32⟩ : BufTy).Contents (Elt Ideal)) : (⟨S1x1024, .f32⟩ : BufTy).Contents (Elt Ideal) :=
  (((fun x i => Host.dynamicSlice S1x1024 x (fun k => (i k (Shape.Idx.first h_S_)).toInt) sliceFits_S50257x1024_S1x1024) : (⟨S50257x1024, .f32⟩ : BufTy).Contents (Elt Ideal) → (Fin 2 → (⟨S_, .i32⟩ : BufTy).Contents (Elt Ideal)) → (⟨S1x1024, .f32⟩ : BufTy).Contents (Elt Ideal)) x4 ![((select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) ((cmpi .slt : (⟨S_, .i32⟩ : BufTy).Contents (Elt Ideal) → (⟨S_, .i32⟩ : BufTy).Contents (Elt Ideal) → (⟨S_, .i1⟩ : BufTy).Contents (Elt Ideal)) (shapeCast _ x0 shapeCasts_S1_S_) (constantI S_ 32 0#32)) ((addi : (⟨S_, .i32⟩ : BufTy).Contents (Elt Ideal) → (⟨S_, .i32⟩ : BufTy).Contents (Elt Ideal) → (⟨S_, .i32⟩ : BufTy).Contents (Elt Ideal)) (shapeCast _ x0 shapeCasts_S1_S_) (constantI S_ 32 50257#32)) (shapeCast _ x0 shapeCasts_S1_S_)), (constantI S_ 32 0#32)])

/-- Direction 0 of a [2,1,1024] state, as a [1,1024] array. -/
def row0 (x : (⟨S2x1x1024, .f32⟩ : BufTy).Contents (Elt Ideal)) : (⟨S1x1024, .f32⟩ : BufTy).Contents (Elt Ideal) :=
  (shapeCast _ (((extractStridedSlice S1x1x1024 ![0, 0, 0] · slices_S2x1x1024_S1x1x1024_0_0_0) : (⟨S2x1x1024, .f32⟩ : BufTy).Contents (Elt Ideal) → (⟨S1x1x1024, .f32⟩ : BufTy).Contents (Elt Ideal)) x) shapeCasts_S1x1x1024_S1x1024)
/-- Direction 1 of a [2,1,1024] state, as a [1,1024] array. -/
def row1 (x : (⟨S2x1x1024, .f32⟩ : BufTy).Contents (Elt Ideal)) : (⟨S1x1024, .f32⟩ : BufTy).Contents (Elt Ideal) :=
  (shapeCast _ (((extractStridedSlice S1x1x1024 ![1, 0, 0] · slices_S2x1x1024_S1x1x1024_1_0_0) : (⟨S2x1x1024, .f32⟩ : BufTy).Contents (Elt Ideal) → (⟨S1x1x1024, .f32⟩ : BufTy).Contents (Elt Ideal)) x) shapeCasts_S1x1x1024_S1x1024)

/-- Two [1,1024] rows joined into one [1,2048] row. -/
def join2 (a b : (⟨S1x1024, .f32⟩ : BufTy).Contents (Elt Ideal)) : (⟨S1x2048, .f32⟩ : BufTy).Contents (Elt Ideal) :=
  (((fun a b => concatenate S1x2048 1 [⟨S1x1024, a⟩, ⟨S1x1024, b⟩] concatenates_S1x1024_S1x1024_S1x2048_d1) : (⟨S1x1024, .f32⟩ : BufTy).Contents (Elt Ideal) → (⟨S1x1024, .f32⟩ : BufTy).Contents (Elt Ideal) → (⟨S1x2048, .f32⟩ : BufTy).Contents (Elt Ideal)) a b)
/-- A [1,1024] row and a [1,2048] row joined into one [1,3072] row. -/
def join3 (a : (⟨S1x1024, .f32⟩ : BufTy).Contents (Elt Ideal)) (b : (⟨S1x2048, .f32⟩ : BufTy).Contents (Elt Ideal)) : (⟨S1x3072, .f32⟩ : BufTy).Contents (Elt Ideal) :=
  (((fun a b => concatenate S1x3072 1 [⟨S1x1024, a⟩, ⟨S1x2048, b⟩] concatenates_S1x1024_S1x2048_S1x3072_d1) : (⟨S1x1024, .f32⟩ : BufTy).Contents (Elt Ideal) → (⟨S1x2048, .f32⟩ : BufTy).Contents (Elt Ideal) → (⟨S1x3072, .f32⟩ : BufTy).Contents (Elt Ideal)) a b)

/-- Softmax along the row: exp (x − max x) over its sum. -/
def softmax (s : (⟨S1x2048, .f32⟩ : BufTy).Contents (Elt Ideal)) : (⟨S1x2048, .f32⟩ : BufTy).Contents (Elt Ideal) :=
  ((Host.divf (F := Ideal) (φ := .f32) : (⟨S1x2048, .f32⟩ : BufTy).Contents (Elt Ideal) → (⟨S1x2048, .f32⟩ : BufTy).Contents (Elt Ideal) → (⟨S1x2048, .f32⟩ : BufTy).Contents (Elt Ideal)) ((Host.exp (F := Ideal) (φ := .f32) : (⟨S1x2048, .f32⟩ : BufTy).Contents (Elt Ideal) → (⟨S1x2048, .f32⟩ : BufTy).Contents (Elt Ideal)) ((subf (F := Ideal) (φ := .f32) : (⟨S1x2048, .f32⟩ : BufTy).Contents (Elt Ideal) → (⟨S1x2048, .f32⟩ : BufTy).Contents (Elt Ideal) → (⟨S1x2048, .f32⟩ : BufTy).Contents (Elt Ideal)) s ((broadcastInDim S1x2048 ![0, 1] bcast_S1x1_S1x2048_0_1 : (⟨S1x1, .f32⟩ : BufTy).Contents (Elt Ideal) → (⟨S1x2048, .f32⟩ : BufTy).Contents (Elt Ideal)) ((broadcastInDim S1x1 ![0] bcast_S1_S1x1_0 : (⟨S1, .f32⟩ : BufTy).Contents (Elt Ideal) → (⟨S1x1, .f32⟩ : BufTy).Contents (Elt Ideal)) ((maximumf (F := Ideal) (φ := .f32) : (⟨S1, .f32⟩ : BufTy).Contents (Elt Ideal) → (⟨S1, .f32⟩ : BufTy).Contents (Elt Ideal) → (⟨S1, .f32⟩ : BufTy).Contents (Elt Ideal)) ((broadcastInDim S1 ![] bcast_S_S1 : (⟨S_, .f32⟩ : BufTy).Contents (Elt Ideal) → (⟨S1, .f32⟩ : BufTy).Contents (Elt Ideal)) (constant (F := Ideal) S_ .f32 0xFF800000#32)) (((fun x v => Host.reduce (FloatOps.maximumf (F := Ideal) (φ := .f32)) x v reducesTo_S1x2048_S1_d1 h_S_) : (⟨S1x2048, .f32⟩ : BufTy).Contents (Elt Ideal) → (⟨S_, .f32⟩ : BufTy).Contents (Elt Ideal) → (⟨S1, .f32⟩ : BufTy).Contents (Elt Ideal)) s (constant (F := Ideal) S_ .f32 0xFF800000#32))))))) ((broadcastInDim S1x2048 ![0, 1] bcast_S1x1_S1x2048_0_1 : (⟨S1x1, .f32⟩ : BufTy).Contents (Elt Ideal) → (⟨S1x2048, .f32⟩ : BufTy).Contents (Elt Ideal)) ((broadcastInDim S1x1 ![0] bcast_S1_S1x1_0 : (⟨S1, .f32⟩ : BufTy).Contents (Elt Ideal) → (⟨S1x1, .f32⟩ : BufTy).Contents (Elt Ideal)) (((fun x v => Host.reduceAdd (F := Ideal) (φ := .f32) x v reducesTo_S1x2048_S1_d1 h_S_) : (⟨S1x2048, .f32⟩ : BufTy).Contents (Elt Ideal) → (⟨S_, .f32⟩ : BufTy).Contents (Elt Ideal) → (⟨S1, .f32⟩ : BufTy).Contents (Elt Ideal)) ((Host.exp (F := Ideal) (φ := .f32) : (⟨S1x2048, .f32⟩ : BufTy).Contents (Elt Ideal) → (⟨S1x2048, .f32⟩ : BufTy).Contents (Elt Ideal)) ((subf (F := Ideal) (φ := .f32) : (⟨S1x2048, .f32⟩ : BufTy).Contents (Elt Ideal) → (⟨S1x2048, .f32⟩ : BufTy).Contents (Elt Ideal) → (⟨S1x2048, .f32⟩ : BufTy).Contents (Elt Ideal)) s ((broadcastInDim S1x2048 ![0, 1] bcast_S1x1_S1x2048_0_1 : (⟨S1x1, .f32⟩ : BufTy).Contents (Elt Ideal) → (⟨S1x2048, .f32⟩ : BufTy).Contents (Elt Ideal)) ((broadcastInDim S1x1 ![0] bcast_S1_S1x1_0 : (⟨S1, .f32⟩ : BufTy).Contents (Elt Ideal) → (⟨S1x1, .f32⟩ : BufTy).Contents (Elt Ideal)) ((maximumf (F := Ideal) (φ := .f32) : (⟨S1, .f32⟩ : BufTy).Contents (Elt Ideal) → (⟨S1, .f32⟩ : BufTy).Contents (Elt Ideal) → (⟨S1, .f32⟩ : BufTy).Contents (Elt Ideal)) ((broadcastInDim S1 ![] bcast_S_S1 : (⟨S_, .f32⟩ : BufTy).Contents (Elt Ideal) → (⟨S1, .f32⟩ : BufTy).Contents (Elt Ideal)) (constant (F := Ideal) S_ .f32 0xFF800000#32)) (((fun x v => Host.reduce (FloatOps.maximumf (F := Ideal) (φ := .f32)) x v reducesTo_S1x2048_S1_d1 h_S_) : (⟨S1x2048, .f32⟩ : BufTy).Contents (Elt Ideal) → (⟨S_, .f32⟩ : BufTy).Contents (Elt Ideal) → (⟨S1, .f32⟩ : BufTy).Contents (Elt Ideal)) s (constant (F := Ideal) S_ .f32 0xFF800000#32))))))) (constant (F := Ideal) S_ .f32 0x00000000#32)))))

/-- max (x, 0), entry by entry. -/
def relu (p : (⟨S1x1024, .f32⟩ : BufTy).Contents (Elt Ideal)) : (⟨S1x1024, .f32⟩ : BufTy).Contents (Elt Ideal) :=
  ((maximumf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) p (((broadcastInDim S1x1024 ![] bcast_S_S1x1024) : (⟨S_, .f32⟩ : BufTy).Contents (Elt Ideal) → (⟨S1x1024, .f32⟩ : BufTy).Contents (Elt Ideal)) (constant (F := Ideal) S_ .f32 0x00000000#32 : (⟨S_, .f32⟩ : BufTy).Contents (Elt Ideal))))

/-- The new cell state: sigmoid(f)·c + sigmoid(i)·tanh(g), the gates the four quarters i, f, g, o of the row. -/
def cellC (g : (⟨S1x4096, .f32⟩ : BufTy).Contents (Elt Ideal)) (c0 : (⟨S1x1024, .f32⟩ : BufTy).Contents (Elt Ideal)) : (⟨S1x1024, .f32⟩ : BufTy).Contents (Elt Ideal) :=
  ((addf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((mulf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((Host.divf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((addf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((Host.exp (F := Ideal) (φ := .f32) : (⟨S1x1024, .f32⟩ : BufTy).Contents (Elt Ideal) → (⟨S1x1024, .f32⟩ : BufTy).Contents (Elt Ideal)) ((Host.negf (F := Ideal) (φ := .f32) : (⟨S1x1024, .f32⟩ : BufTy).Contents (Elt Ideal) → (⟨S1x1024, .f32⟩ : BufTy).Contents (Elt Ideal)) (((extractStridedSlice S1x1024 ![0, 1024] · slices_S1x4096_S1x1024_0_1024) : (⟨S1x4096, .f32⟩ : BufTy).Contents (Elt Ideal) → (⟨S1x1024, .f32⟩ : BufTy).Contents (Elt Ideal)) g))))) c0) ((mulf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((Host.divf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((addf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((Host.exp (F := Ideal) (φ := .f32) : (⟨S1x1024, .f32⟩ : BufTy).Contents (Elt Ideal) → (⟨S1x1024, .f32⟩ : BufTy).Contents (Elt Ideal)) ((Host.negf (F := Ideal) (φ := .f32) : (⟨S1x1024, .f32⟩ : BufTy).Contents (Elt Ideal) → (⟨S1x1024, .f32⟩ : BufTy).Contents (Elt Ideal)) (((extractStridedSlice S1x1024 ![0, 0] · slices_S1x4096_S1x1024_0_0) : (⟨S1x4096, .f32⟩ : BufTy).Contents (Elt Ideal) → (⟨S1x1024, .f32⟩ : BufTy).Contents (Elt Ideal)) g))))) ((Host.tanh (F := Ideal) (φ := .f32) : (⟨S1x1024, .f32⟩ : BufTy).Contents (Elt Ideal) → (⟨S1x1024, .f32⟩ : BufTy).Contents (Elt Ideal)) (((extractStridedSlice S1x1024 ![0, 2048] · slices_S1x4096_S1x1024_0_2048) : (⟨S1x4096, .f32⟩ : BufTy).Contents (Elt Ideal) → (⟨S1x1024, .f32⟩ : BufTy).Contents (Elt Ideal)) g))))
/-- The new hidden state: sigmoid(o)·tanh(new cell state). -/
def cellH (g : (⟨S1x4096, .f32⟩ : BufTy).Contents (Elt Ideal)) (c0 : (⟨S1x1024, .f32⟩ : BufTy).Contents (Elt Ideal)) : (⟨S1x1024, .f32⟩ : BufTy).Contents (Elt Ideal) :=
  ((mulf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((Host.divf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((addf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((Host.exp (F := Ideal) (φ := .f32) : (⟨S1x1024, .f32⟩ : BufTy).Contents (Elt Ideal) → (⟨S1x1024, .f32⟩ : BufTy).Contents (Elt Ideal)) ((Host.negf (F := Ideal) (φ := .f32) : (⟨S1x1024, .f32⟩ : BufTy).Contents (Elt Ideal) → (⟨S1x1024, .f32⟩ : BufTy).Contents (Elt Ideal)) (((extractStridedSlice S1x1024 ![0, 3072] · slices_S1x4096_S1x1024_0_3072) : (⟨S1x4096, .f32⟩ : BufTy).Contents (Elt Ideal) → (⟨S1x1024, .f32⟩ : BufTy).Contents (Elt Ideal)) g))))) ((Host.tanh (F := Ideal) (φ := .f32) : (⟨S1x1024, .f32⟩ : BufTy).Contents (Elt Ideal) → (⟨S1x1024, .f32⟩ : BufTy).Contents (Elt Ideal)) ((addf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((mulf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((Host.divf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((addf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((Host.exp (F := Ideal) (φ := .f32) : (⟨S1x1024, .f32⟩ : BufTy).Contents (Elt Ideal) → (⟨S1x1024, .f32⟩ : BufTy).Contents (Elt Ideal)) ((Host.negf (F := Ideal) (φ := .f32) : (⟨S1x1024, .f32⟩ : BufTy).Contents (Elt Ideal) → (⟨S1x1024, .f32⟩ : BufTy).Contents (Elt Ideal)) (((extractStridedSlice S1x1024 ![0, 1024] · slices_S1x4096_S1x1024_0_1024) : (⟨S1x4096, .f32⟩ : BufTy).Contents (Elt Ideal) → (⟨S1x1024, .f32⟩ : BufTy).Contents (Elt Ideal)) g))))) c0) ((mulf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((Host.divf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((addf (F := Ideal) (φ := .f32) : (⟨S1x1024, .f32⟩ : BufTy).Contents (Elt Ideal) → (⟨S1x1024, .f32⟩ : BufTy).Contents (Elt Ideal) → (⟨S1x1024, .f32⟩ : BufTy).Contents (Elt Ideal)) ((broadcastInDim S1x1024 ![] bcast_S_S1x1024 : (⟨S_, .f32⟩ : BufTy).Contents (Elt Ideal) → (⟨S1x1024, .f32⟩ : BufTy).Contents (Elt Ideal)) (constant (F := Ideal) S_ .f32 0x3F800000#32)) ((Host.exp (F := Ideal) (φ := .f32) : (⟨S1x1024, .f32⟩ : BufTy).Contents (Elt Ideal) → (⟨S1x1024, .f32⟩ : BufTy).Contents (Elt Ideal)) ((Host.negf (F := Ideal) (φ := .f32) : (⟨S1x1024, .f32⟩ : BufTy).Contents (Elt Ideal) → (⟨S1x1024, .f32⟩ : BufTy).Contents (Elt Ideal)) (((extractStridedSlice S1x1024 ![0, 0] · slices_S1x4096_S1x1024_0_0) : (⟨S1x4096, .f32⟩ : BufTy).Contents (Elt Ideal) → (⟨S1x1024, .f32⟩ : BufTy).Contents (Elt Ideal)) g))))) ((Host.tanh (F := Ideal) (φ := .f32) : (⟨S1x1024, .f32⟩ : BufTy).Contents (Elt Ideal) → (⟨S1x1024, .f32⟩ : BufTy).Contents (Elt Ideal)) (((extractStridedSlice S1x1024 ![0, 2048] · slices_S1x4096_S1x1024_0_2048) : (⟨S1x4096, .f32⟩ : BufTy).Contents (Elt Ideal) → (⟨S1x1024, .f32⟩ : BufTy).Contents (Elt Ideal)) g))))))

/-- Log-softmax along the row: (x − max x) − log Σ exp (x − max x). -/
def logSoftmax (l : (⟨S1x50257, .f32⟩ : BufTy).Contents (Elt Ideal)) : (⟨S1x50257, .f32⟩ : BufTy).Contents (Elt Ideal) :=
  ((subf (F := Ideal) (φ := .f32) : (⟨S1x50257, .f32⟩ : BufTy).Contents (Elt Ideal) → (⟨S1x50257, .f32⟩ : BufTy).Contents (Elt Ideal) → (⟨S1x50257, .f32⟩ : BufTy).Contents (Elt Ideal)) ((subf (F := Ideal) (φ := .f32) : (⟨S1x50257, .f32⟩ : BufTy).Contents (Elt Ideal) → (⟨S1x50257, .f32⟩ : BufTy).Contents (Elt Ideal) → (⟨S1x50257, .f32⟩ : BufTy).Contents (Elt Ideal)) l (((broadcastInDim S1x50257 ![0, 1] bcast_S1x1_S1x50257_0_1) : (⟨S1x1, .f32⟩ : BufTy).Contents (Elt Ideal) → (⟨S1x50257, .f32⟩ : BufTy).Contents (Elt Ideal)) (((broadcastInDim S1x1 ![0] bcast_S1_S1x1_0) : (⟨S1, .f32⟩ : BufTy).Contents (Elt Ideal) → (⟨S1x1, .f32⟩ : BufTy).Contents (Elt Ideal)) ((maximumf (F := Ideal) (φ := .f32) : (⟨S1, .f32⟩ : BufTy).Contents (Elt Ideal) → (⟨S1, .f32⟩ : BufTy).Contents (Elt Ideal) → (⟨S1, .f32⟩ : BufTy).Contents (Elt Ideal)) (((broadcastInDim S1 ![] bcast_S_S1) : (⟨S_, .f32⟩ : BufTy).Contents (Elt Ideal) → (⟨S1, .f32⟩ : BufTy).Contents (Elt Ideal)) (constant (F := Ideal) S_ .f32 0xFF800000#32 : (⟨S_, .f32⟩ : BufTy).Contents (Elt Ideal))) (((fun x v => Host.reduce (FloatOps.maximumf (F := Ideal) (φ := .f32)) x v reducesTo_S1x50257_S1_d1 h_S_) : (⟨S1x50257, .f32⟩ : BufTy).Contents (Elt Ideal) → (⟨S_, .f32⟩ : BufTy).Contents (Elt Ideal) → (⟨S1, .f32⟩ : BufTy).Contents (Elt Ideal)) l (constant (F := Ideal) S_ .f32 0xFF800000#32 : (⟨S_, .f32⟩ : BufTy).Contents (Elt Ideal))))))) (((broadcastInDim S1x50257 ![0, 1] bcast_S1x1_S1x50257_0_1) : (⟨S1x1, .f32⟩ : BufTy).Contents (Elt Ideal) → (⟨S1x50257, .f32⟩ : BufTy).Contents (Elt Ideal)) ((Host.log (F := Ideal) (φ := .f32) : (⟨S1x1, .f32⟩ : BufTy).Contents (Elt Ideal) → (⟨S1x1, .f32⟩ : BufTy).Contents (Elt Ideal)) (((broadcastInDim S1x1 ![0] bcast_S1_S1x1_0) : (⟨S1, .f32⟩ : BufTy).Contents (Elt Ideal) → (⟨S1x1, .f32⟩ : BufTy).Contents (Elt Ideal)) (((fun x v => Host.reduceAdd (F := Ideal) (φ := .f32) x v reducesTo_S1x50257_S1_d1 h_S_) : (⟨S1x50257, .f32⟩ : BufTy).Contents (Elt Ideal) → (⟨S_, .f32⟩ : BufTy).Contents (Elt Ideal) → (⟨S1, .f32⟩ : BufTy).Contents (Elt Ideal)) ((Host.exp (F := Ideal) (φ := .f32) : (⟨S1x50257, .f32⟩ : BufTy).Contents (Elt Ideal) → (⟨S1x50257, .f32⟩ : BufTy).Contents (Elt Ideal)) ((subf (F := Ideal) (φ := .f32) : (⟨S1x50257, .f32⟩ : BufTy).Contents (Elt Ideal) → (⟨S1x50257, .f32⟩ : BufTy).Contents (Elt Ideal) → (⟨S1x50257, .f32⟩ : BufTy).Contents (Elt Ideal)) l (((broadcastInDim S1x50257 ![0, 1] bcast_S1x1_S1x50257_0_1) : (⟨S1x1, .f32⟩ : BufTy).Contents (Elt Ideal) → (⟨S1x50257, .f32⟩ : BufTy).Contents (Elt Ideal)) (((broadcastInDim S1x1 ![0] bcast_S1_S1x1_0) : (⟨S1, .f32⟩ : BufTy).Contents (Elt Ideal) → (⟨S1x1, .f32⟩ : BufTy).Contents (Elt Ideal)) ((maximumf (F := Ideal) (φ := .f32) : (⟨S1, .f32⟩ : BufTy).Contents (Elt Ideal) → (⟨S1, .f32⟩ : BufTy).Contents (Elt Ideal) → (⟨S1, .f32⟩ : BufTy).Contents (Elt Ideal)) (((broadcastInDim S1 ![] bcast_S_S1) : (⟨S_, .f32⟩ : BufTy).Contents (Elt Ideal) → (⟨S1, .f32⟩ : BufTy).Contents (Elt Ideal)) (constant (F := Ideal) S_ .f32 0xFF800000#32 : (⟨S_, .f32⟩ : BufTy).Contents (Elt Ideal))) (((fun x v => Host.reduce (FloatOps.maximumf (F := Ideal) (φ := .f32)) x v reducesTo_S1x50257_S1_d1 h_S_) : (⟨S1x50257, .f32⟩ : BufTy).Contents (Elt Ideal) → (⟨S_, .f32⟩ : BufTy).Contents (Elt Ideal) → (⟨S1, .f32⟩ : BufTy).Contents (Elt Ideal)) l (constant (F := Ideal) S_ .f32 0xFF800000#32 : (⟨S_, .f32⟩ : BufTy).Contents (Elt Ideal)))))))) (constant (F := Ideal) S_ .f32 0x00000000#32 : (⟨S_, .f32⟩ : BufTy).Contents (Elt Ideal)))))))

/-- Two [1,1024] rows stacked into a [2,1,1024] array. -/
def stack (a b : (⟨S1x1024, .f32⟩ : BufTy).Contents (Elt Ideal)) : (⟨S2x1x1024, .f32⟩ : BufTy).Contents (Elt Ideal) :=
  (((fun a b => concatenate S2x1x1024 0 [⟨S1x1x1024, a⟩, ⟨S1x1x1024, b⟩] concatenates_S1x1x1024_S1x1x1024_S2x1x1024_d0) : (⟨S1x1x1024, .f32⟩ : BufTy).Contents (Elt Ideal) → (⟨S1x1x1024, .f32⟩ : BufTy).Contents (Elt Ideal) → (⟨S2x1x1024, .f32⟩ : BufTy).Contents (Elt Ideal)) ((broadcastInDim S1x1x1024 ![1, 2] bcast_S1x1024_S1x1x1024_1_2 : (⟨S1x1024, .f32⟩ : BufTy).Contents (Elt Ideal) → (⟨S1x1x1024, .f32⟩ : BufTy).Contents (Elt Ideal)) a) ((broadcastInDim S1x1x1024 ![1, 2] bcast_S1x1024_S1x1x1024_1_2 : (⟨S1x1024, .f32⟩ : BufTy).Contents (Elt Ideal) → (⟨S1x1x1024, .f32⟩ : BufTy).Contents (Elt Ideal)) b))

/-- A bias vector read as a row. -/
def biasRow {n : Nat} (b : (⟨1, ![n]⟩ : Shape).Idx → EReal) : (⟨2, ![1, n]⟩ : Shape).Idx → EReal := fun i => b (ix1 (i 1))
/-- The sum of two bias vectors read as a row. -/
def biasRow2 {n : Nat} (b1 b2 : (⟨1, ![n]⟩ : Shape).Idx → EReal) : (⟨2, ![1, n]⟩ : Shape).Idx → EReal := fun i => b1 (ix1 (i 1)) + b2 (ix1 (i 1))

section Net

variable (x0 : (⟨S1, .i32⟩ : BufTy).Contents (Elt Ideal)) (x1 x2 : (⟨S2x1x1024, .f32⟩ : BufTy).Contents (Elt Ideal)) (x3 : (⟨S2048x2048, .f32⟩ : BufTy).Contents (Elt Ideal)) (x4 : (⟨S50257x1024, .f32⟩ : BufTy).Contents (Elt Ideal))
  (x5 : (⟨S2048x2048, .f32⟩ : BufTy).Contents (Elt Ideal)) (x6 : (⟨S2048, .f32⟩ : BufTy).Contents (Elt Ideal)) (x7 : (⟨S1024x3072, .f32⟩ : BufTy).Contents (Elt Ideal)) (x8 : (⟨S1024, .f32⟩ : BufTy).Contents (Elt Ideal))
  (x9 x10 : (⟨S4096x1024, .f32⟩ : BufTy).Contents (Elt Ideal)) (x11 x12 : (⟨S4096, .f32⟩ : BufTy).Contents (Elt Ideal)) (x13 x14 : (⟨S4096x1024, .f32⟩ : BufTy).Contents (Elt Ideal)) (x15 x16 : (⟨S4096, .f32⟩ : BufTy).Contents (Elt Ideal))
  (x17 : (⟨S50257x2048, .f32⟩ : BufTy).Contents (Elt Ideal)) (x18 : (⟨S50257, .f32⟩ : BufTy).Contents (Elt Ideal))

/-- Attention scores. -/
def score : (⟨S1x2048, .f32⟩ : BufTy).Contents (Elt Ideal) := Cert.Spec.linT 2048 2048 (join2 (embed x0 x4) (row0 x1)) x5 (biasRow x6)
/-- Attention weights (the fourth result). -/
def attW : (⟨S1x2048, .f32⟩ : BufTy).Contents (Elt Ideal) := softmax (score x0 x1 x4 x5 x6)
/-- The attention-weighted sum of the encoder outputs. -/
def applied : (⟨S1x2048, .f32⟩ : BufTy).Contents (Elt Ideal) := Cert.Spec.lin 2048 2048 (attW x0 x1 x4 x5 x6) x3
/-- The LSTM's input. -/
def lstmIn : (⟨S1x1024, .f32⟩ : BufTy).Contents (Elt Ideal) := relu (Cert.Spec.linT 3072 1024 (join3 (embed x0 x4) (applied x0 x1 x3 x4 x5 x6)) x7 (biasRow x8))
/-- The forward direction's gates. -/
def gF : (⟨S1x4096, .f32⟩ : BufTy).Contents (Elt Ideal) := Cert.Spec.gate 1024 4096 (lstmIn x0 x1 x3 x4 x5 x6 x7 x8) (row0 x1) x9 x10 (biasRow2 x11 x12)
/-- The backward direction's gates. -/
def gB : (⟨S1x4096, .f32⟩ : BufTy).Contents (Elt Ideal) := Cert.Spec.gate 1024 4096 (lstmIn x0 x1 x3 x4 x5 x6 x7 x8) (row1 x1) x13 x14 (biasRow2 x15 x16)
def cF : (⟨S1x1024, .f32⟩ : BufTy).Contents (Elt Ideal) := cellC (gF x0 x1 x3 x4 x5 x6 x7 x8 x9 x10 x11 x12) (row0 x2)
def hF : (⟨S1x1024, .f32⟩ : BufTy).Contents (Elt Ideal) := cellH (gF x0 x1 x3 x4 x5 x6 x7 x8 x9 x10 x11 x12) (row0 x2)
def cB : (⟨S1x1024, .f32⟩ : BufTy).Contents (Elt Ideal) := cellC (gB x0 x1 x3 x4 x5 x6 x7 x8 x13 x14 x15 x16) (row1 x2)
def hB : (⟨S1x1024, .f32⟩ : BufTy).Contents (Elt Ideal) := cellH (gB x0 x1 x3 x4 x5 x6 x7 x8 x13 x14 x15 x16) (row1 x2)
/-- The output projection. -/
def logits : (⟨S1x50257, .f32⟩ : BufTy).Contents (Elt Ideal) :=
  Cert.Spec.linT 2048 50257 (join2 (hF x0 x1 x2 x3 x4 x5 x6 x7 x8 x9 x10 x11 x12) (hB x0 x1 x2 x3 x4 x5 x6 x7 x8 x13 x14 x15 x16)) x17 (biasRow x18)
/-- The first result: log-probabilities. -/
def logp : (⟨S1x50257, .f32⟩ : BufTy).Contents (Elt Ideal) := logSoftmax (logits x0 x1 x2 x3 x4 x5 x6 x7 x8 x9 x10 x11 x12 x13 x14 x15 x16 x17 x18)
/-- The second result: the new hidden states. -/
def hN : (⟨S2x1x1024, .f32⟩ : BufTy).Contents (Elt Ideal) := stack (hF x0 x1 x2 x3 x4 x5 x6 x7 x8 x9 x10 x11 x12) (hB x0 x1 x2 x3 x4 x5 x6 x7 x8 x13 x14 x15 x16)
/-- The third result: the new cell states. -/
def cN : (⟨S2x1x1024, .f32⟩ : BufTy).Contents (Elt Ideal) := stack (cF x0 x1 x2 x3 x4 x5 x6 x7 x8 x9 x10 x11 x12) (cB x0 x1 x2 x3 x4 x5 x6 x7 x8 x13 x14 x15 x16)

end Net

end Cert.Stages

end
-- ==== Proof.K.Reg0.lean ====
import proofs.«156083_j22471268893342_1_alg».proof.Proof.Gen.Kernel.Launch
import proofs.«156083_j22471268893342_1_alg».proof.Proof.Gen.Kernel.Skeleton
import proofs.«156083_j22471268893342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block: the body's one store. -/
abbrev r0_o : Rect S1x1024 := (Rect.unit (s := S1x1024) ![0, 0] S1x1024.size inb_S1x1024_S1x1024_0_0)

/-- The output window's staging buffer after the body, from the input windows' blocks. -/
def out0_3 (x0 : Vec F S1x2048 .f32) (x1 : Vec F S1024x2048 .f32) (x2 : Vec F S1x1024 .f32) : Vec F S1x1024 .f32 :=
  View.canon [⟨r0_o, k0_pay1 (View.ld x0 (Rect.unit (s := S1x2048) ![0, 0] S1x2048.size inb_S1x2048_S1x2048_0_0)) (View.ld x1 (Rect.unit (s := S1024x2048) ![0, 0] S1024x2048.size inb_S1024x2048_S1024x2048_0_0)) (View.ld x2 (Rect.unit (s := S1x1024) ![0, 0] S1x1024.size inb_S1x1024_S1x1024_0_0))⟩]

/-- The one store covers the buffer. -/
theorem cover0_3 (p0 : Vec F S1x1024 .f32) (y : S1x1024.Idx) :
    ∃ pc ∈ ([⟨r0_o, p0⟩] : List (View.Piece (Elt F) S1x1024 .f32)), y ∈ pc.1.set :=
  View.cover_of_tiled [⟨r0_o, p0⟩] S1x1024.size (by rfl) y

set_option maxHeartbeats 1000000 in
/-- The body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S1x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_t_kernel i arg1 harg1 arg2 harg2 arg3 harg3 arg4 harg4) K := by
  simp only [cc0__linear_t_kernel_eq_skeleton]; unfold cc0__linear_t_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«156083_j22471268893342_1_alg».proof.Proof.Gen.Kernel.Launch
import proofs.«156083_j22471268893342_1_alg».proof.Proof.Gen.Kernel.Skeleton
import proofs.«156083_j22471268893342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole output block: the body's one store. -/
abbrev r1_o : Rect S1x1024 := (Rect.unit (s := S1x1024) ![0, 0] S1x1024.size inb_S1x1024_S1x1024_0_0)

/-- The output window's staging buffer after the body, from the input windows' blocks. -/
def out1_2 (x0 : Vec F S1x2048 .f32) (x1 : Vec F S2048x1024 .f32) : Vec F S1x1024 .f32 :=
  View.canon [⟨r1_o, k1_pay1 (View.ld x0 (Rect.unit (s := S1x2048) ![0, 0] S1x2048.size inb_S1x2048_S1x2048_0_0)) (View.ld x1 (Rect.unit (s := S2048x1024) ![0, 0] S2048x1024.size inb_S2048x1024_S2048x1024_0_0))⟩]

/-- The one store covers the buffer. -/
theorem cover1_2 (p0 : Vec F S1x1024 .f32) (y : S1x1024.Idx) :
    ∃ pc ∈ ([⟨r1_o, p0⟩] : List (View.Piece (Elt F) S1x1024 .f32)), y ∈ pc.1.set :=
  View.cover_of_tiled [⟨r1_o, p0⟩] S1x1024.size (by rfl) y

set_option maxHeartbeats 1000000 in
/-- The body on whole staging memrefs, the inputs' at contents `xW` and the output's at anything, runs to the
    continuation holding the inputs' as they were and the output's at `out1_2` of the inputs'. -/
theorem sound_kernel1 (c : Dev nD) (E : Set ℕ) (i : grid1.Coords) (arg1 : Memref sig .tc .vmem S1x2048 .f32) (harg1 : arg1.IsWhole) (arg2 : Memref sig .tc .vmem S2048x1024 .f32) (harg2 : arg2.IsWhole) (arg3 : Memref sig .tc .vmem S1x1024 .f32) (harg3 : arg3.IsWhole)
    (x0 : Vec F S1x2048 .f32) (x1 : Vec F S2048x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_plain_kernel i arg1 harg1 arg2 harg2 arg3 harg3) K := by
  simp only [cc1__linear_plain_kernel_eq_skeleton]; unfold cc1__linear_plain_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t`
    each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«156083_j22471268893342_1_alg».proof.Proof.Gen.Kernel.Launch
import proofs.«156083_j22471268893342_1_alg».proof.Proof.Gen.Kernel.Skeleton
import proofs.«156083_j22471268893342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole output block: the body's one store. -/
abbrev r2_o : Rect S1x1024 := (Rect.unit (s := S1x1024) ![0, 0] S1x1024.size inb_S1x1024_S1x1024_0_0)

/-- The output window's staging buffer after the body, from the input windows' blocks. -/
def out2_3 (x0 : Vec F S1x3072 .f32) (x1 : Vec F S1024x3072 .f32) (x2 : Vec F S1x1024 .f32) : Vec F S1x1024 .f32 :=
  View.canon [⟨r2_o, k2_pay1 (View.ld x0 (Rect.unit (s := S1x3072) ![0, 0] S1x3072.size inb_S1x3072_S1x3072_0_0)) (View.ld x1 (Rect.unit (s := S1024x3072) ![0, 0] S1024x3072.size inb_S1024x3072_S1024x3072_0_0)) (View.ld x2 (Rect.unit (s := S1x1024) ![0, 0] S1x1024.size inb_S1x1024_S1x1024_0_0))⟩]

/-- The one store covers the buffer. -/
theorem cover2_3 (p0 : Vec F S1x1024 .f32) (y : S1x1024.Idx) :
    ∃ pc ∈ ([⟨r2_o, p0⟩] : List (View.Piece (Elt F) S1x1024 .f32)), y ∈ pc.1.set :=
  View.cover_of_tiled [⟨r2_o, p0⟩] S1x1024.size (by rfl) y

set_option maxHeartbeats 1000000 in
/-- The body on whole staging memrefs, the inputs' at contents `xW` and the output's at anything, runs to the
    continuation holding the inputs' as they were and the output's at `out2_3` of the inputs'. -/
theorem sound_kernel2 (c : Dev nD) (E : Set ℕ) (i : grid2.Coords) (arg1 : Memref sig .tc .vmem S1x3072 .f32) (harg1 : arg1.IsWhole) (arg2 : Memref sig .tc .vmem S1024x3072 .f32) (harg2 : arg2.IsWhole) (arg3 : Memref sig .tc .vmem S1x1024 .f32) (harg3 : arg3.IsWhole) (arg4 : Memref sig .tc .vmem S1x1024 .f32) (harg4 : arg4.IsWhole)
    (x0 : Vec F S1x3072 .f32) (x1 : Vec F S1024x3072 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_t_kernel i arg1 harg1 arg2 harg2 arg3 harg3 arg4 harg4) K := by
  simp only [cc2__linear_t_kernel_eq_skeleton]; unfold cc2__linear_t_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t`
    each input's buffer at its block and the output's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«156083_j22471268893342_1_alg».proof.Proof.Gen.Kernel.Launch
import proofs.«156083_j22471268893342_1_alg».proof.Proof.Gen.Kernel.Skeleton
import proofs.«156083_j22471268893342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole output block: the body's one store. -/
abbrev r3_o : Rect S1x1024 := (Rect.unit (s := S1x1024) ![0, 0] S1x1024.size inb_S1x1024_S1x1024_0_0)

/-- The output window's staging buffer after the body, from the input windows' blocks. -/
def out3_5 (x0 : Vec F S1x1024 .f32) (x1 : Vec F S1x1024 .f32) (x2 : Vec F S1024x1024 .f32) (x3 : Vec F S1024x1024 .f32) (x4 : Vec F S1x1024 .f32) : Vec F S1x1024 .f32 :=
  View.canon [⟨r3_o, k3_pay1 (View.ld x0 (Rect.unit (s := S1x1024) ![0, 0] S1x1024.size inb_S1x1024_S1x1024_0_0)) (View.ld x1 (Rect.unit (s := S1x1024) ![0, 0] S1x1024.size inb_S1x1024_S1x1024_0_0)) (View.ld x2 (Rect.unit (s := S1024x1024) ![0, 0] S1024x1024.size inb_S1024x1024_S1024x1024_0_0)) (View.ld x3 (Rect.unit (s := S1024x1024) ![0, 0] S1024x1024.size inb_S1024x1024_S1024x1024_0_0)) (View.ld x4 (Rect.unit (s := S1x1024) ![0, 0] S1x1024.size inb_S1x1024_S1x1024_0_0))⟩]

/-- The one store covers the buffer. -/
theorem cover3_5 (p0 : Vec F S1x1024 .f32) (y : S1x1024.Idx) :
    ∃ pc ∈ ([⟨r3_o, p0⟩] : List (View.Piece (Elt F) S1x1024 .f32)), y ∈ pc.1.set :=
  View.cover_of_tiled [⟨r3_o, p0⟩] S1x1024.size (by rfl) y

set_option maxHeartbeats 1000000 in
/-- The body on whole staging memrefs, the inputs' at contents `xW` and the output's at anything, runs to the
    continuation holding the inputs' as they were and the output's at `out3_5` of the inputs'. -/
theorem sound_kernel3 (c : Dev nD) (E : Set ℕ) (i : grid3.Coords) (arg1 : Memref sig .tc .vmem S1x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (x0 : Vec F S1x1024 .f32) (x1 : Vec F S1x1024 .f32) (x2 : Vec F S1024x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__lstm_gate_kernel i arg1 harg1 arg2 harg2 arg3 harg3 arg4 harg4 arg5 harg5 arg6 harg6) K := by
  simp only [cc3__lstm_gate_kernel_eq_skeleton]; unfold cc3__lstm_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t`
    each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«156083_j22471268893342_1_alg».proof.Proof.Gen.Kernel.Launch
import proofs.«156083_j22471268893342_1_alg».proof.Proof.Gen.Kernel.Skeleton
import proofs.«156083_j22471268893342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole output block: the body's one store. -/
abbrev r4_o : Rect S1x1024 := (Rect.unit (s := S1x1024) ![0, 0] S1x1024.size inb_S1x1024_S1x1024_0_0)

/-- The output window's staging buffer after the body, from the input windows' blocks. -/
def out4_5 (x0 : Vec F S1x1024 .f32) (x1 : Vec F S1x1024 .f32) (x2 : Vec F S1024x1024 .f32) (x3 : Vec F S1024x1024 .f32) (x4 : Vec F S1x1024 .f32) : Vec F S1x1024 .f32 :=
  View.canon [⟨r4_o, k4_pay1 (View.ld x0 (Rect.unit (s := S1x1024) ![0, 0] S1x1024.size inb_S1x1024_S1x1024_0_0)) (View.ld x1 (Rect.unit (s := S1x1024) ![0, 0] S1x1024.size inb_S1x1024_S1x1024_0_0)) (View.ld x2 (Rect.unit (s := S1024x1024) ![0, 0] S1024x1024.size inb_S1024x1024_S1024x1024_0_0)) (View.ld x3 (Rect.unit (s := S1024x1024) ![0, 0] S1024x1024.size inb_S1024x1024_S1024x1024_0_0)) (View.ld x4 (Rect.unit (s := S1x1024) ![0, 0] S1x1024.size inb_S1x1024_S1x1024_0_0))⟩]

/-- The one store covers the buffer. -/
theorem cover4_5 (p0 : Vec F S1x1024 .f32) (y : S1x1024.Idx) :
    ∃ pc ∈ ([⟨r4_o, p0⟩] : List (View.Piece (Elt F) S1x1024 .f32)), y ∈ pc.1.set :=
  View.cover_of_tiled [⟨r4_o, p0⟩] S1x1024.size (by rfl) y

set_option maxHeartbeats 1000000 in
/-- The body on whole staging memrefs, the inputs' at contents `xW` and the output's at anything, runs to the
    continuation holding the inputs' as they were and the output's at `out4_5` of the inputs'. -/
theorem sound_kernel4 (c : Dev nD) (E : Set ℕ) (i : grid4.Coords) (arg1 : Memref sig .tc .vmem S1x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (x0 : Vec F S1x1024 .f32) (x1 : Vec F S1x1024 .f32) (x2 : Vec F S1024x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__lstm_gate_kernel i arg1 harg1 arg2 harg2 arg3 harg3 arg4 harg4 arg5 harg5 arg6 harg6) K := by
  simp only [cc4__lstm_gate_kernel_eq_skeleton]; unfold cc4__lstm_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of pipeline 4 on core `c`: the arrays as the region finds them; after the body at point `t`
    each input's buffer at its block and the output's at `out4_5` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«156083_j22471268893342_1_alg».proof.Proof.Gen.Kernel.Launch
import proofs.«156083_j22471268893342_1_alg».proof.Proof.Gen.Kernel.Skeleton
import proofs.«156083_j22471268893342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole output block: the body's one store. -/
abbrev r5_o : Rect S1x1024 := (Rect.unit (s := S1x1024) ![0, 0] S1x1024.size inb_S1x1024_S1x1024_0_0)

/-- The output window's staging buffer after the body, from the input windows' blocks. -/
def out5_3 (x0 : Vec F S1x2048 .f32) (x1 : Vec F S1024x2048 .f32) (x2 : Vec F S1x1024 .f32) : Vec F S1x1024 .f32 :=
  View.canon [⟨r5_o, k5_pay1 (View.ld x0 (Rect.unit (s := S1x2048) ![0, 0] S1x2048.size inb_S1x2048_S1x2048_0_0)) (View.ld x1 (Rect.unit (s := S1024x2048) ![0, 0] S1024x2048.size inb_S1024x2048_S1024x2048_0_0)) (View.ld x2 (Rect.unit (s := S1x1024) ![0, 0] S1x1024.size inb_S1x1024_S1x1024_0_0))⟩]

/-- The one store covers the buffer. -/
theorem cover5_3 (p0 : Vec F S1x1024 .f32) (y : S1x1024.Idx) :
    ∃ pc ∈ ([⟨r5_o, p0⟩] : List (View.Piece (Elt F) S1x1024 .f32)), y ∈ pc.1.set :=
  View.cover_of_tiled [⟨r5_o, p0⟩] S1x1024.size (by rfl) y

set_option maxHeartbeats 1000000 in
/-- The body on whole staging memrefs, the inputs' at contents `xW` and the output's at anything, runs to the
    continuation holding the inputs' as they were and the output's at `out5_3` of the inputs'. -/
theorem sound_kernel5 (c : Dev nD) (E : Set ℕ) (i : grid5.Coords) (arg1 : Memref sig .tc .vmem S1x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__linear_t_kernel i arg1 harg1 arg2 harg2 arg3 harg3 arg4 harg4) K := by
  simp only [cc5__linear_t_kernel_eq_skeleton]; unfold cc5__linear_t_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body at point `t`
    each input's buffer at its block and the output's at `out5_3` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«156083_j22471268893342_1_alg».proof.Proof.Gen.Kernel.Launch
import proofs.«156083_j22471268893342_1_alg».proof.Proof.Gen.Kernel.Skeleton
import proofs.«156083_j22471268893342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole output block: the body's one store. -/
abbrev r6_o : Rect S1x81 := (Rect.unit (s := S1x81) ![0, 0] S1x81.size inb_S1x81_S1x81_0_0)

/-- The output window's staging buffer after the body, from the input windows' blocks. -/
def out6_3 (x0 : Vec F S1x2048 .f32) (x1 : Vec F S81x2048 .f32) (x2 : Vec F S1x81 .f32) : Vec F S1x81 .f32 :=
  View.canon [⟨r6_o, k6_pay1 (View.ld x0 (Rect.unit (s := S1x2048) ![0, 0] S1x2048.size inb_S1x2048_S1x2048_0_0)) (View.ld x1 (Rect.unit (s := S81x2048) ![0, 0] S81x2048.size inb_S81x2048_S81x2048_0_0)) (View.ld x2 (Rect.unit (s := S1x81) ![0, 0] S1x81.size inb_S1x81_S1x81_0_0))⟩]

/-- The one store covers the buffer. -/
theorem cover6_3 (p0 : Vec F S1x81 .f32) (y : S1x81.Idx) :
    ∃ pc ∈ ([⟨r6_o, p0⟩] : List (View.Piece (Elt F) S1x81 .f32)), y ∈ pc.1.set :=
  View.cover_of_tiled [⟨r6_o, p0⟩] S1x81.size (by rfl) y

set_option maxHeartbeats 1000000 in
/-- The body on whole staging memrefs, the inputs' at contents `xW` and the output's at anything, runs to the
    continuation holding the inputs' as they were and the output's at `out6_3` of the inputs'. -/
theorem sound_kernel6 (c : Dev nD) (E : Set ℕ) (i : grid6.Coords) (arg1 : Memref sig .tc .vmem S1x2048 .f32) (harg1 : arg1.IsWhole) (arg2 : Memref sig .tc .vmem S81x2048 .f32) (harg2 : arg2.IsWhole) (arg3 : Memref sig .tc .vmem S1x81 .f32) (harg3 : arg3.IsWhole) (arg4 : Memref sig .tc .vmem S1x81 .f32) (harg4 : arg4.IsWhole)
    (x0 : Vec F S1x2048 .f32) (x1 : Vec F S81x2048 .f32) (x2 : Vec F S1x81 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__linear_t_kernel i arg1 harg1 arg2 harg2 arg3 harg3 arg4 harg4) K := by
  simp only [cc6__linear_t_kernel_eq_skeleton]; unfold cc6__linear_t_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t`
    each input's buffer at its block and the output's at `out6_3` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.RunA.lean ====
import proofs.«156083_j22471268893342_1_alg».proof.Proof.K.Reg0
import proofs.«156083_j22471268893342_1_alg».proof.Proof.K.Reg1
import proofs.«156083_j22471268893342_1_alg».proof.Proof.K.Reg2
import proofs.«156083_j22471268893342_1_alg».proof.Proof.K.Reg3
import proofs.«156083_j22471268893342_1_alg».proof.Proof.K.Reg4
import proofs.«156083_j22471268893342_1_alg».proof.Proof.K.Reg5
import proofs.«156083_j22471268893342_1_alg».proof.Proof.K.Reg6

/-! # The run of @main, first half: what every buffer holds between two items

@main is eighteen items: eleven stretches of host operations and seven kernel regions. Between two items the
TensorCore's unscoped buffers hold a valuation `Wj`: the launch memory, then each host stretch's operations applied
in order, then at a region's exit its arrays at what its pipeline leaves (the inputs as entered, the output at its
write-backs) and every other buffer as entered. No item writes an argument array, so each argument is read back
through all eighteen to its launch contents. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_c, main_v1, main_c_0, main_v2, main_v3, main_c_1, main_v4, main_v5, main_v6, main_v7, main_v8, main_v9, main_v10, main_v11, main_v12, main_v13, main_v14]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_cst, main_v16, main_cst_2, main_v17, main_v18, main_v19, main_v20, main_v21, main_v22, main_cst_3, main_v23, main_v24, main_v25, main_v26]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v28, main_v29]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_call0_cst, main_call0_v0, main_v31]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps3_1` allocates a buffer. -/
theorem hostOps3_1_fresh : (hostOps3_1 : List (HloOp τ sig (Elt F))).Forall fun op => op.fresh = ∅ := by
  simp only [List.Forall]; repeat' constructor
/-- The references `hostOps3_1`'s operations write. -/
abbrev hostOps3_1_W : List (Ref sig .tc) := [main_v32, main_v33, main_v34]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v36]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v38, main_v39, main_v40, main_v41, main_v42, main_v43, main_cst_4, main_v44, main_v45, main_cst_5, main_v46, main_v47, main_v48, main_v49, main_v50, main_cst_6, main_v51, main_v52, main_cst_7, main_v53, main_v54, main_v55, main_v56, main_v57, main_v58, main_v59, main_cst_8, main_v60, main_v61, main_cst_9, main_v62, main_v63, main_v64, main_v65, main_v66, main_v67, main_v68, main_v69, main_v70, main_v71, main_cst_10, main_v72, main_v73, main_cst_11, main_v74, main_v75, main_v76, main_v77, main_v78, main_cst_12, main_v79, main_v80, main_cst_13, main_v81, main_v82, main_v83, main_v84, main_v85, main_v86, main_v87, main_cst_14, main_v88, main_v89, main_cst_15, main_v90, main_v91, main_v92, main_v93, main_v94, main_v95, main_v96, main_v97, main_v98, main_v99]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps6` allocates a buffer. -/
theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_v101]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7` allocates a buffer. -/
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v103]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7_1` allocates a buffer. -/
theorem hostOps7_1_fresh : (hostOps7_1 : List (HloOp τ sig (Elt F))).Forall fun op => op.fresh = ∅ := by
  simp only [List.Forall]; repeat' constructor
/-- The references `hostOps7_1`'s operations write. -/
abbrev hostOps7_1_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v104]
theorem hostOps7_1_writes : (hostOps7_1 : List (HloOp τ sig (Elt F))).Forall fun op => op.writes ⊆ (hostOps7_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7_2` allocates a buffer. -/
theorem hostOps7_2_fresh : (hostOps7_2 : List (HloOp τ sig (Elt F))).Forall fun op => op.fresh = ∅ := by
  simp only [List.Forall]; repeat' constructor
/-- The references `hostOps7_2`'s operations write. -/
abbrev hostOps7_2_W : List (Ref sig .tc) := [main_v105, main_v106, main_v107, main_v108, main_v109, main_v110]
theorem hostOps7_2_writes : (hostOps7_2 : List (HloOp τ sig (Elt F))).Forall fun op => op.writes ⊆ (hostOps7_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- Core `c`'s buffers at launch. -/
abbrev W0 : Dev nD → Valuation τ sig (Elt F) := fun c b => (s₀ m ρ).mem ((c : Dev nD), b)
theorem W0_args (c : Dev nD) (a : Ref sig .tc) (ha : a ∈ argRefs) : W0 m ρ c (Proc.devRef .tc a) = m ((c : Thread nD τ).loc a) := rfl

/-- After item 0, the host stretch `hostOps0`. -/
abbrev W1 : Dev nD → Valuation τ sig (Elt F) := fun c => StableHlo.after hostOps0 (W0 m ρ c)
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) (a : Ref sig .tc) (ha : a ∈ argRefs) : W1 m ρ c (Proc.devRef .tc a) = m ((c : Thread nD τ).loc a) :=
  (W1_keep m ρ c a ((by decide : ∀ a ∈ argRefs, a ∉ hostOps0_W) a ha)).trans (W0_args m ρ c a ha)

/-- The same read at the TensorCore's references: what region 0's proof data take. -/
abbrev V1 : (c : Dev nD) → (b : Ref sig .tc) → Buf (Elt F) ((c : Thread nD τ).loc b) := fun c b => W1 m ρ c b
/-- After item 1, region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array `main_v15`: an input window's array ends as entered. -/
theorem W2_keep (c : Dev nD) (r : Ref sig .tc) (h : r ≠ main_v15) : W2 m ρ c (Proc.devRef .tc r) = W1 m ρ c (Proc.devRef .tc r) := by
  by_cases hr : ∀ w, Pipeline.arrRef spec0 w ≠ r
  · exact W2_of_ne m ρ c r hr
  · obtain ⟨w, rfl⟩ := not_forall_not.mp hr
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl h
theorem W2_args (c : Dev nD) (a : Ref sig .tc) (ha : a ∈ argRefs) : W2 m ρ c (Proc.devRef .tc a) = m ((c : Thread nD τ).loc a) :=
  (W2_keep m ρ c a ((by decide : ∀ a ∈ argRefs, a ≠ main_v15) a ha)).trans (W1_args m ρ c a ha)

/-- After item 2, the host stretch `hostOps1`. -/
abbrev W3 : Dev nD → Valuation τ sig (Elt F) := fun c => StableHlo.after hostOps1 (W2 m ρ c)
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) (a : Ref sig .tc) (ha : a ∈ argRefs) : W3 m ρ c (Proc.devRef .tc a) = m ((c : Thread nD τ).loc a) :=
  (W3_keep m ρ c a ((by decide : ∀ a ∈ argRefs, a ∉ hostOps1_W) a ha)).trans (W2_args m ρ c a ha)

/-- The same read at the TensorCore's references: what region 1's proof data take. -/
abbrev V3 : (c : Dev nD) → (b : Ref sig .tc) → Buf (Elt F) ((c : Thread nD τ).loc b) := fun c b => W3 m ρ c b
/-- After item 3, region 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array `main_v27`: an input window's array ends as entered. -/
theorem W4_keep (c : Dev nD) (r : Ref sig .tc) (h : r ≠ main_v27) : W4 m ρ c (Proc.devRef .tc r) = W3 m ρ c (Proc.devRef .tc r) := by
  by_cases hr : ∀ w, Pipeline.arrRef spec1 w ≠ r
  · exact W4_of_ne m ρ c r hr
  · obtain ⟨w, rfl⟩ := not_forall_not.mp hr
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact absurd rfl h
theorem W4_args (c : Dev nD) (a : Ref sig .tc) (ha : a ∈ argRefs) : W4 m ρ c (Proc.devRef .tc a) = m ((c : Thread nD τ).loc a) :=
  (W4_keep m ρ c a ((by decide : ∀ a ∈ argRefs, a ≠ main_v27) a ha)).trans (W3_args m ρ c a ha)

/-- After item 4, the host stretch `hostOps2`. -/
abbrev W5 : Dev nD → Valuation τ sig (Elt F) := fun c => StableHlo.after hostOps2 (W4 m ρ c)
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) (a : Ref sig .tc) (ha : a ∈ argRefs) : W5 m ρ c (Proc.devRef .tc a) = m ((c : Thread nD τ).loc a) :=
  (W5_keep m ρ c a ((by decide : ∀ a ∈ argRefs, a ∉ hostOps2_W) a ha)).trans (W4_args m ρ c a ha)

/-- The same read at the TensorCore's references: what region 2's proof data take. -/
abbrev V5 : (c : Dev nD) → (b : Ref sig .tc) → Buf (Elt F) ((c : Thread nD τ).loc b) := fun c b => W5 m ρ c b
/-- After item 5, region 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes only its output array `main_v30`: an input window's array ends as entered. -/
theorem W6_keep (c : Dev nD) (r : Ref sig .tc) (h : r ≠ main_v30) : W6 m ρ c (Proc.devRef .tc r) = W5 m ρ c (Proc.devRef .tc r) := by
  by_cases hr : ∀ w, Pipeline.arrRef spec2 w ≠ r
  · exact W6_of_ne m ρ c r hr
  · obtain ⟨w, rfl⟩ := not_forall_not.mp hr
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd rfl h
theorem W6_args (c : Dev nD) (a : Ref sig .tc) (ha : a ∈ argRefs) : W6 m ρ c (Proc.devRef .tc a) = m ((c : Thread nD τ).loc a) :=
  (W6_keep m ρ c a ((by decide : ∀ a ∈ argRefs, a ≠ main_v30) a ha)).trans (W5_args m ρ c a ha)

/-- After item 6, the host stretch `hostOps3`. -/
abbrev W7 : Dev nD → Valuation τ sig (Elt F) := fun c => StableHlo.after hostOps3 (W6 m ρ c)
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) (a : Ref sig .tc) (ha : a ∈ argRefs) : W7 m ρ c (Proc.devRef .tc a) = m ((c : Thread nD τ).loc a) :=
  (W7_keep m ρ c a ((by decide : ∀ a ∈ argRefs, a ∉ hostOps3_W) a ha)).trans (W6_args m ρ c a ha)

/-- After item 7, the host stretch `hostOps3_1`. -/
abbrev W8 : Dev nD → Valuation τ sig (Elt F) := fun c => StableHlo.after hostOps3_1 (W7 m ρ c)
theorem W8_keep (c : Dev nD) (r : Ref sig .tc) (h : r ∉ hostOps3_1_W) : W8 m ρ c (Proc.devRef .tc r) = W7 m ρ c (Proc.devRef .tc r) :=
  StableHlo.after_of_writes_sub hostOps3_1 _ hostOps3_1_writes h
theorem W8_args (c : Dev nD) (a : Ref sig .tc) (ha : a ∈ argRefs) : W8 m ρ c (Proc.devRef .tc a) = m ((c : Thread nD τ).loc a) :=
  (W8_keep m ρ c a ((by decide : ∀ a ∈ argRefs, a ∉ hostOps3_1_W) a ha)).trans (W7_args m ρ c a ha)

/-- The same read at the TensorCore's references: what region 3's proof data take. -/
abbrev V8 : (c : Dev nD) → (b : Ref sig .tc) → Buf (Elt F) ((c : Thread nD τ).loc b) := fun c b => W8 m ρ c b
/-- After item 8, region 3: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- Region 3 changes only its output array `main_v35`: an input window's array ends as entered. -/
theorem W9_keep (c : Dev nD) (r : Ref sig .tc) (h : r ≠ main_v35) : W9 m ρ c (Proc.devRef .tc r) = W8 m ρ c (Proc.devRef .tc r) := by
  by_cases hr : ∀ w, Pipeline.arrRef spec3 w ≠ r
  · exact W9_of_ne m ρ c r hr
  · obtain ⟨w, rfl⟩ := not_forall_not.mp hr
    match w with
    | ⟨0, _⟩ => exact (W9_arr m ρ c 0).trans (((dat3 (V8 m ρ) c).arrAt_in 0 rfl _).trans (A_eq3 (V8 m ρ) c 0))
    | ⟨1, _⟩ => exact (W9_arr m ρ c 1).trans (((dat3 (V8 m ρ) c).arrAt_in 1 rfl _).trans (A_eq3 (V8 m ρ) c 1))
    | ⟨2, _⟩ => exact (W9_arr m ρ c 2).trans (((dat3 (V8 m ρ) c).arrAt_in 2 rfl _).trans (A_eq3 (V8 m ρ) c 2))
    | ⟨3, _⟩ => exact (W9_arr m ρ c 3).trans (((dat3 (V8 m ρ) c).arrAt_in 3 rfl _).trans (A_eq3 (V8 m ρ) c 3))
    | ⟨4, _⟩ => exact (W9_arr m ρ c 4).trans (((dat3 (V8 m ρ) c).arrAt_in 4 rfl _).trans (A_eq3 (V8 m ρ) c 4))
    | ⟨5, _⟩ => exact absurd rfl h
theorem W9_args (c : Dev nD) (a : Ref sig .tc) (ha : a ∈ argRefs) : W9 m ρ c (Proc.devRef .tc a) = m ((c : Thread nD τ).loc a) :=
  (W9_keep m ρ c a ((by decide : ∀ a ∈ argRefs, a ≠ main_v35) a ha)).trans (W8_args m ρ c a ha)

/-- After item 9, the host stretch `hostOps4`. -/
abbrev W10 : Dev nD → Valuation τ sig (Elt F) := fun c => StableHlo.after hostOps4 (W9 m ρ c)
theorem W10_keep (c : Dev nD) (r : Ref sig .tc) (h : r ∉ hostOps4_W) : W10 m ρ c (Proc.devRef .tc r) = W9 m ρ c (Proc.devRef .tc r) :=
  StableHlo.after_of_writes_sub hostOps4 _ hostOps4_writes h
theorem W10_args (c : Dev nD) (a : Ref sig .tc) (ha : a ∈ argRefs) : W10 m ρ c (Proc.devRef .tc a) = m ((c : Thread nD τ).loc a) :=
  (W10_keep m ρ c a ((by decide : ∀ a ∈ argRefs, a ∉ hostOps4_W) a ha)).trans (W9_args m ρ c a ha)

/-- The same read at the TensorCore's references: what region 4's proof data take. -/
abbrev V10 : (c : Dev nD) → (b : Ref sig .tc) → Buf (Elt F) ((c : Thread nD τ).loc b) := fun c b => W10 m ρ c b
/-- After item 10, region 4: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)
/-- Region 4 changes only its output array `main_v37`: an input window's array ends as entered. -/
theorem W11_keep (c : Dev nD) (r : Ref sig .tc) (h : r ≠ main_v37) : W11 m ρ c (Proc.devRef .tc r) = W10 m ρ c (Proc.devRef .tc r) := by
  by_cases hr : ∀ w, Pipeline.arrRef spec4 w ≠ r
  · exact W11_of_ne m ρ c r hr
  · obtain ⟨w, rfl⟩ := not_forall_not.mp hr
    match w with
    | ⟨0, _⟩ => exact (W11_arr m ρ c 0).trans (((dat4 (V10 m ρ) c).arrAt_in 0 rfl _).trans (A_eq4 (V10 m ρ) c 0))
    | ⟨1, _⟩ => exact (W11_arr m ρ c 1).trans (((dat4 (V10 m ρ) c).arrAt_in 1 rfl _).trans (A_eq4 (V10 m ρ) c 1))
    | ⟨2, _⟩ => exact (W11_arr m ρ c 2).trans (((dat4 (V10 m ρ) c).arrAt_in 2 rfl _).trans (A_eq4 (V10 m ρ) c 2))
    | ⟨3, _⟩ => exact (W11_arr m ρ c 3).trans (((dat4 (V10 m ρ) c).arrAt_in 3 rfl _).trans (A_eq4 (V10 m ρ) c 3))
    | ⟨4, _⟩ => exact (W11_arr m ρ c 4).trans (((dat4 (V10 m ρ) c).arrAt_in 4 rfl _).trans (A_eq4 (V10 m ρ) c 4))
    | ⟨5, _⟩ => exact absurd rfl h
theorem W11_args (c : Dev nD) (a : Ref sig .tc) (ha : a ∈ argRefs) : W11 m ρ c (Proc.devRef .tc a) = m ((c : Thread nD τ).loc a) :=
  (W11_keep m ρ c a ((by decide : ∀ a ∈ argRefs, a ≠ main_v37) a ha)).trans (W10_args m ρ c a ha)

/-- After item 11, the host stretch `hostOps5`. -/
abbrev W12 : Dev nD → Valuation τ sig (Elt F) := fun c => StableHlo.after hostOps5 (W11 m ρ c)
theorem W12_keep (c : Dev nD) (r : Ref sig .tc) (h : r ∉ hostOps5_W) : W12 m ρ c (Proc.devRef .tc r) = W11 m ρ c (Proc.devRef .tc r) :=
  StableHlo.after_of_writes_sub hostOps5 _ hostOps5_writes h
theorem W12_args (c : Dev nD) (a : Ref sig .tc) (ha : a ∈ argRefs) : W12 m ρ c (Proc.devRef .tc a) = m ((c : Thread nD τ).loc a) :=
  (W12_keep m ρ c a ((by decide : ∀ a ∈ argRefs, a ∉ hostOps5_W) a ha)).trans (W11_args m ρ c a ha)

/-- The same read at the TensorCore's references: what region 5's proof data take. -/
abbrev V12 : (c : Dev nD) → (b : Ref sig .tc) → Buf (Elt F) ((c : Thread nD τ).loc b) := fun c b => W12 m ρ c b
/-- After item 12, region 5: its arrays at what the pipeline leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)
/-- Region 5 changes only its output array `main_v100`: an input window's array ends as entered. -/
theorem W13_keep (c : Dev nD) (r : Ref sig .tc) (h : r ≠ main_v100) : W13 m ρ c (Proc.devRef .tc r) = W12 m ρ c (Proc.devRef .tc r) := by
  by_cases hr : ∀ w, Pipeline.arrRef spec5 w ≠ r
  · exact W13_of_ne m ρ c r hr
  · obtain ⟨w, rfl⟩ := not_forall_not.mp hr
    match w with
    | ⟨0, _⟩ => exact (W13_arr m ρ c 0).trans (((dat5 (V12 m ρ) c).arrAt_in 0 rfl _).trans (A_eq5 (V12 m ρ) c 0))
    | ⟨1, _⟩ => exact (W13_arr m ρ c 1).trans (((dat5 (V12 m ρ) c).arrAt_in 1 rfl _).trans (A_eq5 (V12 m ρ) c 1))
    | ⟨2, _⟩ => exact (W13_arr m ρ c 2).trans (((dat5 (V12 m ρ) c).arrAt_in 2 rfl _).trans (A_eq5 (V12 m ρ) c 2))
    | ⟨3, _⟩ => exact absurd rfl h
theorem W13_args (c : Dev nD) (a : Ref sig .tc) (ha : a ∈ argRefs) : W13 m ρ c (Proc.devRef .tc a) = m ((c : Thread nD τ).loc a) :=
  (W13_keep m ρ c a ((by decide : ∀ a ∈ argRefs, a ≠ main_v100) a ha)).trans (W12_args m ρ c a ha)

/-- After item 13, the host stretch `hostOps6`. -/
abbrev W14 : Dev nD → Valuation τ sig (Elt F) := fun c => StableHlo.after hostOps6 (W13 m ρ c)
theorem W14_keep (c : Dev nD) (r : Ref sig .tc) (h : r ∉ hostOps6_W) : W14 m ρ c (Proc.devRef .tc r) = W13 m ρ c (Proc.devRef .tc r) :=
  StableHlo.after_of_writes_sub hostOps6 _ hostOps6_writes h
theorem W14_args (c : Dev nD) (a : Ref sig .tc) (ha : a ∈ argRefs) : W14 m ρ c (Proc.devRef .tc a) = m ((c : Thread nD τ).loc a) :=
  (W14_keep m ρ c a ((by decide : ∀ a ∈ argRefs, a ∉ hostOps6_W) a ha)).trans (W13_args m ρ c a ha)

/-- The same read at the TensorCore's references: what region 6's proof data take. -/
abbrev V14 : (c : Dev nD) → (b : Ref sig .tc) → Buf (Elt F) ((c : Thread nD τ).loc b) := fun c b => W14 m ρ c b
/-- After item 14, region 6: its arrays at what the pipeline leaves, every other buffer as entered. -/
def W15 (c : Dev nD) : Valuation τ sig (Elt F) :=
  Pipeline.withArrays spec6 c (W14 m ρ c) fun w => (dat6 (V14 m ρ) c).arrAt w cfg6.N
theorem W15_arr (c : Dev nD) (w : Fin cfg6.W) :
    W15 m ρ c (Proc.devRef .tc (Pipeline.arrRef spec6 w)) = (dat6 (V14 m ρ) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m ρ c (Proc.devRef .tc b) = W14 m ρ c (Proc.devRef .tc b) := by
  unfold W15; exact Pipeline.withArrays_of_ne spec6 c _ _ b hb
abbrev V15 : (c : Dev nD) → (b : Ref sig .tc) → Buf (Elt F) ((c : Thread nD τ).loc b) := fun c b => W15 m ρ c b
theorem hF6 (c : Dev nD) (w : Fin cfg6.W) : (dat6 (V14 m ρ) c).arrAt w cfg6.N = V15 m ρ c (Pipeline.arrRef spec6 w) :=
  (W15_arr m ρ c w).symm
theorem hrest6 (c : Dev nD) : ∀ b, b ∉ Finset.univ.image (Pipeline.arrRef spec6) → V15 m ρ c b = V14 m ρ c b :=
  fun b hb => W15_of_ne m ρ c b fun w e => hb (Finset.mem_image.mpr ⟨w, Finset.mem_univ _, e⟩)
/-- Region 6 changes only its output array `main_v102`: an input window's array ends as entered. -/
theorem W15_keep (c : Dev nD) (r : Ref sig .tc) (h : r ≠ main_v102) : W15 m ρ c (Proc.devRef .tc r) = W14 m ρ c (Proc.devRef .tc r) := by
  by_cases hr : ∀ w, Pipeline.arrRef spec6 w ≠ r
  · exact W15_of_ne m ρ c r hr
  · obtain ⟨w, rfl⟩ := not_forall_not.mp hr
    match w with
    | ⟨0, _⟩ => exact (W15_arr m ρ c 0).trans (((dat6 (V14 m ρ) c).arrAt_in 0 rfl _).trans (A_eq6 (V14 m ρ) c 0))
    | ⟨1, _⟩ => exact (W15_arr m ρ c 1).trans (((dat6 (V14 m ρ) c).arrAt_in 1 rfl _).trans (A_eq6 (V14 m ρ) c 1))
    | ⟨2, _⟩ => exact (W15_arr m ρ c 2).trans (((dat6 (V14 m ρ) c).arrAt_in 2 rfl _).trans (A_eq6 (V14 m ρ) c 2))
    | ⟨3, _⟩ => exact absurd rfl h
theorem W15_args (c : Dev nD) (a : Ref sig .tc) (ha : a ∈ argRefs) : W15 m ρ c (Proc.devRef .tc a) = m ((c : Thread nD τ).loc a) :=
  (W15_keep m ρ c a ((by decide : ∀ a ∈ argRefs, a ≠ main_v102) a ha)).trans (W14_args m ρ c a ha)

/-- After item 15, the host stretch `hostOps7`. -/
abbrev W16 : Dev nD → Valuation τ sig (Elt F) := fun c => StableHlo.after hostOps7 (W15 m ρ c)
theorem W16_keep (c : Dev nD) (r : Ref sig .tc) (h : r ∉ hostOps7_W) : W16 m ρ c (Proc.devRef .tc r) = W15 m ρ c (Proc.devRef .tc r) :=
  StableHlo.after_of_writes_sub hostOps7 _ hostOps7_writes h
theorem W16_args (c : Dev nD) (a : Ref sig .tc) (ha : a ∈ argRefs) : W16 m ρ c (Proc.devRef .tc a) = m ((c : Thread nD τ).loc a) :=
  (W16_keep m ρ c a ((by decide : ∀ a ∈ argRefs, a ∉ hostOps7_W) a ha)).trans (W15_args m ρ c a ha)

/-- After item 16, the host stretch `hostOps7_1`. -/
abbrev W17 : Dev nD → Valuation τ sig (Elt F) := fun c => StableHlo.after hostOps7_1 (W16 m ρ c)
theorem W17_keep (c : Dev nD) (r : Ref sig .tc) (h : r ∉ hostOps7_1_W) : W17 m ρ c (Proc.devRef .tc r) = W16 m ρ c (Proc.devRef .tc r) :=
  StableHlo.after_of_writes_sub hostOps7_1 _ hostOps7_1_writes h
theorem W17_args (c : Dev nD) (a : Ref sig .tc) (ha : a ∈ argRefs) : W17 m ρ c (Proc.devRef .tc a) = m ((c : Thread nD τ).loc a) :=
  (W17_keep m ρ c a ((by decide : ∀ a ∈ argRefs, a ∉ hostOps7_1_W) a ha)).trans (W16_args m ρ c a ha)

/-- After item 17, the host stretch `hostOps7_2`. -/
abbrev W18 : Dev nD → Valuation τ sig (Elt F) := fun c => StableHlo.after hostOps7_2 (W17 m ρ c)
theorem W18_keep (c : Dev nD) (r : Ref sig .tc) (h : r ∉ hostOps7_2_W) : W18 m ρ c (Proc.devRef .tc r) = W17 m ρ c (Proc.devRef .tc r) :=
  StableHlo.after_of_writes_sub hostOps7_2 _ hostOps7_2_writes h
theorem W18_args (c : Dev nD) (a : Ref sig .tc) (ha : a ∈ argRefs) : W18 m ρ c (Proc.devRef .tc a) = m ((c : Thread nD τ).loc a) :=
  (W18_keep m ρ c a ((by decide : ∀ a ∈ argRefs, a ∉ hostOps7_2_W) a ha)).trans (W17_args m ρ c a ha)

/-! ## The proof data family and the thread state -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V8 m ρ) c
  | ⟨4, _⟩ => fun c => dat4 (V10 m ρ) c
  | ⟨5, _⟩ => fun c => dat5 (V12 m ρ) c
  | ⟨6, _⟩ => fun c => dat6 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.RegSeg0.lean ====
import proofs.«156083_j22471268893342_1_alg».proof.Proof.K.RunA

/-! # Region 0 as a segment of the run

Entered with every unscoped buffer at `W1`, left with them at `W2`: the region's arrays are split out of the
unscoped buffers on the way in and put back at their exit contents on the way out; the generator register goes
into the pipeline's invariant and comes back; nothing is owed; the kernel has no semaphore of its own. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegSeg1.lean ====
import proofs.«156083_j22471268893342_1_alg».proof.Proof.K.RunA

/-! # Region 1 as a segment of the run

Entered with every unscoped buffer at `W3`, left with them at `W4`: the region's arrays are split out of the
unscoped buffers on the way in and put back at their exit contents on the way out; the generator register goes
into the pipeline's invariant and comes back; nothing is owed; the kernel has no semaphore of its own. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegSeg2.lean ====
import proofs.«156083_j22471268893342_1_alg».proof.Proof.K.RunA

/-! # Region 2 as a segment of the run

Entered with every unscoped buffer at `W5`, left with them at `W6`: the region's arrays are split out of the
unscoped buffers on the way in and put back at their exit contents on the way out; the generator register goes
into the pipeline's invariant and comes back; nothing is owed; the kernel has no semaphore of its own. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegSeg3.lean ====
import proofs.«156083_j22471268893342_1_alg».proof.Proof.K.RunA

/-! # Region 3 as a segment of the run

Entered with every unscoped buffer at `W8`, left with them at `W9`: the region's arrays are split out of the
unscoped buffers on the way in and put back at their exit contents on the way out; the generator register goes
into the pipeline's invariant and comes back; nothing is owed; the kernel has no semaphore of its own. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegSeg4.lean ====
import proofs.«156083_j22471268893342_1_alg».proof.Proof.K.RunA

/-! # Region 4 as a segment of the run

Entered with every unscoped buffer at `W10`, left with them at `W11`: the region's arrays are split out of the
unscoped buffers on the way in and put back at their exit contents on the way out; the generator register goes
into the pipeline's invariant and comes back; nothing is owed; the kernel has no semaphore of its own. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegSeg5.lean ====
import proofs.«156083_j22471268893342_1_alg».proof.Proof.K.RunA

/-! # Region 5 as a segment of the run

Entered with every unscoped buffer at `W12`, left with them at `W13`: the region's arrays are split out of the
unscoped buffers on the way in and put back at their exit contents on the way out; the generator register goes
into the pipeline's invariant and comes back; nothing is owed; the kernel has no semaphore of its own. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegSeg6.lean ====
import proofs.«156083_j22471268893342_1_alg».proof.Proof.K.RunA

/-! # Region 6 as a segment of the run

Entered with every unscoped buffer at `W14`, left with them at `W15`: the region's arrays are split out of the
unscoped buffers on the way in and put back at their exit contents on the way out; the generator register goes
into the pipeline's invariant and comes back; nothing is owed; the kernel has no semaphore of its own. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V14 m ρ) c).loose
  hwaits := Pipeline.hwaits_of_owed_zero _ _ _ _ L lv 6 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec6 c (V14 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V14 m ρ c) (V15 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunB.lean ====
import proofs.«156083_j22471268893342_1_alg».proof.Proof.K.RegSeg0
import proofs.«156083_j22471268893342_1_alg».proof.Proof.K.RegSeg1
import proofs.«156083_j22471268893342_1_alg».proof.Proof.K.RegSeg2
import proofs.«156083_j22471268893342_1_alg».proof.Proof.K.RegSeg3
import proofs.«156083_j22471268893342_1_alg».proof.Proof.K.RegSeg4
import proofs.«156083_j22471268893342_1_alg».proof.Proof.K.RegSeg5
import proofs.«156083_j22471268893342_1_alg».proof.Proof.K.RegSeg6

/-! # The run of @main, second half: the launch over the eighteen segments

Every weakly fair execution of @main from a memory `m` with zero counters terminates, nothing faulting, and in every
final state each unscoped buffer of core `c` holds `W18 m ρ c`: the launch memory folded through the eleven host
stretches and the seven regions. The frame claim (each argument array as launched) and the values of the four
results are read off that valuation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's eighteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .host (hseg hostOps6 hostOps6_sub hostOps6_fresh (W13 m ρ)),
    .region (reg6 m ρ),
    .host (hseg hostOps7 hostOps7_sub hostOps7_fresh (W15 m ρ)),
    .host (hseg hostOps7_1 hostOps7_1_sub hostOps7_1_fresh (W16 m ρ)),
    .host (hseg hostOps7_2 hostOps7_2_sub hostOps7_2_fresh (W17 m ρ)) ]
/-- @main is the run of the segments. -/
theorem main_run (c : Dev nD) : main (F := F) c = Pipeline.Seg.run (segs m ρ) := (main_chain c).trans (by chain_rfl)

/-- The last thread state without the dues: every unscoped buffer at the last valuation, the generator register at some state. -/
abbrev Tₙ (c : Dev nD) : sProp 𝕄 := iprop(StableHlo.held (c : Thread nD τ) (Pipeline.ucRefs τ sig) (W18 m ρ c) ∗ ∃ r, prngReg c r)

set_option backward.isDefEq.respectTransparency.types false in
/-- THE RUN. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W18 m ρ c) ∗ ((∃ r, prngReg c r) ∗ ∃ W, owes (c : Thread nD τ) (0 : CellTallies nD τ sig Unit) W))
        ⊢ iprop((StableHlo.held (c : Thread nD τ) (Pipeline.ucRefs τ sig) (W18 m ρ c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (W18_args m ρ c main_arg0 (by decide)),
    (h c _ (mem_uc main_arg1 (by decide))).trans (W18_args m ρ c main_arg1 (by decide)),
    (h c _ (mem_uc main_arg2 (by decide))).trans (W18_args m ρ c main_arg2 (by decide)),
    (h c _ (mem_uc main_arg3 (by decide))).trans (W18_args m ρ c main_arg3 (by decide)),
    (h c _ (mem_uc main_arg4 (by decide))).trans (W18_args m ρ c main_arg4 (by decide)),
    (h c _ (mem_uc main_arg5 (by decide))).trans (W18_args m ρ c main_arg5 (by decide)),
    (h c _ (mem_uc main_arg6 (by decide))).trans (W18_args m ρ c main_arg6 (by decide)),
    (h c _ (mem_uc main_arg7 (by decide))).trans (W18_args m ρ c main_arg7 (by decide)),
    (h c _ (mem_uc main_arg8 (by decide))).trans (W18_args m ρ c main_arg8 (by decide)),
    (h c _ (mem_uc main_arg9 (by decide))).trans (W18_args m ρ c main_arg9 (by decide)),
    (h c _ (mem_uc main_arg10 (by decide))).trans (W18_args m ρ c main_arg10 (by decide)),
    (h c _ (mem_uc main_arg11 (by decide))).trans (W18_args m ρ c main_arg11 (by decide)),
    (h c _ (mem_uc main_arg12 (by decide))).trans (W18_args m ρ c main_arg12 (by decide)),
    (h c _ (mem_uc main_arg13 (by decide))).trans (W18_args m ρ c main_arg13 (by decide)),
    (h c _ (mem_uc main_arg14 (by decide))).trans (W18_args m ρ c main_arg14 (by decide)),
    (h c _ (mem_uc main_arg15 (by decide))).trans (W18_args m ρ c main_arg15 (by decide)),
    (h c _ (mem_uc main_arg16 (by decide))).trans (W18_args m ρ c main_arg16 (by decide)),
    (h c _ (mem_uc main_arg17 (by decide))).trans (W18_args m ρ c main_arg17 (by decide)),
    (h c _ (mem_uc main_arg18 (by decide))).trans (W18_args m ρ c main_arg18 (by decide))⟩) (run_main m ρ)

end Cert.Kernel.Hand

end
-- ==== Proof.KI.Reg0.lean ====
import proofs.«156083_j22471268893342_1_alg».proof.Proof.Gen.KernelIdeal.Launch
import proofs.«156083_j22471268893342_1_alg».proof.Proof.Gen.KernelIdeal.Skeleton
import proofs.«156083_j22471268893342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block: the body's one store. -/
abbrev r0_o : Rect S1x1024 := (Rect.unit (s := S1x1024) ![0, 0] S1x1024.size inb_S1x1024_S1x1024_0_0)

/-- The output window's staging buffer after the body, from the input windows' blocks. -/
def out0_3 (x0 : Vec F S1x2048 .f32) (x1 : Vec F S1024x2048 .f32) (x2 : Vec F S1x1024 .f32) : Vec F S1x1024 .f32 :=
  View.canon [⟨r0_o, k0_pay1 (View.ld x0 (Rect.unit (s := S1x2048) ![0, 0] S1x2048.size inb_S1x2048_S1x2048_0_0)) (View.ld x1 (Rect.unit (s := S1024x2048) ![0, 0] S1024x2048.size inb_S1024x2048_S1024x2048_0_0)) (View.ld x2 (Rect.unit (s := S1x1024) ![0, 0] S1x1024.size inb_S1x1024_S1x1024_0_0))⟩]

/-- The one store covers the buffer. -/
theorem cover0_3 (p0 : Vec F S1x1024 .f32) (y : S1x1024.Idx) :
    ∃ pc ∈ ([⟨r0_o, p0⟩] : List (View.Piece (Elt F) S1x1024 .f32)), y ∈ pc.1.set :=
  View.cover_of_tiled [⟨r0_o, p0⟩] S1x1024.size (by rfl) y

set_option maxHeartbeats 1000000 in
/-- The body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S1x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_t_kernel i arg1 harg1 arg2 harg2 arg3 harg3 arg4 harg4) K := by
  simp only [cc0__linear_t_kernel_eq_skeleton]; unfold cc0__linear_t_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«156083_j22471268893342_1_alg».proof.Proof.Gen.KernelIdeal.Launch
import proofs.«156083_j22471268893342_1_alg».proof.Proof.Gen.KernelIdeal.Skeleton
import proofs.«156083_j22471268893342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole output block: the body's one store. -/
abbrev r1_o : Rect S1x1024 := (Rect.unit (s := S1x1024) ![0, 0] S1x1024.size inb_S1x1024_S1x1024_0_0)

/-- The output window's staging buffer after the body, from the input windows' blocks. -/
def out1_2 (x0 : Vec F S1x2048 .f32) (x1 : Vec F S2048x1024 .f32) : Vec F S1x1024 .f32 :=
  View.canon [⟨r1_o, k1_pay1 (View.ld x0 (Rect.unit (s := S1x2048) ![0, 0] S1x2048.size inb_S1x2048_S1x2048_0_0)) (View.ld x1 (Rect.unit (s := S2048x1024) ![0, 0] S2048x1024.size inb_S2048x1024_S2048x1024_0_0))⟩]

/-- The one store covers the buffer. -/
theorem cover1_2 (p0 : Vec F S1x1024 .f32) (y : S1x1024.Idx) :
    ∃ pc ∈ ([⟨r1_o, p0⟩] : List (View.Piece (Elt F) S1x1024 .f32)), y ∈ pc.1.set :=
  View.cover_of_tiled [⟨r1_o, p0⟩] S1x1024.size (by rfl) y

set_option maxHeartbeats 1000000 in
/-- The body on whole staging memrefs, the inputs' at contents `xW` and the output's at anything, runs to the
    continuation holding the inputs' as they were and the output's at `out1_2` of the inputs'. -/
theorem sound_kernel1 (c : Dev nD) (E : Set ℕ) (i : grid1.Coords) (arg1 : Memref sig .tc .vmem S1x2048 .f32) (harg1 : arg1.IsWhole) (arg2 : Memref sig .tc .vmem S2048x1024 .f32) (harg2 : arg2.IsWhole) (arg3 : Memref sig .tc .vmem S1x1024 .f32) (harg3 : arg3.IsWhole)
    (x0 : Vec F S1x2048 .f32) (x1 : Vec F S2048x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_plain_kernel i arg1 harg1 arg2 harg2 arg3 harg3) K := by
  simp only [cc1__linear_plain_kernel_eq_skeleton]; unfold cc1__linear_plain_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t`
    each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«156083_j22471268893342_1_alg».proof.Proof.Gen.KernelIdeal.Launch
import proofs.«156083_j22471268893342_1_alg».proof.Proof.Gen.KernelIdeal.Skeleton
import proofs.«156083_j22471268893342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole output block: the body's one store. -/
abbrev r2_o : Rect S1x1024 := (Rect.unit (s := S1x1024) ![0, 0] S1x1024.size inb_S1x1024_S1x1024_0_0)

/-- The output window's staging buffer after the body, from the input windows' blocks. -/
def out2_3 (x0 : Vec F S1x3072 .f32) (x1 : Vec F S1024x3072 .f32) (x2 : Vec F S1x1024 .f32) : Vec F S1x1024 .f32 :=
  View.canon [⟨r2_o, k2_pay1 (View.ld x0 (Rect.unit (s := S1x3072) ![0, 0] S1x3072.size inb_S1x3072_S1x3072_0_0)) (View.ld x1 (Rect.unit (s := S1024x3072) ![0, 0] S1024x3072.size inb_S1024x3072_S1024x3072_0_0)) (View.ld x2 (Rect.unit (s := S1x1024) ![0, 0] S1x1024.size inb_S1x1024_S1x1024_0_0))⟩]

/-- The one store covers the buffer. -/
theorem cover2_3 (p0 : Vec F S1x1024 .f32) (y : S1x1024.Idx) :
    ∃ pc ∈ ([⟨r2_o, p0⟩] : List (View.Piece (Elt F) S1x1024 .f32)), y ∈ pc.1.set :=
  View.cover_of_tiled [⟨r2_o, p0⟩] S1x1024.size (by rfl) y

set_option maxHeartbeats 1000000 in
/-- The body on whole staging memrefs, the inputs' at contents `xW` and the output's at anything, runs to the
    continuation holding the inputs' as they were and the output's at `out2_3` of the inputs'. -/
theorem sound_kernel2 (c : Dev nD) (E : Set ℕ) (i : grid2.Coords) (arg1 : Memref sig .tc .vmem S1x3072 .f32) (harg1 : arg1.IsWhole) (arg2 : Memref sig .tc .vmem S1024x3072 .f32) (harg2 : arg2.IsWhole) (arg3 : Memref sig .tc .vmem S1x1024 .f32) (harg3 : arg3.IsWhole) (arg4 : Memref sig .tc .vmem S1x1024 .f32) (harg4 : arg4.IsWhole)
    (x0 : Vec F S1x3072 .f32) (x1 : Vec F S1024x3072 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_t_kernel i arg1 harg1 arg2 harg2 arg3 harg3 arg4 harg4) K := by
  simp only [cc2__linear_t_kernel_eq_skeleton]; unfold cc2__linear_t_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t`
    each input's buffer at its block and the output's at `out2_3` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«156083_j22471268893342_1_alg».proof.Proof.Gen.KernelIdeal.Launch
import proofs.«156083_j22471268893342_1_alg».proof.Proof.Gen.KernelIdeal.Skeleton
import proofs.«156083_j22471268893342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole output block: the body's one store. -/
abbrev r3_o : Rect S1x1024 := (Rect.unit (s := S1x1024) ![0, 0] S1x1024.size inb_S1x1024_S1x1024_0_0)

/-- The output window's staging buffer after the body, from the input windows' blocks. -/
def out3_5 (x0 : Vec F S1x1024 .f32) (x1 : Vec F S1x1024 .f32) (x2 : Vec F S1024x1024 .f32) (x3 : Vec F S1024x1024 .f32) (x4 : Vec F S1x1024 .f32) : Vec F S1x1024 .f32 :=
  View.canon [⟨r3_o, k3_pay1 (View.ld x0 (Rect.unit (s := S1x1024) ![0, 0] S1x1024.size inb_S1x1024_S1x1024_0_0)) (View.ld x1 (Rect.unit (s := S1x1024) ![0, 0] S1x1024.size inb_S1x1024_S1x1024_0_0)) (View.ld x2 (Rect.unit (s := S1024x1024) ![0, 0] S1024x1024.size inb_S1024x1024_S1024x1024_0_0)) (View.ld x3 (Rect.unit (s := S1024x1024) ![0, 0] S1024x1024.size inb_S1024x1024_S1024x1024_0_0)) (View.ld x4 (Rect.unit (s := S1x1024) ![0, 0] S1x1024.size inb_S1x1024_S1x1024_0_0))⟩]

/-- The one store covers the buffer. -/
theorem cover3_5 (p0 : Vec F S1x1024 .f32) (y : S1x1024.Idx) :
    ∃ pc ∈ ([⟨r3_o, p0⟩] : List (View.Piece (Elt F) S1x1024 .f32)), y ∈ pc.1.set :=
  View.cover_of_tiled [⟨r3_o, p0⟩] S1x1024.size (by rfl) y

set_option maxHeartbeats 1000000 in
/-- The body on whole staging memrefs, the inputs' at contents `xW` and the output's at anything, runs to the
    continuation holding the inputs' as they were and the output's at `out3_5` of the inputs'. -/
theorem sound_kernel3 (c : Dev nD) (E : Set ℕ) (i : grid3.Coords) (arg1 : Memref sig .tc .vmem S1x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (x0 : Vec F S1x1024 .f32) (x1 : Vec F S1x1024 .f32) (x2 : Vec F S1024x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__lstm_gate_kernel i arg1 harg1 arg2 harg2 arg3 harg3 arg4 harg4 arg5 harg5 arg6 harg6) K := by
  simp only [cc3__lstm_gate_kernel_eq_skeleton]; unfold cc3__lstm_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t`
    each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«156083_j22471268893342_1_alg».proof.Proof.Gen.KernelIdeal.Launch
import proofs.«156083_j22471268893342_1_alg».proof.Proof.Gen.KernelIdeal.Skeleton
import proofs.«156083_j22471268893342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole output block: the body's one store. -/
abbrev r4_o : Rect S1x1024 := (Rect.unit (s := S1x1024) ![0, 0] S1x1024.size inb_S1x1024_S1x1024_0_0)

/-- The output window's staging buffer after the body, from the input windows' blocks. -/
def out4_5 (x0 : Vec F S1x1024 .f32) (x1 : Vec F S1x1024 .f32) (x2 : Vec F S1024x1024 .f32) (x3 : Vec F S1024x1024 .f32) (x4 : Vec F S1x1024 .f32) : Vec F S1x1024 .f32 :=
  View.canon [⟨r4_o, k4_pay1 (View.ld x0 (Rect.unit (s := S1x1024) ![0, 0] S1x1024.size inb_S1x1024_S1x1024_0_0)) (View.ld x1 (Rect.unit (s := S1x1024) ![0, 0] S1x1024.size inb_S1x1024_S1x1024_0_0)) (View.ld x2 (Rect.unit (s := S1024x1024) ![0, 0] S1024x1024.size inb_S1024x1024_S1024x1024_0_0)) (View.ld x3 (Rect.unit (s := S1024x1024) ![0, 0] S1024x1024.size inb_S1024x1024_S1024x1024_0_0)) (View.ld x4 (Rect.unit (s := S1x1024) ![0, 0] S1x1024.size inb_S1x1024_S1x1024_0_0))⟩]

/-- The one store covers the buffer. -/
theorem cover4_5 (p0 : Vec F S1x1024 .f32) (y : S1x1024.Idx) :
    ∃ pc ∈ ([⟨r4_o, p0⟩] : List (View.Piece (Elt F) S1x1024 .f32)), y ∈ pc.1.set :=
  View.cover_of_tiled [⟨r4_o, p0⟩] S1x1024.size (by rfl) y

set_option maxHeartbeats 1000000 in
/-- The body on whole staging memrefs, the inputs' at contents `xW` and the output's at anything, runs to the
    continuation holding the inputs' as they were and the output's at `out4_5` of the inputs'. -/
theorem sound_kernel4 (c : Dev nD) (E : Set ℕ) (i : grid4.Coords) (arg1 : Memref sig .tc .vmem S1x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (x0 : Vec F S1x1024 .f32) (x1 : Vec F S1x1024 .f32) (x2 : Vec F S1024x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__lstm_gate_kernel i arg1 harg1 arg2 harg2 arg3 harg3 arg4 harg4 arg5 harg5 arg6 harg6) K := by
  simp only [cc4__lstm_gate_kernel_eq_skeleton]; unfold cc4__lstm_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of pipeline 4 on core `c`: the arrays as the region finds them; after the body at point `t`
    each input's buffer at its block and the output's at `out4_5` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«156083_j22471268893342_1_alg».proof.Proof.Gen.KernelIdeal.Launch
import proofs.«156083_j22471268893342_1_alg».proof.Proof.Gen.KernelIdeal.Skeleton
import proofs.«156083_j22471268893342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole output block: the body's one store. -/
abbrev r5_o : Rect S1x1024 := (Rect.unit (s := S1x1024) ![0, 0] S1x1024.size inb_S1x1024_S1x1024_0_0)

/-- The output window's staging buffer after the body, from the input windows' blocks. -/
def out5_3 (x0 : Vec F S1x2048 .f32) (x1 : Vec F S1024x2048 .f32) (x2 : Vec F S1x1024 .f32) : Vec F S1x1024 .f32 :=
  View.canon [⟨r5_o, k5_pay1 (View.ld x0 (Rect.unit (s := S1x2048) ![0, 0] S1x2048.size inb_S1x2048_S1x2048_0_0)) (View.ld x1 (Rect.unit (s := S1024x2048) ![0, 0] S1024x2048.size inb_S1024x2048_S1024x2048_0_0)) (View.ld x2 (Rect.unit (s := S1x1024) ![0, 0] S1x1024.size inb_S1x1024_S1x1024_0_0))⟩]

/-- The one store covers the buffer. -/
theorem cover5_3 (p0 : Vec F S1x1024 .f32) (y : S1x1024.Idx) :
    ∃ pc ∈ ([⟨r5_o, p0⟩] : List (View.Piece (Elt F) S1x1024 .f32)), y ∈ pc.1.set :=
  View.cover_of_tiled [⟨r5_o, p0⟩] S1x1024.size (by rfl) y

set_option maxHeartbeats 1000000 in
/-- The body on whole staging memrefs, the inputs' at contents `xW` and the output's at anything, runs to the
    continuation holding the inputs' as they were and the output's at `out5_3` of the inputs'. -/
theorem sound_kernel5 (c : Dev nD) (E : Set ℕ) (i : grid5.Coords) (arg1 : Memref sig .tc .vmem S1x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__linear_t_kernel i arg1 harg1 arg2 harg2 arg3 harg3 arg4 harg4) K := by
  simp only [cc5__linear_t_kernel_eq_skeleton]; unfold cc5__linear_t_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body at point `t`
    each input's buffer at its block and the output's at `out5_3` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«156083_j22471268893342_1_alg».proof.Proof.Gen.KernelIdeal.Launch
import proofs.«156083_j22471268893342_1_alg».proof.Proof.Gen.KernelIdeal.Skeleton
import proofs.«156083_j22471268893342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the body at any grid point

At a parameter `V` (what each buffer of the TensorCore holds when the region is entered): the block of each
window at a grid point, what the body leaves in the output window's buffer (its one whole-block store of the
payload of the input blocks), the body's triple, the proof data of the pipeline and the body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole output block: the body's one store. -/
abbrev r6_o : Rect S1x81 := (Rect.unit (s := S1x81) ![0, 0] S1x81.size inb_S1x81_S1x81_0_0)

/-- The output window's staging buffer after the body, from the input windows' blocks. -/
def out6_3 (x0 : Vec F S1x2048 .f32) (x1 : Vec F S81x2048 .f32) (x2 : Vec F S1x81 .f32) : Vec F S1x81 .f32 :=
  View.canon [⟨r6_o, k6_pay1 (View.ld x0 (Rect.unit (s := S1x2048) ![0, 0] S1x2048.size inb_S1x2048_S1x2048_0_0)) (View.ld x1 (Rect.unit (s := S81x2048) ![0, 0] S81x2048.size inb_S81x2048_S81x2048_0_0)) (View.ld x2 (Rect.unit (s := S1x81) ![0, 0] S1x81.size inb_S1x81_S1x81_0_0))⟩]

/-- The one store covers the buffer. -/
theorem cover6_3 (p0 : Vec F S1x81 .f32) (y : S1x81.Idx) :
    ∃ pc ∈ ([⟨r6_o, p0⟩] : List (View.Piece (Elt F) S1x81 .f32)), y ∈ pc.1.set :=
  View.cover_of_tiled [⟨r6_o, p0⟩] S1x81.size (by rfl) y

set_option maxHeartbeats 1000000 in
/-- The body on whole staging memrefs, the inputs' at contents `xW` and the output's at anything, runs to the
    continuation holding the inputs' as they were and the output's at `out6_3` of the inputs'. -/
theorem sound_kernel6 (c : Dev nD) (E : Set ℕ) (i : grid6.Coords) (arg1 : Memref sig .tc .vmem S1x2048 .f32) (harg1 : arg1.IsWhole) (arg2 : Memref sig .tc .vmem S81x2048 .f32) (harg2 : arg2.IsWhole) (arg3 : Memref sig .tc .vmem S1x81 .f32) (harg3 : arg3.IsWhole) (arg4 : Memref sig .tc .vmem S1x81 .f32) (harg4 : arg4.IsWhole)
    (x0 : Vec F S1x2048 .f32) (x1 : Vec F S81x2048 .f32) (x2 : Vec F S1x81 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__linear_t_kernel i arg1 harg1 arg2 harg2 arg3 harg3 arg4 harg4) K := by
  simp only [cc6__linear_t_kernel_eq_skeleton]; unfold cc6__linear_t_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t`
    each input's buffer at its block and the output's at `out6_3` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.RunA.lean ====
import proofs.«156083_j22471268893342_1_alg».proof.Proof.KI.Reg0
import proofs.«156083_j22471268893342_1_alg».proof.Proof.KI.Reg1
import proofs.«156083_j22471268893342_1_alg».proof.Proof.KI.Reg2
import proofs.«156083_j22471268893342_1_alg».proof.Proof.KI.Reg3
import proofs.«156083_j22471268893342_1_alg».proof.Proof.KI.Reg4
import proofs.«156083_j22471268893342_1_alg».proof.Proof.KI.Reg5
import proofs.«156083_j22471268893342_1_alg».proof.Proof.KI.Reg6

/-! # The run of @main, first half: what every buffer holds between two items

@main is eighteen items: eleven stretches of host operations and seven kernel regions. Between two items the
TensorCore's unscoped buffers hold a valuation `Wj`: the launch memory, then each host stretch's operations applied
in order, then at a region's exit its arrays at what its pipeline leaves (the inputs as entered, the output at its
write-backs) and every other buffer as entered. No item writes an argument array, so each argument is read back
through all eighteen to its launch contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_c, main_v1, main_c_0, main_v2, main_v3, main_c_1, main_v4, main_v5, main_v6, main_v7, main_v8, main_v9, main_v10, main_v11, main_v12, main_v13, main_v14]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_cst, main_v16, main_cst_2, main_v17, main_v18, main_v19, main_v20, main_v21, main_v22, main_cst_3, main_v23, main_v24, main_v25, main_v26]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v28, main_v29]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_call0_cst, main_call0_v0, main_v31]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps3_1` allocates a buffer. -/
theorem hostOps3_1_fresh : (hostOps3_1 : List (HloOp τ sig (Elt F))).Forall fun op => op.fresh = ∅ := by
  simp only [List.Forall]; repeat' constructor
/-- The references `hostOps3_1`'s operations write. -/
abbrev hostOps3_1_W : List (Ref sig .tc) := [main_v32, main_v33, main_v34]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v36]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v38, main_v39, main_v40, main_v41, main_v42, main_v43, main_cst_4, main_v44, main_v45, main_cst_5, main_v46, main_v47, main_v48, main_v49, main_v50, main_cst_6, main_v51, main_v52, main_cst_7, main_v53, main_v54, main_v55, main_v56, main_v57, main_v58, main_v59, main_cst_8, main_v60, main_v61, main_cst_9, main_v62, main_v63, main_v64, main_v65, main_v66, main_v67, main_v68, main_v69, main_v70, main_v71, main_cst_10, main_v72, main_v73, main_cst_11, main_v74, main_v75, main_v76, main_v77, main_v78, main_cst_12, main_v79, main_v80, main_cst_13, main_v81, main_v82, main_v83, main_v84, main_v85, main_v86, main_v87, main_cst_14, main_v88, main_v89, main_cst_15, main_v90, main_v91, main_v92, main_v93, main_v94, main_v95, main_v96, main_v97, main_v98, main_v99]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps6` allocates a buffer. -/
theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_v101]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7` allocates a buffer. -/
theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v103]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7_1` allocates a buffer. -/
theorem hostOps7_1_fresh : (hostOps7_1 : List (HloOp τ sig (Elt F))).Forall fun op => op.fresh = ∅ := by
  simp only [List.Forall]; repeat' constructor
/-- The references `hostOps7_1`'s operations write. -/
abbrev hostOps7_1_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v104]
theorem hostOps7_1_writes : (hostOps7_1 : List (HloOp τ sig (Elt F))).Forall fun op => op.writes ⊆ (hostOps7_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7_2` allocates a buffer. -/
theorem hostOps7_2_fresh : (hostOps7_2 : List (HloOp τ sig (Elt F))).Forall fun op => op.fresh = ∅ := by
  simp only [List.Forall]; repeat' constructor
/-- The references `hostOps7_2`'s operations write. -/
abbrev hostOps7_2_W : List (Ref sig .tc) := [main_v105, main_v106, main_v107, main_v108, main_v109, main_v110]
theorem hostOps7_2_writes : (hostOps7_2 : List (HloOp τ sig (Elt F))).Forall fun op => op.writes ⊆ (hostOps7_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- Core `c`'s buffers at launch. -/
abbrev W0 : Dev nD → Valuation τ sig (Elt F) := fun c b => (s₀ m ρ).mem ((c : Dev nD), b)
theorem W0_args (c : Dev nD) (a : Ref sig .tc) (ha : a ∈ argRefs) : W0 m ρ c (Proc.devRef .tc a) = m ((c : Thread nD τ).loc a) := rfl

/-- After item 0, the host stretch `hostOps0`. -/
abbrev W1 : Dev nD → Valuation τ sig (Elt F) := fun c => StableHlo.after hostOps0 (W0 m ρ c)
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) (a : Ref sig .tc) (ha : a ∈ argRefs) : W1 m ρ c (Proc.devRef .tc a) = m ((c : Thread nD τ).loc a) :=
  (W1_keep m ρ c a ((by decide : ∀ a ∈ argRefs, a ∉ hostOps0_W) a ha)).trans (W0_args m ρ c a ha)

/-- The same read at the TensorCore's references: what region 0's proof data take. -/
abbrev V1 : (c : Dev nD) → (b : Ref sig .tc) → Buf (Elt F) ((c : Thread nD τ).loc b) := fun c b => W1 m ρ c b
/-- After item 1, region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array `main_v15`: an input window's array ends as entered. -/
theorem W2_keep (c : Dev nD) (r : Ref sig .tc) (h : r ≠ main_v15) : W2 m ρ c (Proc.devRef .tc r) = W1 m ρ c (Proc.devRef .tc r) := by
  by_cases hr : ∀ w, Pipeline.arrRef spec0 w ≠ r
  · exact W2_of_ne m ρ c r hr
  · obtain ⟨w, rfl⟩ := not_forall_not.mp hr
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl h
theorem W2_args (c : Dev nD) (a : Ref sig .tc) (ha : a ∈ argRefs) : W2 m ρ c (Proc.devRef .tc a) = m ((c : Thread nD τ).loc a) :=
  (W2_keep m ρ c a ((by decide : ∀ a ∈ argRefs, a ≠ main_v15) a ha)).trans (W1_args m ρ c a ha)

/-- After item 2, the host stretch `hostOps1`. -/
abbrev W3 : Dev nD → Valuation τ sig (Elt F) := fun c => StableHlo.after hostOps1 (W2 m ρ c)
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) (a : Ref sig .tc) (ha : a ∈ argRefs) : W3 m ρ c (Proc.devRef .tc a) = m ((c : Thread nD τ).loc a) :=
  (W3_keep m ρ c a ((by decide : ∀ a ∈ argRefs, a ∉ hostOps1_W) a ha)).trans (W2_args m ρ c a ha)

/-- The same read at the TensorCore's references: what region 1's proof data take. -/
abbrev V3 : (c : Dev nD) → (b : Ref sig .tc) → Buf (Elt F) ((c : Thread nD τ).loc b) := fun c b => W3 m ρ c b
/-- After item 3, region 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array `main_v27`: an input window's array ends as entered. -/
theorem W4_keep (c : Dev nD) (r : Ref sig .tc) (h : r ≠ main_v27) : W4 m ρ c (Proc.devRef .tc r) = W3 m ρ c (Proc.devRef .tc r) := by
  by_cases hr : ∀ w, Pipeline.arrRef spec1 w ≠ r
  · exact W4_of_ne m ρ c r hr
  · obtain ⟨w, rfl⟩ := not_forall_not.mp hr
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact absurd rfl h
theorem W4_args (c : Dev nD) (a : Ref sig .tc) (ha : a ∈ argRefs) : W4 m ρ c (Proc.devRef .tc a) = m ((c : Thread nD τ).loc a) :=
  (W4_keep m ρ c a ((by decide : ∀ a ∈ argRefs, a ≠ main_v27) a ha)).trans (W3_args m ρ c a ha)

/-- After item 4, the host stretch `hostOps2`. -/
abbrev W5 : Dev nD → Valuation τ sig (Elt F) := fun c => StableHlo.after hostOps2 (W4 m ρ c)
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) (a : Ref sig .tc) (ha : a ∈ argRefs) : W5 m ρ c (Proc.devRef .tc a) = m ((c : Thread nD τ).loc a) :=
  (W5_keep m ρ c a ((by decide : ∀ a ∈ argRefs, a ∉ hostOps2_W) a ha)).trans (W4_args m ρ c a ha)

/-- The same read at the TensorCore's references: what region 2's proof data take. -/
abbrev V5 : (c : Dev nD) → (b : Ref sig .tc) → Buf (Elt F) ((c : Thread nD τ).loc b) := fun c b => W5 m ρ c b
/-- After item 5, region 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes only its output array `main_v30`: an input window's array ends as entered. -/
theorem W6_keep (c : Dev nD) (r : Ref sig .tc) (h : r ≠ main_v30) : W6 m ρ c (Proc.devRef .tc r) = W5 m ρ c (Proc.devRef .tc r) := by
  by_cases hr : ∀ w, Pipeline.arrRef spec2 w ≠ r
  · exact W6_of_ne m ρ c r hr
  · obtain ⟨w, rfl⟩ := not_forall_not.mp hr
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd rfl h
theorem W6_args (c : Dev nD) (a : Ref sig .tc) (ha : a ∈ argRefs) : W6 m ρ c (Proc.devRef .tc a) = m ((c : Thread nD τ).loc a) :=
  (W6_keep m ρ c a ((by decide : ∀ a ∈ argRefs, a ≠ main_v30) a ha)).trans (W5_args m ρ c a ha)

/-- After item 6, the host stretch `hostOps3`. -/
abbrev W7 : Dev nD → Valuation τ sig (Elt F) := fun c => StableHlo.after hostOps3 (W6 m ρ c)
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) (a : Ref sig .tc) (ha : a ∈ argRefs) : W7 m ρ c (Proc.devRef .tc a) = m ((c : Thread nD τ).loc a) :=
  (W7_keep m ρ c a ((by decide : ∀ a ∈ argRefs, a ∉ hostOps3_W) a ha)).trans (W6_args m ρ c a ha)

/-- After item 7, the host stretch `hostOps3_1`. -/
abbrev W8 : Dev nD → Valuation τ sig (Elt F) := fun c => StableHlo.after hostOps3_1 (W7 m ρ c)
theorem W8_keep (c : Dev nD) (r : Ref sig .tc) (h : r ∉ hostOps3_1_W) : W8 m ρ c (Proc.devRef .tc r) = W7 m ρ c (Proc.devRef .tc r) :=
  StableHlo.after_of_writes_sub hostOps3_1 _ hostOps3_1_writes h
theorem W8_args (c : Dev nD) (a : Ref sig .tc) (ha : a ∈ argRefs) : W8 m ρ c (Proc.devRef .tc a) = m ((c : Thread nD τ).loc a) :=
  (W8_keep m ρ c a ((by decide : ∀ a ∈ argRefs, a ∉ hostOps3_1_W) a ha)).trans (W7_args m ρ c a ha)

/-- The same read at the TensorCore's references: what region 3's proof data take. -/
abbrev V8 : (c : Dev nD) → (b : Ref sig .tc) → Buf (Elt F) ((c : Thread nD τ).loc b) := fun c b => W8 m ρ c b
/-- After item 8, region 3: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- Region 3 changes only its output array `main_v35`: an input window's array ends as entered. -/
theorem W9_keep (c : Dev nD) (r : Ref sig .tc) (h : r ≠ main_v35) : W9 m ρ c (Proc.devRef .tc r) = W8 m ρ c (Proc.devRef .tc r) := by
  by_cases hr : ∀ w, Pipeline.arrRef spec3 w ≠ r
  · exact W9_of_ne m ρ c r hr
  · obtain ⟨w, rfl⟩ := not_forall_not.mp hr
    match w with
    | ⟨0, _⟩ => exact (W9_arr m ρ c 0).trans (((dat3 (V8 m ρ) c).arrAt_in 0 rfl _).trans (A_eq3 (V8 m ρ) c 0))
    | ⟨1, _⟩ => exact (W9_arr m ρ c 1).trans (((dat3 (V8 m ρ) c).arrAt_in 1 rfl _).trans (A_eq3 (V8 m ρ) c 1))
    | ⟨2, _⟩ => exact (W9_arr m ρ c 2).trans (((dat3 (V8 m ρ) c).arrAt_in 2 rfl _).trans (A_eq3 (V8 m ρ) c 2))
    | ⟨3, _⟩ => exact (W9_arr m ρ c 3).trans (((dat3 (V8 m ρ) c).arrAt_in 3 rfl _).trans (A_eq3 (V8 m ρ) c 3))
    | ⟨4, _⟩ => exact (W9_arr m ρ c 4).trans (((dat3 (V8 m ρ) c).arrAt_in 4 rfl _).trans (A_eq3 (V8 m ρ) c 4))
    | ⟨5, _⟩ => exact absurd rfl h
theorem W9_args (c : Dev nD) (a : Ref sig .tc) (ha : a ∈ argRefs) : W9 m ρ c (Proc.devRef .tc a) = m ((c : Thread nD τ).loc a) :=
  (W9_keep m ρ c a ((by decide : ∀ a ∈ argRefs, a ≠ main_v35) a ha)).trans (W8_args m ρ c a ha)

/-- After item 9, the host stretch `hostOps4`. -/
abbrev W10 : Dev nD → Valuation τ sig (Elt F) := fun c => StableHlo.after hostOps4 (W9 m ρ c)
theorem W10_keep (c : Dev nD) (r : Ref sig .tc) (h : r ∉ hostOps4_W) : W10 m ρ c (Proc.devRef .tc r) = W9 m ρ c (Proc.devRef .tc r) :=
  StableHlo.after_of_writes_sub hostOps4 _ hostOps4_writes h
theorem W10_args (c : Dev nD) (a : Ref sig .tc) (ha : a ∈ argRefs) : W10 m ρ c (Proc.devRef .tc a) = m ((c : Thread nD τ).loc a) :=
  (W10_keep m ρ c a ((by decide : ∀ a ∈ argRefs, a ∉ hostOps4_W) a ha)).trans (W9_args m ρ c a ha)

/-- The same read at the TensorCore's references: what region 4's proof data take. -/
abbrev V10 : (c : Dev nD) → (b : Ref sig .tc) → Buf (Elt F) ((c : Thread nD τ).loc b) := fun c b => W10 m ρ c b
/-- After item 10, region 4: its arrays at what the pipeline leaves, every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)
/-- Region 4 changes only its output array `main_v37`: an input window's array ends as entered. -/
theorem W11_keep (c : Dev nD) (r : Ref sig .tc) (h : r ≠ main_v37) : W11 m ρ c (Proc.devRef .tc r) = W10 m ρ c (Proc.devRef .tc r) := by
  by_cases hr : ∀ w, Pipeline.arrRef spec4 w ≠ r
  · exact W11_of_ne m ρ c r hr
  · obtain ⟨w, rfl⟩ := not_forall_not.mp hr
    match w with
    | ⟨0, _⟩ => exact (W11_arr m ρ c 0).trans (((dat4 (V10 m ρ) c).arrAt_in 0 rfl _).trans (A_eq4 (V10 m ρ) c 0))
    | ⟨1, _⟩ => exact (W11_arr m ρ c 1).trans (((dat4 (V10 m ρ) c).arrAt_in 1 rfl _).trans (A_eq4 (V10 m ρ) c 1))
    | ⟨2, _⟩ => exact (W11_arr m ρ c 2).trans (((dat4 (V10 m ρ) c).arrAt_in 2 rfl _).trans (A_eq4 (V10 m ρ) c 2))
    | ⟨3, _⟩ => exact (W11_arr m ρ c 3).trans (((dat4 (V10 m ρ) c).arrAt_in 3 rfl _).trans (A_eq4 (V10 m ρ) c 3))
    | ⟨4, _⟩ => exact (W11_arr m ρ c 4).trans (((dat4 (V10 m ρ) c).arrAt_in 4 rfl _).trans (A_eq4 (V10 m ρ) c 4))
    | ⟨5, _⟩ => exact absurd rfl h
theorem W11_args (c : Dev nD) (a : Ref sig .tc) (ha : a ∈ argRefs) : W11 m ρ c (Proc.devRef .tc a) = m ((c : Thread nD τ).loc a) :=
  (W11_keep m ρ c a ((by decide : ∀ a ∈ argRefs, a ≠ main_v37) a ha)).trans (W10_args m ρ c a ha)

/-- After item 11, the host stretch `hostOps5`. -/
abbrev W12 : Dev nD → Valuation τ sig (Elt F) := fun c => StableHlo.after hostOps5 (W11 m ρ c)
theorem W12_keep (c : Dev nD) (r : Ref sig .tc) (h : r ∉ hostOps5_W) : W12 m ρ c (Proc.devRef .tc r) = W11 m ρ c (Proc.devRef .tc r) :=
  StableHlo.after_of_writes_sub hostOps5 _ hostOps5_writes h
theorem W12_args (c : Dev nD) (a : Ref sig .tc) (ha : a ∈ argRefs) : W12 m ρ c (Proc.devRef .tc a) = m ((c : Thread nD τ).loc a) :=
  (W12_keep m ρ c a ((by decide : ∀ a ∈ argRefs, a ∉ hostOps5_W) a ha)).trans (W11_args m ρ c a ha)

/-- The same read at the TensorCore's references: what region 5's proof data take. -/
abbrev V12 : (c : Dev nD) → (b : Ref sig .tc) → Buf (Elt F) ((c : Thread nD τ).loc b) := fun c b => W12 m ρ c b
/-- After item 12, region 5: its arrays at what the pipeline leaves, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)
/-- Region 5 changes only its output array `main_v100`: an input window's array ends as entered. -/
theorem W13_keep (c : Dev nD) (r : Ref sig .tc) (h : r ≠ main_v100) : W13 m ρ c (Proc.devRef .tc r) = W12 m ρ c (Proc.devRef .tc r) := by
  by_cases hr : ∀ w, Pipeline.arrRef spec5 w ≠ r
  · exact W13_of_ne m ρ c r hr
  · obtain ⟨w, rfl⟩ := not_forall_not.mp hr
    match w with
    | ⟨0, _⟩ => exact (W13_arr m ρ c 0).trans (((dat5 (V12 m ρ) c).arrAt_in 0 rfl _).trans (A_eq5 (V12 m ρ) c 0))
    | ⟨1, _⟩ => exact (W13_arr m ρ c 1).trans (((dat5 (V12 m ρ) c).arrAt_in 1 rfl _).trans (A_eq5 (V12 m ρ) c 1))
    | ⟨2, _⟩ => exact (W13_arr m ρ c 2).trans (((dat5 (V12 m ρ) c).arrAt_in 2 rfl _).trans (A_eq5 (V12 m ρ) c 2))
    | ⟨3, _⟩ => exact absurd rfl h
theorem W13_args (c : Dev nD) (a : Ref sig .tc) (ha : a ∈ argRefs) : W13 m ρ c (Proc.devRef .tc a) = m ((c : Thread nD τ).loc a) :=
  (W13_keep m ρ c a ((by decide : ∀ a ∈ argRefs, a ≠ main_v100) a ha)).trans (W12_args m ρ c a ha)

/-- After item 13, the host stretch `hostOps6`. -/
abbrev W14 : Dev nD → Valuation τ sig (Elt F) := fun c => StableHlo.after hostOps6 (W13 m ρ c)
theorem W14_keep (c : Dev nD) (r : Ref sig .tc) (h : r ∉ hostOps6_W) : W14 m ρ c (Proc.devRef .tc r) = W13 m ρ c (Proc.devRef .tc r) :=
  StableHlo.after_of_writes_sub hostOps6 _ hostOps6_writes h
theorem W14_args (c : Dev nD) (a : Ref sig .tc) (ha : a ∈ argRefs) : W14 m ρ c (Proc.devRef .tc a) = m ((c : Thread nD τ).loc a) :=
  (W14_keep m ρ c a ((by decide : ∀ a ∈ argRefs, a ∉ hostOps6_W) a ha)).trans (W13_args m ρ c a ha)

/-- The same read at the TensorCore's references: what region 6's proof data take. -/
abbrev V14 : (c : Dev nD) → (b : Ref sig .tc) → Buf (Elt F) ((c : Thread nD τ).loc b) := fun c b => W14 m ρ c b
/-- After item 14, region 6: its arrays at what the pipeline leaves, every other buffer as entered. -/
def W15 (c : Dev nD) : Valuation τ sig (Elt F) :=
  Pipeline.withArrays spec6 c (W14 m ρ c) fun w => (dat6 (V14 m ρ) c).arrAt w cfg6.N
theorem W15_arr (c : Dev nD) (w : Fin cfg6.W) :
    W15 m ρ c (Proc.devRef .tc (Pipeline.arrRef spec6 w)) = (dat6 (V14 m ρ) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m ρ c (Proc.devRef .tc b) = W14 m ρ c (Proc.devRef .tc b) := by
  unfold W15; exact Pipeline.withArrays_of_ne spec6 c _ _ b hb
abbrev V15 : (c : Dev nD) → (b : Ref sig .tc) → Buf (Elt F) ((c : Thread nD τ).loc b) := fun c b => W15 m ρ c b
theorem hF6 (c : Dev nD) (w : Fin cfg6.W) : (dat6 (V14 m ρ) c).arrAt w cfg6.N = V15 m ρ c (Pipeline.arrRef spec6 w) :=
  (W15_arr m ρ c w).symm
theorem hrest6 (c : Dev nD) : ∀ b, b ∉ Finset.univ.image (Pipeline.arrRef spec6) → V15 m ρ c b = V14 m ρ c b :=
  fun b hb => W15_of_ne m ρ c b fun w e => hb (Finset.mem_image.mpr ⟨w, Finset.mem_univ _, e⟩)
/-- Region 6 changes only its output array `main_v102`: an input window's array ends as entered. -/
theorem W15_keep (c : Dev nD) (r : Ref sig .tc) (h : r ≠ main_v102) : W15 m ρ c (Proc.devRef .tc r) = W14 m ρ c (Proc.devRef .tc r) := by
  by_cases hr : ∀ w, Pipeline.arrRef spec6 w ≠ r
  · exact W15_of_ne m ρ c r hr
  · obtain ⟨w, rfl⟩ := not_forall_not.mp hr
    match w with
    | ⟨0, _⟩ => exact (W15_arr m ρ c 0).trans (((dat6 (V14 m ρ) c).arrAt_in 0 rfl _).trans (A_eq6 (V14 m ρ) c 0))
    | ⟨1, _⟩ => exact (W15_arr m ρ c 1).trans (((dat6 (V14 m ρ) c).arrAt_in 1 rfl _).trans (A_eq6 (V14 m ρ) c 1))
    | ⟨2, _⟩ => exact (W15_arr m ρ c 2).trans (((dat6 (V14 m ρ) c).arrAt_in 2 rfl _).trans (A_eq6 (V14 m ρ) c 2))
    | ⟨3, _⟩ => exact absurd rfl h
theorem W15_args (c : Dev nD) (a : Ref sig .tc) (ha : a ∈ argRefs) : W15 m ρ c (Proc.devRef .tc a) = m ((c : Thread nD τ).loc a) :=
  (W15_keep m ρ c a ((by decide : ∀ a ∈ argRefs, a ≠ main_v102) a ha)).trans (W14_args m ρ c a ha)

/-- After item 15, the host stretch `hostOps7`. -/
abbrev W16 : Dev nD → Valuation τ sig (Elt F) := fun c => StableHlo.after hostOps7 (W15 m ρ c)
theorem W16_keep (c : Dev nD) (r : Ref sig .tc) (h : r ∉ hostOps7_W) : W16 m ρ c (Proc.devRef .tc r) = W15 m ρ c (Proc.devRef .tc r) :=
  StableHlo.after_of_writes_sub hostOps7 _ hostOps7_writes h
theorem W16_args (c : Dev nD) (a : Ref sig .tc) (ha : a ∈ argRefs) : W16 m ρ c (Proc.devRef .tc a) = m ((c : Thread nD τ).loc a) :=
  (W16_keep m ρ c a ((by decide : ∀ a ∈ argRefs, a ∉ hostOps7_W) a ha)).trans (W15_args m ρ c a ha)

/-- After item 16, the host stretch `hostOps7_1`. -/
abbrev W17 : Dev nD → Valuation τ sig (Elt F) := fun c => StableHlo.after hostOps7_1 (W16 m ρ c)
theorem W17_keep (c : Dev nD) (r : Ref sig .tc) (h : r ∉ hostOps7_1_W) : W17 m ρ c (Proc.devRef .tc r) = W16 m ρ c (Proc.devRef .tc r) :=
  StableHlo.after_of_writes_sub hostOps7_1 _ hostOps7_1_writes h
theorem W17_args (c : Dev nD) (a : Ref sig .tc) (ha : a ∈ argRefs) : W17 m ρ c (Proc.devRef .tc a) = m ((c : Thread nD τ).loc a) :=
  (W17_keep m ρ c a ((by decide : ∀ a ∈ argRefs, a ∉ hostOps7_1_W) a ha)).trans (W16_args m ρ c a ha)

/-- After item 17, the host stretch `hostOps7_2`. -/
abbrev W18 : Dev nD → Valuation τ sig (Elt F) := fun c => StableHlo.after hostOps7_2 (W17 m ρ c)
theorem W18_keep (c : Dev nD) (r : Ref sig .tc) (h : r ∉ hostOps7_2_W) : W18 m ρ c (Proc.devRef .tc r) = W17 m ρ c (Proc.devRef .tc r) :=
  StableHlo.after_of_writes_sub hostOps7_2 _ hostOps7_2_writes h
theorem W18_args (c : Dev nD) (a : Ref sig .tc) (ha : a ∈ argRefs) : W18 m ρ c (Proc.devRef .tc a) = m ((c : Thread nD τ).loc a) :=
  (W18_keep m ρ c a ((by decide : ∀ a ∈ argRefs, a ∉ hostOps7_2_W) a ha)).trans (W17_args m ρ c a ha)

/-! ## The proof data family and the thread state -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V8 m ρ) c
  | ⟨4, _⟩ => fun c => dat4 (V10 m ρ) c
  | ⟨5, _⟩ => fun c => dat5 (V12 m ρ) c
  | ⟨6, _⟩ => fun c => dat6 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.RegSeg0.lean ====
import proofs.«156083_j22471268893342_1_alg».proof.Proof.KI.RunA

/-! # Region 0 as a segment of the run

Entered with every unscoped buffer at `W1`, left with them at `W2`: the region's arrays are split out of the
unscoped buffers on the way in and put back at their exit contents on the way out; the generator register goes
into the pipeline's invariant and comes back; nothing is owed; the kernel has no semaphore of its own. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegSeg1.lean ====
import proofs.«156083_j22471268893342_1_alg».proof.Proof.KI.RunA

/-! # Region 1 as a segment of the run

Entered with every unscoped buffer at `W3`, left with them at `W4`: the region's arrays are split out of the
unscoped buffers on the way in and put back at their exit contents on the way out; the generator register goes
into the pipeline's invariant and comes back; nothing is owed; the kernel has no semaphore of its own. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegSeg2.lean ====
import proofs.«156083_j22471268893342_1_alg».proof.Proof.KI.RunA

/-! # Region 2 as a segment of the run

Entered with every unscoped buffer at `W5`, left with them at `W6`: the region's arrays are split out of the
unscoped buffers on the way in and put back at their exit contents on the way out; the generator register goes
into the pipeline's invariant and comes back; nothing is owed; the kernel has no semaphore of its own. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegSeg3.lean ====
import proofs.«156083_j22471268893342_1_alg».proof.Proof.KI.RunA

/-! # Region 3 as a segment of the run

Entered with every unscoped buffer at `W8`, left with them at `W9`: the region's arrays are split out of the
unscoped buffers on the way in and put back at their exit contents on the way out; the generator register goes
into the pipeline's invariant and comes back; nothing is owed; the kernel has no semaphore of its own. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegSeg4.lean ====
import proofs.«156083_j22471268893342_1_alg».proof.Proof.KI.RunA

/-! # Region 4 as a segment of the run

Entered with every unscoped buffer at `W10`, left with them at `W11`: the region's arrays are split out of the
unscoped buffers on the way in and put back at their exit contents on the way out; the generator register goes
into the pipeline's invariant and comes back; nothing is owed; the kernel has no semaphore of its own. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegSeg5.lean ====
import proofs.«156083_j22471268893342_1_alg».proof.Proof.KI.RunA

/-! # Region 5 as a segment of the run

Entered with every unscoped buffer at `W12`, left with them at `W13`: the region's arrays are split out of the
unscoped buffers on the way in and put back at their exit contents on the way out; the generator register goes
into the pipeline's invariant and comes back; nothing is owed; the kernel has no semaphore of its own. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegSeg6.lean ====
import proofs.«156083_j22471268893342_1_alg».proof.Proof.KI.RunA

/-! # Region 6 as a segment of the run

Entered with every unscoped buffer at `W14`, left with them at `W15`: the region's arrays are split out of the
unscoped buffers on the way in and put back at their exit contents on the way out; the generator register goes
into the pipeline's invariant and comes back; nothing is owed; the kernel has no semaphore of its own. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V14 m ρ) c).loose
  hwaits := Pipeline.hwaits_of_owed_zero _ _ _ _ L lv 6 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec6 c (V14 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V14 m ρ c) (V15 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunB.lean ====
import proofs.«156083_j22471268893342_1_alg».proof.Proof.KI.RegSeg0
import proofs.«156083_j22471268893342_1_alg».proof.Proof.KI.RegSeg1
import proofs.«156083_j22471268893342_1_alg».proof.Proof.KI.RegSeg2
import proofs.«156083_j22471268893342_1_alg».proof.Proof.KI.RegSeg3
import proofs.«156083_j22471268893342_1_alg».proof.Proof.KI.RegSeg4
import proofs.«156083_j22471268893342_1_alg».proof.Proof.KI.RegSeg5
import proofs.«156083_j22471268893342_1_alg».proof.Proof.KI.RegSeg6

/-! # The run of @main, second half: the launch over the eighteen segments

Every weakly fair execution of @main from a memory `m` with zero counters terminates, nothing faulting, and in every
final state each unscoped buffer of core `c` holds `W18 m ρ c`: the launch memory folded through the eleven host
stretches and the seven regions. The frame claim (each argument array as launched) and the values of the four
results are read off that valuation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's eighteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .host (hseg hostOps6 hostOps6_sub hostOps6_fresh (W13 m ρ)),
    .region (reg6 m ρ),
    .host (hseg hostOps7 hostOps7_sub hostOps7_fresh (W15 m ρ)),
    .host (hseg hostOps7_1 hostOps7_1_sub hostOps7_1_fresh (W16 m ρ)),
    .host (hseg hostOps7_2 hostOps7_2_sub hostOps7_2_fresh (W17 m ρ)) ]
/-- @main is the run of the segments. -/
theorem main_run (c : Dev nD) : main (F := F) c = Pipeline.Seg.run (segs m ρ) := (main_chain c).trans (by chain_rfl)

/-- The last thread state without the dues: every unscoped buffer at the last valuation, the generator register at some state. -/
abbrev Tₙ (c : Dev nD) : sProp 𝕄 := iprop(StableHlo.held (c : Thread nD τ) (Pipeline.ucRefs τ sig) (W18 m ρ c) ∗ ∃ r, prngReg c r)

set_option backward.isDefEq.respectTransparency.types false in
/-- THE RUN. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W18 m ρ c) ∗ ((∃ r, prngReg c r) ∗ ∃ W, owes (c : Thread nD τ) (0 : CellTallies nD τ sig Unit) W))
        ⊢ iprop((StableHlo.held (c : Thread nD τ) (Pipeline.ucRefs τ sig) (W18 m ρ c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (W18_args m ρ c main_arg0 (by decide)),
    (h c _ (mem_uc main_arg1 (by decide))).trans (W18_args m ρ c main_arg1 (by decide)),
    (h c _ (mem_uc main_arg2 (by decide))).trans (W18_args m ρ c main_arg2 (by decide)),
    (h c _ (mem_uc main_arg3 (by decide))).trans (W18_args m ρ c main_arg3 (by decide)),
    (h c _ (mem_uc main_arg4 (by decide))).trans (W18_args m ρ c main_arg4 (by decide)),
    (h c _ (mem_uc main_arg5 (by decide))).trans (W18_args m ρ c main_arg5 (by decide)),
    (h c _ (mem_uc main_arg6 (by decide))).trans (W18_args m ρ c main_arg6 (by decide)),
    (h c _ (mem_uc main_arg7 (by decide))).trans (W18_args m ρ c main_arg7 (by decide)),
    (h c _ (mem_uc main_arg8 (by decide))).trans (W18_args m ρ c main_arg8 (by decide)),
    (h c _ (mem_uc main_arg9 (by decide))).trans (W18_args m ρ c main_arg9 (by decide)),
    (h c _ (mem_uc main_arg10 (by decide))).trans (W18_args m ρ c main_arg10 (by decide)),
    (h c _ (mem_uc main_arg11 (by decide))).trans (W18_args m ρ c main_arg11 (by decide)),
    (h c _ (mem_uc main_arg12 (by decide))).trans (W18_args m ρ c main_arg12 (by decide)),
    (h c _ (mem_uc main_arg13 (by decide))).trans (W18_args m ρ c main_arg13 (by decide)),
    (h c _ (mem_uc main_arg14 (by decide))).trans (W18_args m ρ c main_arg14 (by decide)),
    (h c _ (mem_uc main_arg15 (by decide))).trans (W18_args m ρ c main_arg15 (by decide)),
    (h c _ (mem_uc main_arg16 (by decide))).trans (W18_args m ρ c main_arg16 (by decide)),
    (h c _ (mem_uc main_arg17 (by decide))).trans (W18_args m ρ c main_arg17 (by decide)),
    (h c _ (mem_uc main_arg18 (by decide))).trans (W18_args m ρ c main_arg18 (by decide))⟩) (run_main m ρ)

end Cert.KernelIdeal.Hand

end
-- ==== Proof.KI.Val0.lean ====
import proofs.«156083_j22471268893342_1_alg».proof.Proof.KI.Reg0
import proofs.«156083_j22471268893342_1_alg».proof.Proof.Spec
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-! # Region 0: the array it leaves is `x · wᵀ + b`

The body's payload at a column is the row's product with that row of the weight block plus the bias entry; the
blocks of the grid's points are the array's column blocks, so the output array ends at the specification. -/

/-- The payload at column `q` of the block: the contraction over the 2048 shared coordinates of the row with row `q`
    of the weight block (the block is transposed before the product), plus the bias block's entry. -/
theorem pay0_apply (x0 : Vec Ideal S1x2048 .f32) (x1 : Vec Ideal S1024x2048 .f32) (x2 : Vec Ideal S1x1024 .f32) (q : Fin 1024) :
    k0_pay1 x0 x1 x2 (ix2 0 q) = (∑ k : Fin 2048, x0 (ix2 0 k) * x1 (ix2 q k)) + x2 (ix2 0 q) := by
  unfold k0_pay1
  simp only [shapeCast_self]
  rw [addf_apply]
  refine congrArg (· + x2 (ix2 0 q)) ?_
  show FloatOps.matmul dot_S1x2048_S2048x1024_S1x1024_1_0_0_1_n_n none _ _ (constant S1x1024 .f32 0x00000000#32) (ix2 0 q) = _
  rw [Ideal.matmul_constant_zero_apply,
    ← Equiv.sum_comp (contrEquiv1 dot_S1x2048_S2048x1024_S1x1024_1_0_0_1_n_n 2048 rfl rfl).symm]
  refine Finset.sum_congr rfl fun k _ => ?_
  have ck := contrEquiv1_symm_val dot_S1x2048_S2048x1024_S1x1024_1_0_0_1_n_n 2048 rfl rfl k
  have hl : dot_S1x2048_S2048x1024_S1x1024_1_0_0_1_n_n.lhsIdx (ix2 0 q) ((contrEquiv1 _ 2048 rfl rfl).symm k) = ix2 0 k := by
    funext ax; apply Fin.ext
    match ax with
    | ⟨0, _⟩ => simp [DotDims.lhsIdx, dot_S1x2048_S2048x1024_S1x1024_1_0_0_1_n_n] <;> rfl
    | ⟨1, _⟩ => simp [DotDims.lhsIdx, dot_S1x2048_S2048x1024_S1x1024_1_0_0_1_n_n] <;> exact ck
  have hr : dot_S1x2048_S2048x1024_S1x1024_1_0_0_1_n_n.rhsIdx (ix2 0 q) ((contrEquiv1 _ 2048 rfl rfl).symm k) = ix2 k q := by
    funext ax; apply Fin.ext
    match ax with
    | ⟨0, _⟩ => simp [DotDims.rhsIdx, dot_S1x2048_S2048x1024_S1x1024_1_0_0_1_n_n] <;> exact ck
    | ⟨1, _⟩ => simp [DotDims.rhsIdx, dot_S1x2048_S2048x1024_S1x1024_1_0_0_1_n_n] <;> rfl
  rw [hl, hr, truncf_apply]
  refine congrArg (x0 (ix2 0 k) * ·) ?_
  refine (transpose_apply [1, 0] _ transposes_S1024x2048_p1_0_S2048x1024 (ix2 k q) (ix2 q k) ?_).trans ?_
  · intro b
    match b with
    | ⟨0, _⟩ => rfl
    | ⟨1, _⟩ => rfl
  · rfl

variable (V : (c : Dev nD) → (b : Ref sig .tc) → Buf (Elt Ideal) ((c : Thread nD τ).loc b))

/-- The zero offsets, as a constant function. -/
theorem zeros0 : (![0, 0] : Fin 2 → Nat) = fun _ => 0 := funext fun a => by fin_cases a <;> rfl

/-- At a point whose blocks are the row, rows `n·1024 …` of the weight and columns `n·1024 …` of the bias, the payload
    at column `j` of the block is the specification at column `n·1024 + j` of the array. -/
theorem point0 (A0 : S1x2048.Idx → EReal) (A1 : S2048x2048.Idx → EReal) (A2 : S1x2048.Idx → EReal)
    (x0 : Vec Ideal S1x2048 .f32) (x1 : Vec Ideal S1024x2048 .f32) (x2 : Vec Ideal S1x1024 .f32)
    (j : S1x1024.Idx) (i : S1x2048.Idx) (n : Nat)
    (hi : (i 1).val = n * 1024 + (j 1).val)
    (h0 : ∀ k : Fin 2048, x0 (ix2 0 k) = A0 (ix2 0 k))
    (h1 : ∀ (r : Fin 1024) (k : Fin 2048) (i' : S2048x2048.Idx), (i' 0).val = n * 1024 + r.val → (i' 1).val = k.val → x1 (ix2 r k) = A1 i')
    (h2 : ∀ (r : Fin 1024) (i' : S1x2048.Idx), (i' 1).val = n * 1024 + r.val → x2 (ix2 0 r) = A2 i') :
    k0_pay1 x0 x1 x2 j = Cert.Spec.linT 2048 2048 A0 A1 A2 i := by
  obtain ⟨p, q, rfl⟩ : ∃ (p : Fin 1) (q : Fin 1024), j = ix2 p q := ⟨j 0, j 1, eq_ix2 j⟩
  obtain rfl : p = 0 := Subsingleton.elim _ _
  rw [pay0_apply]
  unfold Cert.Spec.linT
  rw [h2 q (ix2 0 (i 1)) hi]
  refine congrArg (· + A2 (ix2 0 (i 1))) ?_
  refine Finset.sum_congr rfl fun k _ => ?_
  rw [h0 k, h1 q k (ix2 (i 1) k) hi rfl]

/-- The index maps over the grid: the row's block is fixed, the weight's block row and the bias's and the output's
    block column are the point. -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val ∧ t.val < 2 :=
  (by decide +kernel : ∀ t : Fin grid0.N, _)

/-- What point `t` writes back is block `t` of the specification. -/
theorem flushed0_eq (c : Dev nD) (t : Fin cfg0.N) :
    (dat0 (F := Ideal) V c).flushed 3 t = ((cfg0.win 3).blk t).view.read (Elt Ideal) (Cert.Spec.linT 2048 2048 (V c main_v13) (V c main_arg5) (V c main_v14)) := by
  show (cfg0.win 3).cut (grid0.coords t) ((dat0 V c).after 3 t) = _
  rw [after0_3]
  unfold out0_3
  rw [View.canon_unit_zero zeros0]
  simp only [View.ld_unit_zero (S := S1x2048) zeros0, View.ld_unit_zero (S := S1024x2048) zeros0, View.ld_unit_zero (S := S1x1024) zeros0]
  obtain ⟨e00, e01, e10, e11, e20, e21, e30, e31, hlt⟩ := idx_facts0 t
  funext j
  refine point0 (V c main_v13) (V c main_arg5) (V c main_v14) (iblk0 V c 0 t) (iblk0 V c 1 t) (iblk0 V c 2 t) j
    (((cfg0.win 3).blk t).view.emb j) t.val ?_ ?_ ?_ ?_
  · show win0_3.index t (1 : Fin 2) * 1024 + 1 * (j 1).val = _
    rw [e31]; omega
  · intro k
    show V c main_v13 (((cfg0.win 0).blk t).view.emb (ix2 0 k)) = V c main_v13 (ix2 0 k)
    refine congrArg (V c main_v13) (funext fun a => Fin.ext ?_)
    match a with
    | ⟨0, _⟩ => show win0_0.index t (0 : Fin 2) * 1 + 1 * 0 = 0; omega
    | ⟨1, _⟩ => show win0_0.index t (1 : Fin 2) * 2048 + 1 * k.val = k.val; omega
  · intro r k i' hi0 hi1
    show V c main_arg5 (((cfg0.win 1).blk t).view.emb (ix2 r k)) = V c main_arg5 i'
    refine congrArg (V c main_arg5) (funext fun a => Fin.ext ?_)
    match a with
    | ⟨0, _⟩ => show win0_1.index t (0 : Fin 2) * 1024 + 1 * r.val = (i' 0).val; omega
    | ⟨1, _⟩ => show win0_1.index t (1 : Fin 2) * 2048 + 1 * k.val = (i' 1).val; omega
  · intro r i' hi1
    show V c main_v14 (((cfg0.win 2).blk t).view.emb (ix2 0 r)) = V c main_v14 i'
    refine congrArg (V c main_v14) (funext fun a => Fin.ext ?_)
    have hi0 : (i' 0).val < 1 := (i' 0).isLt
    match a with
    | ⟨0, _⟩ => show win0_2.index t (0 : Fin 2) * 1 + 1 * 0 = (i' 0).val; omega
    | ⟨1, _⟩ => show win0_2.index t (1 : Fin 2) * 1024 + 1 * r.val = (i' 1).val; omega

/-- An index of the array is in point `t`'s block iff each coordinate is in the block's range on its axis. -/
theorem mem_blk0 (t : Fin cfg0.N) (i : S1x2048.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v15).slice (win0_3.rect t)).set ↔ _
  rw [View.set_slice_whole, Rect.mem_set_unit]
  exact Iff.rfl

/-- Column `n` of the array lies in the block of point `n / 1024`. -/
theorem cover0 (i : S1x2048.Idx) : ∃ t : Fin cfg0.N, (cfg0.win 3).flush t = true ∧ i ∈ ((cfg0.win 3).blk t).view.set := by
  have hi0 : (i 0).val < 1 := (i 0).isLt
  have hi1 : (i 1).val < 2048 := (i 1).isLt
  have hN : grid0.N = 2 := N_0
  have ht : (i 1).val / 1024 < cfg0.N := by show _ < grid0.N; omega
  refine ⟨⟨(i 1).val / 1024, ht⟩, flush0_3 _, ?_⟩
  rw [mem_blk0]
  obtain ⟨-, -, -, -, -, -, e30, e31, -⟩ := idx_facts0 ⟨(i 1).val / 1024, ht⟩
  have e31' : win0_3.index ⟨(i 1).val / 1024, ht⟩ (1 : Fin 2) = (i 1).val / 1024 := e31
  intro a
  match a with
  | ⟨0, _⟩ =>
    show win0_3.index ⟨(i 1).val / 1024, ht⟩ (0 : Fin 2) * 1 ≤ (i 0).val ∧ (i 0).val < win0_3.index ⟨(i 1).val / 1024, ht⟩ (0 : Fin 2) * 1 + 1
    omega
  | ⟨1, _⟩ =>
    show win0_3.index ⟨(i 1).val / 1024, ht⟩ (1 : Fin 2) * 1024 ≤ (i 1).val ∧ (i 1).val < win0_3.index ⟨(i 1).val / 1024, ht⟩ (1 : Fin 2) * 1024 + 1024
    omega

/-- The output array after the region: `x · wᵀ + b` of the three input arrays as the region finds them. -/
theorem final0 (V : (c : Dev nD) → (b : Ref sig .tc) → Buf (Elt Ideal) ((c : Thread nD τ).loc b)) (c : Dev nD) :
    (dat0 (F := Ideal) V c).arrAt 3 cfg0.N = Cert.Spec.linT 2048 2048 (V c main_v13) (V c main_arg5) (V c main_v14) :=
  (dat0 (F := Ideal) V c).arrAt_eq_of_cover 3 _ (fun t _ => flushed0_eq V c t) cover0

end Cert.KernelIdeal.Hand
end
-- ==== Proof.KI.Val1.lean ====
import proofs.«156083_j22471268893342_1_alg».proof.Proof.KI.Reg1
import proofs.«156083_j22471268893342_1_alg».proof.Proof.Spec
import Idealize.ShloMosaic.Lib.Pipeline.Value
import Idealize.ShloMosaic.Lib.ValueIdx
import Idealize.ShloMosaic.PureOps.Ideal.Laws

set_option maxRecDepth 16384

/-! # Region 1: the value of its output array

The region's one output array after its last grid point, at the exact instance: the row `x` times the weight `w`,
column by column. The body's payload at a column is the row against that column of the weight block; each block is
read where its window's index map puts it; the output's two blocks tile the array. -/

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-- The left operand's index of the product at an output index and a contracted coordinate: the output's row, -/
theorem lhs1_0 (i : S1x1024.Idx) (r : dot_S1x2048_S2048x1024_S1x1024_1_0_0_1_n_n.contr.Idx) :
    (dot_S1x2048_S2048x1024_S1x1024_1_0_0_1_n_n.lhsIdx i r 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
/-- and the contracted coordinate as its column; -/
theorem lhs1_1 (i : S1x1024.Idx) (r : dot_S1x2048_S2048x1024_S1x1024_1_0_0_1_n_n.contr.Idx) :
    (dot_S1x2048_S2048x1024_S1x1024_1_0_0_1_n_n.lhsIdx i r 1).val = (r ⟨0, by decide⟩).val :=
  dot_S1x2048_S2048x1024_S1x1024_1_0_0_1_n_n.lhsIdx_val_of_single rfl i r
/-- the right operand's: the contracted coordinate as its row, -/
theorem rhs1_0 (i : S1x1024.Idx) (r : dot_S1x2048_S2048x1024_S1x1024_1_0_0_1_n_n.contr.Idx) :
    (dot_S1x2048_S2048x1024_S1x1024_1_0_0_1_n_n.rhsIdx i r 0).val = (r ⟨0, by decide⟩).val :=
  dot_S1x2048_S2048x1024_S1x1024_1_0_0_1_n_n.rhsIdx_val_of_single rfl i r
/-- and the output's column. -/
theorem rhs1_1 (i : S1x1024.Idx) (r : dot_S1x2048_S2048x1024_S1x1024_1_0_0_1_n_n.contr.Idx) :
    (dot_S1x2048_S2048x1024_S1x1024_1_0_0_1_n_n.rhsIdx i r 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- The body's payload at column `q`: the row times column `q` of the weight block. -/
theorem pay1_apply (x0 : Vec Ideal S1x2048 .f32) (x1 : Vec Ideal S2048x1024 .f32) (q : Fin 1024) :
    k1_pay1 (F := Ideal) x0 x1 (ix2 0 q) = ∑ k : Fin 2048, x0 (ix2 0 k) * x1 (ix2 k q) := by
  unfold k1_pay1
  simp only [shapeCast_self]
  show FloatOps.matmul dot_S1x2048_S2048x1024_S1x1024_1_0_0_1_n_n none _ _ (constant S1x1024 .f32 0x00000000#32) (ix2 0 q) = _
  rw [Ideal.matmul_constant_zero_apply, ← Equiv.sum_comp (contrEquiv1 dot_S1x2048_S2048x1024_S1x1024_1_0_0_1_n_n 2048 rfl rfl).symm]
  refine Finset.sum_congr rfl fun k _ => ?_
  have hk := contrEquiv1_symm_val dot_S1x2048_S2048x1024_S1x1024_1_0_0_1_n_n 2048 rfl rfl k
  have el : dot_S1x2048_S2048x1024_S1x1024_1_0_0_1_n_n.lhsIdx (ix2 0 q) ((contrEquiv1 dot_S1x2048_S2048x1024_S1x1024_1_0_0_1_n_n 2048 rfl rfl).symm k) = ix2 0 k := funext fun a => Fin.ext (by
    match a with
    | ⟨0, _⟩ => exact lhs1_0 _ _
    | ⟨1, _⟩ => exact (lhs1_1 _ _).trans hk)
  have er : dot_S1x2048_S2048x1024_S1x1024_1_0_0_1_n_n.rhsIdx (ix2 0 q) ((contrEquiv1 dot_S1x2048_S2048x1024_S1x1024_1_0_0_1_n_n 2048 rfl rfl).symm k) = ix2 k q := funext fun a => Fin.ext (by
    match a with
    | ⟨0, _⟩ => exact (rhs1_0 _ _).trans hk
    | ⟨1, _⟩ => exact rhs1_1 _ _)
  rw [el, er]
  rfl

variable (V : (c : Dev nD) → (b : Ref sig .tc) → Buf (Elt Ideal) ((c : Thread nD τ).loc b))

/-- The payload at any index of the output block: only the column matters, the block has one row. -/
theorem pay1_at (x0 : Vec Ideal S1x2048 .f32) (x1 : Vec Ideal S2048x1024 .f32) (j : S1x1024.Idx) :
    k1_pay1 (F := Ideal) x0 x1 j = ∑ k : Fin 2048, x0 (ix2 0 k) * x1 (ix2 k (j 1)) := by
  obtain ⟨p, q, rfl⟩ : ∃ (p : Fin 1) (q : Fin 1024), j = ix2 p q := ⟨j 0, j 1, eq_ix2 j⟩
  obtain rfl : p = 0 := Subsingleton.elim _ _
  exact pay1_apply x0 x1 q

theorem hz1 : (![0, 0] : Fin 2 → Nat) = fun _ => 0 := funext fun a => by fin_cases a <;> rfl

/-- The printed index maps, decided over the grid: the row's window stays at block (0, 0); the weight's and the
    output's windows are at block column `t`. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- The row's block at any point is the row. -/
theorem iblk1_0_apply (c : Dev nD) (t : Fin cfg1.N) (k : Fin 2048) :
    (iblk1 V c 0 t : Vec Ideal S1x2048 .f32) (ix2 0 k) = (V c main_v26 : S1x2048.Idx → EReal) (ix2 0 k) := by
  obtain ⟨e0, e1, -⟩ := idx_facts1 t
  unfold iblk1
  rw [View.read_apply]
  show V c main_v26 _ = V c main_v26 _
  refine congrArg _ ?_
  funext a
  apply Fin.ext
  match a with
  | ⟨0, _⟩ => show win1_0.index t (0 : Fin 2) * 1 + 1 * 0 = 0; rw [e0]
  | ⟨1, _⟩ => show win1_0.index t (1 : Fin 2) * 2048 + 1 * k.val = k.val; rw [e1]; omega

/-- The weight's block at point `t` is columns `1024 t … 1024 t + 1023` of the weight. -/
theorem iblk1_1_apply (c : Dev nD) (t : Fin cfg1.N) (k : Fin 2048) (q : Fin 1024) (n : Fin 2048)
    (hn : n.val = t.val * 1024 + q.val) :
    (iblk1 V c 1 t : Vec Ideal S2048x1024 .f32) (ix2 k q) = (V c main_arg3 : S2048x2048.Idx → EReal) (ix2 k n) := by
  obtain ⟨-, -, e0, e1, -⟩ := idx_facts1 t
  unfold iblk1
  rw [View.read_apply]
  show V c main_arg3 _ = V c main_arg3 _
  refine congrArg _ ?_
  funext a
  apply Fin.ext
  match a with
  | ⟨0, _⟩ => show win1_1.index t (0 : Fin 2) * 2048 + 1 * k.val = k.val; rw [e0]; omega
  | ⟨1, _⟩ => show win1_1.index t (1 : Fin 2) * 1024 + 1 * q.val = n.val; rw [e1, hn]; omega

/-- WHAT POINT `t` WRITES BACK is block `t` of the product of the row with the weight. -/
theorem flushed1_eq (c : Dev nD) (t : Fin cfg1.N) :
    (dat1 (F := Ideal) V c).flushed 2 t
      = ((cfg1.win 2).blk t).view.read (Elt Ideal) (Cert.Spec.lin 2048 2048 (V c main_v26) (V c main_arg3)) := by
  show (cfg1.win 2).cut (grid1.coords t) ((dat1 (F := Ideal) V c).after 2 t) = _
  rw [after1_2]
  unfold out1_2
  rw [View.canon_unit_zero hz1]
  simp only [View.ld_unit_zero (S := S1x2048) hz1, View.ld_unit_zero (S := S2048x1024) hz1]
  obtain ⟨-, -, -, -, e0, e1⟩ := idx_facts1 t
  funext j
  refine (pay1_at (iblk1 V c 0 t) (iblk1 V c 1 t) ((cfg1.win 2).xinj (grid1.coords t) j)).trans ?_
  show _ = Cert.Spec.lin 2048 2048 (V c main_v26) (V c main_arg3) (((cfg1.win 2).blk t).view.emb j)
  unfold Cert.Spec.lin
  refine Finset.sum_congr rfl fun k _ => ?_
  rw [iblk1_0_apply V c t k]
  have hn : ((((cfg1.win 2).blk t).view.emb j) (1 : Fin 2)).val = t.val * 1024 + (((cfg1.win 2).xinj (grid1.coords t) j) (1 : Fin 2)).val := by
    show win1_2.index t (1 : Fin 2) * 1024 + 1 * (j (1 : Fin 2)).val = t.val * 1024 + (j (1 : Fin 2)).val
    rw [e1]; omega
  rw [iblk1_1_apply V c t k _ _ hn]

/-- An index of the output array is in point `t`'s block iff each coordinate is in the block's range on its axis. -/
theorem mem_blk1 (t : Fin cfg1.N) (i : S1x2048.Idx) :
    i ∈ ((cfg1.win 2).blk t).view.set ↔ ∀ a : Fin 2, win1_2.index t a * S1x1024.size a ≤ (i a).val ∧ (i a).val < win1_2.index t a * S1x1024.size a + S1x1024.size a := by
  show i ∈ ((View.whole main_v27).slice (win1_2.rect t)).set ↔ _
  rw [View.set_slice_whole, Rect.mem_set_unit]
  exact Iff.rfl

/-- Every column of the output lies in the block of the point `column / 1024`. -/
theorem cover1 (i : S1x2048.Idx) : ∃ t : Fin cfg1.N, (cfg1.win 2).flush t = true ∧ i ∈ ((cfg1.win 2).blk t).view.set := by
  have hi0 : (i 0).val < 1 := (i 0).isLt
  have hi1 : (i 1).val < 2048 := (i 1).isLt
  have hN : cfg1.N = 2 := N_1
  refine ⟨⟨(i 1).val / 1024, by rw [hN]; omega⟩, flush1_2 _, ?_⟩
  rw [mem_blk1]
  obtain ⟨-, -, -, -, e0, e1⟩ := idx_facts1 ⟨(i 1).val / 1024, by rw [hN]; omega⟩
  intro a
  match a with
  | ⟨0, _⟩ => show win1_2.index _ (0 : Fin 2) * 1 ≤ (i 0).val ∧ (i 0).val < win1_2.index _ (0 : Fin 2) * 1 + 1; rw [e0]; omega
  | ⟨1, _⟩ => show win1_2.index _ (1 : Fin 2) * 1024 ≤ (i 1).val ∧ (i 1).val < win1_2.index _ (1 : Fin 2) * 1024 + 1024; rw [e1]; show (i 1).val / 1024 * 1024 ≤ (i 1).val ∧ (i 1).val < (i 1).val / 1024 * 1024 + 1024; omega

/-- THE OUTPUT ARRAY after the region: the row times the weight, column by column. -/
theorem final1 (V : (c : Dev nD) → (b : Ref sig .tc) → Buf (Elt Ideal) ((c : Thread nD τ).loc b)) (c : Dev nD) :
    (dat1 (F := Ideal) V c).arrAt 2 cfg1.N = Cert.Spec.lin 2048 2048 (V c main_v26) (V c main_arg3) :=
  (dat1 (F := Ideal) V c).arrAt_eq_of_cover 2 _ (fun t _ => flushed1_eq V c t) cover1

end Cert.KernelIdeal.Hand

end
-- ==== Proof.KLaws.lean ====
import proofs.«156083_j22471268893342_1_alg».proof.KernelIdeal
import proofs.«156083_j22471268893342_1_alg».proof.Proof.Spec
import Idealize.ShloMosaic.Lib.Pipeline.Value
import Idealize.ShloMosaic.Lib.ValueLayout
import Idealize.ShloMosaic.Lib.ValueIdx

/-! # The host-side layout operations of the kernel program, read at an index

A bias vector cast to a one-row matrix reads, at column `n`, the vector at `n`. The output projection is computed as a
head of 50176 columns and a tail of 81 columns joined along the column axis: column `n` below 50176 is the head's
column `n`, column `n` from 50176 on is the tail's column `n - 50176`; a row slice of the weight at offset `o` read at
row `r` is the weight at row `o + r`, and likewise for the bias. So the joined row is the product with the whole
weight plus the whole bias. -/

noncomputable section

open scoped BigOperators

namespace Cert.KLaws

open Cert.KernelIdeal Idealize.ShloMosaic Idealize.ShloMosaic.ValueIdx

variable [Facts₀]
open Facts₀

/-- A vector of 2048 entries cast to one row: column `n` is entry `n`. -/
theorem bias_row_2048 (b : FVec Ideal S2048 .f32) :
    (shapeCast S1x2048 b shapeCasts_S2048_S1x2048 : FVec Ideal S1x2048 .f32) = fun i => b (ix1 (i 1)) := by
  funext i
  obtain ⟨p, q, rfl⟩ : ∃ (p : Fin 1) (q : Fin 2048), i = ix2 p q := ⟨i 0, i 1, eq_ix2 i⟩
  exact shapeCast_a_1a_apply b _ p q

/-- A vector of 1024 entries cast to one row: column `n` is entry `n`. -/
theorem bias_row_1024 (b : FVec Ideal S1024 .f32) :
    (shapeCast S1x1024 b shapeCasts_S1024_S1x1024 : FVec Ideal S1x1024 .f32) = fun i => b (ix1 (i 1)) := by
  funext i
  obtain ⟨p, q, rfl⟩ : ∃ (p : Fin 1) (q : Fin 1024), i = ix2 p q := ⟨i 0, i 1, eq_ix2 i⟩
  exact shapeCast_a_1a_apply b _ p q

/-- A vector of 4096 entries cast to one row: column `n` is entry `n`. -/
theorem bias_row_4096 (b : FVec Ideal S4096 .f32) :
    (shapeCast S1x4096 b shapeCasts_S4096_S1x4096 : FVec Ideal S1x4096 .f32) = fun i => b (ix1 (i 1)) := by
  funext i
  obtain ⟨p, q, rfl⟩ : ∃ (p : Fin 1) (q : Fin 4096), i = ix2 p q := ⟨i 0, i 1, eq_ix2 i⟩
  exact shapeCast_a_1a_apply b _ p q

/-- The sum of two vectors of 4096 entries cast to one row: column `n` is the sum of the two entries `n`. -/
theorem bias_sum_row_4096 (b1 b2 : FVec Ideal S4096 .f32) :
    (shapeCast S1x4096 (addf b1 b2) shapeCasts_S4096_S1x4096 : FVec Ideal S1x4096 .f32)
      = fun i => b1 (ix1 (i 1)) + b2 (ix1 (i 1)) := by
  funext i
  obtain ⟨p, q, rfl⟩ : ∃ (p : Fin 1) (q : Fin 4096), i = ix2 p q := ⟨i 0, i 1, eq_ix2 i⟩
  exact (shapeCast_a_1a_apply (addf b1 b2) _ p q).trans (addf_apply b1 b2 (ix1 q))

/-! ## The output projection: a head of 50176 columns and a tail of 81 -/

/-- Column `n` of the head: the row slice of the weight at offset 0 read at `(n, k)` is the weight at `(n, k)`, and the
    slice of the bias at offset 0 read at `n` is the bias at `n`. -/
theorem head_at (x : FVec Ideal S1x2048 .f32) (w : FVec Ideal S50257x2048 .f32) (b : FVec Ideal S50257 .f32)
    (p : Fin 1) (n : Fin 50176) (hn : n.val < 50257) :
    Cert.Spec.linT 2048 50176 x (extractStridedSlice S50176x2048 ![0, 0] w slices_S50257x2048_S50176x2048_0_0)
        (shapeCast S1x50176 (extractStridedSlice S50176 ![0] b slices_S50257_S50176_0) shapeCasts_S50176_S1x50176) (ix2 p n)
      = Cert.Spec.linT 2048 50257 x w (fun i => b (ix1 (i 1))) (ix2 p (⟨n.val, hn⟩ : Fin 50257)) := by
  have hW : ∀ k : Fin 2048, extractStridedSlice S50176x2048 ![0, 0] w slices_S50257x2048_S50176x2048_0_0 (ix2 n k)
      = w (ix2 (⟨n.val, hn⟩ : Fin 50257) k) := fun k =>
    extractStridedSlice_apply _ w _ (ix2 n k) (ix2 (⟨n.val, hn⟩ : Fin 50257) k) (fun a =>
      match a with
      | ⟨0, _⟩ => by show n.val = 0 + n.val; omega
      | ⟨1, _⟩ => by show k.val = 0 + k.val; omega)
  have hB : shapeCast S1x50176 (extractStridedSlice S50176 ![0] b slices_S50257_S50176_0) shapeCasts_S50176_S1x50176 (ix2 (0 : Fin 1) n)
      = b (ix1 (⟨n.val, hn⟩ : Fin 50257)) :=
    (shapeCast_a_1a_apply _ _ (0 : Fin 1) n).trans
      (extractStridedSlice_apply _ b _ (ix1 n) (ix1 (⟨n.val, hn⟩ : Fin 50257)) (fun a =>
        match a with
        | ⟨0, _⟩ => by show n.val = 0 + n.val; omega))
  show (∑ k : Fin 2048, x (ix2 0 k) * extractStridedSlice S50176x2048 ![0, 0] w slices_S50257x2048_S50176x2048_0_0 (ix2 n k))
      + shapeCast S1x50176 (extractStridedSlice S50176 ![0] b slices_S50257_S50176_0) shapeCasts_S50176_S1x50176 (ix2 (0 : Fin 1) n)
    = (∑ k : Fin 2048, x (ix2 0 k) * w (ix2 (⟨n.val, hn⟩ : Fin 50257) k)) + b (ix1 (⟨n.val, hn⟩ : Fin 50257))
  rw [hB]
  refine congrArg (· + b (ix1 (⟨n.val, hn⟩ : Fin 50257))) (Finset.sum_congr rfl fun k _ => ?_)
  rw [hW k]

/-- Column `n` of the tail: the row slice of the weight at offset 50176 read at `(n, k)` is the weight at
    `(50176 + n, k)`, and the slice of the bias at offset 50176 read at `n` is the bias at `50176 + n`. -/
theorem tail_at (x : FVec Ideal S1x2048 .f32) (w : FVec Ideal S50257x2048 .f32) (b : FVec Ideal S50257 .f32)
    (p : Fin 1) (n : Fin 81) (hn : 50176 + n.val < 50257) :
    Cert.Spec.linT 2048 81 x (extractStridedSlice S81x2048 ![50176, 0] w slices_S50257x2048_S81x2048_50176_0)
        (shapeCast S1x81 (extractStridedSlice S81 ![50176] b slices_S50257_S81_50176) shapeCasts_S81_S1x81) (ix2 p n)
      = Cert.Spec.linT 2048 50257 x w (fun i => b (ix1 (i 1))) (ix2 p (⟨50176 + n.val, hn⟩ : Fin 50257)) := by
  have hW : ∀ k : Fin 2048, extractStridedSlice S81x2048 ![50176, 0] w slices_S50257x2048_S81x2048_50176_0 (ix2 n k)
      = w (ix2 (⟨50176 + n.val, hn⟩ : Fin 50257) k) := fun k =>
    extractStridedSlice_apply _ w _ (ix2 n k) (ix2 (⟨50176 + n.val, hn⟩ : Fin 50257) k) (fun a =>
      match a with
      | ⟨0, _⟩ => by show 50176 + n.val = 50176 + n.val; rfl
      | ⟨1, _⟩ => by show k.val = 0 + k.val; omega)
  have hB : shapeCast S1x81 (extractStridedSlice S81 ![50176] b slices_S50257_S81_50176) shapeCasts_S81_S1x81 (ix2 (0 : Fin 1) n)
      = b (ix1 (⟨50176 + n.val, hn⟩ : Fin 50257)) :=
    (shapeCast_a_1a_apply _ _ (0 : Fin 1) n).trans
      (extractStridedSlice_apply _ b _ (ix1 n) (ix1 (⟨50176 + n.val, hn⟩ : Fin 50257)) (fun a =>
        match a with
        | ⟨0, _⟩ => by show 50176 + n.val = 50176 + n.val; rfl))
  show (∑ k : Fin 2048, x (ix2 0 k) * extractStridedSlice S81x2048 ![50176, 0] w slices_S50257x2048_S81x2048_50176_0 (ix2 n k))
      + shapeCast S1x81 (extractStridedSlice S81 ![50176] b slices_S50257_S81_50176) shapeCasts_S81_S1x81 (ix2 (0 : Fin 1) n)
    = (∑ k : Fin 2048, x (ix2 0 k) * w (ix2 (⟨50176 + n.val, hn⟩ : Fin 50257) k)) + b (ix1 (⟨50176 + n.val, hn⟩ : Fin 50257))
  rw [hB]
  refine congrArg (· + b (ix1 (⟨50176 + n.val, hn⟩ : Fin 50257))) (Finset.sum_congr rfl fun k _ => ?_)
  rw [hW k]

/-- The head and the tail joined along the column axis are the product with the whole weight plus the whole bias. -/
theorem logits_split (x : FVec Ideal S1x2048 .f32) (w : FVec Ideal S50257x2048 .f32) (b : FVec Ideal S50257 .f32) :
    concatenate S1x50257 1
        [⟨S1x50176, Cert.Spec.linT 2048 50176 x (extractStridedSlice S50176x2048 ![0, 0] w slices_S50257x2048_S50176x2048_0_0)
            (shapeCast S1x50176 (extractStridedSlice S50176 ![0] b slices_S50257_S50176_0) shapeCasts_S50176_S1x50176)⟩,
         ⟨S1x81, Cert.Spec.linT 2048 81 x (extractStridedSlice S81x2048 ![50176, 0] w slices_S50257x2048_S81x2048_50176_0)
            (shapeCast S1x81 (extractStridedSlice S81 ![50176] b slices_S50257_S81_50176) shapeCasts_S81_S1x81)⟩]
        concatenates_S1x50176_S1x81_S1x50257_d1
      = Cert.Spec.linT 2048 50257 x w (fun i => b (ix1 (i 1))) := by
  funext i
  obtain ⟨p, q, rfl⟩ : ∃ (p : Fin 1) (q : Fin 50257), i = ix2 p q := ⟨i 0, i 1, eq_ix2 i⟩
  by_cases hq : q.val < 50176
  · refine (concatenate_pair_apply_left (1 : Fin S1x50257.rank) _ _ concatenates_S1x50176_S1x81_S1x50257_d1 (ix2 p q) rfl
      (ix2 p (⟨q.val, hq⟩ : Fin 50176)) (fun a => match a with | ⟨0, _⟩ => (rfl : p.val = p.val) | ⟨1, _⟩ => (rfl : q.val = q.val))).trans ?_
    exact head_at x w b p ⟨q.val, hq⟩ q.isLt
  · obtain ⟨n, hn⟩ : ∃ n : Nat, q.val = 50176 + n := ⟨q.val - 50176, by omega⟩
    have hq2 : n < 81 := by have := q.isLt; omega
    have hq3 : 50176 + n < 50257 := by have := q.isLt; omega
    refine (concatenate_pair_apply_right (1 : Fin S1x50257.rank) _ _ concatenates_S1x50176_S1x81_S1x50257_d1 (ix2 p q) rfl rfl
      (ix2 p (⟨n, hq2⟩ : Fin 81))
      (fun a => match a with
        | ⟨0, _⟩ => fun _ => (rfl : p.val = p.val)
        | ⟨1, _⟩ => fun h => absurd rfl h)
      (by show n + 50176 = q.val; omega)).trans ?_
    refine (tail_at x w b p ⟨n, hq2⟩ hq3).trans ?_
    have e : (⟨50176 + n, hq3⟩ : Fin 50257) = q := Fin.ext hn.symm
    rw [e]

end Cert.KLaws

end
-- ==== Proof.KI.KVal1.lean ====
import proofs.«156083_j22471268893342_1_alg».proof.Proof.KI.RunA
import proofs.«156083_j22471268893342_1_alg».proof.Proof.KI.Val0
import proofs.«156083_j22471268893342_1_alg».proof.Proof.KI.Val1
import proofs.«156083_j22471268893342_1_alg».proof.Proof.Stages
import proofs.«156083_j22471268893342_1_alg».proof.Proof.KLaws
import Idealize.ShloMosaic.Lib.StableHlo.Run

/-! # What the kernel program's buffers hold, stage by stage (first part: through the attention-weighted sum)

Each buffer is read where it was last written: a host stretch's fold at its result buffer is the operation applied
to the operands' contents; a region's output array is the specification's sum of its input arrays; a buffer no
later item writes keeps its contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

theorem k_v4 : W1 m ρ c (Proc.devRef .tc main_v4) = Cert.Stages.embed (m ((c : Thread nD τ).loc main_arg0)) (m ((c : Thread nD τ).loc main_arg4)) := by
  show StableHlo.after hostOps0 (W0 m ρ c) (Proc.devRef .tc main_v4) = _
  after_results
  unfold Cert.Stages.embed
  show Host.dynamicSlice S1x1024 _ _ _ = Host.dynamicSlice S1x1024 _ _ _
  congr 1
  funext k
  fin_cases k <;> (try simp only [Matrix.cons_val_zero', Matrix.cons_val_succ', Fin.zero_eta, Fin.mk_one, Matrix.cons_val_zero, Matrix.cons_val_one, Matrix.head_cons]) <;> (try after_results) <;> rfl
theorem k_v6 : W1 m ρ c (Proc.devRef .tc main_v6) = Cert.Stages.row0 (m ((c : Thread nD τ).loc main_arg1)) := by
  show StableHlo.after hostOps0 (W0 m ρ c) (Proc.devRef .tc main_v6) = _
  after_results
  rfl
theorem k_v8 : W1 m ρ c (Proc.devRef .tc main_v8) = Cert.Stages.row1 (m ((c : Thread nD τ).loc main_arg1)) := by
  show StableHlo.after hostOps0 (W0 m ρ c) (Proc.devRef .tc main_v8) = _
  after_results
  rfl
theorem k_v10 : W1 m ρ c (Proc.devRef .tc main_v10) = Cert.Stages.row0 (m ((c : Thread nD τ).loc main_arg2)) := by
  show StableHlo.after hostOps0 (W0 m ρ c) (Proc.devRef .tc main_v10) = _
  after_results
  rfl
theorem k_v12 : W1 m ρ c (Proc.devRef .tc main_v12) = Cert.Stages.row1 (m ((c : Thread nD τ).loc main_arg2)) := by
  show StableHlo.after hostOps0 (W0 m ρ c) (Proc.devRef .tc main_v12) = _
  after_results
  rfl
set_option maxHeartbeats 1000000 in
theorem k_v13 : W1 m ρ c (Proc.devRef .tc main_v13) = Cert.Stages.join2 (Cert.Stages.embed (m ((c : Thread nD τ).loc main_arg0)) (m ((c : Thread nD τ).loc main_arg4))) (Cert.Stages.row0 (m ((c : Thread nD τ).loc main_arg1))) := by
  have e4 := k_v4 m ρ c
  have e6 := k_v6 m ρ c
  rw [← e4, ← e6]
  show StableHlo.after hostOps0 (W0 m ρ c) (Proc.devRef .tc main_v13) = Cert.Stages.join2 (StableHlo.after hostOps0 (W0 m ρ c) (Proc.devRef .tc main_v4)) (StableHlo.after hostOps0 (W0 m ρ c) (Proc.devRef .tc main_v6))
  unfold Cert.Stages.join2
  after_results_simp
  rfl
theorem k_v14 : W1 m ρ c (Proc.devRef .tc main_v14) = Cert.Stages.biasRow (m ((c : Thread nD τ).loc main_arg6)) := by
  show StableHlo.after hostOps0 (W0 m ρ c) (Proc.devRef .tc main_v14) = _
  after_results
  exact Cert.KLaws.bias_row_2048 _
/-- The attention scores: region 0's output. -/
theorem k_v15 : W2 m ρ c (Proc.devRef .tc main_v15) = (Cert.Stages.score (m ((c : Thread nD τ).loc main_arg0)) (m ((c : Thread nD τ).loc main_arg1)) (m ((c : Thread nD τ).loc main_arg4)) (m ((c : Thread nD τ).loc main_arg5)) (m ((c : Thread nD τ).loc main_arg6))) := by
  refine (W2_arr m ρ c 3).trans ((final0 (V1 m ρ) c).trans ?_)
  show Cert.Spec.linT 2048 2048 (W1 m ρ c (Proc.devRef .tc main_v13)) (W1 m ρ c (Proc.devRef .tc main_arg5)) (W1 m ρ c (Proc.devRef .tc main_v14)) = _
  rw [k_v13, W1_args m ρ c main_arg5 (by decide), k_v14]
  rfl
/-- The attention weights. -/
theorem k_v26 : W3 m ρ c (Proc.devRef .tc main_v26) = (Cert.Stages.attW (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps1 (W2 m ρ c) (Proc.devRef .tc main_v26) = _
  after_results
  rw [k_v15]
  rfl
/-- The attention-weighted sum: region 1's output. -/
theorem k_v27 : W4 m ρ c (Proc.devRef .tc main_v27) = (Cert.Stages.applied (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W4_arr m ρ c 2).trans ((final1 (V3 m ρ) c).trans ?_)
  show Cert.Spec.lin 2048 2048 (W3 m ρ c (Proc.devRef .tc main_v26)) (W3 m ρ c (Proc.devRef .tc main_arg3)) = _
  rw [k_v26, W3_args m ρ c main_arg3 (by decide)]
  rfl

end Cert.KernelIdeal.Hand

end
-- ==== Proof.KI.Val2.lean ====
import proofs.«156083_j22471268893342_1_alg».proof.Proof.KI.Reg2
import proofs.«156083_j22471268893342_1_alg».proof.Proof.Spec
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-! # Region 2: the array it leaves is `x · wᵀ + b`

The body's payload at a column is the row's product with that row of the weight block plus the bias entry; the
blocks of the grid's points are the array's column blocks, so the output array ends at the specification. -/

/-- The payload at column `q` of the block: the contraction over the 3072 shared coordinates of the row with row `q`
    of the weight block (the block is transposed before the product), plus the bias block's entry. -/
theorem pay2_apply (x0 : Vec Ideal S1x3072 .f32) (x1 : Vec Ideal S1024x3072 .f32) (x2 : Vec Ideal S1x1024 .f32) (q : Fin 1024) :
    k2_pay1 x0 x1 x2 (ix2 0 q) = (∑ k : Fin 3072, x0 (ix2 0 k) * x1 (ix2 q k)) + x2 (ix2 0 q) := by
  unfold k2_pay1
  simp only [shapeCast_self]
  rw [addf_apply]
  refine congrArg (· + x2 (ix2 0 q)) ?_
  show FloatOps.matmul dot_S1x3072_S3072x1024_S1x1024_1_0_0_1_n_n none _ _ (constant S1x1024 .f32 0x00000000#32) (ix2 0 q) = _
  rw [Ideal.matmul_constant_zero_apply,
    ← Equiv.sum_comp (contrEquiv1 dot_S1x3072_S3072x1024_S1x1024_1_0_0_1_n_n 3072 rfl rfl).symm]
  refine Finset.sum_congr rfl fun k _ => ?_
  have ck := contrEquiv1_symm_val dot_S1x3072_S3072x1024_S1x1024_1_0_0_1_n_n 3072 rfl rfl k
  have hl : dot_S1x3072_S3072x1024_S1x1024_1_0_0_1_n_n.lhsIdx (ix2 0 q) ((contrEquiv1 _ 3072 rfl rfl).symm k) = ix2 0 k := by
    funext ax; apply Fin.ext
    match ax with
    | ⟨0, _⟩ => simp [DotDims.lhsIdx, dot_S1x3072_S3072x1024_S1x1024_1_0_0_1_n_n] <;> rfl
    | ⟨1, _⟩ => simp [DotDims.lhsIdx, dot_S1x3072_S3072x1024_S1x1024_1_0_0_1_n_n] <;> exact ck
  have hr : dot_S1x3072_S3072x1024_S1x1024_1_0_0_1_n_n.rhsIdx (ix2 0 q) ((contrEquiv1 _ 3072 rfl rfl).symm k) = ix2 k q := by
    funext ax; apply Fin.ext
    match ax with
    | ⟨0, _⟩ => simp [DotDims.rhsIdx, dot_S1x3072_S3072x1024_S1x1024_1_0_0_1_n_n] <;> exact ck
    | ⟨1, _⟩ => simp [DotDims.rhsIdx, dot_S1x3072_S3072x1024_S1x1024_1_0_0_1_n_n] <;> rfl
  rw [hl, hr, truncf_apply]
  refine congrArg (x0 (ix2 0 k) * ·) ?_
  refine (transpose_apply [1, 0] _ transposes_S1024x3072_p1_0_S3072x1024 (ix2 k q) (ix2 q k) ?_).trans ?_
  · intro b
    match b with
    | ⟨0, _⟩ => rfl
    | ⟨1, _⟩ => rfl
  · rfl

variable (V : (c : Dev nD) → (b : Ref sig .tc) → Buf (Elt Ideal) ((c : Thread nD τ).loc b))

/-- The zero offsets, as a constant function. -/
theorem zeros2 : (![0, 0] : Fin 2 → Nat) = fun _ => 0 := funext fun a => by fin_cases a <;> rfl

/-- At a point whose blocks are the row, rows `n·1024 …` of the weight and columns `n·1024 …` of the bias, the payload
    at column `j` of the block is the specification at column `n·1024 + j` of the array. -/
theorem point2 (A0 : S1x3072.Idx → EReal) (A1 : S1024x3072.Idx → EReal) (A2 : S1x1024.Idx → EReal)
    (x0 : Vec Ideal S1x3072 .f32) (x1 : Vec Ideal S1024x3072 .f32) (x2 : Vec Ideal S1x1024 .f32)
    (j : S1x1024.Idx) (i : S1x1024.Idx) (n : Nat)
    (hi : (i 1).val = n * 1024 + (j 1).val)
    (h0 : ∀ k : Fin 3072, x0 (ix2 0 k) = A0 (ix2 0 k))
    (h1 : ∀ (r : Fin 1024) (k : Fin 3072) (i' : S1024x3072.Idx), (i' 0).val = n * 1024 + r.val → (i' 1).val = k.val → x1 (ix2 r k) = A1 i')
    (h2 : ∀ (r : Fin 1024) (i' : S1x1024.Idx), (i' 1).val = n * 1024 + r.val → x2 (ix2 0 r) = A2 i') :
    k2_pay1 x0 x1 x2 j = Cert.Spec.linT 3072 1024 A0 A1 A2 i := by
  obtain ⟨p, q, rfl⟩ : ∃ (p : Fin 1) (q : Fin 1024), j = ix2 p q := ⟨j 0, j 1, eq_ix2 j⟩
  obtain rfl : p = 0 := Subsingleton.elim _ _
  rw [pay2_apply]
  unfold Cert.Spec.linT
  rw [h2 q (ix2 0 (i 1)) hi]
  refine congrArg (· + A2 (ix2 0 (i 1))) ?_
  refine Finset.sum_congr rfl fun k _ => ?_
  rw [h0 k, h1 q k (ix2 (i 1) k) hi rfl]

/-- The index maps over the grid: the row's block is fixed, the weight's block row and the bias's and the output's
    block column are the point. -/
theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- What point `t` writes back is block `t` of the specification. -/
theorem flushed2_eq (c : Dev nD) (t : Fin cfg2.N) :
    (dat2 (F := Ideal) V c).flushed 3 t = ((cfg2.win 3).blk t).view.read (Elt Ideal) (Cert.Spec.linT 3072 1024 (V c main_v28) (V c main_arg7) (V c main_v29)) := by
  show (cfg2.win 3).cut (grid2.coords t) ((dat2 V c).after 3 t) = _
  rw [after2_3]
  unfold out2_3
  rw [View.canon_unit_zero zeros2]
  simp only [View.ld_unit_zero (S := S1x3072) zeros2, View.ld_unit_zero (S := S1024x3072) zeros2, View.ld_unit_zero (S := S1x1024) zeros2]
  obtain ⟨e00, e01, e10, e11, e20, e21, e30, e31⟩ := idx_facts2 t
  funext j
  refine point2 (V c main_v28) (V c main_arg7) (V c main_v29) (iblk2 V c 0 t) (iblk2 V c 1 t) (iblk2 V c 2 t) j
    (((cfg2.win 3).blk t).view.emb j) t.val ?_ ?_ ?_ ?_
  · show win2_3.index t (1 : Fin 2) * 1024 + 1 * (j 1).val = _
    rw [e31]; omega
  · intro k
    show V c main_v28 (((cfg2.win 0).blk t).view.emb (ix2 0 k)) = V c main_v28 (ix2 0 k)
    refine congrArg (V c main_v28) (funext fun a => Fin.ext ?_)
    match a with
    | ⟨0, _⟩ => show win2_0.index t (0 : Fin 2) * 1 + 1 * 0 = 0; omega
    | ⟨1, _⟩ => show win2_0.index t (1 : Fin 2) * 3072 + 1 * k.val = k.val; omega
  · intro r k i' hi0 hi1
    show V c main_arg7 (((cfg2.win 1).blk t).view.emb (ix2 r k)) = V c main_arg7 i'
    refine congrArg (V c main_arg7) (funext fun a => Fin.ext ?_)
    match a with
    | ⟨0, _⟩ => show win2_1.index t (0 : Fin 2) * 1024 + 1 * r.val = (i' 0).val; omega
    | ⟨1, _⟩ => show win2_1.index t (1 : Fin 2) * 3072 + 1 * k.val = (i' 1).val; omega
  · intro r i' hi1
    show V c main_v29 (((cfg2.win 2).blk t).view.emb (ix2 0 r)) = V c main_v29 i'
    refine congrArg (V c main_v29) (funext fun a => Fin.ext ?_)
    have hi0 : (i' 0).val < 1 := (i' 0).isLt
    match a with
    | ⟨0, _⟩ => show win2_2.index t (0 : Fin 2) * 1 + 1 * 0 = (i' 0).val; omega
    | ⟨1, _⟩ => show win2_2.index t (1 : Fin 2) * 1024 + 1 * r.val = (i' 1).val; omega

/-- An index of the array is in point `t`'s block iff each coordinate is in the block's range on its axis. -/
theorem mem_blk2 (t : Fin cfg2.N) (i : S1x1024.Idx) :
    i ∈ ((cfg2.win 3).blk t).view.set ↔ ∀ a : Fin 2, win2_3.index t a * S1x1024.size a ≤ (i a).val ∧ (i a).val < win2_3.index t a * S1x1024.size a + S1x1024.size a := by
  show i ∈ ((View.whole main_v30).slice (win2_3.rect t)).set ↔ _
  rw [View.set_slice_whole, Rect.mem_set_unit]
  exact Iff.rfl

/-- Column `n` of the array lies in the block of point `n / 1024`. -/
theorem cover2 (i : S1x1024.Idx) : ∃ t : Fin cfg2.N, (cfg2.win 3).flush t = true ∧ i ∈ ((cfg2.win 3).blk t).view.set := by
  have hi0 : (i 0).val < 1 := (i 0).isLt
  have hi1 : (i 1).val < 1024 := (i 1).isLt
  have hN : grid2.N = 1 := N_2
  have ht : (i 1).val / 1024 < cfg2.N := by show _ < grid2.N; omega
  refine ⟨⟨(i 1).val / 1024, ht⟩, flush2_3 _, ?_⟩
  rw [mem_blk2]
  obtain ⟨-, -, -, -, -, -, e30, e31⟩ := idx_facts2 ⟨(i 1).val / 1024, ht⟩
  have e31' : win2_3.index ⟨(i 1).val / 1024, ht⟩ (1 : Fin 2) = (i 1).val / 1024 := e31
  intro a
  match a with
  | ⟨0, _⟩ =>
    show win2_3.index ⟨(i 1).val / 1024, ht⟩ (0 : Fin 2) * 1 ≤ (i 0).val ∧ (i 0).val < win2_3.index ⟨(i 1).val / 1024, ht⟩ (0 : Fin 2) * 1 + 1
    omega
  | ⟨1, _⟩ =>
    show win2_3.index ⟨(i 1).val / 1024, ht⟩ (1 : Fin 2) * 1024 ≤ (i 1).val ∧ (i 1).val < win2_3.index ⟨(i 1).val / 1024, ht⟩ (1 : Fin 2) * 1024 + 1024
    omega

/-- The output array after the region: `x · wᵀ + b` of the three input arrays as the region finds them. -/
theorem final2 (V : (c : Dev nD) → (b : Ref sig .tc) → Buf (Elt Ideal) ((c : Thread nD τ).loc b)) (c : Dev nD) :
    (dat2 (F := Ideal) V c).arrAt 3 cfg2.N = Cert.Spec.linT 3072 1024 (V c main_v28) (V c main_arg7) (V c main_v29) :=
  (dat2 (F := Ideal) V c).arrAt_eq_of_cover 3 _ (fun t _ => flushed2_eq V c t) cover2

end Cert.KernelIdeal.Hand
end
-- ==== Proof.KI.Val3.lean ====
import proofs.«156083_j22471268893342_1_alg».proof.Proof.KI.Reg3
import proofs.«156083_j22471268893342_1_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

/-! # Region 3: the value of its output array

The region's one output array after its last grid point, at the exact instance: the first gate's row
`x · wihᵀ + h · whhᵀ + b`, column by column. The body's payload at a column is the input row against that row of the
input weights' block, plus the state row against that row of the state weights' block (each block transposed before its
product), plus the bias block's entry; each block is read where its window's index map puts it; the output's four blocks
tile the array. -/

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-- The left operand's index of the product at an output index and a contracted coordinate: the output's row, -/
theorem lhs3_0 (i : S1x1024.Idx) (r : dot_S1x1024_S1024x1024_S1x1024_1_0_0_1_n_n.contr.Idx) :
    (dot_S1x1024_S1024x1024_S1x1024_1_0_0_1_n_n.lhsIdx i r 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
/-- and the contracted coordinate as its column; -/
theorem lhs3_1 (i : S1x1024.Idx) (r : dot_S1x1024_S1024x1024_S1x1024_1_0_0_1_n_n.contr.Idx) :
    (dot_S1x1024_S1024x1024_S1x1024_1_0_0_1_n_n.lhsIdx i r 1).val = (r ⟨0, by decide⟩).val :=
  dot_S1x1024_S1024x1024_S1x1024_1_0_0_1_n_n.lhsIdx_val_of_single rfl i r
/-- the right operand's: the contracted coordinate as its row, -/
theorem rhs3_0 (i : S1x1024.Idx) (r : dot_S1x1024_S1024x1024_S1x1024_1_0_0_1_n_n.contr.Idx) :
    (dot_S1x1024_S1024x1024_S1x1024_1_0_0_1_n_n.rhsIdx i r 0).val = (r ⟨0, by decide⟩).val :=
  dot_S1x1024_S1024x1024_S1x1024_1_0_0_1_n_n.rhsIdx_val_of_single rfl i r
/-- and the output's column. -/
theorem rhs3_1 (i : S1x1024.Idx) (r : dot_S1x1024_S1024x1024_S1x1024_1_0_0_1_n_n.contr.Idx) :
    (dot_S1x1024_S1024x1024_S1x1024_1_0_0_1_n_n.rhsIdx i r 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- A row times the transpose of a weight block, accumulated into zero, at column `q`: the row against row `q` of
    the block. -/
theorem matmulT3_apply (x : FVec Ideal S1x1024 .bf16) (w : FVec Ideal S1024x1024 .bf16) (q : Fin 1024) :
    FloatOps.matmul dot_S1x1024_S1024x1024_S1x1024_1_0_0_1_n_n none x (transpose S1024x1024 [1, 0] w transposes_S1024x1024_p1_0_S1024x1024)
        (constant S1x1024 .f32 0x00000000#32) (ix2 0 q)
      = ∑ k : Fin 1024, x (ix2 0 k) * w (ix2 q k) := by
  rw [Ideal.matmul_constant_zero_apply, ← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 0 q) ((contrEquiv1 dot_S1x1024_S1024x1024_S1x1024_1_0_0_1_n_n 1024 rfl rfl).symm k) = ix2 0 k := funext fun a => Fin.ext (by
    match a with
    | ⟨0, _⟩ => exact lhs3_0 _ _
    | ⟨1, _⟩ => exact (lhs3_1 _ _).trans hk)
  have er : dot_S1x1024_S1024x1024_S1x1024_1_0_0_1_n_n.rhsIdx (ix2 0 q) ((contrEquiv1 dot_S1x1024_S1024x1024_S1x1024_1_0_0_1_n_n 1024 rfl rfl).symm k) = ix2 k q := funext fun a => Fin.ext (by
    match a with
    | ⟨0, _⟩ => exact (rhs3_0 _ _).trans hk
    | ⟨1, _⟩ => exact rhs3_1 _ _)
  rw [el, er, transpose_ix2_apply]

/-- The body's payload at column `q`: the input row against row `q` of the input weights' block, plus the state row
    against row `q` of the state weights' block, plus the bias block's entry. -/
theorem pay3_apply (x0 x1 : Vec Ideal S1x1024 .f32) (x2 x3 : Vec Ideal S1024x1024 .f32) (x4 : Vec Ideal S1x1024 .f32)
    (q : Fin 1024) :
    k3_pay1 (F := Ideal) x0 x1 x2 x3 x4 (ix2 0 q)
      = ((∑ k : Fin 1024, x0 (ix2 0 k) * x2 (ix2 q k)) + ∑ k : Fin 1024, x1 (ix2 0 k) * x3 (ix2 q k)) + x4 (ix2 0 q) := by
  unfold k3_pay1
  simp only [shapeCast_self]
  show (FloatOps.matmul (F := Ideal) dot_S1x1024_S1024x1024_S1x1024_1_0_0_1_n_n none (truncf .bf16 (x0 : FVec Ideal S1x1024 .f32) bitsLt_bf16_f32)
        (transpose S1024x1024 [1, 0] (truncf .bf16 (x2 : FVec Ideal S1024x1024 .f32) bitsLt_bf16_f32) transposes_S1024x1024_p1_0_S1024x1024)
        (constant S1x1024 .f32 0x00000000#32) (ix2 0 q)
      + FloatOps.matmul (F := Ideal) dot_S1x1024_S1024x1024_S1x1024_1_0_0_1_n_n none (truncf .bf16 (x1 : FVec Ideal S1x1024 .f32) bitsLt_bf16_f32)
        (transpose S1024x1024 [1, 0] (truncf .bf16 (x3 : FVec Ideal S1024x1024 .f32) bitsLt_bf16_f32) transposes_S1024x1024_p1_0_S1024x1024)
        (constant S1x1024 .f32 0x00000000#32) (ix2 0 q)) + x4 (ix2 0 q) = _
  rw [matmulT3_apply, matmulT3_apply]
  rfl

/-- The payload at any index of the output block: only the column matters, the block has one row. -/
theorem pay3_at (x0 x1 : Vec Ideal S1x1024 .f32) (x2 x3 : Vec Ideal S1024x1024 .f32) (x4 : Vec Ideal S1x1024 .f32)
    (j : S1x1024.Idx) :
    k3_pay1 (F := Ideal) x0 x1 x2 x3 x4 j
      = ((∑ k : Fin 1024, x0 (ix2 0 k) * x2 (ix2 (j 1) k)) + ∑ k : Fin 1024, x1 (ix2 0 k) * x3 (ix2 (j 1) k)) + x4 (ix2 0 (j 1)) := by
  obtain ⟨p, q, rfl⟩ : ∃ (p : Fin 1) (q : Fin 1024), j = ix2 p q := ⟨j 0, j 1, eq_ix2 j⟩
  obtain rfl : p = 0 := Subsingleton.elim _ _
  exact pay3_apply x0 x1 x2 x3 x4 q

variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: the two rows' windows stay at block (0, 0); the two weights'
    windows are at block row `t`; the bias's and the output's windows are at block column `t`. -/
theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = t.val
    ∧ win3_5.index t (0 : Fin 2) = 0 ∧ win3_5.index t (1 : Fin 2) = t.val :=
  (by decide +kernel : ∀ t : Fin grid3.N, _)

/-- The input row's block at any point is the row. -/
theorem iblk3_0_apply (c : Dev nD) (t : Fin cfg3.N) (k : Fin 1024) :
    (iblk3 V c 0 t : Vec Ideal S1x1024 .f32) (ix2 0 k) = (V c main_v31 : S1x1024.Idx → EReal) (ix2 0 k) := by
  obtain ⟨e0, e1, -⟩ := idx_facts3 t
  unfold iblk3
  rw [View.read_apply]
  show V c main_v31 _ = V c main_v31 _
  refine congrArg _ ?_
  funext a
  apply Fin.ext
  match a with
  | ⟨0, _⟩ => show win3_0.index t (0 : Fin 2) * 1 + 1 * 0 = 0; rw [e0]
  | ⟨1, _⟩ => show win3_0.index t (1 : Fin 2) * 1024 + 1 * k.val = k.val; rw [e1]; omega

/-- The state row's block at any point is the row. -/
theorem iblk3_1_apply (c : Dev nD) (t : Fin cfg3.N) (k : Fin 1024) :
    (iblk3 V c 1 t : Vec Ideal S1x1024 .f32) (ix2 0 k) = (V c main_v6 : S1x1024.Idx → EReal) (ix2 0 k) := by
  obtain ⟨-, -, e0, e1, -⟩ := idx_facts3 t
  unfold iblk3
  rw [View.read_apply]
  show V c main_v6 _ = V c main_v6 _
  refine congrArg _ ?_
  funext a
  apply Fin.ext
  match a with
  | ⟨0, _⟩ => show win3_1.index t (0 : Fin 2) * 1 + 1 * 0 = 0; rw [e0]
  | ⟨1, _⟩ => show win3_1.index t (1 : Fin 2) * 1024 + 1 * k.val = k.val; rw [e1]; omega

/-- The input weights' block at point `t` is rows `1024 t … 1024 t + 1023` of the input weights. -/
theorem iblk3_2_apply (c : Dev nD) (t : Fin cfg3.N) (q : Fin 1024) (k : Fin 1024) (n : Fin 4096)
    (hn : n.val = t.val * 1024 + q.val) :
    (iblk3 V c 2 t : Vec Ideal S1024x1024 .f32) (ix2 q k) = (V c main_arg9 : S4096x1024.Idx → EReal) (ix2 n k) := by
  obtain ⟨-, -, -, -, e0, e1, -⟩ := idx_facts3 t
  unfold iblk3
  rw [View.read_apply]
  show V c main_arg9 _ = V c main_arg9 _
  refine congrArg _ ?_
  funext a
  apply Fin.ext
  match a with
  | ⟨0, _⟩ => show win3_2.index t (0 : Fin 2) * 1024 + 1 * q.val = n.val; rw [e0, hn]; omega
  | ⟨1, _⟩ => show win3_2.index t (1 : Fin 2) * 1024 + 1 * k.val = k.val; rw [e1]; omega

/-- The state weights' block at point `t` is rows `1024 t … 1024 t + 1023` of the state weights. -/
theorem iblk3_3_apply (c : Dev nD) (t : Fin cfg3.N) (q : Fin 1024) (k : Fin 1024) (n : Fin 4096)
    (hn : n.val = t.val * 1024 + q.val) :
    (iblk3 V c 3 t : Vec Ideal S1024x1024 .f32) (ix2 q k) = (V c main_arg10 : S4096x1024.Idx → EReal) (ix2 n k) := by
  obtain ⟨-, -, -, -, -, -, e0, e1, -⟩ := idx_facts3 t
  unfold iblk3
  rw [View.read_apply]
  show V c main_arg10 _ = V c main_arg10 _
  refine congrArg _ ?_
  funext a
  apply Fin.ext
  match a with
  | ⟨0, _⟩ => show win3_3.index t (0 : Fin 2) * 1024 + 1 * q.val = n.val; rw [e0, hn]; omega
  | ⟨1, _⟩ => show win3_3.index t (1 : Fin 2) * 1024 + 1 * k.val = k.val; rw [e1]; omega

/-- The bias's block at point `t` is columns `1024 t … 1024 t + 1023` of the bias row. -/
theorem iblk3_4_apply (c : Dev nD) (t : Fin cfg3.N) (q : Fin 1024) (n : Fin 4096)
    (hn : n.val = t.val * 1024 + q.val) :
    (iblk3 V c 4 t : Vec Ideal S1x1024 .f32) (ix2 0 q) = (V c main_v34 : S1x4096.Idx → EReal) (ix2 0 n) := by
  obtain ⟨-, -, -, -, -, -, -, -, e0, e1, -⟩ := idx_facts3 t
  unfold iblk3
  rw [View.read_apply]
  show V c main_v34 _ = V c main_v34 _
  refine congrArg _ ?_
  funext a
  apply Fin.ext
  match a with
  | ⟨0, _⟩ => show win3_4.index t (0 : Fin 2) * 1 + 1 * 0 = 0; rw [e0]
  | ⟨1, _⟩ => show win3_4.index t (1 : Fin 2) * 1024 + 1 * q.val = n.val; rw [e1, hn]; omega

/-- WHAT POINT `t` WRITES BACK is block `t` of the gate's row: the input row against the input weights' rows plus the
    state row against the state weights' rows plus the bias. -/
theorem flushed3_eq (c : Dev nD) (t : Fin cfg3.N) :
    (dat3 (F := Ideal) V c).flushed 5 t
      = ((cfg3.win 5).blk t).view.read (Elt Ideal)
          (Cert.Spec.gate 1024 4096 (V c main_v31) (V c main_v6) (V c main_arg9) (V c main_arg10) (V c main_v34)) := by
  show (cfg3.win 5).cut (grid3.coords t) ((dat3 (F := Ideal) V c).after 5 t) = _
  rw [after3_5]
  unfold out3_5
  rw [View.canon_unit_zero hz3]
  simp only [View.ld_unit_zero (S := S1x1024) hz3, View.ld_unit_zero (S := S1024x1024) hz3]
  obtain ⟨-, -, -, -, -, -, -, -, -, -, e0, e1⟩ := idx_facts3 t
  funext j
  refine (pay3_at (iblk3 V c 0 t) (iblk3 V c 1 t) (iblk3 V c 2 t) (iblk3 V c 3 t) (iblk3 V c 4 t) ((cfg3.win 5).xinj (grid3.coords t) j)).trans ?_
  show _ = Cert.Spec.gate 1024 4096 (V c main_v31) (V c main_v6) (V c main_arg9) (V c main_arg10) (V c main_v34) (((cfg3.win 5).blk t).view.emb j)
  unfold Cert.Spec.gate
  have hn : ((((cfg3.win 5).blk t).view.emb j) (1 : Fin 2)).val = t.val * 1024 + (((cfg3.win 5).xinj (grid3.coords t) j) (1 : Fin 2)).val := by
    show win3_5.index t (1 : Fin 2) * 1024 + 1 * (j (1 : Fin 2)).val = t.val * 1024 + (j (1 : Fin 2)).val
    rw [e1]; omega
  rw [iblk3_4_apply V c t _ _ hn]
  refine congrArg (· + _) (congrArg₂ (· + ·) (Finset.sum_congr rfl fun k _ => ?_) (Finset.sum_congr rfl fun k _ => ?_))
  · rw [iblk3_0_apply V c t k, iblk3_2_apply V c t _ k _ hn]
  · rw [iblk3_1_apply V c t k, iblk3_3_apply V c t _ k _ hn]

/-- An index of the output array is in point `t`'s block iff each coordinate is in the block's range on its axis. -/
theorem mem_blk3 (t : Fin cfg3.N) (i : S1x4096.Idx) :
    i ∈ ((cfg3.win 5).blk t).view.set ↔ ∀ a : Fin 2, win3_5.index t a * S1x1024.size a ≤ (i a).val ∧ (i a).val < win3_5.index t a * S1x1024.size a + S1x1024.size a := by
  show i ∈ ((View.whole main_v35).slice (win3_5.rect t)).set ↔ _
  rw [View.set_slice_whole, Rect.mem_set_unit]
  exact Iff.rfl

/-- Every column of the output lies in the block of the point `column / 1024`. -/
theorem cover3 (i : S1x4096.Idx) : ∃ t : Fin cfg3.N, (cfg3.win 5).flush t = true ∧ i ∈ ((cfg3.win 5).blk t).view.set := by
  have hi0 : (i 0).val < 1 := (i 0).isLt
  have hi1 : (i 1).val < 4096 := (i 1).isLt
  have hN : cfg3.N = 4 := N_3
  refine ⟨⟨(i 1).val / 1024, by rw [hN]; omega⟩, flush3_5 _, ?_⟩
  rw [mem_blk3]
  obtain ⟨-, -, -, -, -, -, -, -, -, -, e0, e1⟩ := idx_facts3 ⟨(i 1).val / 1024, by rw [hN]; omega⟩
  intro a
  match a with
  | ⟨0, _⟩ => show win3_5.index _ (0 : Fin 2) * 1 ≤ (i 0).val ∧ (i 0).val < win3_5.index _ (0 : Fin 2) * 1 + 1; rw [e0]; omega
  | ⟨1, _⟩ => show win3_5.index _ (1 : Fin 2) * 1024 ≤ (i 1).val ∧ (i 1).val < win3_5.index _ (1 : Fin 2) * 1024 + 1024; rw [e1]; show (i 1).val / 1024 * 1024 ≤ (i 1).val ∧ (i 1).val < (i 1).val / 1024 * 1024 + 1024; omega

/-- THE OUTPUT ARRAY after the region: the gate's row, column by column. -/
theorem final3 (V : (c : Dev nD) → (b : Ref sig .tc) → Buf (Elt Ideal) ((c : Thread nD τ).loc b)) (c : Dev nD) :
    (dat3 (F := Ideal) V c).arrAt 5 cfg3.N
      = Cert.Spec.gate 1024 4096 (V c main_v31) (V c main_v6) (V c main_arg9) (V c main_arg10) (V c main_v34) :=
  (dat3 (F := Ideal) V c).arrAt_eq_of_cover 5 _ (fun t _ => flushed3_eq V c t) cover3

end Cert.KernelIdeal.Hand

end
-- ==== Proof.KI.Val4.lean ====
import proofs.«156083_j22471268893342_1_alg».proof.Proof.KI.Reg4
import proofs.«156083_j22471268893342_1_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

/-! # Region 4: the value of its output array

The region's one output array after its last grid point, at the exact instance: the second gate's row
`x · wihᵀ + h · whhᵀ + b`, column by column. The body's payload at a column is the input row against that row of the
input weights' block, plus the state row against that row of the state weights' block (each block transposed before its
product), plus the bias block's entry; each block is read where its window's index map puts it; the output's four blocks
tile the array. -/

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-- The left operand's index of the product at an output index and a contracted coordinate: the output's row, -/
theorem lhs4_0 (i : S1x1024.Idx) (r : dot_S1x1024_S1024x1024_S1x1024_1_0_0_1_n_n.contr.Idx) :
    (dot_S1x1024_S1024x1024_S1x1024_1_0_0_1_n_n.lhsIdx i r 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
/-- and the contracted coordinate as its column; -/
theorem lhs4_1 (i : S1x1024.Idx) (r : dot_S1x1024_S1024x1024_S1x1024_1_0_0_1_n_n.contr.Idx) :
    (dot_S1x1024_S1024x1024_S1x1024_1_0_0_1_n_n.lhsIdx i r 1).val = (r ⟨0, by decide⟩).val :=
  dot_S1x1024_S1024x1024_S1x1024_1_0_0_1_n_n.lhsIdx_val_of_single rfl i r
/-- the right operand's: the contracted coordinate as its row, -/
theorem rhs4_0 (i : S1x1024.Idx) (r : dot_S1x1024_S1024x1024_S1x1024_1_0_0_1_n_n.contr.Idx) :
    (dot_S1x1024_S1024x1024_S1x1024_1_0_0_1_n_n.rhsIdx i r 0).val = (r ⟨0, by decide⟩).val :=
  dot_S1x1024_S1024x1024_S1x1024_1_0_0_1_n_n.rhsIdx_val_of_single rfl i r
/-- and the output's column. -/
theorem rhs4_1 (i : S1x1024.Idx) (r : dot_S1x1024_S1024x1024_S1x1024_1_0_0_1_n_n.contr.Idx) :
    (dot_S1x1024_S1024x1024_S1x1024_1_0_0_1_n_n.rhsIdx i r 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- A row times the transpose of a weight block, accumulated into zero, at column `q`: the row against row `q` of
    the block. -/
theorem matmulT4_apply (x : FVec Ideal S1x1024 .bf16) (w : FVec Ideal S1024x1024 .bf16) (q : Fin 1024) :
    FloatOps.matmul dot_S1x1024_S1024x1024_S1x1024_1_0_0_1_n_n none x (transpose S1024x1024 [1, 0] w transposes_S1024x1024_p1_0_S1024x1024)
        (constant S1x1024 .f32 0x00000000#32) (ix2 0 q)
      = ∑ k : Fin 1024, x (ix2 0 k) * w (ix2 q k) := by
  rw [Ideal.matmul_constant_zero_apply, ← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 0 q) ((contrEquiv1 dot_S1x1024_S1024x1024_S1x1024_1_0_0_1_n_n 1024 rfl rfl).symm k) = ix2 0 k := funext fun a => Fin.ext (by
    match a with
    | ⟨0, _⟩ => exact lhs4_0 _ _
    | ⟨1, _⟩ => exact (lhs4_1 _ _).trans hk)
  have er : dot_S1x1024_S1024x1024_S1x1024_1_0_0_1_n_n.rhsIdx (ix2 0 q) ((contrEquiv1 dot_S1x1024_S1024x1024_S1x1024_1_0_0_1_n_n 1024 rfl rfl).symm k) = ix2 k q := funext fun a => Fin.ext (by
    match a with
    | ⟨0, _⟩ => exact (rhs4_0 _ _).trans hk
    | ⟨1, _⟩ => exact rhs4_1 _ _)
  rw [el, er, transpose_ix2_apply]

/-- The body's payload at column `q`: the input row against row `q` of the input weights' block, plus the state row
    against row `q` of the state weights' block, plus the bias block's entry. -/
theorem pay4_apply (x0 x1 : Vec Ideal S1x1024 .f32) (x2 x3 : Vec Ideal S1024x1024 .f32) (x4 : Vec Ideal S1x1024 .f32)
    (q : Fin 1024) :
    k4_pay1 (F := Ideal) x0 x1 x2 x3 x4 (ix2 0 q)
      = ((∑ k : Fin 1024, x0 (ix2 0 k) * x2 (ix2 q k)) + ∑ k : Fin 1024, x1 (ix2 0 k) * x3 (ix2 q k)) + x4 (ix2 0 q) := by
  unfold k4_pay1
  simp only [shapeCast_self]
  show (FloatOps.matmul (F := Ideal) dot_S1x1024_S1024x1024_S1x1024_1_0_0_1_n_n none (truncf .bf16 (x0 : FVec Ideal S1x1024 .f32) bitsLt_bf16_f32)
        (transpose S1024x1024 [1, 0] (truncf .bf16 (x2 : FVec Ideal S1024x1024 .f32) bitsLt_bf16_f32) transposes_S1024x1024_p1_0_S1024x1024)
        (constant S1x1024 .f32 0x00000000#32) (ix2 0 q)
      + FloatOps.matmul (F := Ideal) dot_S1x1024_S1024x1024_S1x1024_1_0_0_1_n_n none (truncf .bf16 (x1 : FVec Ideal S1x1024 .f32) bitsLt_bf16_f32)
        (transpose S1024x1024 [1, 0] (truncf .bf16 (x3 : FVec Ideal S1024x1024 .f32) bitsLt_bf16_f32) transposes_S1024x1024_p1_0_S1024x1024)
        (constant S1x1024 .f32 0x00000000#32) (ix2 0 q)) + x4 (ix2 0 q) = _
  rw [matmulT4_apply, matmulT4_apply]
  rfl

/-- The payload at any index of the output block: only the column matters, the block has one row. -/
theorem pay4_at (x0 x1 : Vec Ideal S1x1024 .f32) (x2 x3 : Vec Ideal S1024x1024 .f32) (x4 : Vec Ideal S1x1024 .f32)
    (j : S1x1024.Idx) :
    k4_pay1 (F := Ideal) x0 x1 x2 x3 x4 j
      = ((∑ k : Fin 1024, x0 (ix2 0 k) * x2 (ix2 (j 1) k)) + ∑ k : Fin 1024, x1 (ix2 0 k) * x3 (ix2 (j 1) k)) + x4 (ix2 0 (j 1)) := by
  obtain ⟨p, q, rfl⟩ : ∃ (p : Fin 1) (q : Fin 1024), j = ix2 p q := ⟨j 0, j 1, eq_ix2 j⟩
  obtain rfl : p = 0 := Subsingleton.elim _ _
  exact pay4_apply x0 x1 x2 x3 x4 q

variable (V : (c : Dev nD) → (b : Ref sig .tc) → Buf (Elt Ideal) ((c : Thread nD τ).loc b))

theorem hz4 : (![0, 0] : Fin 2 → Nat) = fun _ => 0 := funext fun a => by fin_cases a <;> rfl

/-- The printed index maps, decided over the grid: the two rows' windows stay at block (0, 0); the two weights'
    windows are at block row `t`; the bias's and the output's windows are at block column `t`. -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = t.val
    ∧ win4_5.index t (0 : Fin 2) = 0 ∧ win4_5.index t (1 : Fin 2) = t.val :=
  (by decide +kernel : ∀ t : Fin grid4.N, _)

/-- The input row's block at any point is the row. -/
theorem iblk4_0_apply (c : Dev nD) (t : Fin cfg4.N) (k : Fin 1024) :
    (iblk4 V c 0 t : Vec Ideal S1x1024 .f32) (ix2 0 k) = (V c main_v31 : S1x1024.Idx → EReal) (ix2 0 k) := by
  obtain ⟨e0, e1, -⟩ := idx_facts4 t
  unfold iblk4
  rw [View.read_apply]
  show V c main_v31 _ = V c main_v31 _
  refine congrArg _ ?_
  funext a
  apply Fin.ext
  match a with
  | ⟨0, _⟩ => show win4_0.index t (0 : Fin 2) * 1 + 1 * 0 = 0; rw [e0]
  | ⟨1, _⟩ => show win4_0.index t (1 : Fin 2) * 1024 + 1 * k.val = k.val; rw [e1]; omega

/-- The state row's block at any point is the row. -/
theorem iblk4_1_apply (c : Dev nD) (t : Fin cfg4.N) (k : Fin 1024) :
    (iblk4 V c 1 t : Vec Ideal S1x1024 .f32) (ix2 0 k) = (V c main_v8 : S1x1024.Idx → EReal) (ix2 0 k) := by
  obtain ⟨-, -, e0, e1, -⟩ := idx_facts4 t
  unfold iblk4
  rw [View.read_apply]
  show V c main_v8 _ = V c main_v8 _
  refine congrArg _ ?_
  funext a
  apply Fin.ext
  match a with
  | ⟨0, _⟩ => show win4_1.index t (0 : Fin 2) * 1 + 1 * 0 = 0; rw [e0]
  | ⟨1, _⟩ => show win4_1.index t (1 : Fin 2) * 1024 + 1 * k.val = k.val; rw [e1]; omega

/-- The input weights' block at point `t` is rows `1024 t … 1024 t + 1023` of the input weights. -/
theorem iblk4_2_apply (c : Dev nD) (t : Fin cfg4.N) (q : Fin 1024) (k : Fin 1024) (n : Fin 4096)
    (hn : n.val = t.val * 1024 + q.val) :
    (iblk4 V c 2 t : Vec Ideal S1024x1024 .f32) (ix2 q k) = (V c main_arg13 : S4096x1024.Idx → EReal) (ix2 n k) := by
  obtain ⟨-, -, -, -, e0, e1, -⟩ := idx_facts4 t
  unfold iblk4
  rw [View.read_apply]
  show V c main_arg13 _ = V c main_arg13 _
  refine congrArg _ ?_
  funext a
  apply Fin.ext
  match a with
  | ⟨0, _⟩ => show win4_2.index t (0 : Fin 2) * 1024 + 1 * q.val = n.val; rw [e0, hn]; omega
  | ⟨1, _⟩ => show win4_2.index t (1 : Fin 2) * 1024 + 1 * k.val = k.val; rw [e1]; omega

/-- The state weights' block at point `t` is rows `1024 t … 1024 t + 1023` of the state weights. -/
theorem iblk4_3_apply (c : Dev nD) (t : Fin cfg4.N) (q : Fin 1024) (k : Fin 1024) (n : Fin 4096)
    (hn : n.val = t.val * 1024 + q.val) :
    (iblk4 V c 3 t : Vec Ideal S1024x1024 .f32) (ix2 q k) = (V c main_arg14 : S4096x1024.Idx → EReal) (ix2 n k) := by
  obtain ⟨-, -, -, -, -, -, e0, e1, -⟩ := idx_facts4 t
  unfold iblk4
  rw [View.read_apply]
  show V c main_arg14 _ = V c main_arg14 _
  refine congrArg _ ?_
  funext a
  apply Fin.ext
  match a with
  | ⟨0, _⟩ => show win4_3.index t (0 : Fin 2) * 1024 + 1 * q.val = n.val; rw [e0, hn]; omega
  | ⟨1, _⟩ => show win4_3.index t (1 : Fin 2) * 1024 + 1 * k.val = k.val; rw [e1]; omega

/-- The bias's block at point `t` is columns `1024 t … 1024 t + 1023` of the bias row. -/
theorem iblk4_4_apply (c : Dev nD) (t : Fin cfg4.N) (q : Fin 1024) (n : Fin 4096)
    (hn : n.val = t.val * 1024 + q.val) :
    (iblk4 V c 4 t : Vec Ideal S1x1024 .f32) (ix2 0 q) = (V c main_v36 : S1x4096.Idx → EReal) (ix2 0 n) := by
  obtain ⟨-, -, -, -, -, -, -, -, e0, e1, -⟩ := idx_facts4 t
  unfold iblk4
  rw [View.read_apply]
  show V c main_v36 _ = V c main_v36 _
  refine congrArg _ ?_
  funext a
  apply Fin.ext
  match a with
  | ⟨0, _⟩ => show win4_4.index t (0 : Fin 2) * 1 + 1 * 0 = 0; rw [e0]
  | ⟨1, _⟩ => show win4_4.index t (1 : Fin 2) * 1024 + 1 * q.val = n.val; rw [e1, hn]; omega

/-- WHAT POINT `t` WRITES BACK is block `t` of the gate's row: the input row against the input weights' rows plus the
    state row against the state weights' rows plus the bias. -/
theorem flushed4_eq (c : Dev nD) (t : Fin cfg4.N) :
    (dat4 (F := Ideal) V c).flushed 5 t
      = ((cfg4.win 5).blk t).view.read (Elt Ideal)
          (Cert.Spec.gate 1024 4096 (V c main_v31) (V c main_v8) (V c main_arg13) (V c main_arg14) (V c main_v36)) := by
  show (cfg4.win 5).cut (grid4.coords t) ((dat4 (F := Ideal) V c).after 5 t) = _
  rw [after4_5]
  unfold out4_5
  rw [View.canon_unit_zero hz4]
  simp only [View.ld_unit_zero (S := S1x1024) hz4, View.ld_unit_zero (S := S1024x1024) hz4]
  obtain ⟨-, -, -, -, -, -, -, -, -, -, e0, e1⟩ := idx_facts4 t
  funext j
  refine (pay4_at (iblk4 V c 0 t) (iblk4 V c 1 t) (iblk4 V c 2 t) (iblk4 V c 3 t) (iblk4 V c 4 t) ((cfg4.win 5).xinj (grid4.coords t) j)).trans ?_
  show _ = Cert.Spec.gate 1024 4096 (V c main_v31) (V c main_v8) (V c main_arg13) (V c main_arg14) (V c main_v36) (((cfg4.win 5).blk t).view.emb j)
  unfold Cert.Spec.gate
  have hn : ((((cfg4.win 5).blk t).view.emb j) (1 : Fin 2)).val = t.val * 1024 + (((cfg4.win 5).xinj (grid4.coords t) j) (1 : Fin 2)).val := by
    show win4_5.index t (1 : Fin 2) * 1024 + 1 * (j (1 : Fin 2)).val = t.val * 1024 + (j (1 : Fin 2)).val
    rw [e1]; omega
  rw [iblk4_4_apply V c t _ _ hn]
  refine congrArg (· + _) (congrArg₂ (· + ·) (Finset.sum_congr rfl fun k _ => ?_) (Finset.sum_congr rfl fun k _ => ?_))
  · rw [iblk4_0_apply V c t k, iblk4_2_apply V c t _ k _ hn]
  · rw [iblk4_1_apply V c t k, iblk4_3_apply V c t _ k _ hn]

/-- An index of the output array is in point `t`'s block iff each coordinate is in the block's range on its axis. -/
theorem mem_blk4 (t : Fin cfg4.N) (i : S1x4096.Idx) :
    i ∈ ((cfg4.win 5).blk t).view.set ↔ ∀ a : Fin 2, win4_5.index t a * S1x1024.size a ≤ (i a).val ∧ (i a).val < win4_5.index t a * S1x1024.size a + S1x1024.size a := by
  show i ∈ ((View.whole main_v37).slice (win4_5.rect t)).set ↔ _
  rw [View.set_slice_whole, Rect.mem_set_unit]
  exact Iff.rfl

/-- Every column of the output lies in the block of the point `column / 1024`. -/
theorem cover4 (i : S1x4096.Idx) : ∃ t : Fin cfg4.N, (cfg4.win 5).flush t = true ∧ i ∈ ((cfg4.win 5).blk t).view.set := by
  have hi0 : (i 0).val < 1 := (i 0).isLt
  have hi1 : (i 1).val < 4096 := (i 1).isLt
  have hN : cfg4.N = 4 := N_4
  refine ⟨⟨(i 1).val / 1024, by rw [hN]; omega⟩, flush4_5 _, ?_⟩
  rw [mem_blk4]
  obtain ⟨-, -, -, -, -, -, -, -, -, -, e0, e1⟩ := idx_facts4 ⟨(i 1).val / 1024, by rw [hN]; omega⟩
  intro a
  match a with
  | ⟨0, _⟩ => show win4_5.index _ (0 : Fin 2) * 1 ≤ (i 0).val ∧ (i 0).val < win4_5.index _ (0 : Fin 2) * 1 + 1; rw [e0]; omega
  | ⟨1, _⟩ => show win4_5.index _ (1 : Fin 2) * 1024 ≤ (i 1).val ∧ (i 1).val < win4_5.index _ (1 : Fin 2) * 1024 + 1024; rw [e1]; show (i 1).val / 1024 * 1024 ≤ (i 1).val ∧ (i 1).val < (i 1).val / 1024 * 1024 + 1024; omega

/-- THE OUTPUT ARRAY after the region: the gate's row, column by column. -/
theorem final4 (V : (c : Dev nD) → (b : Ref sig .tc) → Buf (Elt Ideal) ((c : Thread nD τ).loc b)) (c : Dev nD) :
    (dat4 (F := Ideal) V c).arrAt 5 cfg4.N
      = Cert.Spec.gate 1024 4096 (V c main_v31) (V c main_v8) (V c main_arg13) (V c main_arg14) (V c main_v36) :=
  (dat4 (F := Ideal) V c).arrAt_eq_of_cover 5 _ (fun t _ => flushed4_eq V c t) cover4

end Cert.KernelIdeal.Hand

end
-- ==== Proof.KI.KVal2.lean ====
import proofs.«156083_j22471268893342_1_alg».proof.Proof.KI.KVal1
import proofs.«156083_j22471268893342_1_alg».proof.Proof.KI.Val2
import proofs.«156083_j22471268893342_1_alg».proof.Proof.KI.Val3
import proofs.«156083_j22471268893342_1_alg».proof.Proof.KI.Val4

/-! # What the kernel program's buffers hold, stage by stage (second part: through the two directions' gates)

Each buffer is read where it was last written: a host stretch's fold at its result buffer is the operation applied
to the operands' contents; a region's output array is the specification's sum of its input arrays; a buffer no
later item writes keeps its contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

theorem k_v28 : W5 m ρ c (Proc.devRef .tc main_v28) = Cert.Stages.join3 (Cert.Stages.embed (m ((c : Thread nD τ).loc main_arg0)) (m ((c : Thread nD τ).loc main_arg4))) (Cert.Stages.applied (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show StableHlo.after hostOps2 (W4 m ρ c) (Proc.devRef .tc main_v28) = _
  after_results
  rw [(((W4_keep m ρ c main_v4 (by decide)).trans ((W3_keep m ρ c main_v4 (by decide)).trans (W2_keep m ρ c main_v4 (by decide))))).trans (k_v4 m ρ c), k_v27]
  rfl
theorem k_v29 : W5 m ρ c (Proc.devRef .tc main_v29) = Cert.Stages.biasRow (m ((c : Thread nD τ).loc main_arg8)) := by
  show StableHlo.after hostOps2 (W4 m ρ c) (Proc.devRef .tc main_v29) = _
  after_results
  rw [W4_args m ρ c main_arg8 (by decide)]
  exact Cert.KLaws.bias_row_1024 _
/-- The LSTM's input before the relu: region 2's output. -/
theorem k_v30 : W6 m ρ c (Proc.devRef .tc main_v30) = Cert.Spec.linT 3072 1024 (Cert.Stages.join3 (Cert.Stages.embed (m ((c : Thread nD τ).loc main_arg0)) (m ((c : Thread nD τ).loc main_arg4))) (Cert.Stages.applied (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) (m ((c : Thread nD τ).loc main_arg7)) (Cert.Stages.biasRow (m ((c : Thread nD τ).loc main_arg8))) := by
  refine (W6_arr m ρ c 3).trans ((final2 (V5 m ρ) c).trans ?_)
  show Cert.Spec.linT 3072 1024 (W5 m ρ c (Proc.devRef .tc main_v28)) (W5 m ρ c (Proc.devRef .tc main_arg7)) (W5 m ρ c (Proc.devRef .tc main_v29)) = _
  rw [k_v28, W5_args m ρ c main_arg7 (by decide), k_v29]
theorem k_v31 : W7 m ρ c (Proc.devRef .tc main_v31) = (Cert.Stages.lstmIn (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps3 (W6 m ρ c) (Proc.devRef .tc main_v31) = _
  after_results
  rw [k_v30]
  rfl
theorem k_v34 : W8 m ρ c (Proc.devRef .tc main_v34) = Cert.Stages.biasRow2 (m ((c : Thread nD τ).loc main_arg11)) (m ((c : Thread nD τ).loc main_arg12)) := by
  show StableHlo.after hostOps3_1 (W7 m ρ c) (Proc.devRef .tc main_v34) = _
  after_results
  rw [W6_args m ρ c main_arg11 (by decide), W6_args m ρ c main_arg12 (by decide)]
  exact Cert.KLaws.bias_sum_row_4096 _ _
theorem k_v33 : W8 m ρ c (Proc.devRef .tc main_v33) = addf (F := Ideal) (φ := .f32) (m ((c : Thread nD τ).loc main_arg15)) (m ((c : Thread nD τ).loc main_arg16)) := by
  show StableHlo.after hostOps3_1 (W7 m ρ c) (Proc.devRef .tc main_v33) = _
  after_results
  rw [W6_args m ρ c main_arg15 (by decide), W6_args m ρ c main_arg16 (by decide)]
/-- The forward direction's gates: region 3's output. -/
theorem k_v35 : W9 m ρ c (Proc.devRef .tc main_v35) = (Cert.Stages.gF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (W9_arr m ρ c 5).trans ((final3 (V8 m ρ) c).trans ?_)
  show Cert.Spec.gate 1024 4096 (W8 m ρ c (Proc.devRef .tc main_v31)) (W8 m ρ c (Proc.devRef .tc main_v6)) (W8 m ρ c (Proc.devRef .tc main_arg9)) (W8 m ρ c (Proc.devRef .tc main_arg10)) (W8 m ρ c (Proc.devRef .tc main_v34)) = _
  rw [((W8_keep m ρ c main_v31 (by decide))).trans (k_v31 m ρ c), (((W8_keep m ρ c main_v6 (by decide)).trans ((W7_keep m ρ c main_v6 (by decide)).trans ((W6_keep m ρ c main_v6 (by decide)).trans ((W5_keep m ρ c main_v6 (by decide)).trans ((W4_keep m ρ c main_v6 (by decide)).trans ((W3_keep m ρ c main_v6 (by decide)).trans (W2_keep m ρ c main_v6 (by decide))))))))).trans (k_v6 m ρ c), W8_args m ρ c main_arg9 (by decide), W8_args m ρ c main_arg10 (by decide), k_v34]
  rfl
theorem k_v36 : W10 m ρ c (Proc.devRef .tc main_v36) = Cert.Stages.biasRow2 (m ((c : Thread nD τ).loc main_arg15)) (m ((c : Thread nD τ).loc main_arg16)) := by
  show StableHlo.after hostOps4 (W9 m ρ c) (Proc.devRef .tc main_v36) = _
  after_results
  rw [((W9_keep m ρ c main_v33 (by decide))).trans (k_v33 m ρ c)]
  exact Cert.KLaws.bias_sum_row_4096 _ _
/-- The backward direction's gates: region 4's output. -/
theorem k_v37 : W11 m ρ c (Proc.devRef .tc main_v37) = (Cert.Stages.gB (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16))) := by
  refine (W11_arr m ρ c 5).trans ((final4 (V10 m ρ) c).trans ?_)
  show Cert.Spec.gate 1024 4096 (W10 m ρ c (Proc.devRef .tc main_v31)) (W10 m ρ c (Proc.devRef .tc main_v8)) (W10 m ρ c (Proc.devRef .tc main_arg13)) (W10 m ρ c (Proc.devRef .tc main_arg14)) (W10 m ρ c (Proc.devRef .tc main_v36)) = _
  rw [(((W10_keep m ρ c main_v31 (by decide)).trans ((W9_keep m ρ c main_v31 (by decide)).trans (W8_keep m ρ c main_v31 (by decide))))).trans (k_v31 m ρ c), (((W10_keep m ρ c main_v8 (by decide)).trans ((W9_keep m ρ c main_v8 (by decide)).trans ((W8_keep m ρ c main_v8 (by decide)).trans ((W7_keep m ρ c main_v8 (by decide)).trans ((W6_keep m ρ c main_v8 (by decide)).trans ((W5_keep m ρ c main_v8 (by decide)).trans ((W4_keep m ρ c main_v8 (by decide)).trans ((W3_keep m ρ c main_v8 (by decide)).trans (W2_keep m ρ c main_v8 (by decide))))))))))).trans (k_v8 m ρ c), W10_args m ρ c main_arg13 (by decide), W10_args m ρ c main_arg14 (by decide), k_v36]
  rfl

end Cert.KernelIdeal.Hand

end
-- ==== Proof.KI.KVal3.lean ====
import proofs.«156083_j22471268893342_1_alg».proof.Proof.KI.RunA
import proofs.«156083_j22471268893342_1_alg».proof.Proof.Stages
import Idealize.ShloMosaic.Lib.StableHlo.Run

/-! # What the kernel program's buffers hold, stage by stage (the long host stretch after the gates: the two cells, the joined hidden states, and the output projection's operands, each from what the stretch finds in the buffers it reads)

Each buffer is read where it was last written: a host stretch's fold at its result buffer is the operation applied
to the operands' contents; a region's output array is the specification's sum of its input arrays; a buffer no
later item writes keeps its contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

theorem k_v57_of (G : (⟨S1x4096, .f32⟩ : BufTy).Contents (Elt Ideal)) (C0 : (⟨S1x1024, .f32⟩ : BufTy).Contents (Elt Ideal)) (hg : W11 m ρ c (Proc.devRef .tc main_v35) = G) (hc : W11 m ρ c (Proc.devRef .tc main_v10) = C0) :
    W12 m ρ c (Proc.devRef .tc main_v57) = Cert.Stages.cellC G C0 := by
  show StableHlo.after hostOps5 (W11 m ρ c) (Proc.devRef .tc main_v57) = _
  after_results_simp
  rw [hg, hc]
  rfl
theorem k_v65_of (G : (⟨S1x4096, .f32⟩ : BufTy).Contents (Elt Ideal)) (C0 : (⟨S1x1024, .f32⟩ : BufTy).Contents (Elt Ideal)) (hg : W11 m ρ c (Proc.devRef .tc main_v35) = G) (hc : W11 m ρ c (Proc.devRef .tc main_v10) = C0) :
    W12 m ρ c (Proc.devRef .tc main_v65) = Cert.Stages.cellH G C0 := by
  show StableHlo.after hostOps5 (W11 m ρ c) (Proc.devRef .tc main_v65) = _
  after_results_simp
  rw [hg, hc]
  rfl
theorem k_v85_of (G : (⟨S1x4096, .f32⟩ : BufTy).Contents (Elt Ideal)) (C0 : (⟨S1x1024, .f32⟩ : BufTy).Contents (Elt Ideal)) (hg : W11 m ρ c (Proc.devRef .tc main_v37) = G) (hc : W11 m ρ c (Proc.devRef .tc main_v12) = C0) :
    W12 m ρ c (Proc.devRef .tc main_v85) = Cert.Stages.cellC G C0 := by
  show StableHlo.after hostOps5 (W11 m ρ c) (Proc.devRef .tc main_v85) = _
  after_results_simp
  rw [hg, hc]
  rfl
theorem k_v93_of (G : (⟨S1x4096, .f32⟩ : BufTy).Contents (Elt Ideal)) (C0 : (⟨S1x1024, .f32⟩ : BufTy).Contents (Elt Ideal)) (hg : W11 m ρ c (Proc.devRef .tc main_v37) = G) (hc : W11 m ρ c (Proc.devRef .tc main_v12) = C0) :
    W12 m ρ c (Proc.devRef .tc main_v93) = Cert.Stages.cellH G C0 := by
  show StableHlo.after hostOps5 (W11 m ρ c) (Proc.devRef .tc main_v93) = _
  after_results_simp
  rw [hg, hc]
  rfl

/-- Joining two pairs of equal rows gives equal rows. -/
theorem join_congr (a a' b b' : (⟨S1x1024, .f32⟩ : BufTy).Contents (Elt Ideal)) (ha : a = a') (hb : b = b') :
    concatenate S1x2048 1 [⟨S1x1024, a⟩, ⟨S1x1024, b⟩] concatenates_S1x1024_S1x1024_S1x2048_d1
      = Cert.Stages.join2 a' b' := by
  subst ha; subst hb; rfl

set_option maxHeartbeats 2000000 in
theorem k_v94_of (GF GB : (⟨S1x4096, .f32⟩ : BufTy).Contents (Elt Ideal)) (CF CB : (⟨S1x1024, .f32⟩ : BufTy).Contents (Elt Ideal)) (hgf : W11 m ρ c (Proc.devRef .tc main_v35) = GF) (hcf : W11 m ρ c (Proc.devRef .tc main_v10) = CF)
    (hgb : W11 m ρ c (Proc.devRef .tc main_v37) = GB) (hcb : W11 m ρ c (Proc.devRef .tc main_v12) = CB) :
    W12 m ρ c (Proc.devRef .tc main_v94) = Cert.Stages.join2 (Cert.Stages.cellH GF CF) (Cert.Stages.cellH GB CB) := by
  show StableHlo.after hostOps5 (W11 m ρ c) (Proc.devRef .tc main_v94) = _
  after_results_simp
  refine join_congr _ _ _ _ ?_ ?_
  · after_results_simp
    rw [hgf, hcf]
    rfl
  · after_results_simp
    rw [hgb, hcb]
    rfl
theorem k_v95 : W12 m ρ c (Proc.devRef .tc main_v95) = extractStridedSlice S50176x2048 ![0, 0] (m ((c : Thread nD τ).loc main_arg17)) slices_S50257x2048_S50176x2048_0_0 := by
  show StableHlo.after hostOps5 (W11 m ρ c) (Proc.devRef .tc main_v95) = _
  after_results_simp
  rw [W11_args m ρ c main_arg17 (by decide)]
theorem k_v96 : W12 m ρ c (Proc.devRef .tc main_v96) = extractStridedSlice S81x2048 ![50176, 0] (m ((c : Thread nD τ).loc main_arg17)) slices_S50257x2048_S81x2048_50176_0 := by
  show StableHlo.after hostOps5 (W11 m ρ c) (Proc.devRef .tc main_v96) = _
  after_results_simp
  rw [W11_args m ρ c main_arg17 (by decide)]
theorem k_v98 : W12 m ρ c (Proc.devRef .tc main_v98) = extractStridedSlice S81 ![50176] (m ((c : Thread nD τ).loc main_arg18)) slices_S50257_S81_50176 := by
  show StableHlo.after hostOps5 (W11 m ρ c) (Proc.devRef .tc main_v98) = _
  after_results_simp
  rw [W11_args m ρ c main_arg18 (by decide)]
theorem k_v99 : W12 m ρ c (Proc.devRef .tc main_v99) = shapeCast S1x50176 (extractStridedSlice S50176 ![0] (m ((c : Thread nD τ).loc main_arg18)) slices_S50257_S50176_0) shapeCasts_S50176_S1x50176 := by
  show StableHlo.after hostOps5 (W11 m ρ c) (Proc.devRef .tc main_v99) = _
  after_results_simp
  rw [W11_args m ρ c main_arg18 (by decide)]
  rfl

end Cert.KernelIdeal.Hand

end
-- ==== Proof.KI.Val5.lean ====
import proofs.«156083_j22471268893342_1_alg».proof.Proof.KI.Reg5
import proofs.«156083_j22471268893342_1_alg».proof.Proof.Spec
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-! # Region 5: the array it leaves is `x · wᵀ + b`

The body's payload at a column is the row's product with that row of the weight block plus the bias entry; the
blocks of the grid's points are the array's column blocks, so the output array ends at the specification. -/

/-- The payload at column `q` of the block: the contraction over the 2048 shared coordinates of the row with row `q`
    of the weight block (the block is transposed before the product), plus the bias block's entry. -/
theorem pay5_apply (x0 : Vec Ideal S1x2048 .f32) (x1 : Vec Ideal S1024x2048 .f32) (x2 : Vec Ideal S1x1024 .f32) (q : Fin 1024) :
    k5_pay1 x0 x1 x2 (ix2 0 q) = (∑ k : Fin 2048, x0 (ix2 0 k) * x1 (ix2 q k)) + x2 (ix2 0 q) := by
  unfold k5_pay1
  simp only [shapeCast_self]
  rw [addf_apply]
  refine congrArg (· + x2 (ix2 0 q)) ?_
  show FloatOps.matmul dot_S1x2048_S2048x1024_S1x1024_1_0_0_1_n_n none _ _ (constant S1x1024 .f32 0x00000000#32) (ix2 0 q) = _
  rw [Ideal.matmul_constant_zero_apply,
    ← Equiv.sum_comp (contrEquiv1 dot_S1x2048_S2048x1024_S1x1024_1_0_0_1_n_n 2048 rfl rfl).symm]
  refine Finset.sum_congr rfl fun k _ => ?_
  have ck := contrEquiv1_symm_val dot_S1x2048_S2048x1024_S1x1024_1_0_0_1_n_n 2048 rfl rfl k
  have hl : dot_S1x2048_S2048x1024_S1x1024_1_0_0_1_n_n.lhsIdx (ix2 0 q) ((contrEquiv1 _ 2048 rfl rfl).symm k) = ix2 0 k := by
    funext ax; apply Fin.ext
    match ax with
    | ⟨0, _⟩ => simp [DotDims.lhsIdx, dot_S1x2048_S2048x1024_S1x1024_1_0_0_1_n_n] <;> rfl
    | ⟨1, _⟩ => simp [DotDims.lhsIdx, dot_S1x2048_S2048x1024_S1x1024_1_0_0_1_n_n] <;> exact ck
  have hr : dot_S1x2048_S2048x1024_S1x1024_1_0_0_1_n_n.rhsIdx (ix2 0 q) ((contrEquiv1 _ 2048 rfl rfl).symm k) = ix2 k q := by
    funext ax; apply Fin.ext
    match ax with
    | ⟨0, _⟩ => simp [DotDims.rhsIdx, dot_S1x2048_S2048x1024_S1x1024_1_0_0_1_n_n] <;> exact ck
    | ⟨1, _⟩ => simp [DotDims.rhsIdx, dot_S1x2048_S2048x1024_S1x1024_1_0_0_1_n_n] <;> rfl
  rw [hl, hr, truncf_apply]
  refine congrArg (x0 (ix2 0 k) * ·) ?_
  refine (transpose_apply [1, 0] _ transposes_S1024x2048_p1_0_S2048x1024 (ix2 k q) (ix2 q k) ?_).trans ?_
  · intro b
    match b with
    | ⟨0, _⟩ => rfl
    | ⟨1, _⟩ => rfl
  · rfl

variable (V : (c : Dev nD) → (b : Ref sig .tc) → Buf (Elt Ideal) ((c : Thread nD τ).loc b))

/-- The zero offsets, as a constant function. -/
theorem zeros5 : (![0, 0] : Fin 2 → Nat) = fun _ => 0 := funext fun a => by fin_cases a <;> rfl

/-- At a point whose blocks are the row, rows `n·1024 …` of the weight and columns `n·1024 …` of the bias, the payload
    at column `j` of the block is the specification at column `n·1024 + j` of the array. -/
theorem point5 (A0 : S1x2048.Idx → EReal) (A1 : S50176x2048.Idx → EReal) (A2 : S1x50176.Idx → EReal)
    (x0 : Vec Ideal S1x2048 .f32) (x1 : Vec Ideal S1024x2048 .f32) (x2 : Vec Ideal S1x1024 .f32)
    (j : S1x1024.Idx) (i : S1x50176.Idx) (n : Nat)
    (hi : (i 1).val = n * 1024 + (j 1).val)
    (h0 : ∀ k : Fin 2048, x0 (ix2 0 k) = A0 (ix2 0 k))
    (h1 : ∀ (r : Fin 1024) (k : Fin 2048) (i' : S50176x2048.Idx), (i' 0).val = n * 1024 + r.val → (i' 1).val = k.val → x1 (ix2 r k) = A1 i')
    (h2 : ∀ (r : Fin 1024) (i' : S1x50176.Idx), (i' 1).val = n * 1024 + r.val → x2 (ix2 0 r) = A2 i') :
    k5_pay1 x0 x1 x2 j = Cert.Spec.linT 2048 50176 A0 A1 A2 i := by
  obtain ⟨p, q, rfl⟩ : ∃ (p : Fin 1) (q : Fin 1024), j = ix2 p q := ⟨j 0, j 1, eq_ix2 j⟩
  obtain rfl : p = 0 := Subsingleton.elim _ _
  rw [pay5_apply]
  unfold Cert.Spec.linT
  rw [h2 q (ix2 0 (i 1)) hi]
  refine congrArg (· + A2 (ix2 0 (i 1))) ?_
  refine Finset.sum_congr rfl fun k _ => ?_
  rw [h0 k, h1 q k (ix2 (i 1) k) hi rfl]

/-- The index maps over the grid: the row's block is fixed, the weight's block row and the bias's and the output's
    block column are the point. -/
theorem idx_facts5 : ∀ t : Fin cfg5.N,
    win5_0.index t (0 : Fin 2) = 0 ∧ win5_0.index t (1 : Fin 2) = 0
    ∧ win5_1.index t (0 : Fin 2) = t.val ∧ win5_1.index t (1 : Fin 2) = 0
    ∧ win5_2.index t (0 : Fin 2) = 0 ∧ win5_2.index t (1 : Fin 2) = t.val
    ∧ win5_3.index t (0 : Fin 2) = 0 ∧ win5_3.index t (1 : Fin 2) = t.val :=
  (by decide +kernel : ∀ t : Fin grid5.N, _)

/-- What point `t` writes back is block `t` of the specification. -/
theorem flushed5_eq (c : Dev nD) (t : Fin cfg5.N) :
    (dat5 (F := Ideal) V c).flushed 3 t = ((cfg5.win 3).blk t).view.read (Elt Ideal) (Cert.Spec.linT 2048 50176 (V c main_v94) (V c main_v95) (V c main_v99)) := by
  show (cfg5.win 3).cut (grid5.coords t) ((dat5 V c).after 3 t) = _
  rw [after5_3]
  unfold out5_3
  rw [View.canon_unit_zero zeros5]
  simp only [View.ld_unit_zero (S := S1x2048) zeros5, View.ld_unit_zero (S := S1024x2048) zeros5, View.ld_unit_zero (S := S1x1024) zeros5]
  obtain ⟨e00, e01, e10, e11, e20, e21, e30, e31⟩ := idx_facts5 t
  funext j
  refine point5 (V c main_v94) (V c main_v95) (V c main_v99) (iblk5 V c 0 t) (iblk5 V c 1 t) (iblk5 V c 2 t) j
    (((cfg5.win 3).blk t).view.emb j) t.val ?_ ?_ ?_ ?_
  · show win5_3.index t (1 : Fin 2) * 1024 + 1 * (j 1).val = _
    rw [e31]; omega
  · intro k
    show V c main_v94 (((cfg5.win 0).blk t).view.emb (ix2 0 k)) = V c main_v94 (ix2 0 k)
    refine congrArg (V c main_v94) (funext fun a => Fin.ext ?_)
    match a with
    | ⟨0, _⟩ => show win5_0.index t (0 : Fin 2) * 1 + 1 * 0 = 0; omega
    | ⟨1, _⟩ => show win5_0.index t (1 : Fin 2) * 2048 + 1 * k.val = k.val; omega
  · intro r k i' hi0 hi1
    show V c main_v95 (((cfg5.win 1).blk t).view.emb (ix2 r k)) = V c main_v95 i'
    refine congrArg (V c main_v95) (funext fun a => Fin.ext ?_)
    match a with
    | ⟨0, _⟩ => show win5_1.index t (0 : Fin 2) * 1024 + 1 * r.val = (i' 0).val; omega
    | ⟨1, _⟩ => show win5_1.index t (1 : Fin 2) * 2048 + 1 * k.val = (i' 1).val; omega
  · intro r i' hi1
    show V c main_v99 (((cfg5.win 2).blk t).view.emb (ix2 0 r)) = V c main_v99 i'
    refine congrArg (V c main_v99) (funext fun a => Fin.ext ?_)
    have hi0 : (i' 0).val < 1 := (i' 0).isLt
    match a with
    | ⟨0, _⟩ => show win5_2.index t (0 : Fin 2) * 1 + 1 * 0 = (i' 0).val; omega
    | ⟨1, _⟩ => show win5_2.index t (1 : Fin 2) * 1024 + 1 * r.val = (i' 1).val; omega

/-- An index of the array is in point `t`'s block iff each coordinate is in the block's range on its axis. -/
theorem mem_blk5 (t : Fin cfg5.N) (i : S1x50176.Idx) :
    i ∈ ((cfg5.win 3).blk t).view.set ↔ ∀ a : Fin 2, win5_3.index t a * S1x1024.size a ≤ (i a).val ∧ (i a).val < win5_3.index t a * S1x1024.size a + S1x1024.size a := by
  show i ∈ ((View.whole main_v100).slice (win5_3.rect t)).set ↔ _
  rw [View.set_slice_whole, Rect.mem_set_unit]
  exact Iff.rfl

/-- Column `n` of the array lies in the block of point `n / 1024`. -/
theorem cover5 (i : S1x50176.Idx) : ∃ t : Fin cfg5.N, (cfg5.win 3).flush t = true ∧ i ∈ ((cfg5.win 3).blk t).view.set := by
  have hi0 : (i 0).val < 1 := (i 0).isLt
  have hi1 : (i 1).val < 50176 := (i 1).isLt
  have hN : grid5.N = 49 := N_5
  have ht : (i 1).val / 1024 < cfg5.N := by show _ < grid5.N; omega
  refine ⟨⟨(i 1).val / 1024, ht⟩, flush5_3 _, ?_⟩
  rw [mem_blk5]
  obtain ⟨-, -, -, -, -, -, e30, e31⟩ := idx_facts5 ⟨(i 1).val / 1024, ht⟩
  have e31' : win5_3.index ⟨(i 1).val / 1024, ht⟩ (1 : Fin 2) = (i 1).val / 1024 := e31
  intro a
  match a with
  | ⟨0, _⟩ =>
    show win5_3.index ⟨(i 1).val / 1024, ht⟩ (0 : Fin 2) * 1 ≤ (i 0).val ∧ (i 0).val < win5_3.index ⟨(i 1).val / 1024, ht⟩ (0 : Fin 2) * 1 + 1
    omega
  | ⟨1, _⟩ =>
    show win5_3.index ⟨(i 1).val / 1024, ht⟩ (1 : Fin 2) * 1024 ≤ (i 1).val ∧ (i 1).val < win5_3.index ⟨(i 1).val / 1024, ht⟩ (1 : Fin 2) * 1024 + 1024
    omega

/-- The output array after the region: `x · wᵀ + b` of the three input arrays as the region finds them. -/
theorem final5 (V : (c : Dev nD) → (b : Ref sig .tc) → Buf (Elt Ideal) ((c : Thread nD τ).loc b)) (c : Dev nD) :
    (dat5 (F := Ideal) V c).arrAt 3 cfg5.N = Cert.Spec.linT 2048 50176 (V c main_v94) (V c main_v95) (V c main_v99) :=
  (dat5 (F := Ideal) V c).arrAt_eq_of_cover 3 _ (fun t _ => flushed5_eq V c t) cover5

end Cert.KernelIdeal.Hand
end
-- ==== Proof.KI.Val6.lean ====
import proofs.«156083_j22471268893342_1_alg».proof.Proof.KI.Reg6
import proofs.«156083_j22471268893342_1_alg».proof.Proof.Spec
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-! # Region 6: the array it leaves is `x · wᵀ + b`

The body's payload at a column is the row's product with that row of the weight block plus the bias entry; the
blocks of the grid's points are the array's column blocks, so the output array ends at the specification. -/

/-- The payload at column `q` of the block: the contraction over the 2048 shared coordinates of the row with row `q`
    of the weight block (the block is transposed before the product), plus the bias block's entry. -/
theorem pay6_apply (x0 : Vec Ideal S1x2048 .f32) (x1 : Vec Ideal S81x2048 .f32) (x2 : Vec Ideal S1x81 .f32) (q : Fin 81) :
    k6_pay1 x0 x1 x2 (ix2 0 q) = (∑ k : Fin 2048, x0 (ix2 0 k) * x1 (ix2 q k)) + x2 (ix2 0 q) := by
  unfold k6_pay1
  simp only [shapeCast_self]
  rw [addf_apply]
  refine congrArg (· + x2 (ix2 0 q)) ?_
  show FloatOps.matmul dot_S1x2048_S2048x81_S1x81_1_0_0_1_n_n none _ _ (constant S1x81 .f32 0x00000000#32) (ix2 0 q) = _
  rw [Ideal.matmul_constant_zero_apply,
    ← Equiv.sum_comp (contrEquiv1 dot_S1x2048_S2048x81_S1x81_1_0_0_1_n_n 2048 rfl rfl).symm]
  refine Finset.sum_congr rfl fun k _ => ?_
  have ck := contrEquiv1_symm_val dot_S1x2048_S2048x81_S1x81_1_0_0_1_n_n 2048 rfl rfl k
  have hl : dot_S1x2048_S2048x81_S1x81_1_0_0_1_n_n.lhsIdx (ix2 0 q) ((contrEquiv1 _ 2048 rfl rfl).symm k) = ix2 0 k := by
    funext ax; apply Fin.ext
    match ax with
    | ⟨0, _⟩ => simp [DotDims.lhsIdx, dot_S1x2048_S2048x81_S1x81_1_0_0_1_n_n] <;> rfl
    | ⟨1, _⟩ => simp [DotDims.lhsIdx, dot_S1x2048_S2048x81_S1x81_1_0_0_1_n_n] <;> exact ck
  have hr : dot_S1x2048_S2048x81_S1x81_1_0_0_1_n_n.rhsIdx (ix2 0 q) ((contrEquiv1 _ 2048 rfl rfl).symm k) = ix2 k q := by
    funext ax; apply Fin.ext
    match ax with
    | ⟨0, _⟩ => simp [DotDims.rhsIdx, dot_S1x2048_S2048x81_S1x81_1_0_0_1_n_n] <;> exact ck
    | ⟨1, _⟩ => simp [DotDims.rhsIdx, dot_S1x2048_S2048x81_S1x81_1_0_0_1_n_n] <;> rfl
  rw [hl, hr, truncf_apply]
  refine congrArg (x0 (ix2 0 k) * ·) ?_
  refine (transpose_apply [1, 0] _ transposes_S81x2048_p1_0_S2048x81 (ix2 k q) (ix2 q k) ?_).trans ?_
  · intro b
    match b with
    | ⟨0, _⟩ => rfl
    | ⟨1, _⟩ => rfl
  · rfl

variable (V : (c : Dev nD) → (b : Ref sig .tc) → Buf (Elt Ideal) ((c : Thread nD τ).loc b))

/-- The zero offsets, as a constant function. -/
theorem zeros6 : (![0, 0] : Fin 2 → Nat) = fun _ => 0 := funext fun a => by fin_cases a <;> rfl

/-- At a point whose blocks are the row, rows `n·81 …` of the weight and columns `n·81 …` of the bias, the payload
    at column `j` of the block is the specification at column `n·81 + j` of the array. -/
theorem point6 (A0 : S1x2048.Idx → EReal) (A1 : S81x2048.Idx → EReal) (A2 : S1x81.Idx → EReal)
    (x0 : Vec Ideal S1x2048 .f32) (x1 : Vec Ideal S81x2048 .f32) (x2 : Vec Ideal S1x81 .f32)
    (j : S1x81.Idx) (i : S1x81.Idx) (n : Nat)
    (hi : (i 1).val = n * 81 + (j 1).val)
    (h0 : ∀ k : Fin 2048, x0 (ix2 0 k) = A0 (ix2 0 k))
    (h1 : ∀ (r : Fin 81) (k : Fin 2048) (i' : S81x2048.Idx), (i' 0).val = n * 81 + r.val → (i' 1).val = k.val → x1 (ix2 r k) = A1 i')
    (h2 : ∀ (r : Fin 81) (i' : S1x81.Idx), (i' 1).val = n * 81 + r.val → x2 (ix2 0 r) = A2 i') :
    k6_pay1 x0 x1 x2 j = Cert.Spec.linT 2048 81 A0 A1 A2 i := by
  obtain ⟨p, q, rfl⟩ : ∃ (p : Fin 1) (q : Fin 81), j = ix2 p q := ⟨j 0, j 1, eq_ix2 j⟩
  obtain rfl : p = 0 := Subsingleton.elim _ _
  rw [pay6_apply]
  unfold Cert.Spec.linT
  rw [h2 q (ix2 0 (i 1)) hi]
  refine congrArg (· + A2 (ix2 0 (i 1))) ?_
  refine Finset.sum_congr rfl fun k _ => ?_
  rw [h0 k, h1 q k (ix2 (i 1) k) hi rfl]

/-- The index maps over the grid: the row's block is fixed, the weight's block row and the bias's and the output's
    block column are the point. -/
theorem idx_facts6 : ∀ t : Fin cfg6.N,
    win6_0.index t (0 : Fin 2) = 0 ∧ win6_0.index t (1 : Fin 2) = 0
    ∧ win6_1.index t (0 : Fin 2) = t.val ∧ win6_1.index t (1 : Fin 2) = 0
    ∧ win6_2.index t (0 : Fin 2) = 0 ∧ win6_2.index t (1 : Fin 2) = t.val
    ∧ win6_3.index t (0 : Fin 2) = 0 ∧ win6_3.index t (1 : Fin 2) = t.val :=
  (by decide +kernel : ∀ t : Fin grid6.N, _)

/-- What point `t` writes back is block `t` of the specification. -/
theorem flushed6_eq (c : Dev nD) (t : Fin cfg6.N) :
    (dat6 (F := Ideal) V c).flushed 3 t = ((cfg6.win 3).blk t).view.read (Elt Ideal) (Cert.Spec.linT 2048 81 (V c main_v94) (V c main_v96) (V c main_v101)) := by
  show (cfg6.win 3).cut (grid6.coords t) ((dat6 V c).after 3 t) = _
  rw [after6_3]
  unfold out6_3
  rw [View.canon_unit_zero zeros6]
  simp only [View.ld_unit_zero (S := S1x2048) zeros6, View.ld_unit_zero (S := S81x2048) zeros6, View.ld_unit_zero (S := S1x81) zeros6]
  obtain ⟨e00, e01, e10, e11, e20, e21, e30, e31⟩ := idx_facts6 t
  funext j
  refine point6 (V c main_v94) (V c main_v96) (V c main_v101) (iblk6 V c 0 t) (iblk6 V c 1 t) (iblk6 V c 2 t) j
    (((cfg6.win 3).blk t).view.emb j) t.val ?_ ?_ ?_ ?_
  · show win6_3.index t (1 : Fin 2) * 81 + 1 * (j 1).val = _
    rw [e31]; omega
  · intro k
    show V c main_v94 (((cfg6.win 0).blk t).view.emb (ix2 0 k)) = V c main_v94 (ix2 0 k)
    refine congrArg (V c main_v94) (funext fun a => Fin.ext ?_)
    match a with
    | ⟨0, _⟩ => show win6_0.index t (0 : Fin 2) * 1 + 1 * 0 = 0; omega
    | ⟨1, _⟩ => show win6_0.index t (1 : Fin 2) * 2048 + 1 * k.val = k.val; omega
  · intro r k i' hi0 hi1
    show V c main_v96 (((cfg6.win 1).blk t).view.emb (ix2 r k)) = V c main_v96 i'
    refine congrArg (V c main_v96) (funext fun a => Fin.ext ?_)
    match a with
    | ⟨0, _⟩ => show win6_1.index t (0 : Fin 2) * 81 + 1 * r.val = (i' 0).val; omega
    | ⟨1, _⟩ => show win6_1.index t (1 : Fin 2) * 2048 + 1 * k.val = (i' 1).val; omega
  · intro r i' hi1
    show V c main_v101 (((cfg6.win 2).blk t).view.emb (ix2 0 r)) = V c main_v101 i'
    refine congrArg (V c main_v101) (funext fun a => Fin.ext ?_)
    have hi0 : (i' 0).val < 1 := (i' 0).isLt
    match a with
    | ⟨0, _⟩ => show win6_2.index t (0 : Fin 2) * 1 + 1 * 0 = (i' 0).val; omega
    | ⟨1, _⟩ => show win6_2.index t (1 : Fin 2) * 81 + 1 * r.val = (i' 1).val; omega

/-- An index of the array is in point `t`'s block iff each coordinate is in the block's range on its axis. -/
theorem mem_blk6 (t : Fin cfg6.N) (i : S1x81.Idx) :
    i ∈ ((cfg6.win 3).blk t).view.set ↔ ∀ a : Fin 2, win6_3.index t a * S1x81.size a ≤ (i a).val ∧ (i a).val < win6_3.index t a * S1x81.size a + S1x81.size a := by
  show i ∈ ((View.whole main_v102).slice (win6_3.rect t)).set ↔ _
  rw [View.set_slice_whole, Rect.mem_set_unit]
  exact Iff.rfl

/-- Column `n` of the array lies in the block of point `n / 81`. -/
theorem cover6 (i : S1x81.Idx) : ∃ t : Fin cfg6.N, (cfg6.win 3).flush t = true ∧ i ∈ ((cfg6.win 3).blk t).view.set := by
  have hi0 : (i 0).val < 1 := (i 0).isLt
  have hi1 : (i 1).val < 81 := (i 1).isLt
  have hN : grid6.N = 1 := N_6
  have ht : (i 1).val / 81 < cfg6.N := by show _ < grid6.N; omega
  refine ⟨⟨(i 1).val / 81, ht⟩, flush6_3 _, ?_⟩
  rw [mem_blk6]
  obtain ⟨-, -, -, -, -, -, e30, e31⟩ := idx_facts6 ⟨(i 1).val / 81, ht⟩
  have e31' : win6_3.index ⟨(i 1).val / 81, ht⟩ (1 : Fin 2) = (i 1).val / 81 := e31
  intro a
  match a with
  | ⟨0, _⟩ =>
    show win6_3.index ⟨(i 1).val / 81, ht⟩ (0 : Fin 2) * 1 ≤ (i 0).val ∧ (i 0).val < win6_3.index ⟨(i 1).val / 81, ht⟩ (0 : Fin 2) * 1 + 1
    omega
  | ⟨1, _⟩ =>
    show win6_3.index ⟨(i 1).val / 81, ht⟩ (1 : Fin 2) * 81 ≤ (i 1).val ∧ (i 1).val < win6_3.index ⟨(i 1).val / 81, ht⟩ (1 : Fin 2) * 81 + 81
    omega

/-- The output array after the region: `x · wᵀ + b` of the three input arrays as the region finds them. -/
theorem final6 (V : (c : Dev nD) → (b : Ref sig .tc) → Buf (Elt Ideal) ((c : Thread nD τ).loc b)) (c : Dev nD) :
    (dat6 (F := Ideal) V c).arrAt 3 cfg6.N = Cert.Spec.linT 2048 81 (V c main_v94) (V c main_v96) (V c main_v101) :=
  (dat6 (F := Ideal) V c).arrAt_eq_of_cover 3 _ (fun t _ => flushed6_eq V c t) cover6

end Cert.KernelIdeal.Hand
end
-- ==== Proof.KI.KVal4.lean ====
import proofs.«156083_j22471268893342_1_alg».proof.Proof.KI.KVal2
import proofs.«156083_j22471268893342_1_alg».proof.Proof.KI.KVal3
import proofs.«156083_j22471268893342_1_alg».proof.Proof.KI.Val5
import proofs.«156083_j22471268893342_1_alg».proof.Proof.KI.Val6

/-! # What the kernel program's buffers hold, stage by stage (last part: the cells' states, the output projection and the four results)

Each buffer is read where it was last written: a host stretch's fold at its result buffer is the operation applied
to the operands' contents; a region's output array is the specification's sum of its input arrays; a buffer no
later item writes keeps its contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg) (c : Dev nD)

theorem k_v57 : W12 m ρ c (Proc.devRef .tc main_v57) = (Cert.Stages.cF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := k_v57_of m ρ c _ _ ((((W11_keep m ρ c main_v35 (by decide)).trans (W10_keep m ρ c main_v35 (by decide)))).trans (k_v35 m ρ c)) ((((W11_keep m ρ c main_v10 (by decide)).trans ((W10_keep m ρ c main_v10 (by decide)).trans ((W9_keep m ρ c main_v10 (by decide)).trans ((W8_keep m ρ c main_v10 (by decide)).trans ((W7_keep m ρ c main_v10 (by decide)).trans ((W6_keep m ρ c main_v10 (by decide)).trans ((W5_keep m ρ c main_v10 (by decide)).trans ((W4_keep m ρ c main_v10 (by decide)).trans ((W3_keep m ρ c main_v10 (by decide)).trans (W2_keep m ρ c main_v10 (by decide)))))))))))).trans (k_v10 m ρ c))
theorem k_v65 : W12 m ρ c (Proc.devRef .tc main_v65) = (Cert.Stages.hF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := k_v65_of m ρ c _ _ ((((W11_keep m ρ c main_v35 (by decide)).trans (W10_keep m ρ c main_v35 (by decide)))).trans (k_v35 m ρ c)) ((((W11_keep m ρ c main_v10 (by decide)).trans ((W10_keep m ρ c main_v10 (by decide)).trans ((W9_keep m ρ c main_v10 (by decide)).trans ((W8_keep m ρ c main_v10 (by decide)).trans ((W7_keep m ρ c main_v10 (by decide)).trans ((W6_keep m ρ c main_v10 (by decide)).trans ((W5_keep m ρ c main_v10 (by decide)).trans ((W4_keep m ρ c main_v10 (by decide)).trans ((W3_keep m ρ c main_v10 (by decide)).trans (W2_keep m ρ c main_v10 (by decide)))))))))))).trans (k_v10 m ρ c))
theorem k_v85 : W12 m ρ c (Proc.devRef .tc main_v85) = (Cert.Stages.cB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16))) := k_v85_of m ρ c _ _ (k_v37 m ρ c) ((((W11_keep m ρ c main_v12 (by decide)).trans ((W10_keep m ρ c main_v12 (by decide)).trans ((W9_keep m ρ c main_v12 (by decide)).trans ((W8_keep m ρ c main_v12 (by decide)).trans ((W7_keep m ρ c main_v12 (by decide)).trans ((W6_keep m ρ c main_v12 (by decide)).trans ((W5_keep m ρ c main_v12 (by decide)).trans ((W4_keep m ρ c main_v12 (by decide)).trans ((W3_keep m ρ c main_v12 (by decide)).trans (W2_keep m ρ c main_v12 (by decide)))))))))))).trans (k_v12 m ρ c))
theorem k_v93 : W12 m ρ c (Proc.devRef .tc main_v93) = (Cert.Stages.hB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16))) := k_v93_of m ρ c _ _ (k_v37 m ρ c) ((((W11_keep m ρ c main_v12 (by decide)).trans ((W10_keep m ρ c main_v12 (by decide)).trans ((W9_keep m ρ c main_v12 (by decide)).trans ((W8_keep m ρ c main_v12 (by decide)).trans ((W7_keep m ρ c main_v12 (by decide)).trans ((W6_keep m ρ c main_v12 (by decide)).trans ((W5_keep m ρ c main_v12 (by decide)).trans ((W4_keep m ρ c main_v12 (by decide)).trans ((W3_keep m ρ c main_v12 (by decide)).trans (W2_keep m ρ c main_v12 (by decide)))))))))))).trans (k_v12 m ρ c))
theorem k_v94 : W12 m ρ c (Proc.devRef .tc main_v94) = Cert.Stages.join2 (Cert.Stages.hF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (Cert.Stages.hB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16))) := k_v94_of m ρ c _ _ _ _ ((((W11_keep m ρ c main_v35 (by decide)).trans (W10_keep m ρ c main_v35 (by decide)))).trans (k_v35 m ρ c)) ((((W11_keep m ρ c main_v10 (by decide)).trans ((W10_keep m ρ c main_v10 (by decide)).trans ((W9_keep m ρ c main_v10 (by decide)).trans ((W8_keep m ρ c main_v10 (by decide)).trans ((W7_keep m ρ c main_v10 (by decide)).trans ((W6_keep m ρ c main_v10 (by decide)).trans ((W5_keep m ρ c main_v10 (by decide)).trans ((W4_keep m ρ c main_v10 (by decide)).trans ((W3_keep m ρ c main_v10 (by decide)).trans (W2_keep m ρ c main_v10 (by decide)))))))))))).trans (k_v10 m ρ c)) (k_v37 m ρ c) ((((W11_keep m ρ c main_v12 (by decide)).trans ((W10_keep m ρ c main_v12 (by decide)).trans ((W9_keep m ρ c main_v12 (by decide)).trans ((W8_keep m ρ c main_v12 (by decide)).trans ((W7_keep m ρ c main_v12 (by decide)).trans ((W6_keep m ρ c main_v12 (by decide)).trans ((W5_keep m ρ c main_v12 (by decide)).trans ((W4_keep m ρ c main_v12 (by decide)).trans ((W3_keep m ρ c main_v12 (by decide)).trans (W2_keep m ρ c main_v12 (by decide)))))))))))).trans (k_v12 m ρ c))
/-- The head of the output projection: region 5's output. -/
theorem k_v100 : W13 m ρ c (Proc.devRef .tc main_v100) = Cert.Spec.linT 2048 50176 (Cert.Stages.join2 (Cert.Stages.hF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (Cert.Stages.hB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)))) (extractStridedSlice S50176x2048 ![0, 0] (m ((c : Thread nD τ).loc main_arg17)) slices_S50257x2048_S50176x2048_0_0) (shapeCast S1x50176 (extractStridedSlice S50176 ![0] (m ((c : Thread nD τ).loc main_arg18)) slices_S50257_S50176_0) shapeCasts_S50176_S1x50176) := by
  refine (W13_arr m ρ c 3).trans ((final5 (V12 m ρ) c).trans ?_)
  show Cert.Spec.linT 2048 50176 (W12 m ρ c (Proc.devRef .tc main_v94)) (W12 m ρ c (Proc.devRef .tc main_v95)) (W12 m ρ c (Proc.devRef .tc main_v99)) = _
  rw [k_v94, k_v95, k_v99]
theorem k_v101 : W14 m ρ c (Proc.devRef .tc main_v101) = shapeCast S1x81 (extractStridedSlice S81 ![50176] (m ((c : Thread nD τ).loc main_arg18)) slices_S50257_S81_50176) shapeCasts_S81_S1x81 := by
  show StableHlo.after hostOps6 (W13 m ρ c) (Proc.devRef .tc main_v101) = _
  after_results
  rw [((W13_keep m ρ c main_v98 (by decide))).trans (k_v98 m ρ c)]
  rfl
/-- The tail of the output projection: region 6's output. -/
theorem k_v102 : W15 m ρ c (Proc.devRef .tc main_v102) = Cert.Spec.linT 2048 81 (Cert.Stages.join2 (Cert.Stages.hF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (Cert.Stages.hB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)))) (extractStridedSlice S81x2048 ![50176, 0] (m ((c : Thread nD τ).loc main_arg17)) slices_S50257x2048_S81x2048_50176_0) (shapeCast S1x81 (extractStridedSlice S81 ![50176] (m ((c : Thread nD τ).loc main_arg18)) slices_S50257_S81_50176) shapeCasts_S81_S1x81) := by
  refine (W15_arr m ρ c 3).trans ((final6 (V14 m ρ) c).trans ?_)
  show Cert.Spec.linT 2048 81 (W14 m ρ c (Proc.devRef .tc main_v94)) (W14 m ρ c (Proc.devRef .tc main_v96)) (W14 m ρ c (Proc.devRef .tc main_v101)) = _
  rw [(((W14_keep m ρ c main_v94 (by decide)).trans (W13_keep m ρ c main_v94 (by decide)))).trans (k_v94 m ρ c), (((W14_keep m ρ c main_v96 (by decide)).trans (W13_keep m ρ c main_v96 (by decide)))).trans (k_v96 m ρ c), k_v101]
/-- The output projection, head and tail joined. -/
theorem k_v103 : W16 m ρ c (Proc.devRef .tc main_v103) = (Cert.Stages.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  show StableHlo.after hostOps7 (W15 m ρ c) (Proc.devRef .tc main_v103) = _
  after_results
  rw [(((W15_keep m ρ c main_v100 (by decide)).trans (W14_keep m ρ c main_v100 (by decide)))).trans (k_v100 m ρ c), k_v102]
  exact Cert.KLaws.logits_split _ _ _
/-- A typed reference's two transports of a value undo each other. -/
theorem ofBuf_toBuf_ideal {T : BufTy} (x : StableHlo.TRef sig T) (v : T.Contents (Elt Ideal)) : x.ofBuf (x.toBuf v) = v := by
  obtain ⟨r, h, hd, hu⟩ := x
  subst h
  rfl
/-- The log-softmax stretch, from what it finds in the buffer it reads. -/
theorem k_v104_of (L : (⟨S1x50257, .f32⟩ : BufTy).Contents (Elt Ideal)) (hl : W16 m ρ c (Proc.devRef .tc main_v103) = L) :
    W17 m ρ c (Proc.devRef .tc main_v104) = Cert.Stages.logSoftmax L := by
  have e103 : (TRef.of main_v103 : TRef sig ⟨S1x50257, .f32⟩).ofBuf (Val := Elt Ideal) L = L := rfl
  have e104 : ∀ X : (⟨S1x50257, .f32⟩ : BufTy).Contents (Elt Ideal), (TRef.of main_v104 : TRef sig ⟨S1x50257, .f32⟩).toBuf (Val := Elt Ideal) X = X := fun _ => rfl
  show StableHlo.after hostOps7_1 (W16 m ρ c) (Proc.devRef .tc main_v104) = _
  generalize W16 m ρ c = Wx at hl ⊢
  after_results_simp
  rw [hl]
  unfold Cert.Stages.logSoftmax
  simp only [ofBuf_toBuf_ideal]
  rw [e103]
  exact e104 _
/-- The first result. -/
theorem k_v104 : W17 m ρ c (Proc.devRef .tc main_v104) = (Cert.Stages.logp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := k_v104_of m ρ c _ (k_v103 m ρ c)
/-- The second result. -/
theorem k_v107 : W18 m ρ c (Proc.devRef .tc main_v107) = (Cert.Stages.hN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  have h65 := ((W17_keep m ρ c main_v65 (by decide)).trans ((W16_keep m ρ c main_v65 (by decide)).trans ((W15_keep m ρ c main_v65 (by decide)).trans ((W14_keep m ρ c main_v65 (by decide)).trans (W13_keep m ρ c main_v65 (by decide)))))).trans (k_v65 m ρ c)
  have h93 := ((W17_keep m ρ c main_v93 (by decide)).trans ((W16_keep m ρ c main_v93 (by decide)).trans ((W15_keep m ρ c main_v93 (by decide)).trans ((W14_keep m ρ c main_v93 (by decide)).trans (W13_keep m ρ c main_v93 (by decide)))))).trans (k_v93 m ρ c)
  show StableHlo.after hostOps7_2 (W17 m ρ c) (Proc.devRef .tc main_v107) = _
  generalize W17 m ρ c = Wx at h65 h93 ⊢
  after_results
  rw [h65, h93]
  rfl
/-- The third result. -/
theorem k_v110 : W18 m ρ c (Proc.devRef .tc main_v110) = (Cert.Stages.cN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  have h57 := ((W17_keep m ρ c main_v57 (by decide)).trans ((W16_keep m ρ c main_v57 (by decide)).trans ((W15_keep m ρ c main_v57 (by decide)).trans ((W14_keep m ρ c main_v57 (by decide)).trans (W13_keep m ρ c main_v57 (by decide)))))).trans (k_v57 m ρ c)
  have h85 := ((W17_keep m ρ c main_v85 (by decide)).trans ((W16_keep m ρ c main_v85 (by decide)).trans ((W15_keep m ρ c main_v85 (by decide)).trans ((W14_keep m ρ c main_v85 (by decide)).trans (W13_keep m ρ c main_v85 (by decide)))))).trans (k_v85 m ρ c)
  show StableHlo.after hostOps7_2 (W17 m ρ c) (Proc.devRef .tc main_v110) = _
  generalize W17 m ρ c = Wx at h57 h85 ⊢
  after_results
  rw [h57, h85]
  rfl
/-- The first and the fourth result at the end of the run. -/
theorem k_res0 : W18 m ρ c (Proc.devRef .tc main_v104) = (Cert.Stages.logp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := ((W18_keep m ρ c main_v104 (by decide))).trans (k_v104 m ρ c)
theorem k_res3 : W18 m ρ c (Proc.devRef .tc main_v26) = (Cert.Stages.attW (m ((c : Thread nD τ).loc main_arg0)) (m ((c : Thread nD τ).loc main_arg1)) (m ((c : Thread nD τ).loc main_arg4)) (m ((c : Thread nD τ).loc main_arg5)) (m ((c : Thread nD τ).loc main_arg6))) := (((W18_keep m ρ c main_v26 (by decide)).trans ((W17_keep m ρ c main_v26 (by decide)).trans ((W16_keep m ρ c main_v26 (by decide)).trans ((W15_keep m ρ c main_v26 (by decide)).trans ((W14_keep m ρ c main_v26 (by decide)).trans ((W13_keep m ρ c main_v26 (by decide)).trans ((W12_keep m ρ c main_v26 (by decide)).trans ((W11_keep m ρ c main_v26 (by decide)).trans ((W10_keep m ρ c main_v26 (by decide)).trans ((W9_keep m ρ c main_v26 (by decide)).trans ((W8_keep m ρ c main_v26 (by decide)).trans ((W7_keep m ρ c main_v26 (by decide)).trans ((W6_keep m ρ c main_v26 (by decide)).trans ((W5_keep m ρ c main_v26 (by decide)).trans (W4_keep m ρ c main_v26 (by decide))))))))))))))))).trans (k_v26 m ρ c)

end Cert.KernelIdeal.Hand

end
-- ==== Proof.RV.Fold.lean ====
import proofs.«156083_j22471268893342_1_alg».proof.Proof.Ref.RunDefs
import Idealize.ShloMosaic.Lib.StableHlo.Run

/-! # The reference program's fold, cut at the stages of the decoder step

The reference's @main is 167 host operations applied in order. Cut into twelve consecutive stretches — the embedding
and the joined attention input; the attention scores; their softmax; the attention-weighted sum and the combining
layer; the relu; the forward gates; the forward cell; the backward gates; the backward cell; the output projection;
its log-softmax; the stacked states — the fold over all of them is the fold over the last stretch of the fold over
the ones before, so each buffer can be read where its stretch wrote it. No operation writes an argument array. -/

set_option maxRecDepth 16384

noncomputable section

namespace Cert.ReferenceIdeal.RV

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Folding a concatenation is folding the second list over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Stretch A: operations 0 to 19. -/
abbrev opsA : List (HloOp τ sig (Elt F)) :=
  [ reshape main_arg0 main_v0 rfl shapeCasts_S1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 50257#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 1024#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg4 ![main_v3, main_v6] ⟨S_, .i32⟩ main_v7 ((fun x i => Host.dynamicSlice S1x1024 x (fun k => (i k (Shape.Idx.first h_S_)).toInt) sliceFits_S50257x1024_S1x1024) : (⟨S50257x1024, .f32⟩ : BufTy).Contents (Elt F) → (Fin 2 → (⟨S_, .i32⟩ : BufTy).Contents (Elt F)) → (⟨S1x1024, .f32⟩ : BufTy).Contents (Elt F)),
    reshape main_v7 main_v8 rfl shapeCasts_S1x1024_S1024,
    reshape main_v8 main_v9 rfl shapeCasts_S1024_S1x1024,
    unary main_arg1 main_v10 ((extractStridedSlice S1x1x1024 ![0, 0, 0] · slices_S2x1x1024_S1x1x1024_0_0_0) : (⟨S2x1x1024, .f32⟩ : BufTy).Contents (Elt F) → (⟨S1x1x1024, .f32⟩ : BufTy).Contents (Elt F)),
    reshape main_v10 main_v11 rfl shapeCasts_S1x1x1024_S1x1024,
    binary main_v9 main_v11 main_v12 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)) ]
/-- The references stretch A's operations write. -/
abbrev opsA_W : List (Ref sig .tc) := [main_v0, main_c, main_v1, main_c_0, main_v2, main_v3, main_c_1, main_c_2, main_v4, main_c_3, main_c_4, main_v5, main_c_5, main_v6, main_v7, main_v8, main_v9, main_v10, main_v11, main_v12]
theorem opsA_writes : (opsA : List (HloOp τ sig (Elt F))).Forall fun op => op.writes ⊆ (opsA_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch B: operations 20 to 23. -/
abbrev opsB : List (HloOp τ sig (Elt F)) :=
  [ unary main_arg5 main_v13 ((transpose S2048x2048 [1, 0] · transposes_S2048x2048_S2048x2048_1_0) : (⟨S2048x2048, .f32⟩ : BufTy).Contents (Elt F) → (⟨S2048x2048, .f32⟩ : BufTy).Contents (Elt F)),
    binary main_v12 main_v13 main_v14 ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)),
    unary main_arg6 main_v15 (broadcastInDim S1x2048 ![1] bcast_S2048_S1x2048_1 : (⟨S2048, .f32⟩ : BufTy).Contents (Elt F) → (⟨S1x2048, .f32⟩ : BufTy).Contents (Elt F)),
    binary main_v14 main_v15 main_v16 (addf : (⟨S1x2048, .f32⟩ : BufTy).Contents (Elt F) → (⟨S1x2048, .f32⟩ : BufTy).Contents (Elt F) → (⟨S1x2048, .f32⟩ : BufTy).Contents (Elt F)) ]
/-- The references stretch B's operations write. -/
abbrev opsB_W : List (Ref sig .tc) := [main_v13, main_v14, main_v15, main_v16]
theorem opsB_writes : (opsB : List (HloOp τ sig (Elt F))).Forall fun op => op.writes ⊆ (opsB_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch C: operations 24 to 37. -/
abbrev opsC : List (HloOp τ sig (Elt F)) :=
  [ nullary main_cst (constant S_ .f32 0xFF800000#32),
    binary main_v16 main_cst main_v17 ((fun x v => Host.reduce FloatOps.maximumf x v reducesTo_S1x2048_S1_d1 h_S_) : (⟨S1x2048, .f32⟩ : BufTy).Contents (Elt F) → (⟨S_, .f32⟩ : BufTy).Contents (Elt F) → (⟨S1, .f32⟩ : BufTy).Contents (Elt F)),
    nullary main_cst_6 (constant S_ .f32 0xFF800000#32),
    unary main_cst_6 main_v18 (broadcastInDim S1 ![] bcast_S_S1 : (⟨S_, .f32⟩ : BufTy).Contents (Elt F) → (⟨S1, .f32⟩ : BufTy).Contents (Elt F)),
    binary main_v18 main_v17 main_v19 (maximumf : (⟨S1, .f32⟩ : BufTy).Contents (Elt F) → (⟨S1, .f32⟩ : BufTy).Contents (Elt F) → (⟨S1, .f32⟩ : BufTy).Contents (Elt F)),
    unary main_v19 main_v20 (broadcastInDim S1x1 ![0] bcast_S1_S1x1_0 : (⟨S1, .f32⟩ : BufTy).Contents (Elt F) → (⟨S1x1, .f32⟩ : BufTy).Contents (Elt F)),
    unary main_v20 main_v21 (broadcastInDim S1x2048 ![0, 1] bcast_S1x1_S1x2048_0_1 : (⟨S1x1, .f32⟩ : BufTy).Contents (Elt F) → (⟨S1x2048, .f32⟩ : BufTy).Contents (Elt F)),
    binary main_v16 main_v21 main_v22 (subf : (⟨S1x2048, .f32⟩ : BufTy).Contents (Elt F) → (⟨S1x2048, .f32⟩ : BufTy).Contents (Elt F) → (⟨S1x2048, .f32⟩ : BufTy).Contents (Elt F)),
    unary main_v22 main_v23 (Host.exp : (⟨S1x2048, .f32⟩ : BufTy).Contents (Elt F) → (⟨S1x2048, .f32⟩ : BufTy).Contents (Elt F)),
    nullary main_cst_7 (constant S_ .f32 0x00000000#32),
    binary main_v23 main_cst_7 main_v24 ((fun x v => Host.reduceAdd x v reducesTo_S1x2048_S1_d1 h_S_) : (⟨S1x2048, .f32⟩ : BufTy).Contents (Elt F) → (⟨S_, .f32⟩ : BufTy).Contents (Elt F) → (⟨S1, .f32⟩ : BufTy).Contents (Elt F)),
    unary main_v24 main_v25 (broadcastInDim S1x1 ![0] bcast_S1_S1x1_0 : (⟨S1, .f32⟩ : BufTy).Contents (Elt F) → (⟨S1x1, .f32⟩ : BufTy).Contents (Elt F)),
    unary main_v25 main_v26 (broadcastInDim S1x2048 ![0, 1] bcast_S1x1_S1x2048_0_1 : (⟨S1x1, .f32⟩ : BufTy).Contents (Elt F) → (⟨S1x2048, .f32⟩ : BufTy).Contents (Elt F)),
    binary main_v23 main_v26 main_v27 (Host.divf : (⟨S1x2048, .f32⟩ : BufTy).Contents (Elt F) → (⟨S1x2048, .f32⟩ : BufTy).Contents (Elt F) → (⟨S1x2048, .f32⟩ : BufTy).Contents (Elt F)) ]
/-- The references stretch C's operations write. -/
abbrev opsC_W : List (Ref sig .tc) := [main_cst, main_v17, main_cst_6, main_v18, main_v19, main_v20, main_v21, main_v22, main_v23, main_cst_7, main_v24, main_v25, main_v26, main_v27]
theorem opsC_writes : (opsC : List (HloOp τ sig (Elt F))).Forall fun op => op.writes ⊆ (opsC_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch D: operations 38 to 43. -/
abbrev opsD : List (HloOp τ sig (Elt F)) :=
  [ binary main_v27 main_arg3 main_v28 ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)),
    binary main_v9 main_v28 main_v29 ((fun a b => concatenate S1x3072 1 [⟨S1x1024, a⟩, ⟨S1x2048, b⟩] concatenates_S1x1024_S1x2048_S1x3072_d1) : (⟨S1x1024, .f32⟩ : BufTy).Contents (Elt F) → (⟨S1x2048, .f32⟩ : BufTy).Contents (Elt F) → (⟨S1x3072, .f32⟩ : BufTy).Contents (Elt F)),
    unary main_arg7 main_v30 ((transpose S3072x1024 [1, 0] · transposes_S1024x3072_S3072x1024_1_0) : (⟨S1024x3072, .f32⟩ : BufTy).Contents (Elt F) → (⟨S3072x1024, .f32⟩ : BufTy).Contents (Elt F)),
    binary main_v29 main_v30 main_v31 ((fun l r => Host.dotGeneral dot_S1x3072_S3072x1024_S1x1024_1_0_0_1_n_n none l r) : (⟨S1x3072, .f32⟩ : BufTy).Contents (Elt F) → (⟨S3072x1024, .f32⟩ : BufTy).Contents (Elt F) → (⟨S1x1024, .f32⟩ : BufTy).Contents (Elt F)),
    unary main_arg8 main_v32 (broadcastInDim S1x1024 ![1] bcast_S1024_S1x1024_1 : (⟨S1024, .f32⟩ : BufTy).Contents (Elt F) → (⟨S1x1024, .f32⟩ : BufTy).Contents (Elt F)),
    binary main_v31 main_v32 main_v33 (addf : (⟨S1x1024, .f32⟩ : BufTy).Contents (Elt F) → (⟨S1x1024, .f32⟩ : BufTy).Contents (Elt F) → (⟨S1x1024, .f32⟩ : BufTy).Contents (Elt F)) ]
/-- The references stretch D's operations write. -/
abbrev opsD_W : List (Ref sig .tc) := [main_v28, main_v29, main_v30, main_v31, main_v32, main_v33]
theorem opsD_writes : (opsD : List (HloOp τ sig (Elt F))).Forall fun op => op.writes ⊆ (opsD_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch E: operations 44 to 46. -/
abbrev opsE : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v33) (TRef.of (T := ⟨S1x1024, .f32⟩) main_call0_v0) (TRef.of (T := ⟨S1x1024, .f32⟩) main_v34) maximumf ]
/-- The references stretch E's operations write. -/
abbrev opsE_W : List (Ref sig .tc) := [main_call0_cst, main_call0_v0, main_v34]
theorem opsE_writes : (opsE : List (HloOp τ sig (Elt F))).Forall fun op => op.writes ⊆ (opsE_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch F: operations 47 to 59. -/
abbrev opsF : List (HloOp τ sig (Elt F)) :=
  [ unary main_arg1 main_v35 ((extractStridedSlice S1x1x1024 ![0, 0, 0] · slices_S2x1x1024_S1x1x1024_0_0_0) : (⟨S2x1x1024, .f32⟩ : BufTy).Contents (Elt F) → (⟨S1x1x1024, .f32⟩ : BufTy).Contents (Elt F)),
    reshape main_v35 main_v36 rfl shapeCasts_S1x1x1024_S1x1024,
    unary main_arg2 main_v37 ((extractStridedSlice S1x1x1024 ![0, 0, 0] · slices_S2x1x1024_S1x1x1024_0_0_0) : (⟨S2x1x1024, .f32⟩ : BufTy).Contents (Elt F) → (⟨S1x1x1024, .f32⟩ : BufTy).Contents (Elt F)),
    reshape main_v37 main_v38 rfl shapeCasts_S1x1x1024_S1x1024,
    unary main_arg9 main_v39 ((transpose S1024x4096 [1, 0] · transposes_S4096x1024_S1024x4096_1_0) : (⟨S4096x1024, .f32⟩ : BufTy).Contents (Elt F) → (⟨S1024x4096, .f32⟩ : BufTy).Contents (Elt F)),
    binary main_v34 main_v39 main_v40 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    unary main_arg11 main_v41 (broadcastInDim S1x4096 ![1] bcast_S4096_S1x4096_1 : (⟨S4096, .f32⟩ : BufTy).Contents (Elt F) → (⟨S1x4096, .f32⟩ : BufTy).Contents (Elt F)),
    binary main_v40 main_v41 main_v42 (addf : (⟨S1x4096, .f32⟩ : BufTy).Contents (Elt F) → (⟨S1x4096, .f32⟩ : BufTy).Contents (Elt F) → (⟨S1x4096, .f32⟩ : BufTy).Contents (Elt F)),
    unary main_arg10 main_v43 ((transpose S1024x4096 [1, 0] · transposes_S4096x1024_S1024x4096_1_0) : (⟨S4096x1024, .f32⟩ : BufTy).Contents (Elt F) → (⟨S1024x4096, .f32⟩ : BufTy).Contents (Elt F)),
    binary main_v36 main_v43 main_v44 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    binary main_v42 main_v44 main_v45 (addf : (⟨S1x4096, .f32⟩ : BufTy).Contents (Elt F) → (⟨S1x4096, .f32⟩ : BufTy).Contents (Elt F) → (⟨S1x4096, .f32⟩ : BufTy).Contents (Elt F)),
    unary main_arg12 main_v46 (broadcastInDim S1x4096 ![1] bcast_S4096_S1x4096_1 : (⟨S4096, .f32⟩ : BufTy).Contents (Elt F) → (⟨S1x4096, .f32⟩ : BufTy).Contents (Elt F)),
    binary main_v45 main_v46 main_v47 (addf : (⟨S1x4096, .f32⟩ : BufTy).Contents (Elt F) → (⟨S1x4096, .f32⟩ : BufTy).Contents (Elt F) → (⟨S1x4096, .f32⟩ : BufTy).Contents (Elt F)) ]
/-- The references stretch F's operations write. -/
abbrev opsF_W : List (Ref sig .tc) := [main_v35, main_v36, main_v37, main_v38, main_v39, main_v40, main_v41, main_v42, main_v43, main_v44, main_v45, main_v46, main_v47]
theorem opsF_writes : (opsF : List (HloOp τ sig (Elt F))).Forall fun op => op.writes ⊆ (opsF_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch G: operations 60 to 93. -/
abbrev opsG : List (HloOp τ sig (Elt F)) :=
  [ unary main_v47 main_v48 ((extractStridedSlice S1x1024 ![0, 0] · slices_S1x4096_S1x1024_0_0) : (⟨S1x4096, .f32⟩ : BufTy).Contents (Elt F) → (⟨S1x1024, .f32⟩ : BufTy).Contents (Elt F)),
    unary main_v47 main_v49 ((extractStridedSlice S1x1024 ![0, 1024] · slices_S1x4096_S1x1024_0_1024) : (⟨S1x4096, .f32⟩ : BufTy).Contents (Elt F) → (⟨S1x1024, .f32⟩ : BufTy).Contents (Elt F)),
    unary main_v47 main_v50 ((extractStridedSlice S1x1024 ![0, 2048] · slices_S1x4096_S1x1024_0_2048) : (⟨S1x4096, .f32⟩ : BufTy).Contents (Elt F) → (⟨S1x1024, .f32⟩ : BufTy).Contents (Elt F)),
    unary main_v47 main_v51 ((extractStridedSlice S1x1024 ![0, 3072] · slices_S1x4096_S1x1024_0_3072) : (⟨S1x4096, .f32⟩ : BufTy).Contents (Elt F) → (⟨S1x1024, .f32⟩ : BufTy).Contents (Elt F)),
    unary main_v49 main_v52 (Host.negf : (⟨S1x1024, .f32⟩ : BufTy).Contents (Elt F) → (⟨S1x1024, .f32⟩ : BufTy).Contents (Elt F)),
    unary main_v52 main_v53 (Host.exp : (⟨S1x1024, .f32⟩ : BufTy).Contents (Elt F) → (⟨S1x1024, .f32⟩ : BufTy).Contents (Elt F)),
    nullary main_cst_8 (constant S_ .f32 0x3F800000#32),
    unary main_cst_8 main_v54 (broadcastInDim S1x1024 ![] bcast_S_S1x1024 : (⟨S_, .f32⟩ : BufTy).Contents (Elt F) → (⟨S1x1024, .f32⟩ : BufTy).Contents (Elt F)),
    binary main_v54 main_v53 main_v55 (addf : (⟨S1x1024, .f32⟩ : BufTy).Contents (Elt F) → (⟨S1x1024, .f32⟩ : BufTy).Contents (Elt F) → (⟨S1x1024, .f32⟩ : BufTy).Contents (Elt F)),
    nullary main_cst_9 (constant S_ .f32 0x3F800000#32),
    unary main_cst_9 main_v56 (broadcastInDim S1x1024 ![] bcast_S_S1x1024 : (⟨S_, .f32⟩ : BufTy).Contents (Elt F) → (⟨S1x1024, .f32⟩ : BufTy).Contents (Elt F)),
    binary main_v56 main_v55 main_v57 (Host.divf : (⟨S1x1024, .f32⟩ : BufTy).Contents (Elt F) → (⟨S1x1024, .f32⟩ : BufTy).Contents (Elt F) → (⟨S1x1024, .f32⟩ : BufTy).Contents (Elt F)),
    binary main_v57 main_v38 main_v58 (mulf : (⟨S1x1024, .f32⟩ : BufTy).Contents (Elt F) → (⟨S1x1024, .f32⟩ : BufTy).Contents (Elt F) → (⟨S1x1024, .f32⟩ : BufTy).Contents (Elt F)),
    unary main_v48 main_v59 (Host.negf : (⟨S1x1024, .f32⟩ : BufTy).Contents (Elt F) → (⟨S1x1024, .f32⟩ : BufTy).Contents (Elt F)),
    unary main_v59 main_v60 (Host.exp : (⟨S1x1024, .f32⟩ : BufTy).Contents (Elt F) → (⟨S1x1024, .f32⟩ : BufTy).Contents (Elt F)),
    nullary main_cst_10 (constant S_ .f32 0x3F800000#32),
    unary main_cst_10 main_v61 (broadcastInDim S1x1024 ![] bcast_S_S1x1024 : (⟨S_, .f32⟩ : BufTy).Contents (Elt F) → (⟨S1x1024, .f32⟩ : BufTy).Contents (Elt F)),
    binary main_v61 main_v60 main_v62 (addf : (⟨S1x1024, .f32⟩ : BufTy).Contents (Elt F) → (⟨S1x1024, .f32⟩ : BufTy).Contents (Elt F) → (⟨S1x1024, .f32⟩ : BufTy).Contents (Elt F)),
    nullary main_cst_11 (constant S_ .f32 0x3F800000#32),
    unary main_cst_11 main_v63 (broadcastInDim S1x1024 ![] bcast_S_S1x1024 : (⟨S_, .f32⟩ : BufTy).Contents (Elt F) → (⟨S1x1024, .f32⟩ : BufTy).Contents (Elt F)),
    binary main_v63 main_v62 main_v64 (Host.divf : (⟨S1x1024, .f32⟩ : BufTy).Contents (Elt F) → (⟨S1x1024, .f32⟩ : BufTy).Contents (Elt F) → (⟨S1x1024, .f32⟩ : BufTy).Contents (Elt F)),
    unary main_v50 main_v65 (Host.tanh : (⟨S1x1024, .f32⟩ : BufTy).Contents (Elt F) → (⟨S1x1024, .f32⟩ : BufTy).Contents (Elt F)),
    binary main_v64 main_v65 main_v66 (mulf : (⟨S1x1024, .f32⟩ : BufTy).Contents (Elt F) → (⟨S1x1024, .f32⟩ : BufTy).Contents (Elt F) → (⟨S1x1024, .f32⟩ : BufTy).Contents (Elt F)),
    binary main_v58 main_v66 main_v67 (addf : (⟨S1x1024, .f32⟩ : BufTy).Contents (Elt F) → (⟨S1x1024, .f32⟩ : BufTy).Contents (Elt F) → (⟨S1x1024, .f32⟩ : BufTy).Contents (Elt F)),
    unary main_v51 main_v68 (Host.negf : (⟨S1x1024, .f32⟩ : BufTy).Contents (Elt F) → (⟨S1x1024, .f32⟩ : BufTy).Contents (Elt F)),
    unary main_v68 main_v69 (Host.exp : (⟨S1x1024, .f32⟩ : BufTy).Contents (Elt F) → (⟨S1x1024, .f32⟩ : BufTy).Contents (Elt F)),
    nullary main_cst_12 (constant S_ .f32 0x3F800000#32),
    unary main_cst_12 main_v70 (broadcastInDim S1x1024 ![] bcast_S_S1x1024 : (⟨S_, .f32⟩ : BufTy).Contents (Elt F) → (⟨S1x1024, .f32⟩ : BufTy).Contents (Elt F)),
    binary main_v70 main_v69 main_v71 (addf : (⟨S1x1024, .f32⟩ : BufTy).Contents (Elt F) → (⟨S1x1024, .f32⟩ : BufTy).Contents (Elt F) → (⟨S1x1024, .f32⟩ : BufTy).Contents (Elt F)),
    nullary main_cst_13 (constant S_ .f32 0x3F800000#32),
    unary main_cst_13 main_v72 (broadcastInDim S1x1024 ![] bcast_S_S1x1024 : (⟨S_, .f32⟩ : BufTy).Contents (Elt F) → (⟨S1x1024, .f32⟩ : BufTy).Contents (Elt F)),
    binary main_v72 main_v71 main_v73 (Host.divf : (⟨S1x1024, .f32⟩ : BufTy).Contents (Elt F) → (⟨S1x1024, .f32⟩ : BufTy).Contents (Elt F) → (⟨S1x1024, .f32⟩ : BufTy).Contents (Elt F)),
    unary main_v67 main_v74 (Host.tanh : (⟨S1x1024, .f32⟩ : BufTy).Contents (Elt F) → (⟨S1x1024, .f32⟩ : BufTy).Contents (Elt F)),
    binary main_v73 main_v74 main_v75 (mulf : (⟨S1x1024, .f32⟩ : BufTy).Contents (Elt F) → (⟨S1x1024, .f32⟩ : BufTy).Contents (Elt F) → (⟨S1x1024, .f32⟩ : BufTy).Contents (Elt F)) ]
/-- The references stretch G's operations write. -/
abbrev opsG_W : List (Ref sig .tc) := [main_v48, main_v49, main_v50, main_v51, main_v52, main_v53, main_cst_8, main_v54, main_v55, main_cst_9, main_v56, main_v57, main_v58, main_v59, main_v60, main_cst_10, main_v61, main_v62, main_cst_11, main_v63, main_v64, main_v65, main_v66, main_v67, main_v68, main_v69, main_cst_12, main_v70, main_v71, main_cst_13, main_v72, main_v73, main_v74, main_v75]
theorem opsG_writes : (opsG : List (HloOp τ sig (Elt F))).Forall fun op => op.writes ⊆ (opsG_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch H: operations 94 to 106. -/
abbrev opsH : List (HloOp τ sig (Elt F)) :=
  [ unary main_arg1 main_v76 ((extractStridedSlice S1x1x1024 ![1, 0, 0] · slices_S2x1x1024_S1x1x1024_1_0_0) : (⟨S2x1x1024, .f32⟩ : BufTy).Contents (Elt F) → (⟨S1x1x1024, .f32⟩ : BufTy).Contents (Elt F)),
    reshape main_v76 main_v77 rfl shapeCasts_S1x1x1024_S1x1024,
    unary main_arg2 main_v78 ((extractStridedSlice S1x1x1024 ![1, 0, 0] · slices_S2x1x1024_S1x1x1024_1_0_0) : (⟨S2x1x1024, .f32⟩ : BufTy).Contents (Elt F) → (⟨S1x1x1024, .f32⟩ : BufTy).Contents (Elt F)),
    reshape main_v78 main_v79 rfl shapeCasts_S1x1x1024_S1x1024,
    unary main_arg13 main_v80 ((transpose S1024x4096 [1, 0] · transposes_S4096x1024_S1024x4096_1_0) : (⟨S4096x1024, .f32⟩ : BufTy).Contents (Elt F) → (⟨S1024x4096, .f32⟩ : BufTy).Contents (Elt F)),
    binary main_v34 main_v80 main_v81 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    unary main_arg15 main_v82 (broadcastInDim S1x4096 ![1] bcast_S4096_S1x4096_1 : (⟨S4096, .f32⟩ : BufTy).Contents (Elt F) → (⟨S1x4096, .f32⟩ : BufTy).Contents (Elt F)),
    binary main_v81 main_v82 main_v83 (addf : (⟨S1x4096, .f32⟩ : BufTy).Contents (Elt F) → (⟨S1x4096, .f32⟩ : BufTy).Contents (Elt F) → (⟨S1x4096, .f32⟩ : BufTy).Contents (Elt F)),
    unary main_arg14 main_v84 ((transpose S1024x4096 [1, 0] · transposes_S4096x1024_S1024x4096_1_0) : (⟨S4096x1024, .f32⟩ : BufTy).Contents (Elt F) → (⟨S1024x4096, .f32⟩ : BufTy).Contents (Elt F)),
    binary main_v77 main_v84 main_v85 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    binary main_v83 main_v85 main_v86 (addf : (⟨S1x4096, .f32⟩ : BufTy).Contents (Elt F) → (⟨S1x4096, .f32⟩ : BufTy).Contents (Elt F) → (⟨S1x4096, .f32⟩ : BufTy).Contents (Elt F)),
    unary main_arg16 main_v87 (broadcastInDim S1x4096 ![1] bcast_S4096_S1x4096_1 : (⟨S4096, .f32⟩ : BufTy).Contents (Elt F) → (⟨S1x4096, .f32⟩ : BufTy).Contents (Elt F)),
    binary main_v86 main_v87 main_v88 (addf : (⟨S1x4096, .f32⟩ : BufTy).Contents (Elt F) → (⟨S1x4096, .f32⟩ : BufTy).Contents (Elt F) → (⟨S1x4096, .f32⟩ : BufTy).Contents (Elt F)) ]
/-- The references stretch H's operations write. -/
abbrev opsH_W : List (Ref sig .tc) := [main_v76, main_v77, main_v78, main_v79, main_v80, main_v81, main_v82, main_v83, main_v84, main_v85, main_v86, main_v87, main_v88]
theorem opsH_writes : (opsH : List (HloOp τ sig (Elt F))).Forall fun op => op.writes ⊆ (opsH_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch I: operations 107 to 140. -/
abbrev opsI : List (HloOp τ sig (Elt F)) :=
  [ unary main_v88 main_v89 ((extractStridedSlice S1x1024 ![0, 0] · slices_S1x4096_S1x1024_0_0) : (⟨S1x4096, .f32⟩ : BufTy).Contents (Elt F) → (⟨S1x1024, .f32⟩ : BufTy).Contents (Elt F)),
    unary main_v88 main_v90 ((extractStridedSlice S1x1024 ![0, 1024] · slices_S1x4096_S1x1024_0_1024) : (⟨S1x4096, .f32⟩ : BufTy).Contents (Elt F) → (⟨S1x1024, .f32⟩ : BufTy).Contents (Elt F)),
    unary main_v88 main_v91 ((extractStridedSlice S1x1024 ![0, 2048] · slices_S1x4096_S1x1024_0_2048) : (⟨S1x4096, .f32⟩ : BufTy).Contents (Elt F) → (⟨S1x1024, .f32⟩ : BufTy).Contents (Elt F)),
    unary main_v88 main_v92 ((extractStridedSlice S1x1024 ![0, 3072] · slices_S1x4096_S1x1024_0_3072) : (⟨S1x4096, .f32⟩ : BufTy).Contents (Elt F) → (⟨S1x1024, .f32⟩ : BufTy).Contents (Elt F)),
    unary main_v90 main_v93 (Host.negf : (⟨S1x1024, .f32⟩ : BufTy).Contents (Elt F) → (⟨S1x1024, .f32⟩ : BufTy).Contents (Elt F)),
    unary main_v93 main_v94 (Host.exp : (⟨S1x1024, .f32⟩ : BufTy).Contents (Elt F) → (⟨S1x1024, .f32⟩ : BufTy).Contents (Elt F)),
    nullary main_cst_14 (constant S_ .f32 0x3F800000#32),
    unary main_cst_14 main_v95 (broadcastInDim S1x1024 ![] bcast_S_S1x1024 : (⟨S_, .f32⟩ : BufTy).Contents (Elt F) → (⟨S1x1024, .f32⟩ : BufTy).Contents (Elt F)),
    binary main_v95 main_v94 main_v96 (addf : (⟨S1x1024, .f32⟩ : BufTy).Contents (Elt F) → (⟨S1x1024, .f32⟩ : BufTy).Contents (Elt F) → (⟨S1x1024, .f32⟩ : BufTy).Contents (Elt F)),
    nullary main_cst_15 (constant S_ .f32 0x3F800000#32),
    unary main_cst_15 main_v97 (broadcastInDim S1x1024 ![] bcast_S_S1x1024 : (⟨S_, .f32⟩ : BufTy).Contents (Elt F) → (⟨S1x1024, .f32⟩ : BufTy).Contents (Elt F)),
    binary main_v97 main_v96 main_v98 (Host.divf : (⟨S1x1024, .f32⟩ : BufTy).Contents (Elt F) → (⟨S1x1024, .f32⟩ : BufTy).Contents (Elt F) → (⟨S1x1024, .f32⟩ : BufTy).Contents (Elt F)),
    binary main_v98 main_v79 main_v99 (mulf : (⟨S1x1024, .f32⟩ : BufTy).Contents (Elt F) → (⟨S1x1024, .f32⟩ : BufTy).Contents (Elt F) → (⟨S1x1024, .f32⟩ : BufTy).Contents (Elt F)),
    unary main_v89 main_v100 (Host.negf : (⟨S1x1024, .f32⟩ : BufTy).Contents (Elt F) → (⟨S1x1024, .f32⟩ : BufTy).Contents (Elt F)),
    unary main_v100 main_v101 (Host.exp : (⟨S1x1024, .f32⟩ : BufTy).Contents (Elt F) → (⟨S1x1024, .f32⟩ : BufTy).Contents (Elt F)),
    nullary main_cst_16 (constant S_ .f32 0x3F800000#32),
    unary main_cst_16 main_v102 (broadcastInDim S1x1024 ![] bcast_S_S1x1024 : (⟨S_, .f32⟩ : BufTy).Contents (Elt F) → (⟨S1x1024, .f32⟩ : BufTy).Contents (Elt F)),
    binary main_v102 main_v101 main_v103 (addf : (⟨S1x1024, .f32⟩ : BufTy).Contents (Elt F) → (⟨S1x1024, .f32⟩ : BufTy).Contents (Elt F) → (⟨S1x1024, .f32⟩ : BufTy).Contents (Elt F)),
    nullary main_cst_17 (constant S_ .f32 0x3F800000#32),
    unary main_cst_17 main_v104 (broadcastInDim S1x1024 ![] bcast_S_S1x1024 : (⟨S_, .f32⟩ : BufTy).Contents (Elt F) → (⟨S1x1024, .f32⟩ : BufTy).Contents (Elt F)),
    binary main_v104 main_v103 main_v105 (Host.divf : (⟨S1x1024, .f32⟩ : BufTy).Contents (Elt F) → (⟨S1x1024, .f32⟩ : BufTy).Contents (Elt F) → (⟨S1x1024, .f32⟩ : BufTy).Contents (Elt F)),
    unary main_v91 main_v106 (Host.tanh : (⟨S1x1024, .f32⟩ : BufTy).Contents (Elt F) → (⟨S1x1024, .f32⟩ : BufTy).Contents (Elt F)),
    binary main_v105 main_v106 main_v107 (mulf : (⟨S1x1024, .f32⟩ : BufTy).Contents (Elt F) → (⟨S1x1024, .f32⟩ : BufTy).Contents (Elt F) → (⟨S1x1024, .f32⟩ : BufTy).Contents (Elt F)),
    binary main_v99 main_v107 main_v108 (addf : (⟨S1x1024, .f32⟩ : BufTy).Contents (Elt F) → (⟨S1x1024, .f32⟩ : BufTy).Contents (Elt F) → (⟨S1x1024, .f32⟩ : BufTy).Contents (Elt F)),
    unary main_v92 main_v109 (Host.negf : (⟨S1x1024, .f32⟩ : BufTy).Contents (Elt F) → (⟨S1x1024, .f32⟩ : BufTy).Contents (Elt F)),
    unary main_v109 main_v110 (Host.exp : (⟨S1x1024, .f32⟩ : BufTy).Contents (Elt F) → (⟨S1x1024, .f32⟩ : BufTy).Contents (Elt F)),
    nullary main_cst_18 (constant S_ .f32 0x3F800000#32),
    unary main_cst_18 main_v111 (broadcastInDim S1x1024 ![] bcast_S_S1x1024 : (⟨S_, .f32⟩ : BufTy).Contents (Elt F) → (⟨S1x1024, .f32⟩ : BufTy).Contents (Elt F)),
    binary main_v111 main_v110 main_v112 (addf : (⟨S1x1024, .f32⟩ : BufTy).Contents (Elt F) → (⟨S1x1024, .f32⟩ : BufTy).Contents (Elt F) → (⟨S1x1024, .f32⟩ : BufTy).Contents (Elt F)),
    nullary main_cst_19 (constant S_ .f32 0x3F800000#32),
    unary main_cst_19 main_v113 (broadcastInDim S1x1024 ![] bcast_S_S1x1024 : (⟨S_, .f32⟩ : BufTy).Contents (Elt F) → (⟨S1x1024, .f32⟩ : BufTy).Contents (Elt F)),
    binary main_v113 main_v112 main_v114 (Host.divf : (⟨S1x1024, .f32⟩ : BufTy).Contents (Elt F) → (⟨S1x1024, .f32⟩ : BufTy).Contents (Elt F) → (⟨S1x1024, .f32⟩ : BufTy).Contents (Elt F)),
    unary main_v108 main_v115 (Host.tanh : (⟨S1x1024, .f32⟩ : BufTy).Contents (Elt F) → (⟨S1x1024, .f32⟩ : BufTy).Contents (Elt F)),
    binary main_v114 main_v115 main_v116 (mulf : (⟨S1x1024, .f32⟩ : BufTy).Contents (Elt F) → (⟨S1x1024, .f32⟩ : BufTy).Contents (Elt F) → (⟨S1x1024, .f32⟩ : BufTy).Contents (Elt F)) ]
/-- The references stretch I's operations write. -/
abbrev opsI_W : List (Ref sig .tc) := [main_v89, main_v90, main_v91, main_v92, main_v93, main_v94, main_cst_14, main_v95, main_v96, main_cst_15, main_v97, main_v98, main_v99, main_v100, main_v101, main_cst_16, main_v102, main_v103, main_cst_17, main_v104, main_v105, main_v106, main_v107, main_v108, main_v109, main_v110, main_cst_18, main_v111, main_v112, main_cst_19, main_v113, main_v114, main_v115, main_v116]
theorem opsI_writes : (opsI : List (HloOp τ sig (Elt F))).Forall fun op => op.writes ⊆ (opsI_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch J: operations 141 to 145. -/
abbrev opsJ : List (HloOp τ sig (Elt F)) :=
  [ binary main_v75 main_v116 main_v117 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg17 main_v118 ((transpose S2048x50257 [1, 0] · transposes_S50257x2048_S2048x50257_1_0) : (⟨S50257x2048, .f32⟩ : BufTy).Contents (Elt F) → (⟨S2048x50257, .f32⟩ : BufTy).Contents (Elt F)),
    binary main_v117 main_v118 main_v119 ((fun l r => Host.dotGeneral dot_S1x2048_S2048x50257_S1x50257_1_0_0_1_n_n none l r) : (⟨S1x2048, .f32⟩ : BufTy).Contents (Elt F) → (⟨S2048x50257, .f32⟩ : BufTy).Contents (Elt F) → (⟨S1x50257, .f32⟩ : BufTy).Contents (Elt F)),
    unary main_arg18 main_v120 (broadcastInDim S1x50257 ![1] bcast_S50257_S1x50257_1 : (⟨S50257, .f32⟩ : BufTy).Contents (Elt F) → (⟨S1x50257, .f32⟩ : BufTy).Contents (Elt F)),
    binary main_v119 main_v120 main_v121 (addf : (⟨S1x50257, .f32⟩ : BufTy).Contents (Elt F) → (⟨S1x50257, .f32⟩ : BufTy).Contents (Elt F) → (⟨S1x50257, .f32⟩ : BufTy).Contents (Elt F)) ]
/-- The references stretch J's operations write. -/
abbrev opsJ_W : List (Ref sig .tc) := [main_v117, main_v118, main_v119, main_v120, main_v121]
theorem opsJ_writes : (opsJ : List (HloOp τ sig (Elt F))).Forall fun op => op.writes ⊆ (opsJ_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch K: operations 146 to 160. -/
abbrev opsK : List (HloOp τ sig (Elt F)) :=
  [ TRef.nullary (TRef.of (T := ⟨S_, .f32⟩) main_call1_cst) (constant S_ .f32 0xFF800000#32),
    TRef.binary (TRef.of (T := ⟨S1x50257, .f32⟩) main_v121) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v121) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v122) subf ]
/-- The references stretch K's operations write. -/
abbrev opsK_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v122]
theorem opsK_writes : (opsK : List (HloOp τ sig (Elt F))).Forall fun op => op.writes ⊆ (opsK_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch L: operations 161 to 166. -/
abbrev opsL : List (HloOp τ sig (Elt F)) :=
  [ unary main_v75 main_v123 (broadcastInDim S1x1x1024 ![1, 2] bcast_S1x1024_S1x1x1024_1_2 : (⟨S1x1024, .f32⟩ : BufTy).Contents (Elt F) → (⟨S1x1x1024, .f32⟩ : BufTy).Contents (Elt F)),
    unary main_v116 main_v124 (broadcastInDim S1x1x1024 ![1, 2] bcast_S1x1024_S1x1x1024_1_2 : (⟨S1x1024, .f32⟩ : BufTy).Contents (Elt F) → (⟨S1x1x1024, .f32⟩ : BufTy).Contents (Elt F)),
    binary main_v123 main_v124 main_v125 ((fun a b => concatenate S2x1x1024 0 [⟨S1x1x1024, a⟩, ⟨S1x1x1024, b⟩] concatenates_S1x1x1024_S1x1x1024_S2x1x1024_d0) : (⟨S1x1x1024, .f32⟩ : BufTy).Contents (Elt F) → (⟨S1x1x1024, .f32⟩ : BufTy).Contents (Elt F) → (⟨S2x1x1024, .f32⟩ : BufTy).Contents (Elt F)),
    unary main_v67 main_v126 (broadcastInDim S1x1x1024 ![1, 2] bcast_S1x1024_S1x1x1024_1_2 : (⟨S1x1024, .f32⟩ : BufTy).Contents (Elt F) → (⟨S1x1x1024, .f32⟩ : BufTy).Contents (Elt F)),
    unary main_v108 main_v127 (broadcastInDim S1x1x1024 ![1, 2] bcast_S1x1024_S1x1x1024_1_2 : (⟨S1x1024, .f32⟩ : BufTy).Contents (Elt F) → (⟨S1x1x1024, .f32⟩ : BufTy).Contents (Elt F)),
    binary main_v126 main_v127 main_v128 ((fun a b => concatenate S2x1x1024 0 [⟨S1x1x1024, a⟩, ⟨S1x1x1024, b⟩] concatenates_S1x1x1024_S1x1x1024_S2x1x1024_d0) : (⟨S1x1x1024, .f32⟩ : BufTy).Contents (Elt F) → (⟨S1x1x1024, .f32⟩ : BufTy).Contents (Elt F) → (⟨S2x1x1024, .f32⟩ : BufTy).Contents (Elt F)) ]
/-- The references stretch L's operations write. -/
abbrev opsL_W : List (Ref sig .tc) := [main_v123, main_v124, main_v125, main_v126, main_v127, main_v128]
theorem opsL_writes : (opsL : List (HloOp τ sig (Elt F))).Forall fun op => op.writes ⊆ (opsL_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The 167 operations are the twelve stretches in order. -/
theorem ops_split : (ops : List (HloOp τ sig (Elt F))) = opsA ++ (opsB ++ (opsC ++ (opsD ++ (opsE ++ (opsF ++ (opsG ++ (opsH ++ (opsI ++ (opsJ ++ (opsK ++ (opsL))))))))))) := rfl

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

variable (m : (ℓ : Loc nD τ sig) → Buf (Elt F) ℓ) (c : Dev nD)

/-- Core `c`'s buffers at launch. -/
abbrev R0 : Valuation τ sig (Elt F) := launchContents m c
/-- After stretch A. -/
abbrev R1 : Valuation τ sig (Elt F) := after opsA (R0 m c)
theorem R1_keep (r : Ref sig .tc) (h : r ∉ opsA_W) : R1 m c (Proc.devRef .tc r) = R0 m c (Proc.devRef .tc r) :=
  after_of_writes_sub opsA _ opsA_writes h
theorem R1_args (a : Ref sig .tc) (ha : a ∈ argRefs) : R1 m c (Proc.devRef .tc a) = m ((c.tc : Thread nD τ).loc a) :=
  (R1_keep m c a ((by decide : ∀ a ∈ argRefs, a ∉ opsA_W) a ha)).trans rfl
/-- After stretch B. -/
abbrev R2 : Valuation τ sig (Elt F) := after opsB (R1 m c)
theorem R2_keep (r : Ref sig .tc) (h : r ∉ opsB_W) : R2 m c (Proc.devRef .tc r) = R1 m c (Proc.devRef .tc r) :=
  after_of_writes_sub opsB _ opsB_writes h
theorem R2_args (a : Ref sig .tc) (ha : a ∈ argRefs) : R2 m c (Proc.devRef .tc a) = m ((c.tc : Thread nD τ).loc a) :=
  (R2_keep m c a ((by decide : ∀ a ∈ argRefs, a ∉ opsB_W) a ha)).trans (R1_args m c a ha)
/-- After stretch C. -/
abbrev R3 : Valuation τ sig (Elt F) := after opsC (R2 m c)
theorem R3_keep (r : Ref sig .tc) (h : r ∉ opsC_W) : R3 m c (Proc.devRef .tc r) = R2 m c (Proc.devRef .tc r) :=
  after_of_writes_sub opsC _ opsC_writes h
theorem R3_args (a : Ref sig .tc) (ha : a ∈ argRefs) : R3 m c (Proc.devRef .tc a) = m ((c.tc : Thread nD τ).loc a) :=
  (R3_keep m c a ((by decide : ∀ a ∈ argRefs, a ∉ opsC_W) a ha)).trans (R2_args m c a ha)
/-- After stretch D. -/
abbrev R4 : Valuation τ sig (Elt F) := after opsD (R3 m c)
theorem R4_keep (r : Ref sig .tc) (h : r ∉ opsD_W) : R4 m c (Proc.devRef .tc r) = R3 m c (Proc.devRef .tc r) :=
  after_of_writes_sub opsD _ opsD_writes h
theorem R4_args (a : Ref sig .tc) (ha : a ∈ argRefs) : R4 m c (Proc.devRef .tc a) = m ((c.tc : Thread nD τ).loc a) :=
  (R4_keep m c a ((by decide : ∀ a ∈ argRefs, a ∉ opsD_W) a ha)).trans (R3_args m c a ha)
/-- After stretch E. -/
abbrev R5 : Valuation τ sig (Elt F) := after opsE (R4 m c)
theorem R5_keep (r : Ref sig .tc) (h : r ∉ opsE_W) : R5 m c (Proc.devRef .tc r) = R4 m c (Proc.devRef .tc r) :=
  after_of_writes_sub opsE _ opsE_writes h
theorem R5_args (a : Ref sig .tc) (ha : a ∈ argRefs) : R5 m c (Proc.devRef .tc a) = m ((c.tc : Thread nD τ).loc a) :=
  (R5_keep m c a ((by decide : ∀ a ∈ argRefs, a ∉ opsE_W) a ha)).trans (R4_args m c a ha)
/-- After stretch F. -/
abbrev R6 : Valuation τ sig (Elt F) := after opsF (R5 m c)
theorem R6_keep (r : Ref sig .tc) (h : r ∉ opsF_W) : R6 m c (Proc.devRef .tc r) = R5 m c (Proc.devRef .tc r) :=
  after_of_writes_sub opsF _ opsF_writes h
theorem R6_args (a : Ref sig .tc) (ha : a ∈ argRefs) : R6 m c (Proc.devRef .tc a) = m ((c.tc : Thread nD τ).loc a) :=
  (R6_keep m c a ((by decide : ∀ a ∈ argRefs, a ∉ opsF_W) a ha)).trans (R5_args m c a ha)
/-- After stretch G. -/
abbrev R7 : Valuation τ sig (Elt F) := after opsG (R6 m c)
theorem R7_keep (r : Ref sig .tc) (h : r ∉ opsG_W) : R7 m c (Proc.devRef .tc r) = R6 m c (Proc.devRef .tc r) :=
  after_of_writes_sub opsG _ opsG_writes h
theorem R7_args (a : Ref sig .tc) (ha : a ∈ argRefs) : R7 m c (Proc.devRef .tc a) = m ((c.tc : Thread nD τ).loc a) :=
  (R7_keep m c a ((by decide : ∀ a ∈ argRefs, a ∉ opsG_W) a ha)).trans (R6_args m c a ha)
/-- After stretch H. -/
abbrev R8 : Valuation τ sig (Elt F) := after opsH (R7 m c)
theorem R8_keep (r : Ref sig .tc) (h : r ∉ opsH_W) : R8 m c (Proc.devRef .tc r) = R7 m c (Proc.devRef .tc r) :=
  after_of_writes_sub opsH _ opsH_writes h
theorem R8_args (a : Ref sig .tc) (ha : a ∈ argRefs) : R8 m c (Proc.devRef .tc a) = m ((c.tc : Thread nD τ).loc a) :=
  (R8_keep m c a ((by decide : ∀ a ∈ argRefs, a ∉ opsH_W) a ha)).trans (R7_args m c a ha)
/-- After stretch I. -/
abbrev R9 : Valuation τ sig (Elt F) := after opsI (R8 m c)
theorem R9_keep (r : Ref sig .tc) (h : r ∉ opsI_W) : R9 m c (Proc.devRef .tc r) = R8 m c (Proc.devRef .tc r) :=
  after_of_writes_sub opsI _ opsI_writes h
theorem R9_args (a : Ref sig .tc) (ha : a ∈ argRefs) : R9 m c (Proc.devRef .tc a) = m ((c.tc : Thread nD τ).loc a) :=
  (R9_keep m c a ((by decide : ∀ a ∈ argRefs, a ∉ opsI_W) a ha)).trans (R8_args m c a ha)
/-- After stretch J. -/
abbrev R10 : Valuation τ sig (Elt F) := after opsJ (R9 m c)
theorem R10_keep (r : Ref sig .tc) (h : r ∉ opsJ_W) : R10 m c (Proc.devRef .tc r) = R9 m c (Proc.devRef .tc r) :=
  after_of_writes_sub opsJ _ opsJ_writes h
theorem R10_args (a : Ref sig .tc) (ha : a ∈ argRefs) : R10 m c (Proc.devRef .tc a) = m ((c.tc : Thread nD τ).loc a) :=
  (R10_keep m c a ((by decide : ∀ a ∈ argRefs, a ∉ opsJ_W) a ha)).trans (R9_args m c a ha)
/-- After stretch K. -/
abbrev R11 : Valuation τ sig (Elt F) := after opsK (R10 m c)
theorem R11_keep (r : Ref sig .tc) (h : r ∉ opsK_W) : R11 m c (Proc.devRef .tc r) = R10 m c (Proc.devRef .tc r) :=
  after_of_writes_sub opsK _ opsK_writes h
theorem R11_args (a : Ref sig .tc) (ha : a ∈ argRefs) : R11 m c (Proc.devRef .tc a) = m ((c.tc : Thread nD τ).loc a) :=
  (R11_keep m c a ((by decide : ∀ a ∈ argRefs, a ∉ opsK_W) a ha)).trans (R10_args m c a ha)
/-- After stretch L. -/
abbrev R12 : Valuation τ sig (Elt F) := after opsL (R11 m c)
theorem R12_keep (r : Ref sig .tc) (h : r ∉ opsL_W) : R12 m c (Proc.devRef .tc r) = R11 m c (Proc.devRef .tc r) :=
  after_of_writes_sub opsL _ opsL_writes h
theorem R12_args (a : Ref sig .tc) (ha : a ∈ argRefs) : R12 m c (Proc.devRef .tc a) = m ((c.tc : Thread nD τ).loc a) :=
  (R12_keep m c a ((by decide : ∀ a ∈ argRefs, a ∉ opsL_W) a ha)).trans (R11_args m c a ha)

/-- The fold over all 167 operations is the last of the twelve valuations. -/
theorem after_ops_eq : after (ops : List (HloOp τ sig (Elt F))) (launchContents m c) = R12 m c := by
  rw [ops_split]
  simp only [after_append]

/-- THE RUN: every weakly fair execution of the reference's @main from `m` terminates, nothing faulting, and every
    buffer of core `c` ends holding the last valuation. -/
theorem run_after (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R12 m c (Proc.devRef .tc b) :=
  (θ_run defs _ _).mono (fun r h c b => (h c b).trans (congrFun (after_ops_eq m c) _))
    (run_seq scopedRefs_eq scopedSems_eq defs main (fun _ => ops) main_eq (fun _ => ops_sub) m ρ)

end Cert.ReferenceIdeal.RV

end
-- ==== Proof.RefLaws.lean ====
import proofs.«156083_j22471268893342_1_alg».proof.ReferenceIdeal
import proofs.«156083_j22471268893342_1_alg».proof.Proof.Spec
import Idealize.ShloMosaic.Lib.ValueIdx
import Idealize.ShloMosaic.Lib.Pipeline.Value
import Idealize.ShloMosaic.PureOps.Ideal.Laws

noncomputable section

open scoped BigOperators

/-! # The reference program's "matrix product plus bias" is the specification's

The reference program spells `x · wᵀ + b` as a `dot_general` of the row with the transposed matrix, plus the bias
vector broadcast to a row. Read at one column, the `dot_general` is the sum over the contracted coordinate, the
transpose swaps the two coordinates and the broadcast reads the bias at the column: that is `Cert.Spec.linT`. The
gates of an LSTM cell add two such products and two bias rows; reordering the four terms uses only commutativity and
associativity of the extended reals' addition. -/

namespace Cert.RefLaws

open Cert.ReferenceIdeal Idealize.ShloMosaic Idealize.ShloMosaic.ValueIdx

/-- A plain row-by-matrix product read at column `i 1`: the sum over the contracted coordinate. -/
theorem plain_lhs0 (K N : Nat) (i : (⟨2, ![1, N]⟩ : Shape).Idx) (q : (DotDims.plain 1 K N).contr.Idx) :
    ((DotDims.plain 1 K N).lhsIdx i q 0).val = (i 0).val := by
  unfold DotDims.lhsIdx
  rw [dif_neg (show ¬(0 : Fin 2) ∈ (DotDims.plain 1 K N).lhsBatch from List.not_mem_nil),
    dif_pos (show (0 : Fin 2) ∈ (DotDims.plain 1 K N).lhsNonContracting from List.mem_singleton.mpr rfl)]
  rfl

theorem plain_lhs1 (K N : Nat) (i : (⟨2, ![1, N]⟩ : Shape).Idx) (q : (DotDims.plain 1 K N).contr.Idx) :
    ((DotDims.plain 1 K N).lhsIdx i q 1).val = (q ⟨0, Nat.one_pos⟩).val :=
  (DotDims.plain 1 K N).lhsIdx_val_of_single rfl i q

theorem plain_rhs0 (K N : Nat) (i : (⟨2, ![1, N]⟩ : Shape).Idx) (q : (DotDims.plain 1 K N).contr.Idx) :
    ((DotDims.plain 1 K N).rhsIdx i q 0).val = (q ⟨0, Nat.one_pos⟩).val :=
  (DotDims.plain 1 K N).rhsIdx_val_of_single rfl i q

theorem plain_rhs1 (K N : Nat) (i : (⟨2, ![1, N]⟩ : Shape).Idx) (q : (DotDims.plain 1 K N).contr.Idx) :
    ((DotDims.plain 1 K N).rhsIdx i q 1).val = (i 1).val := by
  unfold DotDims.rhsIdx
  rw [dif_neg (show ¬(1 : Fin 2) ∈ (DotDims.plain 1 K N).rhsBatch from List.not_mem_nil),
    dif_pos (show (1 : Fin 2) ∈ (DotDims.plain 1 K N).rhsNonContracting from List.mem_singleton.mpr rfl)]
  rfl

theorem plain_dot_apply (K N : Nat) (x : FVec Ideal ⟨2, ![1, K]⟩ .f32) (w : FVec Ideal ⟨2, ![K, N]⟩ .f32)
    (a : Fin 1) (c : Fin N) :
    Host.dotGeneral (F := Ideal) (DotDims.plain 1 K N) none x w (ix2 a c) = ∑ k : Fin K, x (ix2 0 k) * w (ix2 k c) := by
  generalize hi : (ix2 a c : (⟨2, ![1, N]⟩ : Shape).Idx) = i
  have hi1 : (i 1).val = c.val := by rw [← hi]; rfl
  simp only [Host.dotGeneral]
  rw [Ideal.dotGeneral_apply, ← Equiv.sum_comp (contrEquiv1 (DotDims.plain 1 K N) K rfl rfl).symm]
  refine Finset.sum_congr rfl fun k _ => ?_
  have hk := contrEquiv1_symm_val (DotDims.plain 1 K N) K rfl rfl k
  have el : (DotDims.plain 1 K N).lhsIdx i ((contrEquiv1 (DotDims.plain 1 K N) K rfl rfl).symm k) = ix2 0 k :=
    funext fun a => Fin.ext (by
      match a with
      | ⟨0, _⟩ => exact (plain_lhs0 K N _ _).trans (by have := idx2_lt0 i; show (i 0).val = 0; omega)
      | ⟨1, _⟩ => exact (plain_lhs1 K N _ _).trans hk)
  have er : (DotDims.plain 1 K N).rhsIdx i ((contrEquiv1 (DotDims.plain 1 K N) K rfl rfl).symm k) = ix2 k c :=
    funext fun a => Fin.ext (by
      match a with
      | ⟨0, _⟩ => exact (plain_rhs0 K N _ _).trans hk
      | ⟨1, _⟩ => exact (plain_rhs1 K N _ _).trans hi1)
  rw [el, er]

/-- A rank-2 transpose read at `(a, b)` is the operand at `(b, a)`. -/
theorem transpose2_apply {α : Type} {A B : Nat} (w : (⟨2, ![A, B]⟩ : Shape).Idx → α)
    (h : (⟨2, ![A, B]⟩ : Shape).Transposes [1, 0] ⟨2, ![B, A]⟩) (a : Fin B) (b : Fin A) :
    transpose ⟨2, ![B, A]⟩ [1, 0] w h (ix2 a b) = w (ix2 b a) :=
  transpose_apply [1, 0] w h (ix2 a b) (ix2 b a) (fun c => match c with
    | ⟨0, _⟩ => rfl
    | ⟨1, _⟩ => rfl)

/-- A vector broadcast along a new leading unit axis, read at `i`, is the vector at `i`'s column. -/
theorem bcastRow_apply {α : Type} {N : Nat} (h : (⟨1, ![N]⟩ : Shape).BroadcastsInDim ⟨2, ![1, N]⟩ (![1] : Fin 1 → Fin 2))
    (b : (⟨1, ![N]⟩ : Shape).Idx → α) (a : Fin 1) (c : Fin N) :
    broadcastInDim ⟨2, ![1, N]⟩ ![1] h b (ix2 a c) = b (ix1 c) :=
  broadcastInDim_apply _ h b (ix2 a c) (ix1 c) (fun d => match d with
    | ⟨0, _⟩ => by
      show c.val = if N = 1 then 0 else c.val
      by_cases hN : N = 1
      · rw [if_pos hN]; have := c.isLt; omega
      · rw [if_neg hN])

/-- `x · wᵀ + b` in the program's spelling — the product with the transposed matrix, plus the bias row broadcast — is
    the specification's `linT`. -/
theorem linT_plain (K N : Nat) (hT : (⟨2, ![N, K]⟩ : Shape).Transposes [1, 0] ⟨2, ![K, N]⟩)
    (hB : (⟨1, ![N]⟩ : Shape).BroadcastsInDim ⟨2, ![1, N]⟩ (![1] : Fin 1 → Fin 2))
    (x : FVec Ideal ⟨2, ![1, K]⟩ .f32) (w : FVec Ideal ⟨2, ![N, K]⟩ .f32) (b : FVec Ideal ⟨1, ![N]⟩ .f32) :
    addf (Host.dotGeneral (F := Ideal) (DotDims.plain 1 K N) none x (transpose ⟨2, ![K, N]⟩ [1, 0] w hT))
        (broadcastInDim ⟨2, ![1, N]⟩ ![1] hB b)
      = Cert.Spec.linT K N x w (fun i => b (ix1 (i 1))) := by
  funext i
  obtain ⟨a, c, rfl⟩ : ∃ (a : Fin 1) (c : Fin N), i = ix2 a c := ⟨i 0, i 1, eq_ix2 i⟩
  rw [addf_apply, plain_dot_apply, bcastRow_apply]
  show _ = (∑ k : Fin K, x (ix2 0 k) * w (ix2 c k)) + b (ix1 c)
  refine congrArg (· + b (ix1 c)) (Finset.sum_congr rfl fun k _ => ?_)
  rw [transpose2_apply]

/-- The two products of a gate and its two bias rows, added in the program's order, are the specification's `gate`:
    only commutativity and associativity of the extended reals' addition are used. -/
theorem gate_plain (K N : Nat) (hT : (⟨2, ![N, K]⟩ : Shape).Transposes [1, 0] ⟨2, ![K, N]⟩)
    (hB : (⟨1, ![N]⟩ : Shape).BroadcastsInDim ⟨2, ![1, N]⟩ (![1] : Fin 1 → Fin 2))
    (x h : FVec Ideal ⟨2, ![1, K]⟩ .f32) (wih whh : FVec Ideal ⟨2, ![N, K]⟩ .f32) (bih bhh : FVec Ideal ⟨1, ![N]⟩ .f32) :
    addf (addf (addf (Host.dotGeneral (F := Ideal) (DotDims.plain 1 K N) none x (transpose ⟨2, ![K, N]⟩ [1, 0] wih hT))
            (broadcastInDim ⟨2, ![1, N]⟩ ![1] hB bih))
          (Host.dotGeneral (F := Ideal) (DotDims.plain 1 K N) none h (transpose ⟨2, ![K, N]⟩ [1, 0] whh hT)))
        (broadcastInDim ⟨2, ![1, N]⟩ ![1] hB bhh)
      = Cert.Spec.gate K N x h wih whh (fun i => bih (ix1 (i 1)) + bhh (ix1 (i 1))) := by
  funext i
  obtain ⟨a, c, rfl⟩ : ∃ (a : Fin 1) (c : Fin N), i = ix2 a c := ⟨i 0, i 1, eq_ix2 i⟩
  rw [addf_apply, addf_apply, addf_apply, plain_dot_apply, plain_dot_apply, bcastRow_apply, bcastRow_apply]
  have e1 : ∑ k : Fin K, x (ix2 0 k) * transpose ⟨2, ![K, N]⟩ [1, 0] wih hT (ix2 k c)
      = ∑ k : Fin K, x (ix2 0 k) * wih (ix2 c k) :=
    Finset.sum_congr rfl fun k _ => by rw [transpose2_apply]
  have e2 : ∑ k : Fin K, h (ix2 0 k) * transpose ⟨2, ![K, N]⟩ [1, 0] whh hT (ix2 k c)
      = ∑ k : Fin K, h (ix2 0 k) * whh (ix2 c k) :=
    Finset.sum_congr rfl fun k _ => by rw [transpose2_apply]
  rw [e1, e2]
  show _ = ((∑ k : Fin K, x (ix2 0 k) * wih (ix2 c k)) + ∑ k : Fin K, h (ix2 0 k) * whh (ix2 c k))
      + (bih (ix1 c) + bhh (ix1 c))
  rw [add_right_comm _ (bih (ix1 c)) _, add_assoc]

variable [Facts₀]
open Facts₀

/-- The attended-values product `x · w`. -/
theorem lin_applied (x : FVec Ideal S1x2048 .f32) (w : FVec Ideal S2048x2048 .f32) :
    Host.dotGeneral (F := Ideal) dot_S1x2048_S2048x2048_S1x2048_1_0_0_1_n_n none x w = Cert.Spec.lin 2048 2048 x w := by
  funext i
  obtain ⟨a, c, rfl⟩ : ∃ (a : Fin 1) (c : Fin 2048), i = ix2 a c := ⟨i 0, i 1, eq_ix2 i⟩
  exact plain_dot_apply 2048 2048 x w a c

/-- The attention scores' layer. -/
theorem linT_attn (x : FVec Ideal S1x2048 .f32) (w : FVec Ideal S2048x2048 .f32) (b : FVec Ideal S2048 .f32) :
    addf (Host.dotGeneral (F := Ideal) dot_S1x2048_S2048x2048_S1x2048_1_0_0_1_n_n none x
          (transpose S2048x2048 [1, 0] w transposes_S2048x2048_S2048x2048_1_0))
        (broadcastInDim S1x2048 ![1] bcast_S2048_S1x2048_1 b)
      = Cert.Spec.linT 2048 2048 x w (fun i => b (ix1 (i 1))) :=
  linT_plain 2048 2048 transposes_S2048x2048_S2048x2048_1_0 bcast_S2048_S1x2048_1 x w b

/-- The combine layer. -/
theorem linT_comb (x : FVec Ideal S1x3072 .f32) (w : FVec Ideal S1024x3072 .f32) (b : FVec Ideal S1024 .f32) :
    addf (Host.dotGeneral (F := Ideal) dot_S1x3072_S3072x1024_S1x1024_1_0_0_1_n_n none x
          (transpose S3072x1024 [1, 0] w transposes_S1024x3072_S3072x1024_1_0))
        (broadcastInDim S1x1024 ![1] bcast_S1024_S1x1024_1 b)
      = Cert.Spec.linT 3072 1024 x w (fun i => b (ix1 (i 1))) :=
  linT_plain 3072 1024 transposes_S1024x3072_S3072x1024_1_0 bcast_S1024_S1x1024_1 x w b

/-- The output layer. -/
theorem linT_out (x : FVec Ideal S1x2048 .f32) (w : FVec Ideal S50257x2048 .f32) (b : FVec Ideal S50257 .f32) :
    addf (Host.dotGeneral (F := Ideal) dot_S1x2048_S2048x50257_S1x50257_1_0_0_1_n_n none x
          (transpose S2048x50257 [1, 0] w transposes_S50257x2048_S2048x50257_1_0))
        (broadcastInDim S1x50257 ![1] bcast_S50257_S1x50257_1 b)
      = Cert.Spec.linT 2048 50257 x w (fun i => b (ix1 (i 1))) :=
  linT_plain 2048 50257 transposes_S50257x2048_S2048x50257_1_0 bcast_S50257_S1x50257_1 x w b

/-- An LSTM cell's four gates before the nonlinearities. -/
theorem gate_lstm (x h : FVec Ideal S1x1024 .f32) (wih whh : FVec Ideal S4096x1024 .f32) (bih bhh : FVec Ideal S4096 .f32) :
    addf (addf (addf (Host.dotGeneral (F := Ideal) dot_S1x1024_S1024x4096_S1x4096_1_0_0_1_n_n none x
              (transpose S1024x4096 [1, 0] wih transposes_S4096x1024_S1024x4096_1_0))
            (broadcastInDim S1x4096 ![1] bcast_S4096_S1x4096_1 bih))
          (Host.dotGeneral (F := Ideal) dot_S1x1024_S1024x4096_S1x4096_1_0_0_1_n_n none h
            (transpose S1024x4096 [1, 0] whh transposes_S4096x1024_S1024x4096_1_0)))
        (broadcastInDim S1x4096 ![1] bcast_S4096_S1x4096_1 bhh)
      = Cert.Spec.gate 1024 4096 x h wih whh (fun i => bih (ix1 (i 1)) + bhh (ix1 (i 1))) :=
  gate_plain 1024 4096 transposes_S4096x1024_S1024x4096_1_0 bcast_S4096_S1x4096_1 x h wih whh bih bhh

end Cert.RefLaws

end
-- ==== Proof.RV.SA.lean ====
import proofs.«156083_j22471268893342_1_alg».proof.Proof.RV.Fold
import proofs.«156083_j22471268893342_1_alg».proof.Proof.Stages
import proofs.«156083_j22471268893342_1_alg».proof.Proof.RefLaws
import proofs.«156083_j22471268893342_1_alg».proof.Proof.Gen.KernelIdeal
import Idealize.ShloMosaic.Lib.Pipeline.Value
import Idealize.ShloMosaic.Lib.StableHlo.Run

/-! # What the reference program's buffers hold (stretch A: the embedding row, the forward hidden state, the joined attention input)

Each buffer is read where its stretch wrote it: the fold at a result buffer is the operation applied to the operands'
contents; what a stretch reads from earlier stretches enters as a hypothesis. -/

set_option maxRecDepth 16384

noncomputable section

namespace Cert.ReferenceIdeal.RV

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ) (c : Dev nD)

/-- The embedding row: the reference reshapes it to a vector and back, the identity; its column start evaluates to 0. -/
theorem r_v9 : R1 m c (Proc.devRef .tc main_v9) = Cert.Stages.embed (m ((c.tc : Thread nD τ).loc main_arg0)) (m ((c.tc : Thread nD τ).loc main_arg4)) := by
  show StableHlo.after opsA (R0 m c) (Proc.devRef .tc main_v9) = _
  after_results
  show shapeCast _ (shapeCast _ (Host.dynamicSlice S1x1024 _ _ _) _) _ = _
  rw [shapeCast_shapeCast]
  unfold Cert.Stages.embed
  show Host.dynamicSlice S1x1024 _ _ _ = Host.dynamicSlice S1x1024 _ _ _
  congr 1
  funext k
  fin_cases k <;> (try simp only [Matrix.cons_val_zero', Matrix.cons_val_succ', Fin.zero_eta, Fin.mk_one, Matrix.cons_val_zero, Matrix.cons_val_one, Matrix.head_cons]) <;> (try after_results) <;> rfl
theorem r_v11 : R1 m c (Proc.devRef .tc main_v11) = Cert.Stages.row0 (m ((c.tc : Thread nD τ).loc main_arg1)) := by
  show StableHlo.after opsA (R0 m c) (Proc.devRef .tc main_v11) = _
  after_results
  rfl
set_option maxHeartbeats 1000000 in
theorem r_v12 : R1 m c (Proc.devRef .tc main_v12) = Cert.Stages.join2 (Cert.Stages.embed (m ((c.tc : Thread nD τ).loc main_arg0)) (m ((c.tc : Thread nD τ).loc main_arg4))) (Cert.Stages.row0 (m ((c.tc : Thread nD τ).loc main_arg1))) := by
  have e9 := r_v9 m c
  have e11 := r_v11 m c
  rw [← e9, ← e11]
  show StableHlo.after opsA (R0 m c) (Proc.devRef .tc main_v12) = Cert.Stages.join2 (StableHlo.after opsA (R0 m c) (Proc.devRef .tc main_v9)) (StableHlo.after opsA (R0 m c) (Proc.devRef .tc main_v11))
  unfold Cert.Stages.join2
  after_results_simp
  rfl

end Cert.ReferenceIdeal.RV

end
-- ==== Proof.RV.SB.lean ====
import proofs.«156083_j22471268893342_1_alg».proof.Proof.RV.Fold
import proofs.«156083_j22471268893342_1_alg».proof.Proof.Stages
import proofs.«156083_j22471268893342_1_alg».proof.Proof.RefLaws
import proofs.«156083_j22471268893342_1_alg».proof.Proof.Gen.KernelIdeal
import Idealize.ShloMosaic.Lib.Pipeline.Value
import Idealize.ShloMosaic.Lib.StableHlo.Run

/-! # What the reference program's buffers hold (stretches B and C: the attention scores and their softmax)

Each buffer is read where its stretch wrote it: the fold at a result buffer is the operation applied to the operands'
contents; what a stretch reads from earlier stretches enters as a hypothesis. -/

set_option maxRecDepth 16384

noncomputable section

namespace Cert.ReferenceIdeal.RV

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ) (c : Dev nD)

theorem r_v16_of (X : (⟨S1x2048, .f32⟩ : BufTy).Contents (Elt Ideal)) (h : R1 m c (Proc.devRef .tc main_v12) = X) :
    R2 m c (Proc.devRef .tc main_v16) = Cert.Spec.linT 2048 2048 X (m ((c.tc : Thread nD τ).loc main_arg5)) (Cert.Stages.biasRow (m ((c.tc : Thread nD τ).loc main_arg6))) := by
  have h5 := R1_args m c main_arg5 (by decide)
  have h6 := R1_args m c main_arg6 (by decide)
  show StableHlo.after opsB (R1 m c) (Proc.devRef .tc main_v16) = _
  generalize R1 m c = Rx at h h5 h6 ⊢
  after_results
  rw [h, h5, h6]
  exact Cert.RefLaws.linT_attn _ _ _
theorem r_v27_of (S : (⟨S1x2048, .f32⟩ : BufTy).Contents (Elt Ideal)) (h : R2 m c (Proc.devRef .tc main_v16) = S) : R3 m c (Proc.devRef .tc main_v27) = Cert.Stages.softmax S := by
  show StableHlo.after opsC (R2 m c) (Proc.devRef .tc main_v27) = _
  generalize R2 m c = Rx at h ⊢
  after_results
  rw [h]
  rfl

end Cert.ReferenceIdeal.RV

end
-- ==== Proof.RV.SD.lean ====
import proofs.«156083_j22471268893342_1_alg».proof.Proof.RV.Fold
import proofs.«156083_j22471268893342_1_alg».proof.Proof.Stages
import proofs.«156083_j22471268893342_1_alg».proof.Proof.RefLaws
import proofs.«156083_j22471268893342_1_alg».proof.Proof.Gen.KernelIdeal
import Idealize.ShloMosaic.Lib.Pipeline.Value
import Idealize.ShloMosaic.Lib.StableHlo.Run

/-! # What the reference program's buffers hold (stretches D, E, F: the attention-weighted sum, the combining layer, the relu, the forward gates)

Each buffer is read where its stretch wrote it: the fold at a result buffer is the operation applied to the operands'
contents; what a stretch reads from earlier stretches enters as a hypothesis. -/

set_option maxRecDepth 16384

noncomputable section

namespace Cert.ReferenceIdeal.RV

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ) (c : Dev nD)

/-! ## Each stretch from a valuation held as a variable -/

section Core
variable (Rx : Valuation τ sig (Elt Ideal))

/-- Stretch D at the attention-weighted sum. -/
theorem opsD_v28 (Aw : (⟨S1x2048, .f32⟩ : BufTy).Contents (Elt Ideal)) (A3 : (⟨S2048x2048, .f32⟩ : BufTy).Contents (Elt Ideal)) (h : Rx (Proc.devRef .tc main_v27) = Aw) (a3 : Rx (Proc.devRef .tc main_arg3) = A3) :
    StableHlo.after opsD Rx (Proc.devRef .tc main_v28) = Cert.Spec.lin 2048 2048 Aw A3 := by
  after_results
  rw [h, a3]
  exact Cert.RefLaws.lin_applied _ _

/-- Stretch D at the combining layer: the joined row times the transposed weight, plus the bias row. -/
theorem opsD_v33 (E : (⟨S1x1024, .f32⟩ : BufTy).Contents (Elt Ideal)) (Aw : (⟨S1x2048, .f32⟩ : BufTy).Contents (Elt Ideal)) (A3 : (⟨S2048x2048, .f32⟩ : BufTy).Contents (Elt Ideal)) (A7 : (⟨S1024x3072, .f32⟩ : BufTy).Contents (Elt Ideal)) (A8 : (⟨S1024, .f32⟩ : BufTy).Contents (Elt Ideal))
    (he : Rx (Proc.devRef .tc main_v9) = E) (h : Rx (Proc.devRef .tc main_v27) = Aw) (a3 : Rx (Proc.devRef .tc main_arg3) = A3) (a7 : Rx (Proc.devRef .tc main_arg7) = A7) (a8 : Rx (Proc.devRef .tc main_arg8) = A8) :
    StableHlo.after opsD Rx (Proc.devRef .tc main_v33) = Cert.Spec.linT 3072 1024 (Cert.Stages.join3 E (Cert.Spec.lin 2048 2048 Aw A3)) A7 (Cert.Stages.biasRow A8) := by
  after_results
  rw [he, h, a3, a7, a8, Cert.RefLaws.lin_applied]
  exact Cert.RefLaws.linT_comb _ _ _

/-- A typed reference's two transports of a value undo each other. -/
theorem ofBuf_toBuf_ideal {T : BufTy} (x : StableHlo.TRef sig T) (v : T.Contents (Elt Ideal)) : x.ofBuf (x.toBuf v) = v := by
  obtain ⟨r, h, hd, hu⟩ := x
  subst h
  rfl

/-- Stretch E: the maximum with the zero row. -/
theorem opsE_v34 (P : (⟨S1x1024, .f32⟩ : BufTy).Contents (Elt Ideal)) (h : Rx (Proc.devRef .tc main_v33) = P) : StableHlo.after opsE Rx (Proc.devRef .tc main_v34) = Cert.Stages.relu P := by
  have e33 : (TRef.of main_v33 : TRef sig ⟨S1x1024, .f32⟩).ofBuf (Val := Elt Ideal) P = P := rfl
  have e34 : ∀ X : (⟨S1x1024, .f32⟩ : BufTy).Contents (Elt Ideal), (TRef.of main_v34 : TRef sig ⟨S1x1024, .f32⟩).toBuf (Val := Elt Ideal) X = X := fun _ => rfl
  after_results_simp
  rw [h]
  unfold Cert.Stages.relu
  simp only [ofBuf_toBuf_ideal]
  rw [e33]
  exact e34 _

/-- Stretch F at the forward direction's hidden row: the first slice of the states, as a row. -/
theorem opsF_v36 (A1 : (⟨S2x1x1024, .f32⟩ : BufTy).Contents (Elt Ideal)) (a1 : Rx (Proc.devRef .tc main_arg1) = A1) : StableHlo.after opsF Rx (Proc.devRef .tc main_v36) = Cert.Stages.row0 A1 := by
  after_results
  rw [a1]
  rfl

/-- Stretch F at the forward direction's cell row. -/
theorem opsF_v38 (A2 : (⟨S2x1x1024, .f32⟩ : BufTy).Contents (Elt Ideal)) (a2 : Rx (Proc.devRef .tc main_arg2) = A2) : StableHlo.after opsF Rx (Proc.devRef .tc main_v38) = Cert.Stages.row0 A2 := by
  after_results
  rw [a2]
  rfl

/-- Stretch F at the gates: the two products and the two bias rows, added in the program's order. -/
theorem opsF_v47 (X : (⟨S1x1024, .f32⟩ : BufTy).Contents (Elt Ideal)) (A1 : (⟨S2x1x1024, .f32⟩ : BufTy).Contents (Elt Ideal)) (A9 A10 : (⟨S4096x1024, .f32⟩ : BufTy).Contents (Elt Ideal)) (A11 A12 : (⟨S4096, .f32⟩ : BufTy).Contents (Elt Ideal))
    (h : Rx (Proc.devRef .tc main_v34) = X) (a1 : Rx (Proc.devRef .tc main_arg1) = A1) (a9 : Rx (Proc.devRef .tc main_arg9) = A9) (a10 : Rx (Proc.devRef .tc main_arg10) = A10) (a11 : Rx (Proc.devRef .tc main_arg11) = A11) (a12 : Rx (Proc.devRef .tc main_arg12) = A12) :
    StableHlo.after opsF Rx (Proc.devRef .tc main_v47) = Cert.Spec.gate 1024 4096 X (Cert.Stages.row0 A1) A9 A10 (Cert.Stages.biasRow2 A11 A12) := by
  after_results
  rw [h, a1, a9, a10, a11, a12]
  exact Cert.RefLaws.gate_lstm _ _ _ _ _ _

end Core

/-! ## The same at the program's valuations -/

theorem r_v28_of (Aw : (⟨S1x2048, .f32⟩ : BufTy).Contents (Elt Ideal)) (h : R3 m c (Proc.devRef .tc main_v27) = Aw) : R4 m c (Proc.devRef .tc main_v28) = Cert.Spec.lin 2048 2048 Aw (m ((c.tc : Thread nD τ).loc main_arg3)) :=
  opsD_v28 (R3 m c) Aw _ h (R3_args m c main_arg3 (by decide))
theorem r_v33_of (E : (⟨S1x1024, .f32⟩ : BufTy).Contents (Elt Ideal)) (Aw : (⟨S1x2048, .f32⟩ : BufTy).Contents (Elt Ideal)) (he : R3 m c (Proc.devRef .tc main_v9) = E) (h : R3 m c (Proc.devRef .tc main_v27) = Aw) :
    R4 m c (Proc.devRef .tc main_v33) = Cert.Spec.linT 3072 1024 (Cert.Stages.join3 E (Cert.Spec.lin 2048 2048 Aw (m ((c.tc : Thread nD τ).loc main_arg3)))) (m ((c.tc : Thread nD τ).loc main_arg7)) (Cert.Stages.biasRow (m ((c.tc : Thread nD τ).loc main_arg8))) :=
  opsD_v33 (R3 m c) E Aw _ _ _ he h (R3_args m c main_arg3 (by decide)) (R3_args m c main_arg7 (by decide)) (R3_args m c main_arg8 (by decide))
theorem r_v34_of (P : (⟨S1x1024, .f32⟩ : BufTy).Contents (Elt Ideal)) (h : R4 m c (Proc.devRef .tc main_v33) = P) : R5 m c (Proc.devRef .tc main_v34) = Cert.Stages.relu P :=
  opsE_v34 (R4 m c) P h
theorem r_v36 : R6 m c (Proc.devRef .tc main_v36) = Cert.Stages.row0 (m ((c.tc : Thread nD τ).loc main_arg1)) :=
  opsF_v36 (R5 m c) _ (R5_args m c main_arg1 (by decide))
theorem r_v38 : R6 m c (Proc.devRef .tc main_v38) = Cert.Stages.row0 (m ((c.tc : Thread nD τ).loc main_arg2)) :=
  opsF_v38 (R5 m c) _ (R5_args m c main_arg2 (by decide))
theorem r_v47_of (X : (⟨S1x1024, .f32⟩ : BufTy).Contents (Elt Ideal)) (h : R5 m c (Proc.devRef .tc main_v34) = X) :
    R6 m c (Proc.devRef .tc main_v47) = Cert.Spec.gate 1024 4096 X (Cert.Stages.row0 (m ((c.tc : Thread nD τ).loc main_arg1))) (m ((c.tc : Thread nD τ).loc main_arg9)) (m ((c.tc : Thread nD τ).loc main_arg10)) (Cert.Stages.biasRow2 (m ((c.tc : Thread nD τ).loc main_arg11)) (m ((c.tc : Thread nD τ).loc main_arg12))) :=
  opsF_v47 (R5 m c) X _ _ _ _ _ h (R5_args m c main_arg1 (by decide)) (R5_args m c main_arg9 (by decide)) (R5_args m c main_arg10 (by decide)) (R5_args m c main_arg11 (by decide)) (R5_args m c main_arg12 (by decide))

end Cert.ReferenceIdeal.RV

end
-- ==== Proof.RV.SG.lean ====
import proofs.«156083_j22471268893342_1_alg».proof.Proof.RV.Fold
import proofs.«156083_j22471268893342_1_alg».proof.Proof.Stages
import proofs.«156083_j22471268893342_1_alg».proof.Proof.RefLaws
import proofs.«156083_j22471268893342_1_alg».proof.Proof.Gen.KernelIdeal
import Idealize.ShloMosaic.Lib.Pipeline.Value
import Idealize.ShloMosaic.Lib.StableHlo.Run

/-! # What the reference program's buffers hold (stretches G and I: the forward and the backward cell)

Each buffer is read where its stretch wrote it: the fold at a result buffer is the operation applied to the operands'
contents; what a stretch reads from earlier stretches enters as a hypothesis. -/

set_option maxRecDepth 16384

noncomputable section

namespace Cert.ReferenceIdeal.RV

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ) (c : Dev nD)

theorem r_v67_of (G : (⟨S1x4096, .f32⟩ : BufTy).Contents (Elt Ideal)) (C0 : (⟨S1x1024, .f32⟩ : BufTy).Contents (Elt Ideal)) (hg : R6 m c (Proc.devRef .tc main_v47) = G) (hc : R6 m c (Proc.devRef .tc main_v38) = C0) :
    R7 m c (Proc.devRef .tc main_v67) = Cert.Stages.cellC G C0 := by
  show StableHlo.after opsG (R6 m c) (Proc.devRef .tc main_v67) = _
  generalize R6 m c = Rx at hg hc ⊢
  after_results_simp
  rw [hg, hc]
  rfl
theorem r_v75_of (G : (⟨S1x4096, .f32⟩ : BufTy).Contents (Elt Ideal)) (C0 : (⟨S1x1024, .f32⟩ : BufTy).Contents (Elt Ideal)) (hg : R6 m c (Proc.devRef .tc main_v47) = G) (hc : R6 m c (Proc.devRef .tc main_v38) = C0) :
    R7 m c (Proc.devRef .tc main_v75) = Cert.Stages.cellH G C0 := by
  show StableHlo.after opsG (R6 m c) (Proc.devRef .tc main_v75) = _
  generalize R6 m c = Rx at hg hc ⊢
  after_results_simp
  rw [hg, hc]
  rfl
theorem r_v108_of (G : (⟨S1x4096, .f32⟩ : BufTy).Contents (Elt Ideal)) (C0 : (⟨S1x1024, .f32⟩ : BufTy).Contents (Elt Ideal)) (hg : R8 m c (Proc.devRef .tc main_v88) = G) (hc : R8 m c (Proc.devRef .tc main_v79) = C0) :
    R9 m c (Proc.devRef .tc main_v108) = Cert.Stages.cellC G C0 := by
  show StableHlo.after opsI (R8 m c) (Proc.devRef .tc main_v108) = _
  generalize R8 m c = Rx at hg hc ⊢
  after_results_simp
  rw [hg, hc]
  rfl
theorem r_v116_of (G : (⟨S1x4096, .f32⟩ : BufTy).Contents (Elt Ideal)) (C0 : (⟨S1x1024, .f32⟩ : BufTy).Contents (Elt Ideal)) (hg : R8 m c (Proc.devRef .tc main_v88) = G) (hc : R8 m c (Proc.devRef .tc main_v79) = C0) :
    R9 m c (Proc.devRef .tc main_v116) = Cert.Stages.cellH G C0 := by
  show StableHlo.after opsI (R8 m c) (Proc.devRef .tc main_v116) = _
  generalize R8 m c = Rx at hg hc ⊢
  after_results_simp
  rw [hg, hc]
  rfl

end Cert.ReferenceIdeal.RV

end
-- ==== Proof.RV.SH.lean ====
import proofs.«156083_j22471268893342_1_alg».proof.Proof.RV.Fold
import proofs.«156083_j22471268893342_1_alg».proof.Proof.Stages
import proofs.«156083_j22471268893342_1_alg».proof.Proof.RefLaws
import proofs.«156083_j22471268893342_1_alg».proof.Proof.Gen.KernelIdeal
import Idealize.ShloMosaic.Lib.Pipeline.Value
import Idealize.ShloMosaic.Lib.StableHlo.Run

/-! # What the reference program's buffers hold (stretches H, J, K, L: the backward gates, the output projection, its log-softmax, the stacked states)

Each buffer is read where its stretch wrote it: the fold at a result buffer is the operation applied to the operands'
contents; what a stretch reads from earlier stretches enters as a hypothesis. -/

set_option maxRecDepth 16384

noncomputable section

namespace Cert.ReferenceIdeal.RV

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ) (c : Dev nD)

theorem r_v77 : R8 m c (Proc.devRef .tc main_v77) = Cert.Stages.row1 (m ((c.tc : Thread nD τ).loc main_arg1)) := by
  have ha := R7_args m c main_arg1 (by decide)
  show StableHlo.after opsH (R7 m c) (Proc.devRef .tc main_v77) = _
  generalize R7 m c = Rx at ha ⊢
  after_results
  rw [ha]
  rfl
theorem r_v79 : R8 m c (Proc.devRef .tc main_v79) = Cert.Stages.row1 (m ((c.tc : Thread nD τ).loc main_arg2)) := by
  have ha := R7_args m c main_arg2 (by decide)
  show StableHlo.after opsH (R7 m c) (Proc.devRef .tc main_v79) = _
  generalize R7 m c = Rx at ha ⊢
  after_results
  rw [ha]
  rfl
theorem r_v88_of (X : (⟨S1x1024, .f32⟩ : BufTy).Contents (Elt Ideal)) (h : R7 m c (Proc.devRef .tc main_v34) = X) :
    R8 m c (Proc.devRef .tc main_v88) = Cert.Spec.gate 1024 4096 X (Cert.Stages.row1 (m ((c.tc : Thread nD τ).loc main_arg1))) (m ((c.tc : Thread nD τ).loc main_arg13)) (m ((c.tc : Thread nD τ).loc main_arg14)) (Cert.Stages.biasRow2 (m ((c.tc : Thread nD τ).loc main_arg15)) (m ((c.tc : Thread nD τ).loc main_arg16))) := by
  have a1 := R7_args m c main_arg1 (by decide)
  have a13 := R7_args m c main_arg13 (by decide)
  have a14 := R7_args m c main_arg14 (by decide)
  have a15 := R7_args m c main_arg15 (by decide)
  have a16 := R7_args m c main_arg16 (by decide)
  show StableHlo.after opsH (R7 m c) (Proc.devRef .tc main_v88) = _
  generalize R7 m c = Rx at h a1 a13 a14 a15 a16 ⊢
  after_results_simp
  rw [h, a1, a13, a14, a15, a16]
  exact Cert.RefLaws.gate_lstm _ _ _ _ _ _
theorem r_v121_of (HF HB : (⟨S1x1024, .f32⟩ : BufTy).Contents (Elt Ideal)) (hf : R9 m c (Proc.devRef .tc main_v75) = HF) (hb : R9 m c (Proc.devRef .tc main_v116) = HB) :
    R10 m c (Proc.devRef .tc main_v121) = Cert.Spec.linT 2048 50257 (Cert.Stages.join2 HF HB) (m ((c.tc : Thread nD τ).loc main_arg17)) (Cert.Stages.biasRow (m ((c.tc : Thread nD τ).loc main_arg18))) := by
  have a17 := R9_args m c main_arg17 (by decide)
  have a18 := R9_args m c main_arg18 (by decide)
  show StableHlo.after opsJ (R9 m c) (Proc.devRef .tc main_v121) = _
  generalize R9 m c = Rx at hf hb a17 a18 ⊢
  after_results
  rw [hf, hb, a17, a18]
  exact Cert.RefLaws.linT_out _ _ _
/-- A typed reference's two transports of a value undo each other. -/
theorem ofBuf_toBuf_idealK {T : BufTy} (x : StableHlo.TRef sig T) (v : T.Contents (Elt Ideal)) : x.ofBuf (x.toBuf v) = v := by
  obtain ⟨r, h, hd, hu⟩ := x
  subst h
  rfl
theorem r_v122_of (L : (⟨S1x50257, .f32⟩ : BufTy).Contents (Elt Ideal)) (h : R10 m c (Proc.devRef .tc main_v121) = L) : R11 m c (Proc.devRef .tc main_v122) = Cert.Stages.logSoftmax L := by
  have e121 : (TRef.of (T := ⟨S1x50257, .f32⟩) main_v121).ofBuf (Val := Elt Ideal) L = L := rfl
  have e122 : ∀ X : (⟨S1x50257, .f32⟩ : BufTy).Contents (Elt Ideal), (TRef.of (T := ⟨S1x50257, .f32⟩) main_v122).toBuf (Val := Elt Ideal) X = X := fun _ => rfl
  show StableHlo.after opsK (R10 m c) (Proc.devRef .tc main_v122) = _
  generalize R10 m c = Rx at h ⊢
  after_results_simp
  rw [h]
  unfold Cert.Stages.logSoftmax
  simp only [ofBuf_toBuf_idealK]
  rw [e121]
  exact e122 _
theorem r_v125_of (HF HB : (⟨S1x1024, .f32⟩ : BufTy).Contents (Elt Ideal)) (hf : R11 m c (Proc.devRef .tc main_v75) = HF) (hb : R11 m c (Proc.devRef .tc main_v116) = HB) :
    R12 m c (Proc.devRef .tc main_v125) = Cert.Stages.stack HF HB := by
  show StableHlo.after opsL (R11 m c) (Proc.devRef .tc main_v125) = _
  generalize R11 m c = Rx at hf hb ⊢
  after_results
  rw [hf, hb]
  rfl
theorem r_v128_of (CF CB : (⟨S1x1024, .f32⟩ : BufTy).Contents (Elt Ideal)) (hf : R11 m c (Proc.devRef .tc main_v67) = CF) (hb : R11 m c (Proc.devRef .tc main_v108) = CB) :
    R12 m c (Proc.devRef .tc main_v128) = Cert.Stages.stack CF CB := by
  show StableHlo.after opsL (R11 m c) (Proc.devRef .tc main_v128) = _
  generalize R11 m c = Rx at hf hb ⊢
  after_results
  rw [hf, hb]
  rfl

end Cert.ReferenceIdeal.RV

end
-- ==== Proof.RV.Results.lean ====
import proofs.«156083_j22471268893342_1_alg».proof.Proof.RV.SA
import proofs.«156083_j22471268893342_1_alg».proof.Proof.RV.SB
import proofs.«156083_j22471268893342_1_alg».proof.Proof.RV.SD
import proofs.«156083_j22471268893342_1_alg».proof.Proof.RV.SG
import proofs.«156083_j22471268893342_1_alg».proof.Proof.RV.SH

/-! # The reference program's four results as the stage functions of the argument arrays

The stretches' lemmas chained: each stage's buffer is carried unchanged to the stretch that reads it. -/

set_option maxRecDepth 16384

noncomputable section

namespace Cert.ReferenceIdeal.RV

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ) (c : Dev nD)

theorem rr_v16 : R2 m c (Proc.devRef .tc main_v16) = (Cert.Stages.score (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := r_v16_of m c _ (r_v12 m c)
theorem rr_v27 : R3 m c (Proc.devRef .tc main_v27) = (Cert.Stages.attW (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := r_v27_of m c _ (rr_v16 m c)
theorem rr_v28 : R4 m c (Proc.devRef .tc main_v28) = (Cert.Stages.applied (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) := r_v28_of m c _ (rr_v27 m c)
theorem rr_v34 : R5 m c (Proc.devRef .tc main_v34) = (Cert.Stages.lstmIn (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := r_v34_of m c _ (r_v33_of m c _ _ ((((R3_keep m c main_v9 (by decide)).trans (R2_keep m c main_v9 (by decide)))).trans (r_v9 m c)) (rr_v27 m c))
theorem rr_v47 : R6 m c (Proc.devRef .tc main_v47) = (Cert.Stages.gF (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := r_v47_of m c _ (rr_v34 m c)
theorem rr_v67 : R7 m c (Proc.devRef .tc main_v67) = (Cert.Stages.cF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := r_v67_of m c _ _ (rr_v47 m c) (r_v38 m c)
theorem rr_v75 : R7 m c (Proc.devRef .tc main_v75) = (Cert.Stages.hF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := r_v75_of m c _ _ (rr_v47 m c) (r_v38 m c)
theorem rr_v88 : R8 m c (Proc.devRef .tc main_v88) = (Cert.Stages.gB (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))) := r_v88_of m c _ ((((R7_keep m c main_v34 (by decide)).trans (R6_keep m c main_v34 (by decide)))).trans (rr_v34 m c))
theorem rr_v108 : R9 m c (Proc.devRef .tc main_v108) = (Cert.Stages.cB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))) := r_v108_of m c _ _ (rr_v88 m c) (r_v79 m c)
theorem rr_v116 : R9 m c (Proc.devRef .tc main_v116) = (Cert.Stages.hB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))) := r_v116_of m c _ _ (rr_v88 m c) (r_v79 m c)
theorem rr_v121 : R10 m c (Proc.devRef .tc main_v121) = (Cert.Stages.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) := r_v121_of m c _ _ ((((R9_keep m c main_v75 (by decide)).trans (R8_keep m c main_v75 (by decide)))).trans (rr_v75 m c)) (rr_v116 m c)
theorem rr_v122 : R11 m c (Proc.devRef .tc main_v122) = (Cert.Stages.logp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) := r_v122_of m c _ (rr_v121 m c)
/-- The four results at the end of the run. -/
theorem res0 : R12 m c (Proc.devRef .tc main_v122) = (Cert.Stages.logp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) := (((R12_keep m c main_v122 (by decide))).trans (rr_v122 m c))
theorem res1 : R12 m c (Proc.devRef .tc main_v125) = (Cert.Stages.hN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) := r_v125_of m c _ _ ((((R11_keep m c main_v75 (by decide)).trans ((R10_keep m c main_v75 (by decide)).trans ((R9_keep m c main_v75 (by decide)).trans (R8_keep m c main_v75 (by decide)))))).trans (rr_v75 m c)) ((((R11_keep m c main_v116 (by decide)).trans (R10_keep m c main_v116 (by decide)))).trans (rr_v116 m c))
theorem res2 : R12 m c (Proc.devRef .tc main_v128) = (Cert.Stages.cN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) := r_v128_of m c _ _ ((((R11_keep m c main_v67 (by decide)).trans ((R10_keep m c main_v67 (by decide)).trans ((R9_keep m c main_v67 (by decide)).trans (R8_keep m c main_v67 (by decide)))))).trans (rr_v67 m c)) ((((R11_keep m c main_v108 (by decide)).trans (R10_keep m c main_v108 (by decide)))).trans (rr_v108 m c))
theorem res3 : R12 m c (Proc.devRef .tc main_v27) = (Cert.Stages.attW (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := ((((R12_keep m c main_v27 (by decide)).trans ((R11_keep m c main_v27 (by decide)).trans ((R10_keep m c main_v27 (by decide)).trans ((R9_keep m c main_v27 (by decide)).trans ((R8_keep m c main_v27 (by decide)).trans ((R7_keep m c main_v27 (by decide)).trans ((R6_keep m c main_v27 (by decide)).trans ((R5_keep m c main_v27 (by decide)).trans (R4_keep m c main_v27 (by decide))))))))))).trans (rr_v27 m c))

end Cert.ReferenceIdeal.RV

end
-- ==== Proof.Algebraic.lean ====
import proofs.«156083_j22471268893342_1_alg».proof.Defs
import proofs.«156083_j22471268893342_1_alg».proof.Proof.Gen.Kernel
import proofs.«156083_j22471268893342_1_alg».proof.Proof.Gen.KernelIdeal
import proofs.«156083_j22471268893342_1_alg».proof.Proof.Gen.ReferenceIdeal
import proofs.«156083_j22471268893342_1_alg».proof.Proof.Gen.Pre_finite_inputs
import proofs.«156083_j22471268893342_1_alg».proof.Proof.Stages
import proofs.«156083_j22471268893342_1_alg».proof.Proof.K.RunB
import proofs.«156083_j22471268893342_1_alg».proof.Proof.KI.RunB
import proofs.«156083_j22471268893342_1_alg».proof.Proof.KI.KVal4
import proofs.«156083_j22471268893342_1_alg».proof.Proof.RV.Results

/-! # The five claims

The three frame claims are the three programs' runs with the results forgotten. No operation of the kernel
is rewritten at the exact instance, so there is nothing to preserve. For the algebraic claim the four results are named once, as functions of
the nineteen argument arrays (`Cert.Stages`: the decoder step's stages composed, every matrix product the sum over its
contracted coordinate); the kernel's run ends with its four result buffers at those functions of its launch memory,
the reference's run with its own at the same functions of its launch memory, and the two memories agree on the
arguments. -/

noncomputable section

namespace Cert.Proof.Alg

open Idealize.ShloMosaic Idealize.ShloMosaic.TcCoe Idealize.SL.Sem

/-- The kernel program runs and leaves its nineteen argument arrays as launched. -/
theorem frame_p : Cert.frame_Kernel := fun m ρ _ => Cert.Kernel.Hand.frame (F := Bits) m ρ

/-- So does its reading at the extended reals. -/
theorem frame_pi : Cert.frame_KernelIdeal := fun m ρ _ => Cert.KernelIdeal.Hand.frame (F := Ideal) m ρ

/-- The reference is a straight line of host operations, none of which writes an argument. -/
theorem frame_ri : Cert.frame_ReferenceIdeal := fun m ρ _ =>
  (θ_run Cert.ReferenceIdeal.defs _ _).mono (fun r h c => ⟨(h c Cert.ReferenceIdeal.main_arg0).trans (Cert.ReferenceIdeal.RV.R12_args m c Cert.ReferenceIdeal.main_arg0 (by decide)),
    (h c Cert.ReferenceIdeal.main_arg1).trans (Cert.ReferenceIdeal.RV.R12_args m c Cert.ReferenceIdeal.main_arg1 (by decide)),
    (h c Cert.ReferenceIdeal.main_arg2).trans (Cert.ReferenceIdeal.RV.R12_args m c Cert.ReferenceIdeal.main_arg2 (by decide)),
    (h c Cert.ReferenceIdeal.main_arg3).trans (Cert.ReferenceIdeal.RV.R12_args m c Cert.ReferenceIdeal.main_arg3 (by decide)),
    (h c Cert.ReferenceIdeal.main_arg4).trans (Cert.ReferenceIdeal.RV.R12_args m c Cert.ReferenceIdeal.main_arg4 (by decide)),
    (h c Cert.ReferenceIdeal.main_arg5).trans (Cert.ReferenceIdeal.RV.R12_args m c Cert.ReferenceIdeal.main_arg5 (by decide)),
    (h c Cert.ReferenceIdeal.main_arg6).trans (Cert.ReferenceIdeal.RV.R12_args m c Cert.ReferenceIdeal.main_arg6 (by decide)),
    (h c Cert.ReferenceIdeal.main_arg7).trans (Cert.ReferenceIdeal.RV.R12_args m c Cert.ReferenceIdeal.main_arg7 (by decide)),
    (h c Cert.ReferenceIdeal.main_arg8).trans (Cert.ReferenceIdeal.RV.R12_args m c Cert.ReferenceIdeal.main_arg8 (by decide)),
    (h c Cert.ReferenceIdeal.main_arg9).trans (Cert.ReferenceIdeal.RV.R12_args m c Cert.ReferenceIdeal.main_arg9 (by decide)),
    (h c Cert.ReferenceIdeal.main_arg10).trans (Cert.ReferenceIdeal.RV.R12_args m c Cert.ReferenceIdeal.main_arg10 (by decide)),
    (h c Cert.ReferenceIdeal.main_arg11).trans (Cert.ReferenceIdeal.RV.R12_args m c Cert.ReferenceIdeal.main_arg11 (by decide)),
    (h c Cert.ReferenceIdeal.main_arg12).trans (Cert.ReferenceIdeal.RV.R12_args m c Cert.ReferenceIdeal.main_arg12 (by decide)),
    (h c Cert.ReferenceIdeal.main_arg13).trans (Cert.ReferenceIdeal.RV.R12_args m c Cert.ReferenceIdeal.main_arg13 (by decide)),
    (h c Cert.ReferenceIdeal.main_arg14).trans (Cert.ReferenceIdeal.RV.R12_args m c Cert.ReferenceIdeal.main_arg14 (by decide)),
    (h c Cert.ReferenceIdeal.main_arg15).trans (Cert.ReferenceIdeal.RV.R12_args m c Cert.ReferenceIdeal.main_arg15 (by decide)),
    (h c Cert.ReferenceIdeal.main_arg16).trans (Cert.ReferenceIdeal.RV.R12_args m c Cert.ReferenceIdeal.main_arg16 (by decide)),
    (h c Cert.ReferenceIdeal.main_arg17).trans (Cert.ReferenceIdeal.RV.R12_args m c Cert.ReferenceIdeal.main_arg17 (by decide)),
    (h c Cert.ReferenceIdeal.main_arg18).trans (Cert.ReferenceIdeal.RV.R12_args m c Cert.ReferenceIdeal.main_arg18 (by decide))⟩)
    (Cert.ReferenceIdeal.RV.run_after (F := Ideal) m ρ)

/-- No operation of the kernel is rewritten at the exact instance: the preservation claim is `True`. -/
theorem preserves : Cert.preserves_Kernel_KernelIdeal := trivial

open Cert.KernelIdeal.Hand in
/-- At the extended reals both programs end with the four results at the same functions of the nineteen arguments:
    the log-probabilities, the two stacks of new hidden and cell states, and the attention weights, each the
    network's stages composed (`Cert.Stages`). The kernel's side reads its final valuation at the four result
    buffers; the reference's side reads its own final valuation, the fold of its 167 host operations stretch by stretch; the agreement of the two launch memories on the
    arguments carries one to the other. -/
theorem algebraic : Cert.algebraic_KernelIdeal_ReferenceIdeal := by
  intro m ρ m' ρ' _ hagree
  refine ⟨fun c => Cert.Stages.logp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.Stages.hN (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.Stages.cN (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.Stages.attW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨
      (h c _ (mem_uc Cert.KernelIdeal.main_v104 (by decide))).trans (k_res0 m ρ c),
      (h c _ (mem_uc Cert.KernelIdeal.main_v107 (by decide))).trans (k_v107 m ρ c),
      (h c _ (mem_uc Cert.KernelIdeal.main_v110 (by decide))).trans (k_v110 m ρ c),
      (h c _ (mem_uc Cert.KernelIdeal.main_v26 (by decide))).trans (k_res3 m ρ c),
      (h c _ (mem_uc Cert.KernelIdeal.main_arg0 (by decide))).trans (W18_args m ρ c Cert.KernelIdeal.main_arg0 (by decide)),
      (h c _ (mem_uc Cert.KernelIdeal.main_arg1 (by decide))).trans (W18_args m ρ c Cert.KernelIdeal.main_arg1 (by decide)),
      (h c _ (mem_uc Cert.KernelIdeal.main_arg2 (by decide))).trans (W18_args m ρ c Cert.KernelIdeal.main_arg2 (by decide)),
      (h c _ (mem_uc Cert.KernelIdeal.main_arg3 (by decide))).trans (W18_args m ρ c Cert.KernelIdeal.main_arg3 (by decide)),
      (h c _ (mem_uc Cert.KernelIdeal.main_arg4 (by decide))).trans (W18_args m ρ c Cert.KernelIdeal.main_arg4 (by decide)),
      (h c _ (mem_uc Cert.KernelIdeal.main_arg5 (by decide))).trans (W18_args m ρ c Cert.KernelIdeal.main_arg5 (by decide)),
      (h c _ (mem_uc Cert.KernelIdeal.main_arg6 (by decide))).trans (W18_args m ρ c Cert.KernelIdeal.main_arg6 (by decide)),
      (h c _ (mem_uc Cert.KernelIdeal.main_arg7 (by decide))).trans (W18_args m ρ c Cert.KernelIdeal.main_arg7 (by decide)),
      (h c _ (mem_uc Cert.KernelIdeal.main_arg8 (by decide))).trans (W18_args m ρ c Cert.KernelIdeal.main_arg8 (by decide)),
      (h c _ (mem_uc Cert.KernelIdeal.main_arg9 (by decide))).trans (W18_args m ρ c Cert.KernelIdeal.main_arg9 (by decide)),
      (h c _ (mem_uc Cert.KernelIdeal.main_arg10 (by decide))).trans (W18_args m ρ c Cert.KernelIdeal.main_arg10 (by decide)),
      (h c _ (mem_uc Cert.KernelIdeal.main_arg11 (by decide))).trans (W18_args m ρ c Cert.KernelIdeal.main_arg11 (by decide)),
      (h c _ (mem_uc Cert.KernelIdeal.main_arg12 (by decide))).trans (W18_args m ρ c Cert.KernelIdeal.main_arg12 (by decide)),
      (h c _ (mem_uc Cert.KernelIdeal.main_arg13 (by decide))).trans (W18_args m ρ c Cert.KernelIdeal.main_arg13 (by decide)),
      (h c _ (mem_uc Cert.KernelIdeal.main_arg14 (by decide))).trans (W18_args m ρ c Cert.KernelIdeal.main_arg14 (by decide)),
      (h c _ (mem_uc Cert.KernelIdeal.main_arg15 (by decide))).trans (W18_args m ρ c Cert.KernelIdeal.main_arg15 (by decide)),
      (h c _ (mem_uc Cert.KernelIdeal.main_arg16 (by decide))).trans (W18_args m ρ c Cert.KernelIdeal.main_arg16 (by decide)),
      (h c _ (mem_uc Cert.KernelIdeal.main_arg17 (by decide))).trans (W18_args m ρ c Cert.KernelIdeal.main_arg17 (by decide)),
      (h c _ (mem_uc Cert.KernelIdeal.main_arg18 (by decide))).trans (W18_args m ρ c Cert.KernelIdeal.main_arg18 (by decide))⟩)
      (run_main (F := Ideal) m ρ)
  · refine (θ_run Cert.ReferenceIdeal.defs _ _).mono (fun r h c => ?_) (Cert.ReferenceIdeal.RV.run_after (F := Ideal) m' ρ')
    obtain ⟨e0, e1, e2, e3, e4, e5, e6, e7, e8, e9, e10, e11, e12, e13, e14, e15, e16, e17, e18⟩ := hagree c
    refine ⟨(h c Cert.ReferenceIdeal.main_v122).trans ?_, (h c Cert.ReferenceIdeal.main_v125).trans ?_, (h c Cert.ReferenceIdeal.main_v128).trans ?_, (h c Cert.ReferenceIdeal.main_v27).trans ?_,
      (h c Cert.ReferenceIdeal.main_arg0).trans (Cert.ReferenceIdeal.RV.R12_args m' c Cert.ReferenceIdeal.main_arg0 (by decide)),
      (h c Cert.ReferenceIdeal.main_arg1).trans (Cert.ReferenceIdeal.RV.R12_args m' c Cert.ReferenceIdeal.main_arg1 (by decide)),
      (h c Cert.ReferenceIdeal.main_arg2).trans (Cert.ReferenceIdeal.RV.R12_args m' c Cert.ReferenceIdeal.main_arg2 (by decide)),
      (h c Cert.ReferenceIdeal.main_arg3).trans (Cert.ReferenceIdeal.RV.R12_args m' c Cert.ReferenceIdeal.main_arg3 (by decide)),
      (h c Cert.ReferenceIdeal.main_arg4).trans (Cert.ReferenceIdeal.RV.R12_args m' c Cert.ReferenceIdeal.main_arg4 (by decide)),
      (h c Cert.ReferenceIdeal.main_arg5).trans (Cert.ReferenceIdeal.RV.R12_args m' c Cert.ReferenceIdeal.main_arg5 (by decide)),
      (h c Cert.ReferenceIdeal.main_arg6).trans (Cert.ReferenceIdeal.RV.R12_args m' c Cert.ReferenceIdeal.main_arg6 (by decide)),
      (h c Cert.ReferenceIdeal.main_arg7).trans (Cert.ReferenceIdeal.RV.R12_args m' c Cert.ReferenceIdeal.main_arg7 (by decide)),
      (h c Cert.ReferenceIdeal.main_arg8).trans (Cert.ReferenceIdeal.RV.R12_args m' c Cert.ReferenceIdeal.main_arg8 (by decide)),
      (h c Cert.ReferenceIdeal.main_arg9).trans (Cert.ReferenceIdeal.RV.R12_args m' c Cert.ReferenceIdeal.main_arg9 (by decide)),
      (h c Cert.ReferenceIdeal.main_arg10).trans (Cert.ReferenceIdeal.RV.R12_args m' c Cert.ReferenceIdeal.main_arg10 (by decide)),
      (h c Cert.ReferenceIdeal.main_arg11).trans (Cert.ReferenceIdeal.RV.R12_args m' c Cert.ReferenceIdeal.main_arg11 (by decide)),
      (h c Cert.ReferenceIdeal.main_arg12).trans (Cert.ReferenceIdeal.RV.R12_args m' c Cert.ReferenceIdeal.main_arg12 (by decide)),
      (h c Cert.ReferenceIdeal.main_arg13).trans (Cert.ReferenceIdeal.RV.R12_args m' c Cert.ReferenceIdeal.main_arg13 (by decide)),
      (h c Cert.ReferenceIdeal.main_arg14).trans (Cert.ReferenceIdeal.RV.R12_args m' c Cert.ReferenceIdeal.main_arg14 (by decide)),
      (h c Cert.ReferenceIdeal.main_arg15).trans (Cert.ReferenceIdeal.RV.R12_args m' c Cert.ReferenceIdeal.main_arg15 (by decide)),
      (h c Cert.ReferenceIdeal.main_arg16).trans (Cert.ReferenceIdeal.RV.R12_args m' c Cert.ReferenceIdeal.main_arg16 (by decide)),
      (h c Cert.ReferenceIdeal.main_arg17).trans (Cert.ReferenceIdeal.RV.R12_args m' c Cert.ReferenceIdeal.main_arg17 (by decide)),
      (h c Cert.ReferenceIdeal.main_arg18).trans (Cert.ReferenceIdeal.RV.R12_args m' c Cert.ReferenceIdeal.main_arg18 (by decide))⟩
    · rw [Cert.ReferenceIdeal.RV.res0, e0, e1, e2, e3, e4, e5, e6, e7, e8, e9, e10, e11, e12, e13, e14, e15, e16, e17, e18]
    · rw [Cert.ReferenceIdeal.RV.res1, e0, e1, e2, e3, e4, e5, e6, e7, e8, e9, e10, e11, e12, e13, e14, e15, e16]
    · rw [Cert.ReferenceIdeal.RV.res2, e0, e1, e2, e3, e4, e5, e6, e7, e8, e9, e10, e11, e12, e13, e14, e15, e16]
    · rw [Cert.ReferenceIdeal.RV.res3, e0, e1, e4, e5, e6]

end Cert.Proof.Alg

end
-- ==== Proof.lean ====
/- The proof of `Cert.Claim`: frame_Kernel ∧ frame_KernelIdeal ∧ frame_ReferenceIdeal ∧ preserves_Kernel_KernelIdeal ∧
   algebraic_KernelIdeal_ReferenceIdeal.

   The programs compute one token's step of an attention decoder from nineteen arrays: the token's embedding row;
   attention scores `x·wᵀ + b` over 2048 columns and their softmax (the attention weights, a result); the weights times
   the encoder outputs; a combining layer `x·wᵀ + b` and relu; one step of a forward and of a backward LSTM cell, each
   gate row `x·wihᵀ + h·whhᵀ` plus the two bias vectors (the new hidden and cell states, two results); the output
   projection `x·wᵀ + b` over 50257 columns and its log-softmax (the log-probabilities, a result). The kernel program
   computes the matrix products in seven pipelined regions, each output row tiled into column blocks (the output
   projection as 49 blocks of 1024 columns and one of 81, joined), and the steps between them by host operations, as
   the reference does throughout.

   At the extended reals a block of a product is, column by column, the sum over the contracted coordinate of the row's
   entry times the matrix's entry: no tiling of the columns and no order of the blocks is left in it, so each region's
   output array is the whole product (`Cert.Spec`). The reference's `dot_general` read at a column is the same sum. The
   two programs add an LSTM gate's two products and two bias rows in different orders; addition on the extended reals
   is commutative and associative, so the gate rows agree. The steps between the products — softmax, relu, the cell,
   log-softmax (pointwise, or reducing along the row), the joins and the stacks — are the same operations in the same
   order in the two programs; the reference also reshapes the embedding row to a vector and back, the identity. So both
   runs end with the four results at the same functions of the arguments (`Cert.Stages`). No finiteness of the inputs
   is used: the precondition is not consulted.

   The frame claims: no operation and no region of any of the three programs writes an argument array. No operation
   of the kernel is rewritten at the exact instance, so the preservation claim is `True`. -/
import proofs.«156083_j22471268893342_1_alg».proof.Defs
import proofs.«156083_j22471268893342_1_alg».proof.Proof.Gen.Kernel
import proofs.«156083_j22471268893342_1_alg».proof.Proof.Gen.Kernel.Skeleton
import proofs.«156083_j22471268893342_1_alg».proof.Proof.Gen.Kernel.Launch
import proofs.«156083_j22471268893342_1_alg».proof.Proof.Gen.Kernel.Regions
import proofs.«156083_j22471268893342_1_alg».proof.Proof.Gen.Kernel.Points
import proofs.«156083_j22471268893342_1_alg».proof.Proof.Gen.KernelIdeal
import proofs.«156083_j22471268893342_1_alg».proof.Proof.Gen.KernelIdeal.Skeleton
import proofs.«156083_j22471268893342_1_alg».proof.Proof.Gen.KernelIdeal.Launch
import proofs.«156083_j22471268893342_1_alg».proof.Proof.Gen.KernelIdeal.Regions
import proofs.«156083_j22471268893342_1_alg».proof.Proof.Gen.KernelIdeal.Points
import proofs.«156083_j22471268893342_1_alg».proof.Proof.Gen.ReferenceIdeal
import proofs.«156083_j22471268893342_1_alg».proof.Proof.Gen.Pre_finite_inputs
import proofs.«156083_j22471268893342_1_alg».proof.Proof.Algebraic

noncomputable section

namespace Cert.Proof

/-- The certificate: the programs' stated facts, proved by the generated modules, and under them the five claims. -/
theorem claim : Cert.Claim := ⟨Cert.Kernel.Gen.facts, Cert.KernelIdeal.Gen.facts, Cert.ReferenceIdeal.Gen.facts, Cert.Pre_finite_inputs.Gen.facts,
  Cert.Proof.Alg.frame_p, Cert.Proof.Alg.frame_pi, Cert.Proof.Alg.frame_ri, Cert.Proof.Alg.preserves, Cert.Proof.Alg.algebraic⟩

end Cert.Proof

end
